-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1024x200 : Shape := ⟨2, ![1024, 200]⟩
abbrev S100000x128 : Shape := ⟨2, ![100000, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128 : S_.BroadcastsInDim S128 (![] : Fin 0 → Fin S128.rank)
  reducesTo_S128_S_d0 : S128.ReducesTo [0] S_
  bcast_S_S1024x200 : S_.BroadcastsInDim S1024x200 (![] : Fin 0 → Fin S1024x200.rank)
  reducesTo_S1024x200_S_d0_1 : S1024x200.ReducesTo [0, 1] S_

variable [Facts]

def fn_part1 {F : FTy → Type} [FloatOps F] (main_arg0 : IVec S1024x200 32) (main_v13 : IVec S_ 1) (main_v15 : IVec S1024x200 1) (main_c_5 : IVec S_ 32) : IVec S_ 1 :=
  let main_v16 : IVec S1024x200 32 := broadcastInDim S1024x200 ![] bcast_S_S1024x200 main_c_5
  let main_v17 : IVec S1024x200 1 := cmpi .sle main_arg0 main_v16
  let main_v18 : IVec S1024x200 1 := andi main_v15 main_v17
  let main_c_6 : IVec S_ 1 := constantI S_ 1 1#1
  let main_v19 : IVec S_ 1 := (fun x v => Host.reduce IntOp.andi x v reducesTo_S1024x200_S_d0_1 h_S_) main_v18 main_c_6
  let main_v20 : IVec S_ 1 := andi main_v13 main_v19
  main_v20

def fn {F : FTy → Type} [FloatOps F] (main_arg0 : IVec S1024x200 32) (main_arg1 : FVec F S100000x128 .f32) (main_arg2 : FVec F S128 .f32) (main_arg3 : FVec F S128 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128 .f32 := Host.absf main_arg2
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_c_4 : IVec S_ 32 := constantI S_ 32 0#32
  let main_v14 : IVec S1024x200 32 := broadcastInDim S1024x200 ![] bcast_S_S1024x200 main_c_4
  let main_v15 : IVec S1024x200 1 := cmpi .sge main_arg0 main_v14
  let main_c_5 : IVec S_ 32 := constantI S_ 32 99999#32
  fn_part1 (F := F) main_arg0 main_v13 main_v15 main_c_5
-- ==== Kernel.lean ====
abbrev S1024x200 : Shape := ⟨2, ![1024, 200]⟩
abbrev S100000x128 : Shape := ⟨2, ![100000, 128]⟩
abbrev S128 : Shape := ⟨1, ![128]⟩
abbrev S32x6400 : Shape := ⟨2, ![32, 6400]⟩
abbrev S1x128 : Shape := ⟨2, ![1, 128]⟩
abbrev S10000x128 : Shape := ⟨2, ![10000, 128]⟩
abbrev S10000 : Shape := ⟨1, ![10000]⟩
abbrev S10000x1 : Shape := ⟨2, ![10000, 1]⟩
abbrev S204800x128 : Shape := ⟨2, ![204800, 128]⟩
abbrev S6400 : Shape := ⟨1, ![6400]⟩
abbrev S128x128 : Shape := ⟨2, ![128, 128]⟩
abbrev S_ : Shape := ⟨0, ![]⟩
abbrev S1x6400 : Shape := ⟨2, ![1, 6400]⟩
abbrev S1024x200x128 : Shape := ⟨3, ![1024, 200, 128]⟩

abbrev nBuf : Table → Nat
  | .hbm => 10
  | .local .tc .vmem => 6
  | .local .scVector .vmem => 6
  | _ => 0

abbrev bufTy : (tb : Table) → Fin (nBuf tb) → BufTy
  | .hbm, ⟨0, _⟩ => ⟨S1024x200, .i32⟩
  | .hbm, ⟨1, _⟩ => ⟨S100000x128, .f32⟩
  | .hbm, ⟨2, _⟩ => ⟨S128, .f32⟩
  | .hbm, ⟨3, _⟩ => ⟨S128, .f32⟩
  | .hbm, ⟨4, _⟩ => ⟨S32x6400, .i32⟩
  | .hbm, ⟨5, _⟩ => ⟨S1x128, .f32⟩
  | .hbm, ⟨6, _⟩ => ⟨S1x128, .f32⟩
  | .hbm, ⟨7, _⟩ => ⟨S100000x128, .f32⟩
  | .hbm, ⟨8, _⟩ => ⟨S204800x128, .f32⟩
  | .hbm, ⟨9, _⟩ => ⟨S1024x200x128, .f32⟩
  | .local .tc .vmem, ⟨0, _⟩ => ⟨S10000x128, .f32⟩
  | .local .tc .vmem, ⟨1, _⟩ => ⟨S10000x128, .f32⟩
  | .local .tc .vmem, ⟨2, _⟩ => ⟨S1x128, .f32⟩
  | .local .tc .vmem, ⟨3, _⟩ => ⟨S1x128, .f32⟩
  | .local .tc .vmem, ⟨4, _⟩ => ⟨S10000x128, .f32⟩
  | .local .tc .vmem, ⟨5, _⟩ => ⟨S10000x128, .f32⟩
  | .local .scVector .vmem, ⟨0, _⟩ => ⟨S6400, .i32⟩
  | .local .scVector .vmem, ⟨1, _⟩ => ⟨S128x128, .f32⟩
  | .local .scVector .vmem, ⟨2, _⟩ => ⟨S128x128, .f32⟩
  | .local .scVector .vmem, ⟨3, _⟩ => ⟨S128x128, .f32⟩
  | .local .scVector .vmem, ⟨4, _⟩ => ⟨S128x128, .f32⟩
  | .local .scVector .vmem, ⟨5, _⟩ => ⟨S128x128, .f32⟩
  | _, _ => ⟨S1024x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v0_scv : Ref sig .scVector := ⟨.hbm, 4, rfl⟩
abbrev main_v3_scv : Ref sig .scVector := ⟨.hbm, 7, rfl⟩
abbrev main_v4_scv : Ref sig .scVector := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 16], ![false, false]⟩

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_52_r0 : BitVec 32 := 0#32
  ![v1.toNat, 0]
def k1_off2 (i : grid1.Coords) (c0_i32_9 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let v11 : BitVec 32 := Scalar.addi v2 c0_i32_9
  let c0_i32_10 : BitVec 32 := 0#32
  ![v11.toNat, 0]
def k1_off2_at (r : Fin 7) : BitVec 32 :=
  if r.val < 3 then
    if r.val < 1 then
      0#32
    else
      if r.val < 2 then
        128#32
      else
        6016#32
  else
    if r.val < 5 then
      if r.val < 4 then
        6144#32
      else
        6272#32
    else
      if r.val < 6 then
        5760#32
      else
        5888#32
@[reducible] def k1_t1_loop : Scf.Loop 32 :=
  let c0_i32_22 : BitVec 32 := 0#32
  let c9_i32 : BitVec 32 := 9#32
  let v23 : BitVec 32 := Scalar.addi c0_i32_22 c9_i32
  let c1_i32 : BitVec 32 := 1#32
  ⟨c0_i32_22, v23, c1_i32⟩
def k1_off3 (k1_t1 : Fin k1_t1_loop.trips) (c0_i32_53 : BitVec 32) : Fin 1 → Nat :=
  let c2_i32_52 : BitVec 32 := 2#32
  let c0_i32_22 : BitVec 32 := 0#32
  let c1_i32 : BitVec 32 := 1#32
  let arg21 : BitVec 32 := Scf.iv c0_i32_22 c1_i32 k1_t1
  let c5_i32 : BitVec 32 := 5#32
  let v54 : BitVec 32 := Scalar.muli arg21 c5_i32
  let v55 : BitVec 32 := Scalar.addi c2_i32_52 v54
  let v56 : BitVec 32 := Scalar.addi v55 c0_i32_53
  let c128_i32_54 : BitVec 32 := 128#32
  let v57 : BitVec 32 := Scalar.muli v56 c128_i32_54
  ![v57.toNat]
def k1_off4 (i : grid1.Coords) (k1_t1 : Fin k1_t1_loop.trips) (c0_i32_53 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c2_i32_52 : BitVec 32 := 2#32
  let c0_i32_22 : BitVec 32 := 0#32
  let c1_i32 : BitVec 32 := 1#32
  let arg21 : BitVec 32 := Scf.iv c0_i32_22 c1_i32 k1_t1
  let c5_i32 : BitVec 32 := 5#32
  let v54 : BitVec 32 := Scalar.muli arg21 c5_i32
  let v55 : BitVec 32 := Scalar.addi c2_i32_52 v54
  let v56 : BitVec 32 := Scalar.addi v55 c0_i32_53
  let c128_i32_57 : BitVec 32 := 128#32
  let v60 : BitVec 32 := Scalar.muli v56 c128_i32_57
  let v61 : BitVec 32 := Scalar.addi v2 v60
  let c0_i32_58 : BitVec 32 := 0#32
  ![v61.toNat, 0]
def k1_off5 (i : grid1.Coords) (k1_t1 : Fin k1_t1_loop.trips) (c0_i32_53 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c2_i32_52 : BitVec 32 := 2#32
  let c0_i32_22 : BitVec 32 := 0#32
  let c1_i32 : BitVec 32 := 1#32
  let arg21 : BitVec 32 := Scf.iv c0_i32_22 c1_i32 k1_t1
  let c5_i32 : BitVec 32 := 5#32
  let v54 : BitVec 32 := Scalar.muli arg21 c5_i32
  let v55 : BitVec 32 := Scalar.addi c2_i32_52 v54
  let v56 : BitVec 32 := Scalar.addi v55 c0_i32_53
  let c3_i32 : BitVec 32 := 3#32
  let v64 : BitVec 32 := Scalar.addi v56 c3_i32
  let c5_i32_60 : BitVec 32 := 5#32
  let v65 : BitVec 32 := Scalar.subi v64 c5_i32_60
  let c128_i32_61 : BitVec 32 := 128#32
  let v66 : BitVec 32 := Scalar.muli v65 c128_i32_61
  let v67 : BitVec 32 := Scalar.addi v2 v66
  let c0_i32_62 : BitVec 32 := 0#32
  ![v67.toNat, 0]
def k1_off6 (k1_t1 : Fin k1_t1_loop.trips) (c0_i32_53 : BitVec 32) : Fin 1 → Nat :=
  let c2_i32_52 : BitVec 32 := 2#32
  let c0_i32_22 : BitVec 32 := 0#32
  let c1_i32 : BitVec 32 := 1#32
  let arg21 : BitVec 32 := Scf.iv c0_i32_22 c1_i32 k1_t1
  let c5_i32 : BitVec 32 := 5#32
  let v54 : BitVec 32 := Scalar.muli arg21 c5_i32
  let v55 : BitVec 32 := Scalar.addi c2_i32_52 v54
  let v56 : BitVec 32 := Scalar.addi v55 c0_i32_53
  let c3_i32_64 : BitVec 32 := 3#32
  let v70 : BitVec 32 := Scalar.addi v56 c3_i32_64
  let c128_i32_65 : BitVec 32 := 128#32
  let v71 : BitVec 32 := Scalar.muli v70 c128_i32_65
  ![v71.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S1024x200_S32x6400 : S1024x200.ShapeCasts S32x6400
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  reduces_S10000x128_S10000 : S10000x128.Reduces [1] S10000
  shapeCasts_S10000_S10000x1 : S10000.ShapeCasts S10000x1
  broadcasts_S10000x1_S10000x128 : S10000x1.Broadcasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  squeezes_S1x6400_S6400 : S1x6400.Squeezes S6400
  inb_S6400_S128_0 : ∀ a, (![0] : Fin 1 → Nat) a + S128.size a ≤ S6400.size a
  inb_S100000x128_S100000x128_0_0 : ∀ a, (![0, 0] : Fin 2 → Nat) a + S100000x128.size a ≤ S100000x128.size a
  gathers_S100000x128_S128x128 : S100000x128.Gathers 0 S128x128
  inb_S6400_S128_128 : ∀ a, (![128] : Fin 1 → Nat) a + S128.size a ≤ S6400.size a
  inb_S6400_S128_256 : ∀ a, (![256] : Fin 1 → Nat) a + S128.size a ≤ S6400.size a
  inb_S6400_S128_384 : ∀ a, (![384] : Fin 1 → Nat) a + S128.size a ≤ S6400.size a
  inb_S6400_S128_512 : ∀ a, (![512] : Fin 1 → Nat) a + S128.size a ≤ S6400.size a
  inb_S6400_S128_6016 : ∀ a, (![6016] : Fin 1 → Nat) a + S128.size a ≤ S6400.size a
  inb_S6400_S128_6144 : ∀ a, (![6144] : Fin 1 → Nat) a + S128.size a ≤ S6400.size a
  inb_S6400_S128_6272 : ∀ a, (![6272] : Fin 1 → Nat) a + S128.size a ≤ S6400.size a
  shapeCasts_S204800x128_S1024x200x128 : S204800x128.ShapeCasts S1024x200x128
  hcc1_scratch6 : 6 + S_.numel ≤ 17
  hcc1_scratch7 : 7 + S_.numel ≤ 17
  hcc1_scratch8 : 8 + S_.numel ≤ 17
  hcc1_scratch9 : 9 + S_.numel ≤ 17
  hcc1_scratch10 : 10 + S_.numel ≤ 17
  hcc1_scratch11 : 11 + S_.numel ≤ 17
  hcc1_scratch12 : 12 + S_.numel ≤ 17
  hcc1_scratch13 : 13 + S_.numel ≤ 17
  hcc1_scratch14 : 14 + S_.numel ≤ 17
  hcc1_scratch15 : 15 + S_.numel ≤ 17
  hcc1_scoped0 : 16 + S_.numel ≤ 17
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hcore1 : grid1.bound 0 ≤ τ.nSC
  hsub1 : grid1.bound 1 ≤ τ.nSub
  k1_off1_inb : ∀ i : grid1.Coords, ∀ a, (k1_off1 i) a + S1x6400.size a ≤ S32x6400.size a
  k1_off2_inb : ∀ i : grid1.Coords, ∀ (r : Fin 7), ∀ a, (k1_off2 i (k1_off2_at r)) a + S128x128.size a ≤ S204800x128.size a
  k1_t1_ok : k1_t1_loop.OK
  k1_off3_inb : ∀ k1_t1 : Fin k1_t1_loop.trips, ∀ (r : Fin 5), ∀ a, (k1_off3 k1_t1 (BitVec.ofNat 32 r.val)) a + S128.size a ≤ S6400.size a
  k1_off4_inb : ∀ (i : grid1.Coords) (k1_t1 : Fin k1_t1_loop.trips), ∀ (r : Fin 5), ∀ a, (k1_off4 i k1_t1 (BitVec.ofNat 32 r.val)) a + S128x128.size a ≤ S204800x128.size a
  k1_off5_inb : ∀ (i : grid1.Coords) (k1_t1 : Fin k1_t1_loop.trips), ∀ (r : Fin 5), ∀ a, (k1_off5 i k1_t1 (BitVec.ofNat 32 r.val)) a + S128x128.size a ≤ S204800x128.size a
  k1_off6_inb : ∀ k1_t1 : Fin k1_t1_loop.trips, ∀ (r : Fin 5), ∀ a, (k1_off6 k1_t1 (BitVec.ofNat 32 r.val)) a + S128.size a ≤ S6400.size a

variable [Facts₀]

abbrev cc1_scratch6 : DmaSems sig S_ := SemArray.consecutive 6 S_ hcc1_scratch6
abbrev cc1_scratch7 : DmaSems sig S_ := SemArray.consecutive 7 S_ hcc1_scratch7
abbrev cc1_scratch8 : DmaSems sig S_ := SemArray.consecutive 8 S_ hcc1_scratch8
abbrev cc1_scratch9 : DmaSems sig S_ := SemArray.consecutive 9 S_ hcc1_scratch9
abbrev cc1_scratch10 : DmaSems sig S_ := SemArray.consecutive 10 S_ hcc1_scratch10
abbrev cc1_scratch11 : DmaSems sig S_ := SemArray.consecutive 11 S_ hcc1_scratch11
abbrev cc1_scratch12 : DmaSems sig S_ := SemArray.consecutive 12 S_ hcc1_scratch12
abbrev cc1_scratch13 : DmaSems sig S_ := SemArray.consecutive 13 S_ hcc1_scratch13
abbrev cc1_scratch14 : DmaSems sig S_ := SemArray.consecutive 14 S_ hcc1_scratch14
abbrev cc1_scratch15 : DmaSems sig S_ := SemArray.consecutive 15 S_ hcc1_scratch15
abbrev cc1_scoped0 : DmaSems sig S_ := SemArray.consecutive 16 S_ hcc1_scoped0

abbrev win0_0 : Pipeline.Window sig grid0 :=
  Pipeline.Window.ofSpec (Memref.whole main_arg1) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x200 : Shape := ⟨2, ![1024, 200]⟩
abbrev S100000x128 : Shape := ⟨2, ![100000, 128]⟩
abbrev S128 : Shape := ⟨1, ![128]⟩
abbrev S_ : Shape := ⟨0, ![]⟩
abbrev S1024x200x1 : Shape := ⟨3, ![1024, 200, 1]⟩
abbrev S1 : Shape := ⟨1, ![1]⟩
abbrev S1x1x1 : Shape := ⟨3, ![1, 1, 1]⟩
abbrev S1024x200x128 : Shape := ⟨3, ![1024, 200, 128]⟩
abbrev S1x1x128 : Shape := ⟨3, ![1, 1, 128]⟩

abbrev nBuf : Space → Nat
  | .hbm => 56
  | .vmem => 0
  | .smem => 0
  | _ => 0

abbrev bufTy : (tb : Table) → Fin (tcTables nBuf tb) → BufTy
  | .hbm, ⟨0, _⟩ => ⟨S1024x200, .i32⟩
  | .hbm, ⟨1, _⟩ => ⟨S100000x128, .f32⟩
  | .hbm, ⟨2, _⟩ => ⟨S128, .f32⟩
  | .hbm, ⟨3, _⟩ => ⟨S128, .f32⟩
  | .hbm, ⟨4, _⟩ => ⟨S_, .i32⟩
  | .hbm, ⟨5, _⟩ => ⟨S1024x200, .i32⟩
  | .hbm, ⟨6, _⟩ => ⟨S1024x200, .i1⟩
  | .hbm, ⟨7, _⟩ => ⟨S_, .i32⟩
  | .hbm, ⟨8, _⟩ => ⟨S1024x200, .i32⟩
  | .hbm, ⟨9, _⟩ => ⟨S1024x200, .i32⟩
  | .hbm, ⟨10, _⟩ => ⟨S1024x200, .i32⟩
  | .hbm, ⟨11, _⟩ => ⟨S1024x200x1, .i32⟩
  | .hbm, ⟨12, _⟩ => ⟨S1, .i32⟩
  | .hbm, ⟨13, _⟩ => ⟨S_, .i32⟩
  | .hbm, ⟨14, _⟩ => ⟨S1024x200x1, .i32⟩
  | .hbm, ⟨15, _⟩ => ⟨S1024x200x1, .i1⟩
  | .hbm, ⟨16, _⟩ => ⟨S1x1x1, .i32⟩
  | .hbm, ⟨17, _⟩ => ⟨S1024x200x1, .i32⟩
  | .hbm, ⟨18, _⟩ => ⟨S1024x200x1, .i1⟩
  | .hbm, ⟨19, _⟩ => ⟨S1024x200x1, .i1⟩
  | .hbm, ⟨20, _⟩ => ⟨S_, .i1⟩
  | .hbm, ⟨21, _⟩ => ⟨S1024x200, .i1⟩
  | .hbm, ⟨22, _⟩ => ⟨S1024x200x128, .f32⟩
  | .hbm, ⟨23, _⟩ => ⟨S1024x200x128, .i1⟩
  | .hbm, ⟨24, _⟩ => ⟨S_, .f32⟩
  | .hbm, ⟨25, _⟩ => ⟨S1024x200x128, .f32⟩
  | .hbm, ⟨26, _⟩ => ⟨S1024x200x128, .f32⟩
  | .hbm, ⟨27, _⟩ => ⟨S_, .f32⟩
  | .hbm, ⟨28, _⟩ => ⟨S1024x200, .f32⟩
  | .hbm, ⟨29, _⟩ => ⟨S1024x200x1, .f32⟩
  | .hbm, ⟨30, _⟩ => ⟨S_, .f32⟩
  | .hbm, ⟨31, _⟩ => ⟨S1024x200x1, .f32⟩
  | .hbm, ⟨32, _⟩ => ⟨S1024x200x1, .f32⟩
  | .hbm, ⟨33, _⟩ => ⟨S1024x200x128, .f32⟩
  | .hbm, ⟨34, _⟩ => ⟨S1024x200x128, .f32⟩
  | .hbm, ⟨35, _⟩ => ⟨S1024x200x128, .f32⟩
  | .hbm, ⟨36, _⟩ => ⟨S_, .f32⟩
  | .hbm, ⟨37, _⟩ => ⟨S1024x200, .f32⟩
  | .hbm, ⟨38, _⟩ => ⟨S1024x200x1, .f32⟩
  | .hbm, ⟨39, _⟩ => ⟨S_, .f32⟩
  | .hbm, ⟨40, _⟩ => ⟨S1024x200x1, .f32⟩
  | .hbm, ⟨41, _⟩ => ⟨S1024x200x1, .f32⟩
  | .hbm, ⟨42, _⟩ => ⟨S1024x200x128, .f32⟩
  | .hbm, ⟨43, _⟩ => ⟨S1024x200x128, .f32⟩
  | .hbm, ⟨44, _⟩ => ⟨S_, .f32⟩
  | .hbm, ⟨45, _⟩ => ⟨S1024x200x1, .f32⟩
  | .hbm, ⟨46, _⟩ => ⟨S1024x200x1, .f32⟩
  | .hbm, ⟨47, _⟩ => ⟨S1024x200x1, .f32⟩
  | .hbm, ⟨48, _⟩ => ⟨S1024x200x128, .f32⟩
  | .hbm, ⟨49, _⟩ => ⟨S1024x200x128, .f32⟩
  | .hbm, ⟨50, _⟩ => ⟨S1x1x128, .f32⟩
  | .hbm, ⟨51, _⟩ => ⟨S1024x200x128, .f32⟩
  | .hbm, ⟨52, _⟩ => ⟨S1024x200x128, .f32⟩
  | .hbm, ⟨53, _⟩ => ⟨S1x1x128, .f32⟩
  | .hbm, ⟨54, _⟩ => ⟨S1024x200x128, .f32⟩
  | .hbm, ⟨55, _⟩ => ⟨S1024x200x128, .f32⟩
  | _, _ => ⟨S1024x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_cst : Ref sig .tc := ⟨.hbm, 27, rfl⟩
abbrev main_v1 : Ref sig .tc := ⟨.hbm, 28, rfl⟩
abbrev main_v2 : Ref sig .tc := ⟨.hbm, 29, rfl⟩
abbrev main_cst_0 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_cst_1 : Ref sig .tc := ⟨.hbm, 36, rfl⟩
abbrev main_v8 : Ref sig .tc := ⟨.hbm, 37, rfl⟩
abbrev main_v9 : Ref sig .tc := ⟨.hbm, 38, rfl⟩
abbrev main_cst_2 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_cst_3 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩

abbrev nD : Nat := 1
abbrev τ : Topo := Topo.v7x

variable {F : FTy → Type} [FloatOps F]

class Facts₀ : Prop where
  bcast_S_S1024x200 : S_.BroadcastsInDim S1024x200 (![] : Fin 0 → Fin S1024x200.rank)
  bcast_S1024x200_S1024x200x1_0_1 : S1024x200.BroadcastsInDim S1024x200x1 (![0, 1] : Fin 2 → Fin S1024x200x1.rank)
  bcast_S_S1024x200x1 : S_.BroadcastsInDim S1024x200x1 (![] : Fin 0 → Fin S1024x200x1.rank)
  bcast_S1_S1x1x1_2 : S1.BroadcastsInDim S1x1x1 (![2] : Fin 1 → Fin S1x1x1.rank)
  bcast_S1x1x1_S1024x200x1_0_1_2 : S1x1x1.BroadcastsInDim S1024x200x1 (![0, 1, 2] : Fin 3 → Fin S1024x200x1.rank)
  reducesTo_S1024x200x1_S1024x200_d2 : S1024x200x1.ReducesTo [2] S1024x200
  h_S_ : 0 < S_.numel
  bcast_S1024x200_S1024x200x128_0_1 : S1024x200.BroadcastsInDim S1024x200x128 (![0, 1] : Fin 2 → Fin S1024x200x128.rank)
  bcast_S_S1024x200x128 : S_.BroadcastsInDim S1024x200x128 (![] : Fin 0 → Fin S1024x200x128.rank)
  reducesTo_S1024x200x128_S1024x200_d2 : S1024x200x128.ReducesTo [2] S1024x200
  bcast_S1024x200x1_S1024x200x128_0_1_2 : S1024x200x1.BroadcastsInDim S1024x200x128 (![0, 1, 2] : Fin 3 → Fin S1024x200x128.rank)
  bcast_S128_S1x1x128_2 : S128.BroadcastsInDim S1x1x128 (![2] : Fin 1 → Fin S1x1x128.rank)
  bcast_S1x1x128_S1024x200x128_0_1_2 : S1x1x128.BroadcastsInDim S1024x200x128 (![0, 1, 2] : Fin 3 → Fin S1024x200x128.rank)
  gather_S100000x128_S1024x200x1_S1024x200x128_2_0_n_n_0_2_1128_wf : GatherDims.WF S100000x128 S1024x200x1 S1024x200x128 [2] [0] [] [0] [] 2 ![1, 128]

variable [Facts₀]

def gather_S100000x128_S1024x200x1_S1024x200x128_2_0_n_n_0_2_1128 : GatherDims S100000x128 S1024x200x1 S1024x200x128 where
  offsetDims := [2]
  collapsedSliceDims := [0]
  operandBatchingDims := []
  startIndicesBatchingDims := []
  startIndexMap := [0]
  indexVectorDim := 2
  sliceSizes := ![1, 128]
  wf := gather_S100000x128_S1024x200x1_S1024x200x128_2_0_n_n_0_2_1128_wf

class Facts : Prop extends Facts₀ where

variable [Facts]
-- ==== Proof.PreFacts.lean ====
/-
  What the input precondition says. It is the conjunction of four statements, each "every entry of an array satisfies a
  comparison": the absolute value of every entry of the table, of the scale and of the shift is below +∞, and every index
  word lies in [0, 99999] read signed. Read back: the index words are below 100000 read unsigned (for any float instance),
  and at the ideal instance, where a float is an extended real, every float entry is a real number.
-/
import proofs.«206674_g54314156425426_cont_9to1_m_1126_27_alg».proof.Proof.Gen.Pre_input_domain
import Idealize.ShloMosaic.Lib.ReduceAll
import Idealize.ShloMosaic.Lib.ValueIdx

noncomputable section

namespace Cert.Proof.PreFacts

open Idealize.ShloMosaic Idealize.ShloMosaic.ValueIdx
open Cert.Pre_input_domain

/-- The rank-0 shape has one index. -/
instance subsingleton_S_ : Subsingleton S_.Idx := ⟨fun a b => funext fun d => d.elim0⟩

/-- A word that is at least 0 and at most 99999, read signed, is below 100000 read unsigned. -/
theorem toNat_lt_of_range (v : BitVec 32) (h0 : IntOp.cmpi .sge v 0#32 = 1#1) (h1 : IntOp.cmpi .sle v 99999#32 = 1#1) :
    v.toNat < 100000 := by
  rw [IntOp.cmpi_sge] at h0
  rw [IntOp.cmpi_sle] at h1
  simp only [BitVec.toInt_eq_toNat_cond, BitVec.toNat_ofNat, Nat.reducePow, Nat.reduceMod] at h0 h1
  have := v.isLt
  split at h0 <;> simp at h0 h1 <;> omega

/-- The precondition split into its four conjuncts, each read at an arbitrary index of its array. -/
theorem split {F : FTy → Type} [FloatOps F]
    (ids : IVec S1024x200 32) (tbl : FVec F S100000x128 .f32) (gam bet : FVec F S128 .f32)
    (h : fn (F := F) ids tbl gam bet = fun _ => 1#1) :
    (∀ i, FloatOps.cmpf .olt (FloatOps.hostAbsf (tbl i)) (FloatOps.ofBits .f32 0x7F800000#32) = 1#1)
    ∧ (∀ i, FloatOps.cmpf .olt (FloatOps.hostAbsf (gam i)) (FloatOps.ofBits .f32 0x7F800000#32) = 1#1)
    ∧ (∀ i, FloatOps.cmpf .olt (FloatOps.hostAbsf (bet i)) (FloatOps.ofBits .f32 0x7F800000#32) = 1#1)
    ∧ (∀ i, IntOp.andi (IntOp.cmpi .sge (ids i) 0#32) (IntOp.cmpi .sle (ids i) 99999#32) = 1#1) := by
  have e := congrFun h ValueIdx.ix0
  dsimp only [fn, fn_part1] at e
  have e' : IntOp.andi (IntOp.andi (IntOp.andi
      (Host.reduce IntOp.andi
            (cmpf CmpFPredicate.olt (Host.absf tbl)
              (broadcastInDim S100000x128 ![] Facts.bcast_S_S100000x128 (constant S_ FTy.f32 2139095040#32)))
            (constantI S_ 1 1#1) Facts.reducesTo_S100000x128_S_d0_1 Facts.h_S_ ix0)
      (Host.reduce IntOp.andi
            (cmpf CmpFPredicate.olt (Host.absf gam) (broadcastInDim S128 ![] Facts.bcast_S_S128 (constant S_ FTy.f32 2139095040#32)))
            (constantI S_ 1 1#1) Facts.reducesTo_S128_S_d0 Facts.h_S_ ix0))
      (Host.reduce IntOp.andi
          (cmpf CmpFPredicate.olt (Host.absf bet) (broadcastInDim S128 ![] Facts.bcast_S_S128 (constant S_ FTy.f32 2139095040#32)))
          (constantI S_ 1 1#1) Facts.reducesTo_S128_S_d0 Facts.h_S_ ix0))
      (Host.reduce IntOp.andi
        (andi (cmpi CmpIPredicate.sge ids (broadcastInDim S1024x200 ![] Facts.bcast_S_S1024x200 (constantI S_ 32 0#32)))
          (cmpi CmpIPredicate.sle ids (broadcastInDim S1024x200 ![] Facts.bcast_S_S1024x200 (constantI S_ 32 99999#32))))
        (constantI S_ 1 1#1) Facts.reducesTo_S1024x200_S_d0_1 Facts.h_S_ ix0) = 1#1 := e
  obtain ⟨e123, e4⟩ := IntOp.andi_eq_one.1 e'
  obtain ⟨e12, e3⟩ := IntOp.andi_eq_one.1 e123
  obtain ⟨e1, e2⟩ := IntOp.andi_eq_one.1 e12
  exact ⟨fun i => Host.reduce_andi_all _ _ _ _ _ e1 i, fun i => Host.reduce_andi_all _ _ _ _ _ e2 i,
    fun i => Host.reduce_andi_all _ _ _ _ _ e3 i, fun i => Host.reduce_andi_all _ _ _ _ _ e4 i⟩

/-- Under the precondition every index word, read unsigned, is below 100000: it names a row of the table. -/
theorem ids_lt {F : FTy → Type} [FloatOps F]
    (ids : IVec Cert.Pre_input_domain.S1024x200 32) (tbl : FVec F Cert.Pre_input_domain.S100000x128 .f32) (gam bet : FVec F Cert.Pre_input_domain.S128 .f32)
    (h : Cert.Pre_input_domain.fn (F := F) ids tbl gam bet = fun _ => 1#1) : ∀ i, (ids i).toNat < 100000 := by
  intro i
  obtain ⟨h0, h1⟩ := IntOp.andi_eq_one.1 ((split ids tbl gam bet h).2.2.2 i)
  exact toNat_lt_of_range _ h0 h1

/-! ## Finiteness at the ideal instance -/

/-- The pattern of +∞ denotes the top of the extended reals. -/
theorem ofBits_inf : Ideal.ofBits .f32 0x7F800000#32 = (⊤ : EReal) := by
  simp [Ideal.ofBits, Ideal.ieee]

/-- An extended real whose absolute value is below +∞ is a real. -/
theorem real_of_abs_lt (x : EReal) (h : Ideal.cmp .olt (max x (-x)) (Ideal.ofBits .f32 0x7F800000#32) = 1#1) :
    ∃ r : ℝ, x = (r : EReal) := by
  rw [ofBits_inf] at h
  induction x using EReal.rec with
  | bot => exact absurd h (by simp [Ideal.cmp])
  | top => exact absurd h (by simp [Ideal.cmp])
  | coe r => exact ⟨r, rfl⟩

/-- Under the precondition every entry of the table is a real number. -/
theorem tbl_real
    (ids : IVec S1024x200 32) (tbl : FVec Ideal S100000x128 .f32) (gam bet : FVec Ideal S128 .f32)
    (h : fn (F := Ideal) ids tbl gam bet = fun _ => 1#1) : ∀ i, ∃ r : ℝ, tbl i = (r : EReal) :=
  fun i => real_of_abs_lt _ ((split ids tbl gam bet h).1 i)

/-- Under the precondition every entry of the scale vector is a real number. -/
theorem gam_real
    (ids : IVec S1024x200 32) (tbl : FVec Ideal S100000x128 .f32) (gam bet : FVec Ideal S128 .f32)
    (h : fn (F := Ideal) ids tbl gam bet = fun _ => 1#1) : ∀ i, ∃ r : ℝ, gam i = (r : EReal) :=
  fun i => real_of_abs_lt _ ((split ids tbl gam bet h).2.1 i)

/-- Under the precondition every entry of the shift vector is a real number. -/
theorem bet_real
    (ids : IVec S1024x200 32) (tbl : FVec Ideal S100000x128 .f32) (gam bet : FVec Ideal S128 .f32)
    (h : fn (F := Ideal) ids tbl gam bet = fun _ => 1#1) : ∀ i, ∃ r : ℝ, bet i = (r : EReal) :=
  fun i => real_of_abs_lt _ ((split ids tbl gam bet h).2.2.1 i)

end Cert.Proof.PreFacts

end
-- ==== Proof.KSpec.lean ====
/-
  What the kernel's program computes, written as pure functions of the argument arrays, for any float instance.

  The program has three stages. The host regroups the 1024 x 200 indices, in row-major order, into 32 rows of 6400 (one
  row per worker) and views the scale and shift vectors as 1 x 128 rows. The first kernel normalises the WHOLE table, ten
  blocks of 10000 rows: each row has its mean subtracted, is multiplied by the reciprocal square root of its variance
  plus epsilon, then by the scale, and the shift is added (the arithmetic of one block is the body's payload, kept folded
  here). The second kernel copies, for every position p of the 204800, row ids[p] of the normalised table to row p of the
  output, which the host finally views as 1024 x 200 x 128.
-/
import proofs.«206674_g54314156425426_cont_9to1_m_1126_27_alg».proof.Proof.Gen.KernelIdeal.Skeleton
import Idealize.ShloMosaic.Lib.ValueIdx

noncomputable section

namespace Cert.KernelIdeal.KSpec

open Idealize.ShloMosaic Idealize.ShloMosaic.ValueIdx Cert.KernelIdeal
open Cert.KernelIdeal.Gen (k0_pay1)
open Cert.KernelIdeal.Facts₀

variable {F : FTy → Type} [FloatOps F]

/-- The indices as the workers see them: 32 rows of 6400, the row-major regrouping of the 1024 x 200 array. -/
def idsRows (ids : IVec S1024x200 32) : IVec S32x6400 32 := shapeCast S32x6400 ids shapeCasts_S1024x200_S32x6400

/-- A 128-vector viewed as a 1 x 128 row. -/
def asRow (v : FVec F S128 .f32) : FVec F S1x128 .f32 := shapeCast S1x128 v shapeCasts_S128_S1x128

/-- Rows 10000 t … 10000 t + 9999 of the table: the block the first kernel works on at grid point t. -/
def tblBlock (tbl : FVec F S100000x128 .f32) (t : Fin 10) : FVec F S10000x128 .f32 :=
  fun y => tbl (ix2 (n0 := 100000) (n1 := 128)
    ⟨10000 * t.val + (y 0).val, by have h := idx2_lt0 (n0 := 10000) (n1 := 128) y; have := t.isLt; omega⟩ (y 1))

/-- The normalised table: entry (r, k) is entry (r mod 10000, k) of the body's result on block r / 10000. -/
def normed (tbl : FVec F S100000x128 .f32) (g b : FVec F S1x128 .f32) : FVec F S100000x128 .f32 :=
  fun i => k0_pay1 (tblBlock tbl ⟨(i 0).val / 10000, by have h := idx2_lt0 (n0 := 100000) (n1 := 128) i; omega⟩) g b
    (ix2 (n0 := 10000) (n1 := 128) ⟨(i 0).val % 10000, Nat.mod_lt _ (by decide)⟩ (i 1))

/-- The row of the table that position p of the 204800 looks up: the word at row p / 6400, column p mod 6400 of the
    regrouped indices (reduced mod 100000 only to make the definition total: under the precondition it is in range). -/
def rowOfPos (idsR : IVec S32x6400 32) (p : Fin 204800) : Fin 100000 :=
  ⟨(idsR (ix2 (n0 := 32) (n1 := 6400) ⟨p.val / 6400, by have := p.isLt; omega⟩ ⟨p.val % 6400, Nat.mod_lt _ (by decide)⟩)).toNat % 100000,
    Nat.mod_lt _ (by decide)⟩

/-- The gathered array: row p is row `rowOfPos p` of the source. -/
def gathered (idsR : IVec S32x6400 32) (src : FVec F S100000x128 .f32) : FVec F S204800x128 .f32 :=
  fun i => src (ix2 (n0 := 100000) (n1 := 128) (rowOfPos idsR ⟨(i 0).val, idx2_lt0 (n0 := 204800) (n1 := 128) i⟩) (i 1))

/-- The program's result as a function of its four arguments. -/
def out (ids : IVec S1024x200 32) (tbl : FVec F S100000x128 .f32) (gam bet : FVec F S128 .f32) : FVec F S1024x200x128 .f32 :=
  shapeCast S1024x200x128 (gathered (idsRows ids) (normed tbl (asRow gam) (asRow bet))) shapeCasts_S204800x128_S1024x200x128

end Cert.KernelIdeal.KSpec

end
-- ==== Proof.Spec.lean ====
/-
  The row normalisation both programs compute, as a function of one 128-entry row over the extended reals, in the two
  forms the programs write it: the centred entry TIMES the reciprocal square root of (variance + epsilon), and the
  centred entry DIVIDED BY the square root of (variance + epsilon). When the row's entries are real numbers the mean and
  the variance are real, the variance is not negative, so variance + epsilon is a positive real v, and
  x * (√v)⁻¹ = x / √v: the two forms agree.
-/
import Idealize.ShloMosaic.PureOps.Ideal
import Idealize.ShloMosaic.PureOps.Ideal.Laws

noncomputable section

namespace Cert.Proof.Spec

open Idealize.ShloMosaic
open scoped BigOperators

/-- The row length as a float: the pattern of 128.0. -/
def c128 : EReal := Ideal.ofBits .f32 0x43000000#32
/-- Epsilon: the pattern of the float nearest 1e-5. -/
def eps : EReal := Ideal.ofBits .f32 0x3727C5AC#32

/-- The mean of a row. -/
def mean (x : Fin 128 → EReal) : EReal := Ideal.div (∑ k, x k) c128
/-- A row's entry with the mean subtracted. -/
def cen (x : Fin 128 → EReal) (k : Fin 128) : EReal := x k - mean x
/-- The variance of a row: the mean of the squared centred entries. -/
def var (x : Fin 128 → EReal) : EReal := Ideal.div (∑ k, cen x k * cen x k) c128

/-- The normalised entry, reciprocal-square-root form. -/
def lnK (x : Fin 128 → EReal) (g b : EReal) (k : Fin 128) : EReal := cen x k * Ideal.rsqrt (var x + eps) * g + b
/-- The normalised entry, division-by-square-root form. -/
def lnR (x : Fin 128 → EReal) (g b : EReal) (k : Fin 128) : EReal := Ideal.div (cen x k) (Ideal.sqrt (var x + eps)) * g + b

/-- 128.0 is a positive real. -/
theorem c128_real : ∃ c : ℝ, 0 < c ∧ c128 = (c : EReal) := by
  refine ⟨128, by norm_num, ?_⟩
  simp [c128, Ideal.ofBits, Ideal.ieee, -EReal.coe_mul]; norm_num

/-- Epsilon is a positive real. -/
theorem eps_real : ∃ e : ℝ, 0 < e ∧ eps = (e : EReal) := by
  simp [eps, Ideal.ofBits, Ideal.ieee, -EReal.coe_mul]

/-- A finite sum of reals, taken in the extended reals, is the real sum. -/
theorem coe_sum {ι : Type} (s : Finset ι) (f : ι → ℝ) : ∑ i ∈ s, (f i : EReal) = ((∑ i ∈ s, f i : ℝ) : EReal) := by
  induction s using Finset.cons_induction with
  | empty => simp
  | cons a s ha ih => rw [Finset.sum_cons, Finset.sum_cons, ih, EReal.coe_add]

/-- The quotient of two reals, the divisor not zero, is the real quotient. -/
theorem div_coe (a c : ℝ) (hc : c ≠ 0) : Ideal.div (a : EReal) (c : EReal) = ((a / c : ℝ) : EReal) := by
  unfold Ideal.div
  rw [if_neg (by exact_mod_cast hc), ← EReal.coe_inv, ← EReal.coe_mul, div_eq_mul_inv]

/-- THE LAW: on a row of real numbers the two forms of the normalised entry agree. -/
theorem lnK_eq_lnR (x : Fin 128 → EReal) (hx : ∀ k, ∃ r : ℝ, x k = (r : EReal)) (g b : EReal) (k : Fin 128) :
    lnK x g b k = lnR x g b k := by
  choose f hf using hx
  obtain ⟨c, hc, ec⟩ := c128_real
  obtain ⟨e, he, ee⟩ := eps_real
  have hm : mean x = (((∑ k, f k) / c : ℝ) : EReal) := by
    unfold mean; simp only [hf]; rw [coe_sum, ec, div_coe _ _ hc.ne']
  have hcen : ∀ k, cen x k = ((f k - (∑ k, f k) / c : ℝ) : EReal) := fun k => by
    unfold cen; rw [hf, hm, EReal.coe_sub]
  have hv : var x = (((∑ k, (f k - (∑ k, f k) / c) * (f k - (∑ k, f k) / c)) / c : ℝ) : EReal) := by
    unfold var; simp only [hcen, ← EReal.coe_mul]; rw [coe_sum, ec, div_coe _ _ hc.ne']
  have hv0 : 0 ≤ (∑ k, (f k - (∑ k, f k) / c) * (f k - (∑ k, f k) / c)) / c :=
    div_nonneg (Finset.sum_nonneg fun k _ => mul_self_nonneg _) hc.le
  generalize (∑ k, (f k - (∑ k, f k) / c) * (f k - (∑ k, f k) / c)) / c = v at hv hv0
  have hpos : 0 < v + e := by linarith
  unfold lnK lnR
  rw [hv, ee, ← EReal.coe_add, hcen, Ideal.rsqrt_coe, Ideal.sqrt_coe, if_neg (not_lt.2 hpos.le), if_neg hpos.ne',
    if_neg (not_lt.2 hpos.le), div_coe _ _ (Real.sqrt_pos.2 hpos).ne', ← EReal.coe_mul]
  simp only [div_eq_mul_inv]

end Cert.Proof.Spec

end
-- ==== Proof.KernelG.lean ====
/-
  The kernel's result read at an index: entry (b, l, k) of the 1024 x 200 x 128 result is the normalised entry k
  (reciprocal-square-root form) of the table row that index word (b, l) names.
-/
import proofs.«206674_g54314156425426_cont_9to1_m_1126_27_alg».proof.Proof.KSpec
import proofs.«206674_g54314156425426_cont_9to1_m_1126_27_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

namespace Cert.Proof.KernelG

open Idealize.ShloMosaic Idealize.ShloMosaic.ValueIdx Cert.KernelIdeal
open Cert.KernelIdeal.Gen (k0_pay1)
open Cert.KernelIdeal.Facts₀
open Cert.Proof
open scoped BigOperators

variable {α : Type}

/-- A vector of 10000 entries viewed as a 10000 x 1 column: entry (r, 0) is entry r. -/
theorem colCast_apply (x : S10000.Idx → α) (h : S10000.ShapeCasts S10000x1) (r : Fin 10000) :
    shapeCast S10000x1 x h (ix2 r (0 : Fin 1)) = x (ix1 r) :=
  shapeCast_apply x h _ _ (by rw [Shape.rowMajor_val_one, Shape.rowMajor_val_two]; show r.val = r.val * 1 + 0; omega)

/-- A 10000 x 1 column laid along the 128 lanes: entry (r, k) is entry (r, 0) of the column. -/
theorem bcastCol_apply (y : S10000x1.Idx → α) (h : S10000x1.Broadcasts S10000x128) (r : Fin 10000) (k : Fin 128) :
    broadcastTo S10000x128 y h (ix2 r k) = y (ix2 r (0 : Fin 1)) := by
  refine broadcastTo_apply y h _ _ ?_
  intro a
  fin_cases a
  · show r.val = if (10000 : ℕ) = 1 then 0 else r.val
    simp
  · show (0 : ℕ) = if (1 : ℕ) = 1 then 0 else _
    simp

/-- A 1 x 128 row laid down the 10000 rows: entry (r, k) is entry (0, k) of the row. -/
theorem bcastRow_apply (y : S1x128.Idx → α) (h : S1x128.Broadcasts S10000x128) (r : Fin 10000) (k : Fin 128) :
    broadcastTo S10000x128 y h (ix2 r k) = y (ix2 (0 : Fin 1) k) := by
  refine broadcastTo_apply y h _ _ ?_
  intro a
  fin_cases a
  · show (0 : ℕ) = if (1 : ℕ) = 1 then 0 else _
    simp
  · show k.val = if (128 : ℕ) = 1 then 0 else k.val
    simp

/-- The sum over the 128 lanes of a 10000 x 128 block, at row r. -/
theorem laneSum_apply (v : FVec Ideal S10000x128 .f32) (h : S10000x128.Reduces [1] S10000) (hφ : FKind.Formats .f32)
    (hacc : (0x00000000#32 : BitVec 32) = FKind.add.neutral .f32 hφ) (r : Fin 10000) :
    multiReduction (F := Ideal) .add [1] S10000 v 0x00000000#32 h hφ hacc (ix1 r) = ∑ k : Fin 128, v (ix2 r k) := by
  rw [Ideal.multiReduction_add_single]
  refine Finset.sum_congr rfl fun k _ => congrArg v ?_
  funext a
  fin_cases a <;> rfl

/-- The reciprocal square root of a vector, at an index. -/
theorem rsqrt_apply {s : Shape} (a : FVec Ideal s .f32) (i : s.Idx) : rsqrt a i = Ideal.rsqrt (a i) := rfl

/-- The mean over the lanes as the body computes it: the lane sum, viewed as a column, divided by 128.0. -/
def rowMean (v : FVec Ideal S10000x128 .f32) : FVec Ideal S10000x1 .f32 :=
  divf (shapeCast S10000x1 (multiReduction (F := Ideal) .add [1] S10000 v 0x00000000#32 Gen.reduces_S10000x128_S10000 (.inl rfl) rfl)
      Gen.shapeCasts_S10000_S10000x1)
    (broadcast S10000x1 (Scalar.ofBits (F := Ideal) .f32 0x43000000#32))

theorem rowMean_apply (v : FVec Ideal S10000x128 .f32) (r : Fin 10000) :
    rowMean v (ix2 r (0 : Fin 1)) = Ideal.div (∑ k : Fin 128, v (ix2 r k)) Spec.c128 := by
  unfold rowMean
  refine (divf_apply _ _ _).trans ?_
  exact congrArg₂ Ideal.div ((colCast_apply _ _ r).trans (laneSum_apply v _ _ _ r)) rfl

/-- The body's arithmetic on a block, with the two lane means named. -/
theorem pay_eq (v0 : FVec Ideal S10000x128 .f32) (g b : FVec Ideal S1x128 .f32) :
    k0_pay1 (F := Ideal) v0 g b
      = addf (mulf (mulf (subf v0 (broadcastTo S10000x128 (rowMean v0) Gen.broadcasts_S10000x1_S10000x128))
            (broadcastTo S10000x128
              (rsqrt (addf
                (rowMean (mulf (subf v0 (broadcastTo S10000x128 (rowMean v0) Gen.broadcasts_S10000x1_S10000x128))
                  (subf v0 (broadcastTo S10000x128 (rowMean v0) Gen.broadcasts_S10000x1_S10000x128))))
                (broadcast S10000x1 (Scalar.ofBits (F := Ideal) .f32 0x3727C5AC#32))))
              Gen.broadcasts_S10000x1_S10000x128))
          (broadcastTo S10000x128 (shapeCast S1x128 g Gen.shapeCasts_S1x128_S1x128) Gen.broadcasts_S1x128_S10000x128))
        (broadcastTo S10000x128 (shapeCast S1x128 b Gen.shapeCasts_S1x128_S1x128) Gen.broadcasts_S1x128_S10000x128) := rfl

/-- The body's arithmetic on a block, read at entry (r, k). -/
theorem pay_apply (v0 : FVec Ideal S10000x128 .f32) (g b : FVec Ideal S1x128 .f32) (r : Fin 10000) (k : Fin 128) :
    k0_pay1 (F := Ideal) v0 g b (ix2 r k)
      = Spec.lnK (fun k' => v0 (ix2 r k')) (g (ix2 (0 : Fin 1) k)) (b (ix2 (0 : Fin 1) k)) k := by
  rw [pay_eq, addf_apply, mulf_apply, mulf_apply, subf_apply, bcastRow_apply, bcastRow_apply, bcastCol_apply, bcastCol_apply,
    shapeCast_self, shapeCast_self, rsqrt_apply, addf_apply, rowMean_apply, rowMean_apply]
  simp only [mulf_apply, subf_apply, bcastCol_apply, rowMean_apply]
  rfl

/-! ## The three stages at an index -/

/-- A 128-vector viewed as a 1 x 128 row: entry (0, k) is entry k. -/
theorem asRow_apply (v : FVec Ideal S128 .f32) (k : Fin 128) : KSpec.asRow v (ix2 (0 : Fin 1) k) = v (ix1 k) := by
  unfold KSpec.asRow
  exact shapeCast_apply v _ _ _ (by rw [Shape.rowMajor_val_one, Shape.rowMajor_val_two]; show k.val = 0 * 128 + k.val; omega)

/-- The regrouped indices at the row and column of position 200 b + l are the index word (b, l). -/
theorem idsRows_apply (ids : IVec S1024x200 32) (b : Fin 1024) (l : Fin 200) (h1 : (200 * b.val + l.val) / 6400 < 32)
    (h2 : (200 * b.val + l.val) % 6400 < 6400) :
    KSpec.idsRows ids (ix2 (n0 := 32) (n1 := 6400) ⟨(200 * b.val + l.val) / 6400, h1⟩ ⟨(200 * b.val + l.val) % 6400, h2⟩) = ids (ix2 b l) := by
  unfold KSpec.idsRows
  refine shapeCast_apply ids _ _ _ ?_
  rw [Shape.rowMajor_val_two, Shape.rowMajor_val_two]
  show b.val * 200 + l.val = (200 * b.val + l.val) / 6400 * 6400 + (200 * b.val + l.val) % 6400
  omega

/-- The normalised table at entry (R, k): the normalised entry k of row R of the table. -/
theorem normed_apply (tbl : FVec Ideal S100000x128 .f32) (g bb : FVec Ideal S1x128 .f32) (R : Fin 100000) (k : Fin 128) :
    KSpec.normed tbl g bb (ix2 R k)
      = Spec.lnK (fun k' => tbl (ix2 R k')) (g (ix2 (0 : Fin 1) k)) (bb (ix2 (0 : Fin 1) k)) k := by
  have e : KSpec.normed tbl g bb (ix2 R k)
      = k0_pay1 (F := Ideal) (KSpec.tblBlock tbl ⟨R.val / 10000, by have := R.isLt; omega⟩) g bb
          (ix2 (n0 := 10000) (n1 := 128) ⟨R.val % 10000, Nat.mod_lt _ (by decide)⟩ k) := rfl
  rw [e, pay_apply]
  congr 1
  funext k'
  show tbl (ix2 (n0 := 100000) (n1 := 128) ⟨10000 * (R.val / 10000) + R.val % 10000, _⟩ k') = tbl (ix2 R k')
  congr 2
  exact Fin.ext (by show 10000 * (R.val / 10000) + R.val % 10000 = R.val; omega)

/-- THE KERNEL'S RESULT AT (b, l, k): the normalised entry k (reciprocal-square-root form) of the table row that the
    index word (b, l), read unsigned and reduced mod 100000, names. -/
theorem out_apply (ids : IVec S1024x200 32) (tbl : FVec Ideal S100000x128 .f32) (gam bet : FVec Ideal S128 .f32)
    (b : Fin 1024) (l : Fin 200) (k : Fin 128) :
    KSpec.out (F := Ideal) ids tbl gam bet (ix3 b l k)
      = Spec.lnK (fun k' => tbl (ix2 (n0 := 100000) (n1 := 128) ⟨(ids (ix2 b l)).toNat % 100000, Nat.mod_lt _ (by decide)⟩ k'))
          (gam (ix1 k)) (bet (ix1 k)) k := by
  have hp : 200 * b.val + l.val < 204800 := by have := b.isLt; have := l.isLt; omega
  unfold KSpec.out
  -- the final view: entry (b, l, k) is entry (200 b + l, k) of the gathered array
  refine (shapeCast_apply _ _ (ix3 b l k) (ix2 (n0 := 204800) (n1 := 128) ⟨200 * b.val + l.val, hp⟩ k) ?_).trans ?_
  · rw [Shape.rowMajor_val_two, Shape.rowMajor_val_three]
    show (200 * b.val + l.val) * 128 + k.val = (b.val * 200 + l.val) * 128 + k.val
    omega
  -- the gather: row 200 b + l of the gathered array is the row of the normalised table its index word names
  have e : KSpec.gathered (KSpec.idsRows ids) (KSpec.normed tbl (KSpec.asRow gam) (KSpec.asRow bet))
        (ix2 (n0 := 204800) (n1 := 128) ⟨200 * b.val + l.val, hp⟩ k)
      = KSpec.normed tbl (KSpec.asRow gam) (KSpec.asRow bet)
          (ix2 (n0 := 100000) (n1 := 128) (KSpec.rowOfPos (KSpec.idsRows ids) ⟨200 * b.val + l.val, hp⟩) k) := rfl
  have er : KSpec.rowOfPos (KSpec.idsRows ids) ⟨200 * b.val + l.val, hp⟩
      = (⟨(ids (ix2 b l)).toNat % 100000, Nat.mod_lt _ (by decide)⟩ : Fin 100000) := by
    unfold KSpec.rowOfPos
    refine Fin.ext ?_
    show (KSpec.idsRows ids _).toNat % 100000 = (ids (ix2 b l)).toNat % 100000
    rw [idsRows_apply ids b l]
  rw [e, er, normed_apply, asRow_apply, asRow_apply]

end Cert.Proof.KernelG

end
-- ==== Proof.RefTerm.lean ====
/-
  The reference program's result as one pure term of its four argument arrays, for any float instance.

  The reference looks up one 128-entry row of the table per index (jnp.take: negative indices wrapped by adding the
  table's height, out-of-range indices answered by a NaN row), then normalises every row: the mean over the 128 entries
  is subtracted, the result is divided by the square root of the variance plus epsilon, multiplied by the scale vector
  and shifted by the shift vector. Each `let` below is one operation of the program, in the program's order and under
  the program's own name for the value; the term is the operations composed.
-/
import proofs.«206674_g54314156425426_cont_9to1_m_1126_27_alg».proof.Proof.Gen.ReferenceIdeal

noncomputable section

namespace Cert.ReferenceIdeal.RefTerm

open Idealize.ShloMosaic Idealize.SL.Sem
open Cert.ReferenceIdeal Cert.ReferenceIdeal.Facts₀

variable {F : FTy → Type} [FloatOps F]

/-- jnp.take: the operations of the outlined @_take (with @_where inlined), as one term. -/
def take (tbl : FVec F S100000x128 .f32) (ids : IVec S1024x200 32) : FVec F S1024x200x128 .f32 :=
  let c : IVec S_ 32 := constantI S_ 32 0#32
  let v0 : IVec S1024x200 32 := broadcastInDim S1024x200 ![] Facts₀.bcast_S_S1024x200 c
  let v1 : IVec S1024x200 1 := cmpi .slt ids v0
  let c_0 : IVec S_ 32 := constantI S_ 32 100000#32
  let v2 : IVec S1024x200 32 := broadcastInDim S1024x200 ![] Facts₀.bcast_S_S1024x200 c_0
  let v3 : IVec S1024x200 32 := addi ids v2
  let v4 : IVec S1024x200 32 := select v1 v3 ids
  let v5 : IVec S1024x200x1 32 := broadcastInDim S1024x200x1 ![0, 1] Facts₀.bcast_S1024x200_S1024x200x1_0_1 v4
  let c_1 : IVec S1 32 := constantI S1 32 99999#32
  let c_2 : IVec S_ 32 := constantI S_ 32 0#32
  let v6 : IVec S1024x200x1 32 := broadcastInDim S1024x200x1 ![] Facts₀.bcast_S_S1024x200x1 c_2
  let v7 : IVec S1024x200x1 1 := cmpi .sge v5 v6
  let v8 : IVec S1x1x1 32 := broadcastInDim S1x1x1 ![2] Facts₀.bcast_S1_S1x1x1_2 c_1
  let v9 : IVec S1024x200x1 32 := broadcastInDim S1024x200x1 ![0, 1, 2] Facts₀.bcast_S1x1x1_S1024x200x1_0_1_2 v8
  let v10 : IVec S1024x200x1 1 := cmpi .sle v5 v9
  let v11 : IVec S1024x200x1 1 := andi v7 v10
  let c_3 : IVec S_ 1 := constantI S_ 1 1#1
  let v12 : IVec S1024x200 1 := Host.reduce IntOp.andi v11 c_3 Facts₀.reducesTo_S1024x200x1_S1024x200_d2 Facts₀.h_S_
  let v13 : FVec F S1024x200x128 .f32 := Host.gather gather_S100000x128_S1024x200x1_S1024x200x128_2_0_n_n_0_2_1128 tbl v5
  let v14 : IVec S1024x200x128 1 := broadcastInDim S1024x200x128 ![0, 1] Facts₀.bcast_S1024x200_S1024x200x128_0_1 v12
  let cst : FVec F S_ .f32 := constant S_ .f32 0x7FC00000#32
  let v15 : FVec F S1024x200x128 .f32 := broadcastInDim S1024x200x128 ![] Facts₀.bcast_S_S1024x200x128 cst
  select v14 v13 v15

/-- The reference's result (its %24) as a function of the arguments. -/
def refOut (ids : IVec S1024x200 32) (tbl : FVec F S100000x128 .f32) (gam bet : FVec F S128 .f32) : FVec F S1024x200x128 .f32 :=
  let v0 : FVec F S1024x200x128 .f32 := take tbl ids
  let cst : FVec F S_ .f32 := constant S_ .f32 0x00000000#32
  let v1 : FVec F S1024x200 .f32 := Host.reduceAdd v0 cst Facts₀.reducesTo_S1024x200x128_S1024x200_d2 Facts₀.h_S_
  let v2 : FVec F S1024x200x1 .f32 := broadcastInDim S1024x200x1 ![0, 1] Facts₀.bcast_S1024x200_S1024x200x1_0_1 v1
  let cst_0 : FVec F S_ .f32 := constant S_ .f32 0x43000000#32
  let v3 : FVec F S1024x200x1 .f32 := broadcastInDim S1024x200x1 ![] Facts₀.bcast_S_S1024x200x1 cst_0
  let v4 : FVec F S1024x200x1 .f32 := Host.divf v2 v3
  let v5 : FVec F S1024x200x128 .f32 := broadcastInDim S1024x200x128 ![0, 1, 2] Facts₀.bcast_S1024x200x1_S1024x200x128_0_1_2 v4
  let v6 : FVec F S1024x200x128 .f32 := subf v0 v5
  let v7 : FVec F S1024x200x128 .f32 := mulf v6 v6
  let cst_1 : FVec F S_ .f32 := constant S_ .f32 0x00000000#32
  let v8 : FVec F S1024x200 .f32 := Host.reduceAdd v7 cst_1 Facts₀.reducesTo_S1024x200x128_S1024x200_d2 Facts₀.h_S_
  let v9 : FVec F S1024x200x1 .f32 := broadcastInDim S1024x200x1 ![0, 1] Facts₀.bcast_S1024x200_S1024x200x1_0_1 v8
  let cst_2 : FVec F S_ .f32 := constant S_ .f32 0x43000000#32
  let v10 : FVec F S1024x200x1 .f32 := broadcastInDim S1024x200x1 ![] Facts₀.bcast_S_S1024x200x1 cst_2
  let v11 : FVec F S1024x200x1 .f32 := Host.divf v9 v10
  let v12 : FVec F S1024x200x128 .f32 := broadcastInDim S1024x200x128 ![0, 1, 2] Facts₀.bcast_S1024x200x1_S1024x200x128_0_1_2 v4
  let v13 : FVec F S1024x200x128 .f32 := subf v0 v12
  let cst_3 : FVec F S_ .f32 := constant S_ .f32 0x3727C5AC#32
  let v14 : FVec F S1024x200x1 .f32 := broadcastInDim S1024x200x1 ![] Facts₀.bcast_S_S1024x200x1 cst_3
  let v15 : FVec F S1024x200x1 .f32 := addf v11 v14
  let v16 : FVec F S1024x200x1 .f32 := Host.sqrt v15
  let v17 : FVec F S1024x200x128 .f32 := broadcastInDim S1024x200x128 ![0, 1, 2] Facts₀.bcast_S1024x200x1_S1024x200x128_0_1_2 v16
  let v18 : FVec F S1024x200x128 .f32 := Host.divf v13 v17
  let v19 : FVec F S1x1x128 .f32 := broadcastInDim S1x1x128 ![2] Facts₀.bcast_S128_S1x1x128_2 gam
  let v20 : FVec F S1024x200x128 .f32 := broadcastInDim S1024x200x128 ![0, 1, 2] Facts₀.bcast_S1x1x128_S1024x200x128_0_1_2 v19
  let v21 : FVec F S1024x200x128 .f32 := mulf v18 v20
  let v22 : FVec F S1x1x128 .f32 := broadcastInDim S1x1x128 ![2] Facts₀.bcast_S128_S1x1x128_2 bet
  let v23 : FVec F S1024x200x128 .f32 := broadcastInDim S1024x200x128 ![0, 1, 2] Facts₀.bcast_S1x1x128_S1024x200x128_0_1_2 v22
  addf v21 v23

end Cert.ReferenceIdeal.RefTerm

end
-- ==== Proof.RefG.lean ====
/-
  The reference's result read at an index: under the input precondition, entry (b, l, k) of the 1024 x 200 x 128 result
  is the normalised entry k (division-by-square-root form) of the table row that index word (b, l) names.
-/
import proofs.«206674_g54314156425426_cont_9to1_m_1126_27_alg».proof.Proof.RefTerm
import proofs.«206674_g54314156425426_cont_9to1_m_1126_27_alg».proof.Proof.Spec
import Idealize.ShloMosaic.Lib.Pipeline.Value
import Idealize.ShloMosaic.Lib.ValueLayout
import Idealize.ShloMosaic.Lib.ValueIdx
import Idealize.ShloMosaic.Lib.IdealHost
import Idealize.ShloMosaic.PureOps.Ideal.Laws

noncomputable section

namespace Cert.Proof.RefG

open Idealize.ShloMosaic Idealize.ShloMosaic.ValueIdx Cert.ReferenceIdeal
open Cert.ReferenceIdeal.Facts₀
open Cert.Proof
open scoped BigOperators

variable {α : Type}

/-! ## The layout operations at explicit coordinates -/

/-- A 1024 x 200 array given a trailing unit axis: entry (b, l, 0) is entry (b, l). -/
theorem keep_apply (x : S1024x200.Idx → α) (h : S1024x200.BroadcastsInDim S1024x200x1 ![0, 1]) (b : Fin 1024) (l : Fin 200) :
    broadcastInDim S1024x200x1 ![0, 1] h x (ix3 b l (0 : Fin 1)) = x (ix2 b l) := by
  refine broadcastInDim_apply _ h x _ _ ?_
  intro a
  fin_cases a
  · show b.val = if (1024 : ℕ) = 1 then 0 else b.val
    simp
  · show l.val = if (200 : ℕ) = 1 then 0 else l.val
    simp

/-- A 1024 x 200 x 1 array laid along the 128 lanes: entry (b, l, k) is entry (b, l, 0). -/
theorem lanes_apply (y : S1024x200x1.Idx → α) (h : S1024x200x1.BroadcastsInDim S1024x200x128 ![0, 1, 2])
    (b : Fin 1024) (l : Fin 200) (k : Fin 128) :
    broadcastInDim S1024x200x128 ![0, 1, 2] h y (ix3 b l k) = y (ix3 b l (0 : Fin 1)) := by
  refine broadcastInDim_apply _ h y _ _ ?_
  intro a
  fin_cases a
  · show b.val = if (1024 : ℕ) = 1 then 0 else b.val
    simp
  · show l.val = if (200 : ℕ) = 1 then 0 else l.val
    simp
  · show (0 : ℕ) = if (1 : ℕ) = 1 then 0 else _
    simp

/-- A 1024 x 200 array of flags laid along the 128 lanes: entry (b, l, k) is entry (b, l). -/
theorem flags_apply (x : S1024x200.Idx → α) (h : S1024x200.BroadcastsInDim S1024x200x128 ![0, 1]) (b : Fin 1024) (l : Fin 200) (k : Fin 128) :
    broadcastInDim S1024x200x128 ![0, 1] h x (ix3 b l k) = x (ix2 b l) := by
  refine broadcastInDim_apply _ h x _ _ ?_
  intro a
  fin_cases a
  · show b.val = if (1024 : ℕ) = 1 then 0 else b.val
    simp
  · show l.val = if (200 : ℕ) = 1 then 0 else l.val
    simp

/-- A 128-vector laid along the last axis of the result: entry (b, l, k) is entry k. -/
theorem vec_apply (v : S128.Idx → α) (h1 : S128.BroadcastsInDim S1x1x128 ![2]) (h2 : S1x1x128.BroadcastsInDim S1024x200x128 ![0, 1, 2])
    (b : Fin 1024) (l : Fin 200) (k : Fin 128) :
    broadcastInDim S1024x200x128 ![0, 1, 2] h2 (broadcastInDim S1x1x128 ![2] h1 v) (ix3 b l k) = v (ix1 k) := by
  refine (broadcastInDim_apply _ h2 _ _ (ix3 (0 : Fin 1) (0 : Fin 1) k) ?_).trans (broadcastInDim_apply _ h1 v _ _ ?_)
  · intro a
    fin_cases a
    · show (0 : ℕ) = if (1 : ℕ) = 1 then 0 else _
      simp
    · show (0 : ℕ) = if (1 : ℕ) = 1 then 0 else _
      simp
    · show k.val = if (128 : ℕ) = 1 then 0 else k.val
      simp
  · intro a
    fin_cases a
    show k.val = if (128 : ℕ) = 1 then 0 else k.val
    simp

/-- A one-entry vector laid over the 1024 x 200 x 1 array: every entry is its one entry. -/
theorem one_apply (v : S1.Idx → α) (h1 : S1.BroadcastsInDim S1x1x1 ![2]) (h2 : S1x1x1.BroadcastsInDim S1024x200x1 ![0, 1, 2])
    (b : Fin 1024) (l : Fin 200) :
    broadcastInDim S1024x200x1 ![0, 1, 2] h2 (broadcastInDim S1x1x1 ![2] h1 v) (ix3 b l (0 : Fin 1)) = v (ix1 (0 : Fin 1)) := by
  refine (broadcastInDim_apply _ h2 _ _ (ix3 (0 : Fin 1) (0 : Fin 1) (0 : Fin 1)) ?_).trans (broadcastInDim_apply _ h1 v _ _ ?_)
  · intro a
    fin_cases a <;> (show (0 : ℕ) = if (1 : ℕ) = 1 then 0 else _) <;> simp
  · intro a
    fin_cases a
    show (0 : ℕ) = if (1 : ℕ) = 1 then 0 else _
    simp

/-- The host's sum over the last axis at (b, l): the initial value plus the sum of the 128 entries. -/
theorem hostSum_apply (x : FVec Ideal S1024x200x128 .f32) (init : S_.Idx → EReal) (h' : S1024x200x128.ReducesTo [2] S1024x200)
    (hu : 0 < S_.numel) (b : Fin 1024) (l : Fin 200) :
    Host.reduceAdd (F := Ideal) x init h' hu (ix2 b l) = init ix0 + ∑ k : Fin 128, x (ix3 b l k) := by
  have h : S1024x200x128.Reduces [2] S1024x200 := by decide
  refine (Ideal.hostReduceAdd_single h' h x (init (Shape.Idx.first hu)) (ix2 b l)).trans ?_
  congr 1
  · exact congrArg init (eq_ix0 _)
  · refine Finset.sum_congr rfl fun k _ => congrArg x ?_
    funext a
    fin_cases a <;> rfl

/-! ## The row lookup -/

/-- The gather at (b, l, k): entry k of the table row whose number is the start index (b, l, 0), read signed and clamped
    into [0, 99999]. -/
theorem gather_apply (tbl : S100000x128.Idx → α) (idx : IVec S1024x200x1 32) (b : Fin 1024) (l : Fin 200) (k : Fin 128) :
    Host.gather gather_S100000x128_S1024x200x1_S1024x200x128_2_0_n_n_0_2_1128 tbl idx (ix3 b l k)
      = tbl (ix2 (n0 := 100000) (n1 := 128) ⟨min (idx (ix3 b l (0 : Fin 1))).toInt.toNat 99999, by omega⟩ k) := by
  unfold Host.gather
  congr 1
  funext a
  refine Fin.ext ?_
  show gather_S100000x128_S1024x200x1_S1024x200x128_2_0_n_n_0_2_1128.start (ix3 b l k) idx a + gather_S100000x128_S1024x200x1_S1024x200x128_2_0_n_n_0_2_1128.batchCoord (ix3 b l k) a + gather_S100000x128_S1024x200x1_S1024x200x128_2_0_n_n_0_2_1128.offCoord (ix3 b l k) a = _
  rw [GatherDims.batchCoord_eq_zero _ _ _ List.not_mem_nil]
  fin_cases a
  · -- the row axis: the clamped start index; no offset, the axis is collapsed
    show gather_S100000x128_S1024x200x1_S1024x200x128_2_0_n_n_0_2_1128.start (ix3 b l k) idx (0 : Fin 2) + 0 + gather_S100000x128_S1024x200x1_S1024x200x128_2_0_n_n_0_2_1128.offCoord (ix3 b l k) (0 : Fin 2) = min (idx (ix3 b l (0 : Fin 1))).toInt.toNat 99999
    rw [GatherDims.offCoord_eq_zero _ _ _ (fun h => ((GatherDims.mem_sKept _ _).mp h).1 (List.mem_singleton.mpr rfl))]
    unfold GatherDims.start
    rw [dif_pos (show (0 : Fin 2) ∈ gather_S100000x128_S1024x200x1_S1024x200x128_2_0_n_n_0_2_1128.startIndexMap from List.mem_singleton.mpr rfl)]
    have hsi : gather_S100000x128_S1024x200x1_S1024x200x128_2_0_n_n_0_2_1128.siIdx (ix3 b l k) ⟨List.idxOf (0 : Fin 2) gather_S100000x128_S1024x200x1_S1024x200x128_2_0_n_n_0_2_1128.startIndexMap,
        List.idxOf_lt_length_iff.2 (List.mem_singleton.mpr rfl)⟩ = ix3 b l (0 : Fin 1) := by
      funext c; refine Fin.ext ?_
      match c with
      | ⟨0, _⟩ => rfl
      | ⟨1, _⟩ => rfl
      | ⟨2, _⟩ => rfl
    rw [hsi]
    rfl
  · -- the lane axis: no start index; the offset is the result's last coordinate
    show gather_S100000x128_S1024x200x1_S1024x200x128_2_0_n_n_0_2_1128.start (ix3 b l k) idx (1 : Fin 2) + 0 + gather_S100000x128_S1024x200x1_S1024x200x128_2_0_n_n_0_2_1128.offCoord (ix3 b l k) (1 : Fin 2) = k.val
    unfold GatherDims.start
    rw [dif_neg (show ¬ (1 : Fin 2) ∈ gather_S100000x128_S1024x200x1_S1024x200x128_2_0_n_n_0_2_1128.startIndexMap from by decide)]
    unfold GatherDims.offCoord
    rw [dif_pos (show (1 : Fin 2) ∈ gather_S100000x128_S1024x200x1_S1024x200x128_2_0_n_n_0_2_1128.sKept from by decide)]
    simp only [Nat.zero_add]
    rfl

/-! ## The range mask -/

/-- A left fold by "and" from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_one f l fun n hn => h n (List.mem_cons_of_mem _ hn)

/-- A reduction by "and", from 1, of an array of flags that are all 1 is 1 everywhere. -/
theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1) (hx : ∀ i, x i = 1#1) :
    Host.reduce IntOp.andi x init h hu j = 1#1 := by
  rw [Host.reduce_eq_foldl, hinit]
  exact foldl_andi_one x _ fun i _ => hx i

/-- A word that is at least 0 and at most 99999, read signed, is below 100000 read unsigned. -/
theorem toNat_lt_of_range (v : BitVec 32) (h0 : IntOp.cmpi .sge v 0#32 = 1#1) (h1 : IntOp.cmpi .sle v 99999#32 = 1#1) :
    v.toNat < 100000 := by
  rw [IntOp.cmpi_sge] at h0
  rw [IntOp.cmpi_sle] at h1
  simp only [BitVec.toInt_eq_toNat_cond, BitVec.toNat_ofNat, Nat.reducePow, Nat.reduceMod] at h0 h1
  have := v.isLt
  split at h0 <;> simp at h0 h1 <;> omega

/-- The negative-index wrap does nothing to index words that are not negative. -/
theorem wrap_eq (ids : IVec S1024x200 32) (hb : S_.BroadcastsInDim S1024x200 ![]) (h0 : ∀ i, IntOp.cmpi .sge (ids i) 0#32 = 1#1) :
    select (cmpi .slt ids (broadcastInDim S1024x200 ![] hb (constantI S_ 32 0#32)))
      (addi ids (broadcastInDim S1024x200 ![] hb (constantI S_ 32 100000#32))) ids = ids := by
  funext i
  rw [select_apply]
  have e : cmpi .slt ids (broadcastInDim S1024x200 ![] hb (constantI S_ 32 0#32)) i = 0#1 := by
    show IntOp.cmpi .slt (ids i) 0#32 = 0#1
    refine eq_zero_of_ne_one ?_
    rw [IntOp.cmpi_slt]
    have := IntOp.cmpi_sge.1 (h0 i)
    omega
  rw [e, select_zero]

/-- The range test of the index words, every one in [0, 99999], is 1 everywhere. -/
theorem mask_one (ids : IVec S1024x200 32) (hk : S1024x200.BroadcastsInDim S1024x200x1 ![0, 1]) (hz : S_.BroadcastsInDim S1024x200x1 ![])
    (h1 : S1.BroadcastsInDim S1x1x1 ![2]) (h2 : S1x1x1.BroadcastsInDim S1024x200x1 ![0, 1, 2])
    (hr : ∀ i, IntOp.andi (IntOp.cmpi .sge (ids i) 0#32) (IntOp.cmpi .sle (ids i) 99999#32) = 1#1) :
    ∀ i, andi (cmpi .sge (broadcastInDim S1024x200x1 ![0, 1] hk ids) (broadcastInDim S1024x200x1 ![] hz (constantI S_ 32 0#32)))
      (cmpi .sle (broadcastInDim S1024x200x1 ![0, 1] hk ids)
        (broadcastInDim S1024x200x1 ![0, 1, 2] h2 (broadcastInDim S1x1x1 ![2] h1 (constantI S1 32 99999#32)))) i = 1#1 := by
  intro i
  obtain ⟨b, l, z, rfl⟩ : ∃ (b : Fin 1024) (l : Fin 200) (z : Fin 1), i = ix3 b l z := ⟨i 0, i 1, i 2, eq_ix3 i⟩
  obtain rfl : z = 0 := Subsingleton.elim _ _
  show IntOp.andi (IntOp.cmpi .sge (broadcastInDim S1024x200x1 ![0, 1] hk ids (ix3 b l (0 : Fin 1))) 0#32)
    (IntOp.cmpi .sle (broadcastInDim S1024x200x1 ![0, 1] hk ids (ix3 b l (0 : Fin 1)))
      (broadcastInDim S1024x200x1 ![0, 1, 2] h2 (broadcastInDim S1x1x1 ![2] h1 (constantI S1 32 99999#32)) (ix3 b l (0 : Fin 1)))) = 1#1
  rw [keep_apply, one_apply]
  exact hr (ix2 b l)

/-- THE LOOKUP: with every index word in [0, 99999] (signed), jnp.take's result at (b, l, k) is entry k of the table
    row the index word (b, l) names. -/
theorem take_apply (tbl : FVec Ideal S100000x128 .f32) (ids : IVec S1024x200 32)
    (hr : ∀ i, IntOp.andi (IntOp.cmpi .sge (ids i) 0#32) (IntOp.cmpi .sle (ids i) 99999#32) = 1#1)
    (b : Fin 1024) (l : Fin 200) (k : Fin 128) :
    RefTerm.take (F := Ideal) tbl ids (ix3 b l k)
      = tbl (ix2 (n0 := 100000) (n1 := 128) ⟨(ids (ix2 b l)).toNat % 100000, Nat.mod_lt _ (by decide)⟩ k) := by
  have h0 : ∀ i, IntOp.cmpi .sge (ids i) 0#32 = 1#1 := fun i => (IntOp.andi_eq_one.1 (hr i)).1
  have h1 : ∀ i, IntOp.cmpi .sle (ids i) 99999#32 = 1#1 := fun i => (IntOp.andi_eq_one.1 (hr i)).2
  unfold RefTerm.take
  dsimp only
  rw [wrap_eq ids _ h0, select_apply, flags_apply, reduce_andi_one _ _ _ _ _ rfl (mask_one ids _ _ _ _ hr), select_one,
    gather_apply]
  congr 2
  refine Fin.ext ?_
  show min (broadcastInDim S1024x200x1 ![0, 1] _ ids (ix3 b l (0 : Fin 1))).toInt.toNat 99999 = (ids (ix2 b l)).toNat % 100000
  rw [keep_apply]
  have hlt := toNat_lt_of_range _ (h0 (ix2 b l)) (h1 (ix2 b l))
  rw [BitVec.toInt_eq_toNat_of_lt (by omega), Int.toNat_natCast]
  omega

/-! ## The normalisation -/

/-- The host's quotient and square root of arrays, at an index. -/
theorem hdivf_apply {s : Shape} (a c : FVec Ideal s .f32) (i : s.Idx) : Host.divf a c i = Ideal.div (a i) (c i) := rfl
theorem hsqrt_apply {s : Shape} (a : FVec Ideal s .f32) (i : s.Idx) : Host.sqrt a i = Ideal.sqrt (a i) := rfl

/-- The mean over the last axis as the reference computes it: the sum from the zero word, given a trailing unit axis,
    divided by 128.0. -/
def refMean (x : FVec Ideal S1024x200x128 .f32) : FVec Ideal S1024x200x1 .f32 :=
  Host.divf (broadcastInDim S1024x200x1 ![0, 1] Facts₀.bcast_S1024x200_S1024x200x1_0_1
      (Host.reduceAdd x (constant (F := Ideal) S_ .f32 0x00000000#32) Facts₀.reducesTo_S1024x200x128_S1024x200_d2 Facts₀.h_S_))
    (broadcastInDim S1024x200x1 ![] Facts₀.bcast_S_S1024x200x1 (constant (F := Ideal) S_ .f32 0x43000000#32))

theorem refMean_apply (x : FVec Ideal S1024x200x128 .f32) (b : Fin 1024) (l : Fin 200) :
    refMean x (ix3 b l (0 : Fin 1)) = Ideal.div (∑ k : Fin 128, x (ix3 b l k)) Spec.c128 := by
  unfold refMean
  refine (hdivf_apply _ _ _).trans ?_
  refine congrArg₂ Ideal.div ?_ ?_
  · refine (keep_apply _ _ b l).trans ((hostSum_apply x _ _ _ b l).trans ?_)
    rw [constant_apply, Ideal.ofBits_zero_f32, zero_add]
  · exact broadcastInDim_scalar_apply _ _ _

/-- An array with its mean over the last axis subtracted. -/
def centred (T : FVec Ideal S1024x200x128 .f32) : FVec Ideal S1024x200x128 .f32 :=
  subf T (broadcastInDim S1024x200x128 ![0, 1, 2] Facts₀.bcast_S1024x200x1_S1024x200x128_0_1_2 (refMean T))

theorem centred_apply (T : FVec Ideal S1024x200x128 .f32) (b : Fin 1024) (l : Fin 200) (k : Fin 128) :
    centred T (ix3 b l k) = Spec.cen (fun k' => T (ix3 b l k')) k := by
  unfold centred
  rw [subf_apply, lanes_apply, refMean_apply]
  rfl

/-- The reference's arithmetic after the lookup, on any 1024 x 200 x 128 array. -/
def normForm (T : FVec Ideal S1024x200x128 .f32) (gam bet : FVec Ideal S128 .f32) : FVec Ideal S1024x200x128 .f32 :=
  addf (mulf
      (Host.divf (centred T)
        (broadcastInDim S1024x200x128 ![0, 1, 2] Facts₀.bcast_S1024x200x1_S1024x200x128_0_1_2
          (Host.sqrt (addf (refMean (mulf (centred T) (centred T)))
            (broadcastInDim S1024x200x1 ![] Facts₀.bcast_S_S1024x200x1 (constant (F := Ideal) S_ .f32 0x3727C5AC#32))))))
      (broadcastInDim S1024x200x128 ![0, 1, 2] Facts₀.bcast_S1x1x128_S1024x200x128_0_1_2
        (broadcastInDim S1x1x128 ![2] Facts₀.bcast_S128_S1x1x128_2 gam)))
    (broadcastInDim S1024x200x128 ![0, 1, 2] Facts₀.bcast_S1x1x128_S1024x200x128_0_1_2
      (broadcastInDim S1x1x128 ![2] Facts₀.bcast_S128_S1x1x128_2 bet))

/-- The reference's result is that arithmetic on the looked-up rows. -/
theorem refOut_eq (ids : IVec S1024x200 32) (tbl : FVec Ideal S100000x128 .f32) (gam bet : FVec Ideal S128 .f32) :
    RefTerm.refOut (F := Ideal) ids tbl gam bet = normForm (RefTerm.take tbl ids) gam bet := rfl

/-- That arithmetic at (b, l, k): the normalised entry k, division-by-square-root form, of row (b, l). -/
theorem normForm_apply (T : FVec Ideal S1024x200x128 .f32) (gam bet : FVec Ideal S128 .f32) (b : Fin 1024) (l : Fin 200) (k : Fin 128) :
    normForm T gam bet (ix3 b l k) = Spec.lnR (fun k' => T (ix3 b l k')) (gam (ix1 k)) (bet (ix1 k)) k := by
  unfold normForm
  rw [addf_apply, mulf_apply, vec_apply, vec_apply, hdivf_apply, centred_apply, lanes_apply, hsqrt_apply, addf_apply,
    refMean_apply, broadcastInDim_scalar_apply, constant_apply]
  have hs : (∑ k' : Fin 128, mulf (centred T) (centred T) (ix3 b l k'))
      = ∑ k' : Fin 128, Spec.cen (fun k'' => T (ix3 b l k'')) k' * Spec.cen (fun k'' => T (ix3 b l k'')) k' :=
    Finset.sum_congr rfl fun k' _ => by rw [mulf_apply, centred_apply]
  rw [hs]
  rfl

/-- THE REFERENCE'S RESULT AT (b, l, k), every index word in [0, 99999]: the normalised entry k (division-by-square-root
    form) of the table row that the index word (b, l) names. -/
theorem refOut_apply (ids : IVec S1024x200 32) (tbl : FVec Ideal S100000x128 .f32) (gam bet : FVec Ideal S128 .f32)
    (hr : ∀ i, IntOp.andi (IntOp.cmpi .sge (ids i) 0#32) (IntOp.cmpi .sle (ids i) 99999#32) = 1#1)
    (b : Fin 1024) (l : Fin 200) (k : Fin 128) :
    RefTerm.refOut (F := Ideal) ids tbl gam bet (ix3 b l k)
      = Spec.lnR (fun k' => tbl (ix2 (n0 := 100000) (n1 := 128) ⟨(ids (ix2 b l)).toNat % 100000, Nat.mod_lt _ (by decide)⟩ k'))
          (gam (ix1 k)) (bet (ix1 k)) k := by
  rw [refOut_eq, normForm_apply]
  exact congrArg (fun x => Spec.lnR x (gam (ix1 k)) (bet (ix1 k)) k) (funext fun k' => take_apply tbl ids hr b l k')

end Cert.Proof.RefG

end
-- ==== Proof.Bridge.lean ====
/-
  The two programs' results agree at the ideal instance under the input precondition. At every index (b, l, k) both are
  the normalised entry k of the table row the index word (b, l) names — the kernel's in reciprocal-square-root form, the
  reference's in division-by-square-root form — and on a row of real numbers, which the precondition makes every row of the
  table, the two forms agree.
-/
import proofs.«206674_g54314156425426_cont_9to1_m_1126_27_alg».proof.Proof.PreFacts
import proofs.«206674_g54314156425426_cont_9to1_m_1126_27_alg».proof.Proof.KernelG
import proofs.«206674_g54314156425426_cont_9to1_m_1126_27_alg».proof.Proof.RefG

noncomputable section

namespace Cert.Proof.Bridge

open Idealize.ShloMosaic Idealize.ShloMosaic.ValueIdx
open Cert.Proof

theorem out_eq
    (ids : IVec Cert.KernelIdeal.S1024x200 32) (tbl : FVec Ideal Cert.KernelIdeal.S100000x128 .f32) (gam bet : FVec Ideal Cert.KernelIdeal.S128 .f32)
    (h : Cert.Pre_input_domain.fn (F := Ideal) ids tbl gam bet = fun _ => 1#1) :
    Cert.KernelIdeal.KSpec.out (F := Ideal) ids tbl gam bet = Cert.ReferenceIdeal.RefTerm.refOut (F := Ideal) ids tbl gam bet := by
  funext i
  obtain ⟨b, l, k, rfl⟩ : ∃ (b : Fin 1024) (l : Fin 200) (k : Fin 128), i = ix3 b l k := ⟨i 0, i 1, i 2, eq_ix3 i⟩
  rw [KernelG.out_apply, RefG.refOut_apply ids tbl gam bet (PreFacts.split ids tbl gam bet h).2.2.2]
  exact Spec.lnK_eq_lnR _ (fun k' => PreFacts.tbl_real ids tbl gam bet h _) _ _ _

end Cert.Proof.Bridge

end
-- ==== Proof.RefRun.lean ====
/-
  The reference program's run, read back.

  The reference's @main is a straight line of 52 host operations once its one call is unfolded: the 23 operations of
  jnp.take (the wrap of negative indices with jnp.where's select inlined, the range test, the gather, the NaN fill),
  then the 29 of the layer normalisation and the affine map. Each operation reads whole buffers and writes one whole
  buffer of its own, so every weakly fair execution terminates with each buffer at the composed value of the operations
  that lead to it; at the result buffer that value is `RefTerm.refOut` of the four arguments' launch contents, and no
  operation writes an argument buffer.
-/
import proofs.«206674_g54314156425426_cont_9to1_m_1126_27_alg».proof.Proof.RefTerm
import Idealize.ShloMosaic.Lib.StableHlo.Run
import Idealize.ShloMosaic.PureOps.Ideal

noncomputable section

namespace Cert.ReferenceIdeal.RefRun

open Cert.ReferenceIdeal Cert.ReferenceIdeal.Facts₀ Idealize.ShloMosaic Idealize.ShloMosaic.TcCoe Idealize.SL.Sem
  Idealize.ShloMosaic.StableHlo

variable {F : FTy → Type} [FloatOps F]

/-- @main's 52 operations in order, the call of jnp.take (and, inside it, of jnp.where) unfolded at its site over the
    call's own buffers: first the 23 of the lookup, then the 29 of the normalisation. -/
abbrev ops : List (HloOp τ sig (Elt F)) :=
  [
    TRef.nullary main_call0.c (constantI S_ 32 0#32),
    TRef.unary main_call0.c main_call0.v0 (broadcastInDim S1024x200 ![] Facts₀.bcast_S_S1024x200),
    TRef.binary (.of main_arg0 : TRef sig ⟨S1024x200, .i32⟩) main_call0.v0 main_call0.v1 (cmpi .slt),
    TRef.nullary main_call0.c_0 (constantI S_ 32 100000#32),
    TRef.unary main_call0.c_0 main_call0.v2 (broadcastInDim S1024x200 ![] Facts₀.bcast_S_S1024x200),
    TRef.binary (.of main_arg0 : TRef sig ⟨S1024x200, .i32⟩) main_call0.v2 main_call0.v3 addi,
    TRef.ternary main_call0.v1 main_call0.v3 (.of main_arg0 : TRef sig ⟨S1024x200, .i32⟩) main_call0.call0.v0 select,
    TRef.unary main_call0.call0.v0 main_call0.v5 (broadcastInDim S1024x200x1 ![0, 1] Facts₀.bcast_S1024x200_S1024x200x1_0_1),
    TRef.nullary main_call0.c_1 (constantI S1 32 99999#32),
    TRef.nullary main_call0.c_2 (constantI S_ 32 0#32),
    TRef.unary main_call0.c_2 main_call0.v6 (broadcastInDim S1024x200x1 ![] Facts₀.bcast_S_S1024x200x1),
    TRef.binary main_call0.v5 main_call0.v6 main_call0.v7 (cmpi .sge),
    TRef.unary main_call0.c_1 main_call0.v8 (broadcastInDim S1x1x1 ![2] Facts₀.bcast_S1_S1x1x1_2),
    TRef.unary main_call0.v8 main_call0.v9 (broadcastInDim S1024x200x1 ![0, 1, 2] Facts₀.bcast_S1x1x1_S1024x200x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v Facts₀.reducesTo_S1024x200x1_S1024x200_d2 Facts₀.h_S_),
    TRef.binary (.of main_arg1 : TRef sig ⟨S100000x128, .f32⟩) main_call0.v5 main_call0.v13 (fun x i => Host.gather gather_S100000x128_S1024x200x1_S1024x200x128_2_0_n_n_0_2_1128 x i),
    TRef.unary main_call0.v12 main_call0.v14 (broadcastInDim S1024x200x128 ![0, 1] Facts₀.bcast_S1024x200_S1024x200x128_0_1),
    TRef.nullary main_call0.cst (constant S_ .f32 0x7FC00000#32),
    TRef.unary main_call0.cst main_call0.v15 (broadcastInDim S1024x200x128 ![] Facts₀.bcast_S_S1024x200x128),
    TRef.ternary main_call0.v14 main_call0.v13 main_call0.v15 main_call0.v16 select,
    nullary main_cst (constant S_ .f32 0x00000000#32),
    binary main_v0 main_cst main_v1 ((fun x v => Host.reduceAdd x v Facts₀.reducesTo_S1024x200x128_S1024x200_d2 Facts₀.h_S_) : (⟨S1024x200x128, .f32⟩ : BufTy).Contents (Elt F) → (⟨S_, .f32⟩ : BufTy).Contents (Elt F) → (⟨S1024x200, .f32⟩ : BufTy).Contents (Elt F)),
    unary main_v1 main_v2 (broadcastInDim S1024x200x1 ![0, 1] Facts₀.bcast_S1024x200_S1024x200x1_0_1 : (⟨S1024x200, .f32⟩ : BufTy).Contents (Elt F) → (⟨S1024x200x1, .f32⟩ : BufTy).Contents (Elt F)),
    nullary main_cst_0 (constant S_ .f32 0x43000000#32),
    unary main_cst_0 main_v3 (broadcastInDim S1024x200x1 ![] Facts₀.bcast_S_S1024x200x1 : (⟨S_, .f32⟩ : BufTy).Contents (Elt F) → (⟨S1024x200x1, .f32⟩ : BufTy).Contents (Elt F)),
    binary main_v2 main_v3 main_v4 (Host.divf : (⟨S1024x200x1, .f32⟩ : BufTy).Contents (Elt F) → (⟨S1024x200x1, .f32⟩ : BufTy).Contents (Elt F) → (⟨S1024x200x1, .f32⟩ : BufTy).Contents (Elt F)),
    unary main_v4 main_v5 (broadcastInDim S1024x200x128 ![0, 1, 2] Facts₀.bcast_S1024x200x1_S1024x200x128_0_1_2 : (⟨S1024x200x1, .f32⟩ : BufTy).Contents (Elt F) → (⟨S1024x200x128, .f32⟩ : BufTy).Contents (Elt F)),
    binary main_v0 main_v5 main_v6 (subf : (⟨S1024x200x128, .f32⟩ : BufTy).Contents (Elt F) → (⟨S1024x200x128, .f32⟩ : BufTy).Contents (Elt F) → (⟨S1024x200x128, .f32⟩ : BufTy).Contents (Elt F)),
    binary main_v6 main_v6 main_v7 (mulf : (⟨S1024x200x128, .f32⟩ : BufTy).Contents (Elt F) → (⟨S1024x200x128, .f32⟩ : BufTy).Contents (Elt F) → (⟨S1024x200x128, .f32⟩ : BufTy).Contents (Elt F)),
    nullary main_cst_1 (constant S_ .f32 0x00000000#32),
    binary main_v7 main_cst_1 main_v8 ((fun x v => Host.reduceAdd x v Facts₀.reducesTo_S1024x200x128_S1024x200_d2 Facts₀.h_S_) : (⟨S1024x200x128, .f32⟩ : BufTy).Contents (Elt F) → (⟨S_, .f32⟩ : BufTy).Contents (Elt F) → (⟨S1024x200, .f32⟩ : BufTy).Contents (Elt F)),
    unary main_v8 main_v9 (broadcastInDim S1024x200x1 ![0, 1] Facts₀.bcast_S1024x200_S1024x200x1_0_1 : (⟨S1024x200, .f32⟩ : BufTy).Contents (Elt F) → (⟨S1024x200x1, .f32⟩ : BufTy).Contents (Elt F)),
    nullary main_cst_2 (constant S_ .f32 0x43000000#32),
    unary main_cst_2 main_v10 (broadcastInDim S1024x200x1 ![] Facts₀.bcast_S_S1024x200x1 : (⟨S_, .f32⟩ : BufTy).Contents (Elt F) → (⟨S1024x200x1, .f32⟩ : BufTy).Contents (Elt F)),
    binary main_v9 main_v10 main_v11 (Host.divf : (⟨S1024x200x1, .f32⟩ : BufTy).Contents (Elt F) → (⟨S1024x200x1, .f32⟩ : BufTy).Contents (Elt F) → (⟨S1024x200x1, .f32⟩ : BufTy).Contents (Elt F)),
    unary main_v4 main_v12 (broadcastInDim S1024x200x128 ![0, 1, 2] Facts₀.bcast_S1024x200x1_S1024x200x128_0_1_2 : (⟨S1024x200x1, .f32⟩ : BufTy).Contents (Elt F) → (⟨S1024x200x128, .f32⟩ : BufTy).Contents (Elt F)),
    binary main_v0 main_v12 main_v13 (subf : (⟨S1024x200x128, .f32⟩ : BufTy).Contents (Elt F) → (⟨S1024x200x128, .f32⟩ : BufTy).Contents (Elt F) → (⟨S1024x200x128, .f32⟩ : BufTy).Contents (Elt F)),
    nullary main_cst_3 (constant S_ .f32 0x3727C5AC#32),
    unary main_cst_3 main_v14 (broadcastInDim S1024x200x1 ![] Facts₀.bcast_S_S1024x200x1 : (⟨S_, .f32⟩ : BufTy).Contents (Elt F) → (⟨S1024x200x1, .f32⟩ : BufTy).Contents (Elt F)),
    binary main_v11 main_v14 main_v15 (addf : (⟨S1024x200x1, .f32⟩ : BufTy).Contents (Elt F) → (⟨S1024x200x1, .f32⟩ : BufTy).Contents (Elt F) → (⟨S1024x200x1, .f32⟩ : BufTy).Contents (Elt F)),
    unary main_v15 main_v16 (Host.sqrt : (⟨S1024x200x1, .f32⟩ : BufTy).Contents (Elt F) → (⟨S1024x200x1, .f32⟩ : BufTy).Contents (Elt F)),
    unary main_v16 main_v17 (broadcastInDim S1024x200x128 ![0, 1, 2] Facts₀.bcast_S1024x200x1_S1024x200x128_0_1_2 : (⟨S1024x200x1, .f32⟩ : BufTy).Contents (Elt F) → (⟨S1024x200x128, .f32⟩ : BufTy).Contents (Elt F)),
    binary main_v13 main_v17 main_v18 (Host.divf : (⟨S1024x200x128, .f32⟩ : BufTy).Contents (Elt F) → (⟨S1024x200x128, .f32⟩ : BufTy).Contents (Elt F) → (⟨S1024x200x128, .f32⟩ : BufTy).Contents (Elt F)),
    unary main_arg2 main_v19 (broadcastInDim S1x1x128 ![2] Facts₀.bcast_S128_S1x1x128_2 : (⟨S128, .f32⟩ : BufTy).Contents (Elt F) → (⟨S1x1x128, .f32⟩ : BufTy).Contents (Elt F)),
    unary main_v19 main_v20 (broadcastInDim S1024x200x128 ![0, 1, 2] Facts₀.bcast_S1x1x128_S1024x200x128_0_1_2 : (⟨S1x1x128, .f32⟩ : BufTy).Contents (Elt F) → (⟨S1024x200x128, .f32⟩ : BufTy).Contents (Elt F)),
    binary main_v18 main_v20 main_v21 (mulf : (⟨S1024x200x128, .f32⟩ : BufTy).Contents (Elt F) → (⟨S1024x200x128, .f32⟩ : BufTy).Contents (Elt F) → (⟨S1024x200x128, .f32⟩ : BufTy).Contents (Elt F)),
    unary main_arg3 main_v22 (broadcastInDim S1x1x128 ![2] Facts₀.bcast_S128_S1x1x128_2 : (⟨S128, .f32⟩ : BufTy).Contents (Elt F) → (⟨S1x1x128, .f32⟩ : BufTy).Contents (Elt F)),
    unary main_v22 main_v23 (broadcastInDim S1024x200x128 ![0, 1, 2] Facts₀.bcast_S1x1x128_S1024x200x128_0_1_2 : (⟨S1x1x128, .f32⟩ : BufTy).Contents (Elt F) → (⟨S1024x200x128, .f32⟩ : BufTy).Contents (Elt F)),
    binary main_v21 main_v23 main_v24 (addf : (⟨S1024x200x128, .f32⟩ : BufTy).Contents (Elt F) → (⟨S1024x200x128, .f32⟩ : BufTy).Contents (Elt F) → (⟨S1024x200x128, .f32⟩ : BufTy).Contents (Elt F)) ]

-- fifty-two binds re-associated: the rewrite under the chain recurses once per statement
set_option maxRecDepth 2048 in
/-- @main is that straight line: the two functions' definitions unfolded at their calls, both sides are one chain of
    `hlo` steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., nullary_bufs_sub ..,
    binary_bufs_sub .., unary_bufs_sub .., nullary_bufs_sub .., unary_bufs_sub .., binary_bufs_sub .., unary_bufs_sub ..,
    binary_bufs_sub .., binary_bufs_sub .., nullary_bufs_sub .., binary_bufs_sub .., unary_bufs_sub .., nullary_bufs_sub ..,
    unary_bufs_sub .., binary_bufs_sub .., unary_bufs_sub .., binary_bufs_sub .., nullary_bufs_sub .., unary_bufs_sub ..,
    binary_bufs_sub .., unary_bufs_sub .., unary_bufs_sub .., binary_bufs_sub .., unary_bufs_sub .., unary_bufs_sub ..,
    binary_bufs_sub .., unary_bufs_sub .., unary_bufs_sub .., binary_bufs_sub ..⟩

/-- For any float values, from any memory with zero counters: every weakly fair execution of @main terminates, and
    every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

attribute [local irreducible] Host.reduce Host.gather Host.reduceAdd in
set_option maxRecDepth 8192 in
set_option maxHeartbeats 2000000 in
/-- The fold at the result buffer is `RefTerm.refOut` of the arguments' contents. Each operation's result at its own
    buffer is its function's value at its operands' contents, and at any other buffer what was there: rewriting so from
    the last operation inwards leaves the operations composed, which is `refOut`'s body `let` by `let` (the typed
    references' casts are the identity at these literal references). The reductions and the gather are kept folded
    meanwhile: the two sides agree on their arguments, and their bodies are folds and searches over
    every element of the operand, which must not be opened to see it. -/
theorem out_eq (V : Valuation τ sig (Elt F)) :
    after ops V (main_v24 : DevRef τ sig)
      = RefTerm.refOut (V (main_arg0 : DevRef τ sig)) (V (main_arg1 : DevRef τ sig)) (V (main_arg2 : DevRef τ sig))
          (V (main_arg3 : DevRef τ sig)) := by
  after_results_simp
  rfl

/-- No operation writes an argument buffer: each keeps its contents. -/
theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

/-- At the ideal instance, from any memory with zero counters: every weakly fair execution of the reference's @main
    terminates with the result buffer at `RefTerm.refOut` of the four arguments' launch contents and the arguments
    unchanged. -/
theorem run (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v24)
            = Cert.ReferenceIdeal.RefTerm.refOut (F := Ideal)
                (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
                (m ((c.tc : Thread Cert.ReferenceIdeal.nD Cert.ReferenceIdeal.τ).loc Cert.ReferenceIdeal.main_arg2))
                (m ((c.tc : Thread Cert.ReferenceIdeal.nD Cert.ReferenceIdeal.τ).loc Cert.ReferenceIdeal.main_arg3))
        ∧ r.2.mem ((c.tc : Thread _ _).loc Cert.ReferenceIdeal.main_arg0) = m ((c.tc : Thread _ _).loc Cert.ReferenceIdeal.main_arg0)
        ∧ r.2.mem ((c.tc : Thread _ _).loc Cert.ReferenceIdeal.main_arg1) = m ((c.tc : Thread _ _).loc Cert.ReferenceIdeal.main_arg1)
        ∧ r.2.mem ((c.tc : Thread _ _).loc Cert.ReferenceIdeal.main_arg2) = m ((c.tc : Thread _ _).loc Cert.ReferenceIdeal.main_arg2)
        ∧ r.2.mem ((c.tc : Thread _ _).loc Cert.ReferenceIdeal.main_arg3) = m ((c.tc : Thread _ _).loc Cert.ReferenceIdeal.main_arg3)) :=
  (θ_run defs _ _).mono (fun _ h c => ⟨(h c main_v24).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c))⟩)
    (run_main m g)

end Cert.ReferenceIdeal.RefRun

end
-- ==== Proof.Common.lean ====
/-
  The set-up shared by the proof of the kernel program's run: the program as the launch theorem for a program with
  SparseCore kernels sees it, the ghost state (the launch handshakes' rounds, the first kernel's staging cells'
  rounds, the transfers' counters), the contents of the program's arrays as pure functions of the launch memory, and
  what each of the 32 workers is handed and hands back.

  Worker (c, i) — vector subcore i of SparseCore c — has number w = 2 i + c. It is handed row w of the regrouped
  indices, a read share of the whole normalised table, and rows 6400 w … 6400 w + 6399 of the output at any contents;
  it hands the same back with its output rows holding, at every position, the row of the normalised table the index at
  that position names.
-/
import proofs.«206674_g54314156425426_cont_9to1_m_1126_27_alg».proof.Proof.KSpec
import proofs.«206674_g54314156425426_cont_9to1_m_1126_27_alg».proof.Proof.Gen.KernelIdeal.Launch
import proofs.«206674_g54314156425426_cont_9to1_m_1126_27_alg».proof.Proof.Gen.KernelIdeal.Points
import Idealize.ShloMosaic.Lib.SparseCore.Launch
import Idealize.ShloMosaic.Lib.StableHlo.Run
import Idealize.ShloMosaic.Lib.Pipeline.Kit
import Idealize.ShloMosaic.Lib.Tactic

noncomputable section

namespace Cert.KernelIdeal.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the staging cells' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds: the left factor. -/
abbrev EH : Emb UH (MT nD τ sig (HIx 1) (Elt F) ℕ UU ℕ) := embL
/-- The staging cells' rounds: the left factor of the right factor (the counters, its right factor, are found by instance). -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP 𝕄).LandsIn (upEmb : UEmb _ 𝕄) := by unfold EP; infer_instance

/-! ## The launch memory, the arrays and their contents -/

variable (m : (ℓ : Loc nD τ sig) → Buf (Elt F) ℓ) (ρ : Dev nD → PrngReg)

abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev a3Loc (d : Dev nD) : Loc nD τ sig := (SparseCore.T d).loc main_arg3
abbrev v0Loc (d : Dev nD) : Loc nD τ sig := (SparseCore.T d).loc main_v0
abbrev v1Loc (d : Dev nD) : Loc nD τ sig := (SparseCore.T d).loc main_v1
abbrev v2Loc (d : Dev nD) : Loc nD τ sig := (SparseCore.T d).loc main_v2
abbrev v3Loc (d : Dev nD) : Loc nD τ sig := (SparseCore.T d).loc main_v3
abbrev v4Loc (d : Dev nD) : Loc nD τ sig := (SparseCore.T d).loc main_v4
abbrev v5Loc (d : Dev nD) : Loc nD τ sig := (SparseCore.T d).loc main_v5

variable [FloatOps F]

/-- The regrouped indices (the contents of the 32 x 6400 array once the host has written it). -/
def IDS (d : Dev nD) : Buf (Elt F) (v0Loc d) := KSpec.idsRows (m (a0Loc d))
/-- The scale and the shift as rows. -/
def GAM (d : Dev nD) : Buf (Elt F) (v1Loc d) := KSpec.asRow (F := F) (m (a2Loc d))
def BET (d : Dev nD) : Buf (Elt F) (v2Loc d) := KSpec.asRow (F := F) (m (a3Loc d))
/-- The normalised table (the contents of the first kernel's result once it has run). -/
def NRM (d : Dev nD) : Buf (Elt F) (v3Loc d) := KSpec.normed (F := F) (m (a1Loc d)) (GAM m d) (BET m d)
/-- The gathered rows (the contents of the second kernel's result once it has run). -/
def GOUT (d : Dev nD) : Buf (Elt F) (v4Loc d) := KSpec.gathered (F := F) (IDS m d) (NRM m d)
/-- The program's result. -/
def RES (d : Dev nD) : Buf (Elt F) (v5Loc d) := KSpec.out (F := F) (m (a0Loc d)) (m (a1Loc d)) (m (a2Loc d)) (m (a3Loc d))

/-! ## The workers, their rows -/

/-- Worker (c, i)'s number: 2 i + c. -/
def wid (c : Fin ((K (F := F)).nCore 0)) (i : Fin ((K (F := F)).nSub 0)) : Fin 32 :=
  ⟨2 * i.val + c.val, by have hc : c.val < 2 := c.isLt; have hi : i.val < 16 := i.isLt; omega⟩

theorem hdivI : 32 ∣ S32x6400.size 0 := ⟨1, rfl⟩
theorem hdivO : 32 ∣ S204800x128.size 0 := ⟨6400, rfl⟩

/-- Row w of the regrouped indices, as a set of positions of the 32 x 6400 array. -/
abbrev idsRowSet (w : Fin 32) : Finset S32x6400.Idx :=
  ((Memref.whole main_v0_scv : Memref sig .scVector .hbm S32x6400 .i32).view.slice (Rect.part (s := S32x6400) (a₀ := 0) hdivI w)).set
/-- Rows 6400 w … 6400 w + 6399 of the output, as a set of positions of the 204800 x 128 array. -/
abbrev outRowsSet (w : Fin 32) : Finset S204800x128.Idx :=
  ((Memref.whole main_v4_scv : Memref sig .scVector .hbm S204800x128 .f32).view.slice (Rect.part (s := S204800x128) (a₀ := 0) hdivO w)).set

/-- Worker w's row of the indices, at the regrouped contents; -/
abbrev idsRowPts (d : Dev nD) (w : Fin 32) : sProp 𝕄 := v0Loc d ↦[idsRowSet w]{fullShare} IDS m d
/-- its read share of the normalised table (one of 32 tokens split off the full share); -/
abbrev nrmTok (d : Dev nD) (w : Fin 32) : sProp 𝕄 := v3Loc d ↦{Transfers.shareTok fullShare 32 w} NRM m d
/-- its rows of the output, at contents f. -/
abbrev outRowsPts (d : Dev nD) (w : Fin 32) (f : Buf (Elt F) (v4Loc d)) : sProp 𝕄 := v4Loc d ↦[outRowsSet w]{fullShare} f

/-- What worker w is handed, -/
def goW (d : Dev nD) (w : Fin 32) : sProp 𝕄 := iprop(idsRowPts m d w ∗ nrmTok m d w ∗ ∃ f, outRowsPts d w f)
/-- and what it hands back: its output rows at the gathered contents. -/
def tdW (d : Dev nD) (w : Fin 32) : sProp 𝕄 := iprop(idsRowPts m d w ∗ nrmTok m d w ∗ outRowsPts d w (GOUT m d))

instance goW_storable (d : Dev nD) (w : Fin 32) : BI.Storable (upEmb : UEmb _ 𝕄) (goW m d w) := by unfold goW; infer_instance
instance tdW_storable (d : Dev nD) (w : Fin 32) : BI.Storable (upEmb : UEmb _ 𝕄) (tdW m d w) := by unfold tdW; infer_instance

/-- The one SparseCore call: a SparseCore takes its sixteen workers' holdings and gives their results back. -/
def P : (K (F := F)).Pay (nD := nD) (Val := Elt F) (Name := ℕ) (U := UU) where
  st := fun q d c => match q with | 0 => bigSep Finset.univ fun i : Fin ((K (F := F)).nSub 0) => goW m d (wid c i)
  dn := fun q d c => match q with | 0 => bigSep Finset.univ fun i : Fin ((K (F := F)).nSub 0) => tdW m d (wid c i)
  go := fun q d c i => match q with | 0 => goW m d (wid c i)
  td := fun q d c i => match q with | 0 => tdW m d (wid c i)
  x := fun _ _ => iprop(emp)

instance P_storable : (P (F := F) m).IsStorable where
  st q d c := match q with | 0 => (inferInstance : BI.Storable (upEmb : UEmb _ 𝕄) (bigSep Finset.univ fun i : Fin ((K (F := F)).nSub 0) => goW m d (wid c i)))
  dn q d c := match q with | 0 => (inferInstance : BI.Storable (upEmb : UEmb _ 𝕄) (bigSep Finset.univ fun i : Fin ((K (F := F)).nSub 0) => tdW m d (wid c i)))
  go q d c i := match q with | 0 => (inferInstance : BI.Storable (upEmb : UEmb _ 𝕄) (goW m d (wid c i)))
  td q d c i := match q with | 0 => (inferInstance : BI.Storable (upEmb : UEmb _ 𝕄) (tdW m d (wid c i)))

/-! ## A worker at its grid coordinates -/

/-- The SparseCore and the vector subcore of the worker at grid coordinates L, -/
abbrev cV (L : grid1.Coords) : Fin τ.nSC := (L 0).castLE hcore1
abbrev jV (L : grid1.Coords) : Fin τ.nSub := (L 1).castLE hsub1
/-- and its number, 2 (L 1) + (L 0). -/
def widL (L : grid1.Coords) : Fin 32 :=
  ⟨2 * (L 1).val + (L 0).val, by have h0 : (L 0).val < 2 := (L 0).isLt; have h1 : (L 1).val < 16 := (L 1).isLt; omega⟩

/-- Grid coordinates from a SparseCore and a vector subcore of the grid. -/
def coordsV (c : Fin (grid1.bound 0)) (s : Fin (grid1.bound 1)) : grid1.Coords :=
  fun | 0 => c | 1 => s | ⟨_ + 2, h⟩ => absurd h (Nat.not_lt.2 (Nat.le_add_left _ _))

/-- What the workers' proof asks of the launch memory: every regrouped index names a row of the table. -/
def PreOK : Prop := ∀ (d : Dev nD) (j : S32x6400.Idx), (IDS m d j).toNat < 100000

end Cert.KernelIdeal.KI

end
-- ==== Proof.TcBody.lean ====
/-
  The first kernel's body, one grid point: it loads a block of 10000 rows of the table and the scale and shift rows,
  and stores the block normalised. Whatever the output's staging buffer held, after the body it holds the payload of
  the three loads, everywhere (the one store covers the buffer); the inputs' buffers are as they were.
-/
import proofs.«206674_g54314156425426_cont_9to1_m_1126_27_alg».proof.Proof.Common
import Idealize.ShloMosaic.Lib.Pipeline.FrameBody
import Idealize.ShloMosaic.Lib.Ring
import Idealize.ShloMosaic.Lib.Tactic

set_option maxRecDepth 16384

noncomputable section

namespace Cert.KernelIdeal.KI

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- The whole block, and the whole row: the rectangles the body loads and stores through. -/
abbrev rBlk : Rect S10000x128 := Rect.unit (s := S10000x128) ![0, 0] S10000x128.size Facts₀.inb_S10000x128_S10000x128_0_0
abbrev rRow : Rect S1x128 := Rect.unit (s := S1x128) ![0, 0] S1x128.size Facts₀.inb_S1x128_S1x128_0_0

/-- The output's staging buffer after the body, from the three input blocks: its one store as a piece. -/
def lnOut (x0 : Vec F S10000x128 .f32) (x1 : Vec F S1x128 .f32) (x2 : Vec F S1x128 .f32) : Vec F S10000x128 .f32 :=
  View.canon [⟨rBlk, k0_pay1 (View.ld x0 rBlk) (View.ld x1 rRow) (View.ld x2 rRow)⟩]

/-- The store covers the buffer. -/
theorem lnCover (p0 : Vec F S10000x128 .f32) (y : S10000x128.Idx) :
    ∃ pc ∈ ([⟨rBlk, p0⟩] : List (View.Piece (Elt F) S10000x128 .f32)), y ∈ pc.1.set :=
  View.cover_of_tiled [⟨rBlk, p0⟩] S10000x128.size (by rfl) y

set_option maxHeartbeats 1000000 in
/-- The body on whole staging memrefs, the inputs' at contents x0, x1, x2 and the output's at anything, runs to the
    continuation holding the inputs' as they were and the output's at `lnOut` of them. -/
theorem sound_ln (c : Dev nD) (E : Set ℕ) (i : grid0.Coords)
    (arg1 : Memref sig .tc .vmem S10000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S10000x128 .f32) (harg4 : arg4.IsWhole)
    (x0 : Vec F S10000x128 .f32) (x1 : Vec F S1x128 .f32) (x2 : Vec F S1x128 .f32) (Kt : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (lnOut x0 x1 x2)) -∗ Kt ⟨⟩))
      ⊢ wp frame (wpE (defs₀ (F := F)) Variants.none c none) E (cc0__ln_body i arg1 harg1 arg2 harg2 arg3 harg3 arg4 harg4) Kt := by
  simp only [cc0__ln_body_eq_skeleton]; unfold cc0__ln_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (lnCover _)

end Cert.KernelIdeal.KI

end
-- ==== Proof.TcDat.lean ====
/-
  The first kernel's region, its proof data. When the region is entered the table is as launched, the scale and shift
  rows are the host's 1 x 128 views of the two vectors, and the result array holds what it was launched with. At grid
  point t the body finds block t of the table and the two rows in its input buffers and leaves, in the output's buffer,
  the payload of the three — which the pipeline writes back to rows 10000 t … 10000 t + 9999 of the result. The
  TensorCore owes, all through the region, the start signals of the SparseCore call that follows it.
-/
import proofs.«206674_g54314156425426_cont_9to1_m_1126_27_alg».proof.Proof.TcBody

set_option maxRecDepth 16384

noncomputable section

namespace Cert.KernelIdeal.KI

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ)

/-- The four windowed arrays when the region is entered. -/
def AE (c : Dev nD) : (w : Fin cfg0.W) → Buf (Elt F) ((cfg0.win w).arr.view.loc (c.tc : Thread nD τ))
  | ⟨0, _⟩ => m (a1Loc c)
  | ⟨1, _⟩ => GAM m c
  | ⟨2, _⟩ => BET m c
  | ⟨3, _⟩ => m (v3Loc c)

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (AE m c w)

/-- The pairs a wait of this thread may have recorded: those at the index of the kernels' own waits. -/
def recNone : Set (SemLoc sig × HIx 1) := {p | p.2 = none}

/-- The region's proof data on core c. -/
def dat0 (c : Dev nD) : Dat τ (Elt F) (HIx 1) ℕ UU ℕ cfg0 c where
  A w := AE m c w
  after w t := match w with
    | ⟨0, _⟩ => iblk m c 0 t
    | ⟨1, _⟩ => iblk m c 1 t
    | ⟨2, _⟩ => iblk m c 2 t
    | ⟨3, _⟩ => lnOut (iblk m c 0 t) (iblk m c 1 t) (iblk m c 2 t)
  Φ _ := iprop(emp)
  q _ := fullShare
  owed _ := (K (F := F)).Otc c 0
  recorded _ := recNone

theorem A_eq (c : Dev nD) (w : Fin cfg0.W) : (dat0 m c).A w = AE m c w := by dsimp only [dat0]
theorem after0_0 (c : Dev nD) (t : Fin cfg0.N) : (dat0 m c).after 0 t = iblk m c 0 t := by dsimp only [dat0]
theorem after0_1 (c : Dev nD) (t : Fin cfg0.N) : (dat0 m c).after 1 t = iblk m c 1 t := by dsimp only [dat0]
theorem after0_2 (c : Dev nD) (t : Fin cfg0.N) : (dat0 m c).after 2 t = iblk m c 2 t := by dsimp only [dat0]
theorem after0_3 (c : Dev nD) (t : Fin cfg0.N) : (dat0 m c).after 3 t = lnOut (iblk m c 0 t) (iblk m c 1 t) (iblk m c 2 t) := by dsimp only [dat0]

/-- Each input's current staging buffer holds its block at every point, fetched there or not. -/
theorem before0_0 (c : Dev nD) (t : Fin cfg0.N) (d) : (dat0 m c).before 0 t d = iblk m c 0 t :=
  ((dat0 m c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dat0 m c).before 1 t d = iblk m c 1 t :=
  ((dat0 m c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dat0 m c).before 2 t d = iblk m c 2 t :=
  ((dat0 m c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)

/-- What the body is called with at point t, the windows one by one, -/
def bodyPre (c : Dev nD) (t : Fin cfg0.N) : sProp 𝕄 :=
  iprop((dat0 m c).Φ t.castSucc ∗ (dat0 m c).owesAt none t.castSucc
    ∗ (∃ d, owns (c : Thread nD τ) (st0_0 t) fullShare ((dat0 m c).before 0 t d))
    ∗ (∃ d, owns (c : Thread nD τ) (st0_1 t) fullShare ((dat0 m c).before 1 t d))
    ∗ (∃ d, owns (c : Thread nD τ) (st0_2 t) fullShare ((dat0 m c).before 2 t d))
    ∗ (∃ d, owns (c : Thread nD τ) (st0_3 t) fullShare ((dat0 m c).before 3 t d)))

/-- and what it returns. -/
def bodyPost (c : Dev nD) (t : Fin cfg0.N) : sProp 𝕄 :=
  iprop((dat0 m c).Φ t.succ ∗ (dat0 m c).owesAt none t.succ
    ∗ owns (c : Thread nD τ) (st0_0 t) fullShare ((dat0 m c).after 0 t)
    ∗ owns (c : Thread nD τ) (st0_1 t) fullShare ((dat0 m c).after 1 t)
    ∗ owns (c : Thread nD τ) (st0_2 t) fullShare ((dat0 m c).after 2 t)
    ∗ owns (c : Thread nD τ) (st0_3 t) fullShare ((dat0 m c).after 3 t))

/-- The body at any point: the inputs' buffers hold their blocks, so `sound_ln` applies; the core's `owes` passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dat0 m c).Φ t.succ = (dat0 m c).Φ t.castSucc from rfl,
    show (dat0 m c).owesAt none t.succ = (dat0 m c).owesAt none t.castSucc from rfl,
    after0_0, after0_1, after0_2, after0_3]
  iintro ⟨HΦ, Ho, ⟨%d0, H0⟩, ⟨%d1, H1⟩, ⟨%d2, H2⟩, ⟨%d3, H3⟩⟩
  iapply (sound_ln c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat0 (F := F) m c) (defs₀ (F := F)) Variants.none none Set.univ := fun t => by
  rw [bigSep_W0, bigSep_W0]
  exact sound_body m c t

end Cert.KernelIdeal.KI

end
-- ==== Proof.TcValue.lean ====
/-
  What the first kernel's result array holds after its region: the normalised table. Grid point t writes back, to rows
  10000 t … 10000 t + 9999, the body's payload of block t of the table and of the scale and shift rows, which is those
  rows of the one whole-array function `NRM` (row r of it is row r mod 10000 of the payload on block r / 10000); the ten
  blocks cover the array. The three input arrays end as they were.
-/
import proofs.«206674_g54314156425426_cont_9to1_m_1126_27_alg».proof.Proof.TcDat
import Idealize.ShloMosaic.Lib.Pipeline.Value

set_option maxRecDepth 16384

noncomputable section

namespace Cert.KernelIdeal.KI

open Cert.KernelIdeal Cert.KernelIdeal.Gen
open Idealize.ShloMosaic Idealize.ShloMosaic.TcCoe Idealize.ShloMosaic.ValueIdx
open Idealize.ShloMosaic.SparseCore.Cfg (HIx)
open Idealize.SL.Sem
open Idealize.ShloMosaic.Pipeline (Dat)

variable {F : FTy → Type} [FloatOps F]
variable (m : (ℓ : Loc nD τ sig) → Buf (Elt F) ℓ)

theorem hz2 : (![0, 0] : Fin 2 → Nat) = fun _ => 0 := funext fun a => by fin_cases a <;> rfl

/-- The printed index maps, decided over the grid: the table's and the result's block index at point t is (t, 0), the
    two rows' is (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Every block row of the result is some point's. -/
theorem idx_onto : ∀ q : Fin 10, ∃ t : Fin cfg0.N, win0_3.index t = ![q.val, 0] :=
  (by decide +kernel : ∀ q : Fin 10, ∃ t : Fin grid0.N, win0_3.index t = ![q.val, 0])

theorem point_lt (t : Fin cfg0.N) : t.val < 10 := lt_of_lt_of_eq t.isLt N_0

/-- The table's block at point t is rows 10000 t … of the table. -/
theorem iblk0_eq (c : Dev nD) (t : Fin cfg0.N) : iblk m c 0 t = KSpec.tblBlock (F := F) (m (a1Loc c)) ⟨t.val, point_lt t⟩ := by
  obtain ⟨e00, e01, -⟩ := idx_facts t
  funext y
  show AE m c 0 (((cfg0.win 0).blk t).view.emb y) = m (a1Loc c) _
  refine congrArg (m (a1Loc c)) ?_
  funext a; apply Fin.ext
  match a with
  | ⟨0, _⟩ => show win0_0.index t (0 : Fin 2) * 10000 + 1 * (y 0).val = 10000 * t.val + (y 0).val; omega
  | ⟨1, _⟩ => show win0_0.index t (1 : Fin 2) * 128 + 1 * (y 1).val = (y 1).val; omega

/-- The scale's and the shift's block at any point is the whole row. -/
theorem iblk1_eq (c : Dev nD) (t : Fin cfg0.N) : iblk m c 1 t = GAM m c := by
  obtain ⟨-, -, e10, e11, -⟩ := idx_facts t
  funext y
  show GAM m c (((cfg0.win 1).blk t).view.emb y) = GAM m c y
  refine congrArg (GAM m c) ?_
  funext a; apply Fin.ext
  match a with
  | ⟨0, _⟩ => show win0_1.index t (0 : Fin 2) * 1 + 1 * (y 0).val = (y 0).val; omega
  | ⟨1, _⟩ => show win0_1.index t (1 : Fin 2) * 128 + 1 * (y 1).val = (y 1).val; omega
theorem iblk2_eq (c : Dev nD) (t : Fin cfg0.N) : iblk m c 2 t = BET m c := by
  obtain ⟨-, -, -, -, e20, e21, -⟩ := idx_facts t
  funext y
  show BET m c (((cfg0.win 2).blk t).view.emb y) = BET m c y
  refine congrArg (BET m c) ?_
  funext a; apply Fin.ext
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- What point t writes back is block t of the normalised table. -/
theorem flushed3_eq (c : Dev nD) (t : Fin cfg0.N) :
    (dat0 m c).flushed 3 t = ((cfg0.win 3).blk t).view.read (Elt F) (NRM m c) := by
  show (cfg0.win 3).cut (grid0.coords t) ((dat0 m c).after 3 t) = _
  rw [after0_3]
  unfold lnOut
  rw [View.canon_unit_zero hz2]
  simp only [View.ld_unit_zero (S := S10000x128) hz2, View.ld_unit_zero (S := S1x128) hz2]
  rw [iblk0_eq, iblk1_eq, iblk2_eq]
  obtain ⟨-, -, -, -, -, -, e30, e31⟩ := idx_facts t
  funext j
  show Gen.k0_pay1 (KSpec.tblBlock (F := F) (m (a1Loc c)) ⟨t.val, point_lt t⟩) (GAM m c) (BET m c) j = NRM m c (((cfg0.win 3).blk t).view.emb j)
  have hj0 : (j 0).val < 10000 := (j 0).isLt
  have hj1 : (j 1).val < 128 := (j 1).isLt
  have h0 : ((((cfg0.win 3).blk t).view.emb j) 0).val = t.val * 10000 + (j 0).val := by
    show win0_3.index t (0 : Fin 2) * 10000 + 1 * (j 0).val = _; omega
  have h1 : ((((cfg0.win 3).blk t).view.emb j) 1).val = (j 1).val := by
    show win0_3.index t (1 : Fin 2) * 128 + 1 * (j 1).val = _; omega
  have key : ∀ (q : Fin 10) (y : S10000x128.Idx), q = ⟨t.val, point_lt t⟩ → y = j →
      Gen.k0_pay1 (KSpec.tblBlock (F := F) (m (a1Loc c)) q) (GAM m c) (BET m c) y
        = Gen.k0_pay1 (KSpec.tblBlock (F := F) (m (a1Loc c)) ⟨t.val, point_lt t⟩) (GAM m c) (BET m c) j := by
    rintro q y rfl rfl; rfl
  unfold NRM KSpec.normed
  refine (key _ _ (Fin.ext ?_) ?_).symm
  · show ((((cfg0.win 3).blk t).view.emb j) 0).val / 10000 = t.val
    rw [h0]; omega
  · funext a
    match a with
    | ⟨0, _⟩ => exact Fin.ext (by show ((((cfg0.win 3).blk t).view.emb j) 0).val % 10000 = (j 0).val; rw [h0]; omega)
    | ⟨1, _⟩ => exact Fin.ext h1

/-- An index of the result is in point t's block iff each coordinate is in the block's range on its axis. -/
theorem mem_blk3 (t : Fin cfg0.N) (i : S100000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v3).slice (win0_3.rect t)).set ↔ _
  rw [View.set_slice_whole, Rect.mem_set_unit]
  exact Iff.rfl

/-- Every row of the result is in some point's block: the point whose number is the row's quotient by 10000. -/
theorem cover3 (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := idx_onto ⟨(i 0).val / 10000, by omega⟩
  have q0 : win0_3.index t (0 : Fin 2) = (i 0).val / 10000 := congrFun ht 0
  have q1 : win0_3.index t (1 : Fin 2) = 0 := congrFun ht 1
  refine ⟨t, flush0_3 t, ?_⟩
  rw [mem_blk3]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 128 ≤ (i 1).val ∧ (i 1).val < win0_3.index t (1 : Fin 2) * 128 + 128; omega

/-- The result array after the region is the normalised table; -/
theorem final3 (c : Dev nD) : (dat0 m c).arrAt 3 cfg0.N = NRM m c :=
  (dat0 m c).arrAt_eq_of_cover 3 (NRM m c) (fun t _ => flushed3_eq m c t) cover3

/-- the three inputs are as the region found them. -/
theorem final0 (c : Dev nD) : (dat0 m c).arrAt 0 cfg0.N = m (a1Loc c) := ((dat0 m c).arrAt_in 0 rfl _).trans (A_eq m c 0)
theorem final1 (c : Dev nD) : (dat0 m c).arrAt 1 cfg0.N = GAM m c := ((dat0 m c).arrAt_in 1 rfl _).trans (A_eq m c 1)
theorem final2 (c : Dev nD) : (dat0 m c).arrAt 2 cfg0.N = BET m c := ((dat0 m c).arrAt_in 2 rfl _).trans (A_eq m c 2)

end Cert.KernelIdeal.KI

end
-- ==== Proof.TcRegion.lean ====
/-
  The first kernel's region as a step of @main on the TensorCore. It is entered holding the table, the scale and shift
  rows and the result array, the TensorCore owing the start signals of the SparseCore call that follows (its waits so
  far all at the level of the kernels' own waits); it is left holding the same, the result array at the normalised
  table. The staging cells' waits sit at the lowest level, below everything the TensorCore owes.
-/
import proofs.«206674_g54314156425426_cont_9to1_m_1126_27_alg».proof.Proof.TcValue

set_option maxRecDepth 16384

noncomputable section

namespace Cert.KernelIdeal.KI

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig (HIx 1) (Elt F) ℕ UU ℕ

variable (m : (ℓ : Loc nD τ sig) → Buf (Elt F) ℓ)

abbrev adm : (p : Fin 1) → (pcfgs (F := F) p).Adm := fun p => (cfgs p).toPCfg_adm
def pdats : (p : Fin 1) → (c : Dev nD) → Dat τ (Elt F) (HIx 1) ℕ UU ℕ (Pipeline.pin (pcfgs (F := F)) adm p) c
  | 0 => dat0 m

/-- The TensorCore's dues are all at a call's index: none at the index of the kernels' own waits. -/
theorem Otc_none (c : Dev nD) (g : GSem nD τ sig) : (K (F := F)).Otc c 0 g none = 0 := by
  unfold SparseCore.Cfg.Otc
  simp [Finset.sum_apply, tallyAt_apply]

/-- A recorded pair at or below level 0 is at the index of the kernels' own waits, and conversely. -/
theorem lev_le_zero_iff (thr : Thread nD τ) (p : SemLoc sig × HIx 1) : (K (F := F)).lev (thr, p.1) p.2 ≤ 0 ↔ p.2 = none := by
  rcases p with ⟨sm, _ | q⟩
  · exact ⟨fun _ => rfl, fun _ => le_rfl⟩
  · constructor
    · intro h
      have h' : (K (F := F)).lev (thr, sm) (some q) ≤ 0 := h
      have hpos := (K (F := F)).lev_some_pos (thr, sm) q
      omega
    · intro h; cases h

/-- The four windowed arrays held whole, the result array at contents f. -/
def regArrs (c : Dev nD) (f : Buf (Elt F) (v3Loc c)) : sProp 𝕄 :=
  iprop((a1Loc c ↦{fullShare} m (a1Loc c)) ∗ (v1Loc c ↦{fullShare} GAM m c) ∗ (v2Loc c ↦{fullShare} BET m c) ∗ (v3Loc c ↦{fullShare} f))

/-- The TensorCore owing its launch dues, its recorded pairs at the lowest level. -/
def tcOwes (c : Dev nD) : sProp 𝕄 :=
  iprop(∃ W, ⌜(K (F := F)).WBelow (T c) W 0⌝ ∗ owes (T c) ((K (F := F)).Otc c 0) W)

theorem arrays_eq (c : Dev nD) (Fa) :
    ((pdats (F := F) m 0 c).arrays Fa : sProp 𝕄)
      = iprop((a1Loc c ↦{fullShare} Fa 0) ∗ (v1Loc c ↦{fullShare} Fa 1) ∗ (v2Loc c ↦{fullShare} Fa 2) ∗ (v3Loc c ↦{fullShare} Fa 3)) := by
  rw [Pipeline.arrays_eq (Pipeline.pin (pcfgs (F := F)) adm) (pdats m) 0 c launch0.arr_whole ((pdats m 0 c).share_full fun _ => rfl) Fa, bigSep_W0]

theorem arrAt0 (c : Dev nD) : (pdats (F := F) m 0 c).arrAt 0 (Pipeline.pin (pcfgs (F := F)) adm 0).N = m (a1Loc c) := final0 m c
theorem arrAt1 (c : Dev nD) : (pdats (F := F) m 0 c).arrAt 1 (Pipeline.pin (pcfgs (F := F)) adm 0).N = GAM m c := final1 m c
theorem arrAt2 (c : Dev nD) : (pdats (F := F) m 0 c).arrAt 2 (Pipeline.pin (pcfgs (F := F)) adm 0).N = BET m c := final2 m c
theorem arrAt3 (c : Dev nD) : (pdats (F := F) m 0 c).arrAt 3 (Pipeline.pin (pcfgs (F := F)) adm 0).N = NRM m c := final3 m c

/-- The region. -/
def reg0 : Pipeline.RegionSeg (pcfgs (F := F)) adm (pdats m) (none : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation m c).loose
  hwaits c := Pipeline.cellsWaits_intro _ (pdats m) (none : HIx 1) 0 c fun w s t => (K (F := F)).mayWait_none _ (Otc_none c)
  pre c := iprop(regArrs m c (m (v3Loc c)) ∗ tcOwes c)
  post c := iprop(regArrs m c (NRM m c) ∗ tcOwes c)
  X _ := iprop(emp)
  Y _ := iprop(emp)
  Z _ := iprop(emp)
  hentry c := by
    rw [Pipeline.ownSems0_none, arrays_eq]
    unfold regArrs tcOwes
    iintro ⟨⟨⟨H0, H1, H2, H3⟩, %W, %hW, HO⟩, -, -⟩
    imodintro
    isplitl [H0 H1 H2 H3]
    · isplitl [H0]; · iexact H0
      isplitl [H1]; · iexact H1
      isplitl [H2]; · iexact H2
      iexact H3
    isplitr; · unfold Pipeline.prefHeld; rw [show (Finset.univ : Finset (Fin 0)) = ∅ from rfl, BI.bigSep_empty]; iempintro
    isplitl [HO]
    · unfold Pipeline.Dat.owesAt Pipeline.owesWithin
      iexists W; isplitr
      · ipureintro; exact fun p hp => Or.inl ((lev_le_zero_iff (T c) p).mp (hW p hp))
      iexact HO
    isplitr <;> iempintro
  hin c := by iintro -; iempintro
  hout c := by
    rw [Pipeline.ownSems0_none, scopedRest0_eq]
    iintro -; isplitr; · iempintro
    isplitr <;> iempintro
  hexit c := by
    rw [arrays_eq, arrAt0, arrAt1, arrAt2, arrAt3]
    unfold regArrs tcOwes
    iintro ⟨⟨H0, H1, H2, H3⟩, HO, -, -⟩
    imodintro
    isplitl [H0 H1 H2 H3]
    · isplitl [H0]; · iexact H0
      isplitl [H1]; · iexact H1
      isplitl [H2]; · iexact H2
      iexact H3
    unfold Pipeline.Dat.owesAt Pipeline.owesWithin
    icases HO with ⟨%W, %hW, HO⟩
    iexists W; isplitr
    · ipureintro
      intro p hp
      refine (lev_le_zero_iff (T c) p).mpr ?_
      rcases hW hp with h | ⟨w, s, rfl⟩
      · exact h
      · rfl
    iexact HO

end Cert.KernelIdeal.KI

end
-- ==== Proof.LaunchObl.lean ====
/-
  The launch theorem's obligations for the one SparseCore call: a worker's task, from the statement of the body at a
  symbolic worker; how a SparseCore's holdings split among its sixteen workers (they are the workers' holdings,
  conjoined); and the launch element of the ghost state: the handshakes' rounds, the first kernel's staging cells'
  rounds and tokens per TensorCore, nothing for the workers (their transfers' counters are made as they go).
-/
import proofs.«206674_g54314156425426_cont_9to1_m_1126_27_alg».proof.Proof.TcRegion

noncomputable section

namespace Cert.KernelIdeal.KI

open Cert.KernelIdeal Cert.KernelIdeal.Gen
open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-! ## A worker's task -/

/-- The body's statement at a symbolic worker: from its holdings, its scoped storage and what it owes, the body runs
    to its results, the storage back, nothing more owed. -/
def TileBody : Prop :=
  ∀ (d : Dev nD) (L : grid1.Coords) (O : CellTallies nD τ sig (HIx 1)) (W : Waits sig (HIx 1)), (∀ g, O g none = 0) →
    iprop(levAts (K (F := F)).L (K (F := F)).lev ∗ emp ∗ goW m d (widL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_gather_body L (Memref.whole main_v0_scv) (Memref.isWhole_whole _) (Memref.whole main_v3_scv) (Memref.isWhole_whole _) (Memref.whole main_v4_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) cc1_scratch6 cc1_scratch7 cc1_scratch8 cc1_scratch9 cc1_scratch10 cc1_scratch11 cc1_scratch12 cc1_scratch13 cc1_scratch14 cc1_scratch15 cc1_scoped0)
          fun _ => iprop(tdW m d (widL L) ∗ scopedBufs (V d (cV L) (jV L)) ∗ scopedSems0 (V d (cV L) (jV L))
            ∗ ∃ W', ⌜∀ p ∈ W', p ∈ W ∨ p.2 = none⌝ ∗ owes (V d (cV L) (jV L)) O W')

theorem defs₀_vector (c : Fin τ.nSC) (s : Fin τ.nSub) :
    defs₀ (F := F) (.scVector c s) 1 ()
      = SparseCore.onTile hcore1 hsub1 (fun c s => cc1__sc_gather_body (coordsV c s) (Memref.whole main_v0_scv) (Memref.isWhole_whole _) (Memref.whole main_v3_scv) (Memref.isWhole_whole _) (Memref.whole main_v4_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) cc1_scratch6 cc1_scratch7 cc1_scratch8 cc1_scratch9 cc1_scratch10 cc1_scratch11 cc1_scratch12 cc1_scratch13 cc1_scratch14 cc1_scratch15 cc1_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hb : TileBody m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (hb d (coordsV ⟨_, hc.1⟩ ⟨_, hc.2⟩) O W hO).trans (wp_mono frame _ _ fun _ => obl_post)

/-! ## A SparseCore's holdings are its workers' -/

theorem vecSplit : (K (F := F)).VecSplit' (P m) 0 := by
  intro d c
  show (bigSep Finset.univ fun i : Fin ((K (F := F)).nSub 0) => goW m d (wid c i))
    ⊢ |={Set.univ}=> iprop((bigSep Finset.univ fun i : Fin ((K (F := F)).nSub 0) => goW m d (wid c i))
      ∗ ((bigSep Finset.univ fun i : Fin ((K (F := F)).nSub 0) => tdW m d (wid c i))
          -∗ bigSep Finset.univ fun i : Fin ((K (F := F)).nSub 0) => tdW m d (wid c i)))
  iintro H; imodintro
  isplitl [H]; · iexact H
  iintro H; iexact H

/-! ## The launch element -/

/-- What @main's proof starts from, per TensorCore: the staging cells' launch ghost state and the duty tokens. -/
def G0 (d : Dev nD) : sProp 𝕄 :=
  iprop(Pipeline.cellsGhost (cfgs) (EP (F := F)) (0 : Fin 1) d ∗ Pipeline.toksInit (cfgs) (EP (F := F)) (0 : Fin 1) d)

def u₀ : UU :=
  (initOf (K (F := F)).hsCells (K (F := F)).hsToks,
    (initOf (Pipeline.cells cfgs (cellOf_inj)) (Pipeline.launchToks cfgs (cellOf_inj)), (1 : Counters)))

omit [FloatOps F] in
theorem ownU_split (a : UH) (b : UP) (k : Counters) : (ownU (a, (b, k)) : sProp 𝕄) ⊢ iprop(BI.own (EH a) ∗ BI.own (EP b)) := by
  have h1 : (ownU (a, (b, k)) : sProp 𝕄) ⊢ iprop(BI.own (EH a) ∗ BI.own ((embR : Emb (UP × Counters) 𝕄) (b, k))) := ownU_pair a (b, k)
  have h2 : (BI.own ((embR : Emb (UP × Counters) 𝕄) (b, k)) : sProp 𝕄)
      ⊢ iprop(BI.own ((embR : Emb (UP × Counters) 𝕄) (b, 1)) ∗ BI.own ((embR : Emb (UP × Counters) 𝕄) (1, k))) :=
    BI.own_op_elim ((embR : Emb (UP × Counters) 𝕄).op_of_mem (Prod.mk_mem_op (URA.mem_op_one b) (URA.mem_one_op k)))
  iintro H
  ihave H' := h1 $$ H
  icases H' with ⟨HH, HR⟩
  ihave H'' := h2 $$ HR
  icases H'' with ⟨HP, -⟩
  isplitl [HH]; · iexact HH
  iexact HP

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G0 (F := F) d)
        ∗ bigSep Finset.univ fun thr : Thread nD τ => bigSep Finset.univ fun q : Fin 1 => (P m).x q thr) := by
  unfold u₀
  iintro Hu
  ihave H := (ownU_split _ _ _) $$ Hu
  icases H with ⟨HH, HP⟩
  imod (Pipeline.fund_ghost cfgs (EP (F := F)) cellOf_inj) $$ HP with ⟨Hg, Ht⟩
  imodintro
  isplitl [HH]; · iexact HH
  isplitl [Hg Ht]
  · unfold G0
    rw [bigSep_sep']
    have e1 : (bigSep Finset.univ fun c : Dev nD => bigSep Finset.univ fun p : Fin 1 => (Pipeline.cellsGhost cfgs (EP (F := F)) p c : sProp 𝕄))
        = bigSep Finset.univ fun c : Dev nD => Pipeline.cellsGhost cfgs (EP (F := F)) (0 : Fin 1) c :=
      bigSep_congr fun c _ => bigSep_univ_of_subsingleton (0 : Fin 1)
    have e2 : (bigSep Finset.univ fun c : Dev nD => bigSep Finset.univ fun p : Fin 1 => (Pipeline.toksInit cfgs (EP (F := F)) p c : sProp 𝕄))
        = bigSep Finset.univ fun c : Dev nD => Pipeline.toksInit cfgs (EP (F := F)) (0 : Fin 1) c :=
      bigSep_congr fun c _ => bigSep_univ_of_subsingleton (0 : Fin 1)
    isplitl [Hg]
    · ihave Hg' := (Entails.of_eq e1) $$ Hg
      iexact Hg'
    · ihave Ht' := (Entails.of_eq e2) $$ Ht
      iexact Ht'
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.KernelIdeal.KI

end
-- ==== Proof.LaunchHost.lean ====
/-
  @main on the TensorCore, its host side: the ten arrays of the program held together at a valuation, the three
  regroupings before the first kernel (the indices into 32 rows, the scale and the shift into rows) and what each
  leaves, the TensorCore's debts taken out of its handshake state and put back, and the first kernel's region run
  inside the program's extended body table.
-/
import proofs.«206674_g54314156425426_cont_9to1_m_1126_27_alg».proof.Proof.LaunchObl

set_option maxRecDepth 16384

noncomputable section

namespace Cert.KernelIdeal.KI

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The ten arrays -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)

abbrev S10 : Finset (DevRef τ sig) := {a0', a1', a2', a3', v0', v1', v2', v3', v4', v5'}

omit [FloatOps F] in
theorem held_S10 (d : Dev nD) (W : Valuation τ sig (Elt F)) :
    (held (T d) S10 W : sProp 𝕄) = iprop((a0Loc d ↦{fullShare} W a0') ∗ (a1Loc d ↦{fullShare} W a1') ∗ (a2Loc d ↦{fullShare} W a2') ∗ (a3Loc d ↦{fullShare} W a3')
      ∗ (v0Loc d ↦{fullShare} W v0') ∗ (v1Loc d ↦{fullShare} W v1') ∗ (v2Loc d ↦{fullShare} W v2') ∗ (v3Loc d ↦{fullShare} W v3')
      ∗ (v4Loc d ↦{fullShare} W v4') ∗ (v5Loc d ↦{fullShare} W v5')) := by
  unfold held S10
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (a2Loc d ↦{fullShare} W main_arg2) ∗ (a3Loc d ↦{fullShare} W main_arg3)
      ∗ (v0Loc d ↦{fullShare} W main_v0) ∗ (v1Loc d ↦{fullShare} W main_v1) ∗ (v2Loc d ↦{fullShare} W main_v2) ∗ (v3Loc d ↦{fullShare} W main_v3)
      ∗ (v4Loc d ↦{fullShare} W main_v4) ∗ (v5Loc d ↦{fullShare} W main_v5)) := by
  unfold unscopedBufs
  rw [show (Finset.univ.filter fun b : Ref sig .tc => ¬ b.isScoped) = {main_arg0, main_arg1, main_arg2, main_arg3, main_v0, main_v1, main_v2, main_v3, main_v4, main_v5} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The launch valuation. -/
def W0 (d : Dev nD) : Valuation τ sig (Elt F) := fun b => m (d, b)

theorem unscoped_held (d : Dev nD) : (unscopedBufs d (fun b => m ((SparseCore.T d).loc b)) : sProp 𝕄) = held (T d) S10 (W0 m d) := by
  rw [unscopedBufs_eq, held_S10]; rfl

/-! ## The regroupings before the first kernel -/

abbrev op0 : HloOp τ sig (Elt F) := StableHlo.reshape main_arg0 main_v0 rfl Facts₀.shapeCasts_S1024x200_S32x6400
abbrev op1 : HloOp τ sig (Elt F) := StableHlo.reshape main_arg2 main_v1 rfl Facts₀.shapeCasts_S128_S1x128
abbrev op2 : HloOp τ sig (Elt F) := StableHlo.reshape main_arg3 main_v2 rfl Facts₀.shapeCasts_S128_S1x128
abbrev op5 : HloOp τ sig (Elt F) := StableHlo.reshape main_v4 main_v5 rfl Facts₀.shapeCasts_S204800x128_S1024x200x128

theorem h0sub : (op0 (F := F)).bufs ⊆ S10 := show ({a0', v0'} : Finset (DevRef τ sig)) ⊆ S10 by decide
theorem h1sub : (op1 (F := F)).bufs ⊆ S10 := show ({a2', v1'} : Finset (DevRef τ sig)) ⊆ S10 by decide
theorem h2sub : (op2 (F := F)).bufs ⊆ S10 := show ({a3', v2'} : Finset (DevRef τ sig)) ⊆ S10 by decide
theorem h5sub : (op5 (F := F)).bufs ⊆ S10 := show ({v4', v5'} : Finset (DevRef τ sig)) ⊆ S10 by decide

def W1 (d : Dev nD) : Valuation τ sig (Elt F) := (op0 (F := F)).result (W0 m d)
def W2 (d : Dev nD) : Valuation τ sig (Elt F) := (op1 (F := F)).result (W1 m d)
def W3 (d : Dev nD) : Valuation τ sig (Elt F) := (op2 (F := F)).result (W2 m d)

/-- After the three: the indices regrouped, the scale and the shift as rows, everything else as launched. -/
theorem W3_v0 (d : Dev nD) : W3 m d v0' = IDS m d := by
  unfold W3 W2 W1
  rw [StableHlo.reshape_result_ne' (r := main_v0) _ _ _ _ _ (by decide), StableHlo.reshape_result_ne' (r := main_v0) _ _ _ _ _ (by decide), StableHlo.reshape_result']
  rfl
theorem W3_v1 (d : Dev nD) : W3 m d v1' = GAM m d := by
  unfold W3 W2 W1
  rw [StableHlo.reshape_result_ne' (r := main_v1) _ _ _ _ _ (by decide), StableHlo.reshape_result',
    StableHlo.reshape_result_ne' (r := main_arg2) _ _ _ _ _ (by decide)]
  rfl
theorem W3_v2 (d : Dev nD) : W3 m d v2' = BET m d := by
  unfold W3 W2 W1
  rw [StableHlo.reshape_result', StableHlo.reshape_result_ne' (r := main_arg3) _ _ _ _ _ (by decide),
    StableHlo.reshape_result_ne' (r := main_arg3) _ _ _ _ _ (by decide)]
  rfl
theorem W3_other (d : Dev nD) (r : Ref sig .tc) (h0 : r ≠ main_v0) (h1 : r ≠ main_v1) (h2 : r ≠ main_v2) :
    W3 m d (Proc.devRef .tc r) = m (d, Proc.devRef .tc r) := by
  unfold W3 W2 W1
  rw [StableHlo.reshape_result_ne' _ _ _ _ _ h2, StableHlo.reshape_result_ne' _ _ _ _ _ h1, StableHlo.reshape_result_ne' _ _ _ _ _ h0]
  rfl

/-! ## The TensorCore's debts, out of its handshake state and back -/

theorem tcSt_owes (d : Dev nD) :
    ((K (F := F)).tcSt (EH (F := F)) d 0 : sProp 𝕄) ⊢ iprop(tcOwes (F := F) d ∗ (tcOwes (F := F) d -∗ (K (F := F)).tcSt (EH (F := F)) d 0)) := by
  unfold SparseCore.Cfg.tcSt tcOwes
  iintro ⟨HO, Hrest⟩
  isplitl [HO]; · iexact HO
  iintro HO
  isplitl [HO]; · iexact HO
  iexact Hrest

/-! ## The first kernel's region, in the extended body table -/

set_option backward.isDefEq.respectTransparency.types false in
set_option maxHeartbeats 400000 in
theorem region_wp [∀ e, Nonempty (Elt F e)] (d : Dev nD) (Φ : PUnit.{1} → sProp 𝕄) :
    iprop((iprop(boundary (T d) ∗ regArrs m d (NRM m d) ∗ tcOwes (F := F) d) -∗ Φ ⟨⟩)
        ∗ boundary (T d) ∗ (regArrs m d (m (v3Loc d)) ∗ tcOwes (F := F) d) ∗ levAts (K (F := F)).L (K (F := F)).lev ∗ G0 (F := F) d)
      ⊢ wp frame (wpE ((K (F := F)).defs (D (F := F))) 𝒱 (T d) none) Set.univ
          (SparseCore.liftProg (Q := 1) (Prog.op (.customCall (Pipeline.entry (0 : Fin 1)) ()) fun _ => Prog.ret ⟨⟩)) Φ := by
  have h := Pipeline.RegionSeg.wp (pcfgs (F := F)) adm (pdats m) (none : HIx 1) cellOf_inj (EP (F := F)) defs₀ 𝒱₀
    (K (F := F)).L (K (F := F)).lev (reg0 m) d none (fun u hu => by cases hu) (fun _ => Prog.ret ⟨⟩) Φ
  refine BI.Entails.trans ?_ ((K (F := F)).wp_liftProg (D (F := F)) 𝒱 (T d) Set.univ none _ Φ)
  refine BI.Entails.trans ?_ h
  show (_ : sProp 𝕄) ⊢ _
  rw [show (reg0 m).pre d = iprop(regArrs m d (m (v3Loc d)) ∗ tcOwes (F := F) d) from rfl,
    show (reg0 m).post d = iprop(regArrs m d (NRM m d) ∗ tcOwes (F := F) d) from rfl]
  unfold G0
  iintro ⟨Hk, Hb, Hpre, Hlv, Hg, Ht⟩
  isplitl [Hk]
  · iintro H
    rw [wp_ret]; imodintro
    iapply Hk; iexact H
  isplitl [Hb]; · iexact Hb
  isplitl [Hpre]; · iexact Hpre
  isplitl [Hlv]; · iexact Hlv
  isplitl [Hg]; · iexact Hg
  iexact Ht

/-- The same, the call spelt as @main spells it. -/
theorem region_wp' [∀ e, Nonempty (Elt F e)] (d : Dev nD) (Φ : PUnit.{1} → sProp 𝕄) :
    iprop((iprop(boundary (T d) ∗ regArrs m d (NRM m d) ∗ tcOwes (F := F) d) -∗ Φ ⟨⟩)
        ∗ boundary (T d) ∗ (regArrs m d (m (v3Loc d)) ∗ tcOwes (F := F) d) ∗ levAts (K (F := F)).L (K (F := F)).lev ∗ G0 (F := F) d)
      ⊢ wp frame (wpE ((K (F := F)).defs (D (F := F))) 𝒱 (T d) none) Set.univ
          (Prog.lift (.customCall (SparseCore.inner (Pipeline.entry (0 : Fin 1))) ()) :
            Prog (TpuEff nD τ sig (Elt F) (SparseCore.Sig (ΛP (F := F)) 1) .tc) PUnit) Φ :=
  region_wp m d Φ

end Cert.KernelIdeal.KI

end
-- ==== Proof.LaunchSplit.lean ====
/-
  What @main hands the SparseCore call and takes back. The regrouped indices split into their 32 rows and the output
  into its 32 groups of 6400 rows (disjoint, covering); the normalised table, which every worker reads whole, into 32
  read tokens and a remainder @main keeps. After the call the output's groups, each at the one gathered function, are
  the output at that function, and the tokens with the remainder are the table again. The 32 workers are the sixteen
  vector subcores of each of the two SparseCores, worker 2 i + c on subcore i of SparseCore c.
-/
import proofs.«206674_g54314156425426_cont_9to1_m_1126_27_alg».proof.Proof.Common

noncomputable section

namespace Cert.KernelIdeal.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## Rows -/

theorem idsRowSet_part (w : Fin 32) : idsRowSet w = (Rect.part (s := S32x6400) (a₀ := 0) hdivI w).set := by
  show ((View.whole (main_v0_scv : Ref sig .scVector)).slice (Rect.part (s := S32x6400) (a₀ := 0) hdivI w)).set = _
  rw [View.set_slice]; exact Finset.map_refl
theorem outRowsSet_part (w : Fin 32) : outRowsSet w = (Rect.part (s := S204800x128) (a₀ := 0) hdivO w).set := by
  show ((View.whole (main_v4_scv : Ref sig .scVector)).slice (Rect.part (s := S204800x128) (a₀ := 0) hdivO w)).set = _
  rw [View.set_slice]; exact Finset.map_refl

theorem ids_disjoint : ∀ i ∈ (Finset.univ : Finset (Fin 32)), ∀ j ∈ (Finset.univ : Finset (Fin 32)), i ≠ j → Disjoint (idsRowSet i) (idsRowSet j) :=
  fun i _ j _ h => by rw [idsRowSet_part, idsRowSet_part]; exact Rect.part_disjoint hdivI h
theorem ids_cover : (Finset.univ : Finset (Fin 32)).biUnion idsRowSet = Finset.univ :=
  (Finset.biUnion_congr rfl fun i _ => idsRowSet_part i).trans (Rect.biUnion_part hdivI)
theorem out_disjoint : ∀ i ∈ (Finset.univ : Finset (Fin 32)), ∀ j ∈ (Finset.univ : Finset (Fin 32)), i ≠ j → Disjoint (outRowsSet i) (outRowsSet j) :=
  fun i _ j _ h => by rw [outRowsSet_part, outRowsSet_part]; exact Rect.part_disjoint hdivO h
theorem out_cover : (Finset.univ : Finset (Fin 32)).biUnion outRowsSet = Finset.univ :=
  (Finset.biUnion_congr rfl fun i _ => outRowsSet_part i).trans (Rect.biUnion_part hdivO)

theorem v0_rows (d : Dev nD) (f : Buf (Elt F) (v0Loc d)) :
    (v0Loc d ↦{fullShare} f : sProp 𝕄) = bigSep Finset.univ fun w : Fin 32 => v0Loc d ↦[idsRowSet w]{fullShare} f := by
  rw [← pointsTo_biUnion Finset.univ (ℓ := v0Loc d) idsRowSet ids_disjoint, ids_cover]; try rfl
theorem v4_rows (d : Dev nD) (f : Buf (Elt F) (v4Loc d)) :
    (v4Loc d ↦{fullShare} f : sProp 𝕄) = bigSep Finset.univ fun w : Fin 32 => v4Loc d ↦[outRowsSet w]{fullShare} f := by
  rw [← pointsTo_biUnion Finset.univ (ℓ := v4Loc d) outRowsSet out_disjoint, out_cover]; try rfl

variable (m : (ℓ : Loc nD τ sig) → Buf (Elt F) ℓ) [FloatOps F]

/-! ## The split and the join -/

/-- The remainder of the normalised table's share that @main keeps while the workers hold their tokens. -/
abbrev nrmRest (d : Dev nD) : sProp 𝕄 := v3Loc d ↦{Transfers.shareDrop fullShare 32} NRM m d

theorem call_split (d : Dev nD) (f4 : Buf (Elt F) (v4Loc d)) :
    iprop((v0Loc d ↦{fullShare} IDS m d) ∗ (v3Loc d ↦{fullShare} NRM m d) ∗ (v4Loc d ↦{fullShare} f4))
      ⊢ iprop(nrmRest m d ∗ bigSep Finset.univ fun w : Fin 32 => goW m d w) := by
  rw [v0_rows, v4_rows]
  unfold goW
  rw [bigSep_sep', bigSep_sep']
  iintro ⟨H0, H3, H4⟩
  ihave H3' := (Transfers.pointsTo_toks fullShare 32).1 $$ H3
  icases H3' with ⟨Hd, Ht⟩
  isplitl [Hd]; · iexact Hd
  isplitl [H0]; · iexact H0
  isplitl [Ht]; · iexact Ht
  have hw : ∀ w : Fin 32, (v4Loc d ↦[outRowsSet w]{fullShare} f4 : sProp 𝕄) ⊢ iprop(∃ f, v4Loc d ↦[outRowsSet w]{fullShare} f) := fun w => by
    iintro H; iexists f4; iexact H
  have hmono : (bigSep Finset.univ fun w : Fin 32 => (v4Loc d ↦[outRowsSet w]{fullShare} f4 : sProp 𝕄))
      ⊢ bigSep Finset.univ fun w : Fin 32 => (iprop(∃ f, v4Loc d ↦[outRowsSet w]{fullShare} f) : sProp 𝕄) :=
    bigSep_mono fun w _ => hw w
  iapply hmono
  iexact H4

theorem call_join (d : Dev nD) :
    iprop(nrmRest m d ∗ bigSep Finset.univ fun w : Fin 32 => tdW m d w)
      ⊢ iprop((v0Loc d ↦{fullShare} IDS m d) ∗ (v3Loc d ↦{fullShare} NRM m d) ∗ (v4Loc d ↦{fullShare} GOUT m d)) := by
  rw [v0_rows, v4_rows]
  unfold tdW
  rw [bigSep_sep', bigSep_sep']
  iintro ⟨Hd, H0, Ht, H4⟩
  isplitl [H0]; · iexact H0
  isplitl [Hd Ht]
  · iapply (Transfers.pointsTo_toks fullShare 32).2
    isplitl [Hd]; · iexact Hd
    iexact Ht
  iexact H4

/-! ## The workers as cores × subcores -/

omit [FloatOps F] in
theorem bigSep_workers (Φ : Fin 32 → sProp 𝕄) :
    (bigSep Finset.univ fun c : Fin ((K (F := F)).nCore 0) => bigSep Finset.univ fun i : Fin ((K (F := F)).nSub 0) => Φ (wid c i))
      = bigSep Finset.univ Φ := by
  let e : Fin 2 × Fin 16 → Fin 32 := fun p => ⟨2 * p.2.val + p.1.val, by have := p.1.isLt; have := p.2.isLt; omega⟩
  have himg : (Finset.univ : Finset (Fin 32)) = (Finset.univ : Finset (Fin 2 × Fin 16)).image e := by decide
  have hinj : Set.InjOn e ((Finset.univ : Finset (Fin 2 × Fin 16)) : Set _) := by
    intro a _ b _ h
    have hv : 2 * a.2.val + a.1.val = 2 * b.2.val + b.1.val := congrArg Fin.val h
    have ha := a.1.isLt; have hb := b.1.isLt
    exact Prod.ext (Fin.ext (by omega)) (Fin.ext (by omega))
  rw [himg, SparseCore.bigSep_image_of_injOn hinj, bigSep_univ_prod]
  rfl

theorem st0_eq (d : Dev nD) : (bigSep Finset.univ fun c : Fin ((K (F := F)).nCore 0) => (P m).st 0 d c) = bigSep Finset.univ fun w : Fin 32 => goW m d w :=
  bigSep_workers (F := F) (goW m d)
theorem dn0_eq (d : Dev nD) : (bigSep Finset.univ fun c : Fin ((K (F := F)).nCore 0) => (P m).dn 0 d c) = bigSep Finset.univ fun w : Fin 32 => tdW m d w :=
  bigSep_workers (F := F) (tdW m d)

end Cert.KernelIdeal.KI

end
-- ==== Proof.Launch.lean ====
/-
  @main on the TensorCore, and the program's run. @main regroups the indices, the scale and the shift; runs the first
  kernel's region, which leaves the normalised table; hands the 32 workers their index rows, read tokens of the
  table and output rows, and gets the output rows back at the gathered contents; regroups the output. The four
  arguments end as launched and the result is the specification's function of them.
-/
import proofs.«206674_g54314156425426_cont_9to1_m_1126_27_alg».proof.Proof.LaunchHost
import proofs.«206674_g54314156425426_cont_9to1_m_1126_27_alg».proof.Proof.LaunchSplit

set_option maxRecDepth 16384

noncomputable section

namespace Cert.KernelIdeal.KI

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

omit [FloatOps F] in
theorem wand_app {A B : sProp 𝕄} : iprop(A ∗ (A -∗ B)) ⊢ B := by
  iintro ⟨HA, HW⟩; iapply HW; iexact HA

/-- The ten arrays after the three regroupings, one by one. -/
theorem held_W3 (d : Dev nD) :
    (held (T d) S10 (W3 m d) : sProp 𝕄) = iprop((a0Loc d ↦{fullShare} m (a0Loc d)) ∗ (a1Loc d ↦{fullShare} m (a1Loc d)) ∗ (a2Loc d ↦{fullShare} m (a2Loc d)) ∗ (a3Loc d ↦{fullShare} m (a3Loc d))
      ∗ (v0Loc d ↦{fullShare} IDS m d) ∗ (v1Loc d ↦{fullShare} GAM m d) ∗ (v2Loc d ↦{fullShare} BET m d) ∗ (v3Loc d ↦{fullShare} m (v3Loc d))
      ∗ (v4Loc d ↦{fullShare} m (v4Loc d)) ∗ (v5Loc d ↦{fullShare} m (v5Loc d))) := by
  rw [held_S10, W3_v0, W3_v1, W3_v2, W3_other m d main_arg0 (by decide) (by decide) (by decide), W3_other m d main_arg1 (by decide) (by decide) (by decide),
    W3_other m d main_arg2 (by decide) (by decide) (by decide), W3_other m d main_arg3 (by decide) (by decide) (by decide),
    W3_other m d main_v3 (by decide) (by decide) (by decide), W3_other m d main_v4 (by decide) (by decide) (by decide),
    W3_other m d main_v5 (by decide) (by decide) (by decide)]

/-! ## The last regrouping -/

abbrev S45 : Finset (DevRef τ sig) := {v4', v5'}
theorem h5sub' : (op5 (F := F)).bufs ⊆ S45 := show ({v4', v5'} : Finset (DevRef τ sig)) ⊆ S45 by decide

omit [FloatOps F] in
theorem held_S45 (d : Dev nD) (W : Valuation τ sig (Elt F)) :
    (held (T d) S45 W : sProp 𝕄) = iprop((v4Loc d ↦{fullShare} W v4') ∗ (v5Loc d ↦{fullShare} W v5')) := by
  unfold held S45
  rw [SparseCore.bigSep_insert' (by decide), bigSep_singleton]

/-- The valuation before it: the output at the gathered contents. -/
def W4 (d : Dev nD) : Valuation τ sig (Elt F) := Function.update (W0 m d) v4' (GOUT m d)
theorem W4_v4 (d : Dev nD) : W4 m d v4' = GOUT m d := Function.update_self _ _ _
theorem W4_v5 (d : Dev nD) : W4 m d v5' = m (v5Loc d) := Function.update_of_ne (show v5' ≠ v4' by decide) _ _
theorem W5_v4 (d : Dev nD) : (op5 (F := F)).result (W4 m d) v4' = GOUT m d := by
  rw [StableHlo.reshape_result_ne' (r := main_v4) _ _ _ _ _ (by decide)]; exact W4_v4 m d
theorem W5_v5 (d : Dev nD) : (op5 (F := F)).result (W4 m d) v5' = RES m d := by
  rw [StableHlo.reshape_result']
  show (fun i => shapeCast S1024x200x128 (W4 m d v4') Facts₀.shapeCasts_S204800x128_S1024x200x128 i) = RES m d
  rw [W4_v4]; rfl

/-! ## @main -/

/-- What @main leaves the claim: the four arguments as launched, the result at the specification's function. -/
abbrev FIN (d : Dev nD) : sProp 𝕄 :=
  iprop((a0Loc d ↦{fullShare} m (a0Loc d)) ∗ (a1Loc d ↦{fullShare} m (a1Loc d)) ∗ (a2Loc d ↦{fullShare} m (a2Loc d)) ∗ (a3Loc d ↦{fullShare} m (a3Loc d))
    ∗ (v5Loc d ↦{fullShare} RES m d))

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G0 (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, HG⟩
  ihave Hlev := (SparseCore.Cfg.ctx_levAts (K := K (F := F)) κ) $$ Hctx
  -- the three regroupings
  iapply (wp_hlo_within 𝒱 (SparseCore.T d) none Set.univ (op := op0) (S := S10) h0sub (V := W0 m d)) $$ [Hb Hheld]
  · isplitl [Hb]; · iexact Hb
    iexact Hheld
  iintro ⟨Hb, Hheld⟩
  rw [wp_ret]; imodintro
  iapply (wp_hlo_within 𝒱 (SparseCore.T d) none Set.univ (op := op1) (S := S10) h1sub (V := W1 m d)) $$ [Hb Hheld]
  · isplitl [Hb]; · iexact Hb
    iexact Hheld
  iintro ⟨Hb, Hheld⟩
  rw [wp_ret]; imodintro
  iapply (wp_hlo_within 𝒱 (SparseCore.T d) none Set.univ (op := op2) (S := S10) h2sub (V := W2 m d)) $$ [Hb Hheld]
  · isplitl [Hb]; · iexact Hb
    iexact Hheld
  iintro ⟨Hb, Hheld⟩
  rw [wp_ret]; imodintro
  ihave Hheld3 := (Entails.of_eq (show (held (SparseCore.T d) S10 ((op2 (F := F)).result (W2 m d)) : sProp 𝕄) = held (SparseCore.T d) S10 (W3 m d) from rfl)) $$ Hheld
  ihave Hh := (Entails.of_eq (held_W3 m d)) $$ Hheld3
  icases Hh with ⟨Ha0, Ha1, Ha2, Ha3, Hv0, Hv1, Hv2, Hv3, Hv4, Hv5⟩
  -- the first kernel's region
  ihave Hs := (tcSt_owes d) $$ Hst
  icases Hs with ⟨HO, Hback⟩
  iapply (region_wp' m d _)
  isplitl [Ha0 Ha2 Ha3 Hv0 Hv4 Hv5 Hback]
  swap
  · isplitl [Hb]; · iexact Hb
    isplitl [Ha1 Hv1 Hv2 Hv3 HO]
    · unfold regArrs
      isplitl [Ha1 Hv1 Hv2 Hv3]
      · isplitl [Ha1]; · iexact Ha1
        isplitl [Hv1]; · iexact Hv1
        isplitl [Hv2]; · iexact Hv2
        iexact Hv3
      iexact HO
    isplitl [Hlev]; · iexact Hlev
    iexact HG
  iintro ⟨Hb, Harr, HO⟩
  unfold regArrs
  icases Harr with ⟨Ha1, Hv1, Hv2, Hv3⟩
  ihave Hst := (wand_app) $$ [HO Hback]
  · isplitl [HO]; · iexact HO
    iexact Hback
  -- the SparseCore call
  ihave Hsp := (call_split m d (m (v4Loc d))) $$ [Hv0 Hv3 Hv4]
  · isplitl [Hv0]; · iexact Hv0
    isplitl [Hv3]; · iexact Hv3
    iexact Hv4
  icases Hsp with ⟨Hrest, Hgo⟩
  iapply ((K (F := F)).wp_run (D (F := F)) 𝒱 (EH := EH) (P := P m) κ d 0)
  isplitr; · iexact Hctx
  isplitl [Hst]; · iexact Hst
  isplitl [Hgo]
  · rw [st0_eq]; iexact Hgo
  iintro ⟨Hst, Hdn⟩
  ihave Htd := (Entails.of_eq (dn0_eq m d)) $$ Hdn
  ihave Hj := (call_join m d) $$ [Hrest Htd]
  · isplitl [Hrest]; · iexact Hrest
    iexact Htd
  icases Hj with ⟨Hv0, Hv3, Hv4⟩
  -- the last regrouping
  iapply (wp_hlo_within 𝒱 (SparseCore.T d) none Set.univ (op := op5) (S := S45) h5sub' (V := W4 m d)) $$ [Hb Hv4 Hv5]
  · isplitl [Hb]; · iexact Hb
    rw [held_S45, W4_v4, W4_v5]
    isplitl [Hv4]; · iexact Hv4
    iexact Hv5
  iintro ⟨Hb, Hheld⟩
  ihave Hh := (Entails.of_eq (held_S45 (F := F) d _)) $$ Hheld
  rw [W5_v4, W5_v5]
  icases Hh with ⟨Hv4, Hv5⟩
  rw [wp_ret]; imodintro; imodintro
  isplitl [Hst]; · iexact Hst
  isplitl [Ha0]; · iexact Ha0
  isplitl [Ha1]; · iexact Ha1
  isplitl [Ha2]; · iexact Ha2
  isplitl [Ha3]; · iexact Ha3
  iexact Hv5

end Cert.KernelIdeal.KI

end
-- ==== Proof.LaunchRun.lean ====
/-
  The program's run: every weakly fair execution of the TensorCore's @main and the SparseCores' threads terminates,
  nothing faulting, and the final memory has the result at the specification's function of the four arguments and
  the arguments as launched — given the body of a worker's task (its statement at a symbolic worker).
-/
import proofs.«206674_g54314156425426_cont_9to1_m_1126_27_alg».proof.Proof.Launch

noncomputable section

namespace Cert.KernelIdeal.KI

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-- A buffer held whole beside the state's interpretation is what the state's memory holds there. -/
theorem agree (ℓ : Loc nD τ sig) (f : Buf (Elt F) ℓ) (s' : Phys nD τ sig (Elt F)) :
    iprop(SI s' ∗ (ℓ ↦{fullShare} f)) ⊢ (iprop(⌜s'.mem.mem ℓ = f⌝ ∗ SI s') : sProp 𝕄) := by
  iintro ⟨HSI, Hp⟩
  ihave H := (persistent_entails_right (SI_pointsTo_agree (st := s') (ℓ := ℓ) (I := Finset.univ) (q := fullShare) (f := f))) $$ [HSI Hp]
  · isplitl [HSI] <;> iassumption
  icases H with ⟨%h1, HSI, -⟩
  isplitr; · ipureintro; exact funext fun i => h1 i (Finset.mem_univ i)
  iexact HSI

def fq (d : Dev nD) (s' : Phys nD τ sig (Elt F)) : Prop :=
  s'.mem.mem (a0Loc d) = m (a0Loc d) ∧ s'.mem.mem (a1Loc d) = m (a1Loc d) ∧ s'.mem.mem (a2Loc d) = m (a2Loc d) ∧ s'.mem.mem (a3Loc d) = m (a3Loc d)
    ∧ s'.mem.mem (v5Loc d) = RES m d

theorem hfin (d : Dev nD) (s' : Phys nD τ sig (Elt F)) : iprop(FIN m d ∗ SI s') ⊢ (⌜fq m d s'⌝ : sProp 𝕄) := by
  iintro ⟨⟨H0, H1, H2, H3, H5⟩, HSI⟩
  ihave R0 := (agree (a0Loc d) _ s') $$ [HSI H0]
  · isplitl [HSI] <;> iassumption
  icases R0 with ⟨%e0, HSI⟩
  ihave R1 := (agree (a1Loc d) _ s') $$ [HSI H1]
  · isplitl [HSI] <;> iassumption
  icases R1 with ⟨%e1, HSI⟩
  ihave R2 := (agree (a2Loc d) _ s') $$ [HSI H2]
  · isplitl [HSI] <;> iassumption
  icases R2 with ⟨%e2, HSI⟩
  ihave R3 := (agree (a3Loc d) _ s') $$ [HSI H3]
  · isplitl [HSI] <;> iassumption
  icases R3 with ⟨%e3, HSI⟩
  ihave R5 := (agree (v5Loc d) _ s') $$ [HSI H5]
  · isplitl [HSI] <;> iassumption
  icases R5 with ⟨%e5, -⟩
  ipureintro; exact ⟨e0, e1, e2, e3, e5⟩

/-- The run's post: the result named, the arguments unchanged. -/
def QC : PUnit × MemSt nD τ sig (Elt F) → Prop := fun r => ∀ c : Dev nD,
  r.2.mem (v5Loc c) = RES m c ∧ r.2.mem (a0Loc c) = m (a0Loc c) ∧ r.2.mem (a1Loc c) = m (a1Loc c)
    ∧ r.2.mem (a2Loc c) = m (a2Loc c) ∧ r.2.mem (a3Loc c) = m (a3Loc c)

theorem run_main [∀ e, Nonempty (Elt F e)] (hb : TileBody m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hb)
    (fun q _ => match q with | 0 => SparseCore.Cfg.VecSplit.of_plain (vecSplit m))
    m ρ main (G0 (F := F)) (FIN m) (u₀ (F := F)) (sep_elim_left.trans (hu₀ m)) (hmain m ρ) (fq m) (hfin m) (QC m)
    (fun _ h c => ⟨(h c).2.2.2.2, (h c).1, (h c).2.1, (h c).2.2.1, (h c).2.2.2.1⟩)

end Cert.KernelIdeal.KI

end
-- ==== Proof.ScBodyViews.lean ====
/-
  Views for the gather kernel's body: bands of rows of the output and of positions of the index scratch, the chunk
  slices the body takes as such bands, the split of a band in two, and what the index scratch holds after the
  first copy (the tile's row of the regrouped indices), every word of it a row number of the table.
-/
import proofs.«206674_g54314156425426_cont_9to1_m_1126_27_alg».proof.Proof.Common
import proofs.«206674_g54314156425426_cont_9to1_m_1126_27_alg».proof.Proof.Gen.KernelIdeal.Skeleton
import Idealize.ShloMosaic.Lib.SparseCore.Launch
import Idealize.ShloMosaic.Lib.StableHlo.Run
import Idealize.ShloMosaic.Lib.Pipeline.Kit
import Idealize.ShloMosaic.Lib.Tactic

noncomputable section

namespace Cert.KernelIdeal.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-! ## Bands -/

/-- The positions of the output whose row lies in [lo, hi). -/
def rowsSet (lo hi : ℕ) : Finset S204800x128.Idx := Finset.univ.filter fun i => lo ≤ (i 0).val ∧ (i 0).val < hi
/-- The positions of the index scratch in [lo, hi). -/
def posSet (lo hi : ℕ) : Finset S6400.Idx := Finset.univ.filter fun i => lo ≤ (i 0).val ∧ (i 0).val < hi

theorem mem_rowsSet {lo hi : ℕ} {i : S204800x128.Idx} : i ∈ rowsSet lo hi ↔ lo ≤ (i 0).val ∧ (i 0).val < hi := by
  simp [rowsSet]
theorem mem_posSet {lo hi : ℕ} {i : S6400.Idx} : i ∈ posSet lo hi ↔ lo ≤ (i 0).val ∧ (i 0).val < hi := by
  simp [posSet]

theorem rowsSet_union {a b c : ℕ} (h1 : a ≤ b) (h2 : b ≤ c) : rowsSet a b ∪ rowsSet b c = rowsSet a c := by
  ext i; simp only [Finset.mem_union, mem_rowsSet]; omega
theorem posSet_union {a b c : ℕ} (h1 : a ≤ b) (h2 : b ≤ c) : posSet a b ∪ posSet b c = posSet a c := by
  ext i; simp only [Finset.mem_union, mem_posSet]; omega
theorem rowsSet_disjoint {a b c e : ℕ} (h : b ≤ c) : Disjoint (rowsSet a b) (rowsSet c e) := by
  rw [Finset.disjoint_left]; intro i h1 h2; rw [mem_rowsSet] at h1 h2; omega
theorem posSet_disjoint {a b c e : ℕ} (h : b ≤ c) : Disjoint (posSet a b) (posSet c e) := by
  rw [Finset.disjoint_left]; intro i h1 h2; rw [mem_posSet] at h1 h2; omega
theorem rowsSet_self (a : ℕ) : rowsSet a a = ∅ := by
  ext i; simp only [mem_rowsSet, Finset.notMem_empty, iff_false]; omega
theorem posSet_self (a : ℕ) : posSet a a = ∅ := by
  ext i; simp only [mem_posSet, Finset.notMem_empty, iff_false]; omega
theorem posSet_all : posSet 0 6400 = Finset.univ := by
  ext i; simp only [mem_posSet, Finset.mem_univ, iff_true]; exact ⟨Nat.zero_le _, (i 0).isLt⟩

/-! ## The slices the body takes -/

/-- A chunk of 128 rows of the output at offsets off (column offset zero) is a band of rows. -/
theorem set_outChunk (off : Fin 2 → ℕ) (h : ∀ a, off a + S128x128.size a ≤ S204800x128.size a) (h1 : off 1 = 0) :
    ((Memref.whole main_v4_scv : Memref sig .scVector .hbm S204800x128 .f32).slice (Rect.unit (s := S204800x128) off S128x128.size h) (fun _ => rfl)).view.set
      = rowsSet (off 0) (off 0 + 128) := by
  show ((View.whole main_v4_scv).slice _).set = _
  rw [View.set_slice_whole]
  ext i
  rw [Rect.mem_set_unit, mem_rowsSet]
  refine Iff.trans Fin.forall_fin_two ?_
  have hi : (i 1).val < 128 := (i 1).isLt
  have e0 : S128x128.size 0 = 128 := rfl
  have e1 : S128x128.size 1 = 128 := rfl
  rw [h1, e0, e1]
  constructor
  · rintro ⟨h0, _⟩; exact h0
  · intro h0; exact ⟨h0, Nat.zero_le _, by omega⟩

/-- A chunk of 128 positions of the index scratch is a band of positions. -/
theorem set_idxChunk (off : Fin 1 → ℕ) (h : ∀ a, off a + S128.size a ≤ S6400.size a) :
    ((Memref.whole cc1_scratch0 : Memref sig .scVector .vmem S6400 .i32).slice (Rect.unit (s := S6400) off S128.size h) (fun _ => rfl)).view.set
      = posSet (off 0) (off 0 + 128) := by
  show ((View.whole cc1_scratch0).slice _).set = _
  rw [View.set_slice_whole]
  ext i
  rw [Rect.mem_set_unit, mem_posSet]
  have e0 : S128.size 0 = 128 := rfl
  refine Iff.trans Fin.forall_fin_one ?_
  rw [e0]

/-- A tile's rows of the output are a band of rows. -/
theorem outRowsSet_eq (w : Fin 32) : outRowsSet w = rowsSet (6400 * w.val) (6400 * w.val + 6400) := by
  show ((View.whole main_v4_scv).slice _).set = _
  rw [View.set_slice_whole]
  ext i
  rw [Rect.mem_set_unit, mem_rowsSet]
  refine Iff.trans Fin.forall_fin_two ?_
  have hi : (i 1).val < 128 := (i 1).isLt
  have p0 : S204800x128.partSize 0 32 0 = 6400 := by decide
  have p1 : S204800x128.partSize 0 32 1 = 128 := by decide
  have x0 : S204800x128.partIx 0 w.val 0 = w.val := by simp [Shape.partIx]
  have x1 : S204800x128.partIx 0 w.val 1 = 0 := by simp [Shape.partIx]
  rw [p0, p1, x0, x1]
  constructor
  · rintro ⟨h0, _⟩; omega
  · intro h0; exact ⟨by omega, Nat.zero_le _, by omega⟩

/-! ## The tile's row of the indices, and the straight-line output offsets -/

/-- The index row of the tile at grid coordinates L, as the body slices it. -/
abbrev idsRowK (L : grid1.Coords) : Memref sig .scVector .hbm S6400 .i32 :=
  ((Memref.whole main_v0_scv : Memref sig .scVector .hbm S32x6400 .i32).slice (Rect.unit (s := S32x6400) (k1_off1 L) S1x6400.size (k1_off1_inb L)) (fun _ => rfl)).squeeze S6400 squeezes_S1x6400_S6400

theorem rowRect_eq (L : grid1.Coords) :
    Rect.unit (s := S32x6400) (k1_off1 L) S1x6400.size (k1_off1_inb L) = Rect.part (s := S32x6400) (a₀ := 0) hdivI (widL L) := by
  unfold Rect.part Rect.block
  congr 1 <;> funext a
  · rw [k1_off1_eq]
    match a with
    | 0 => simp [Shape.partIx, Shape.partSize, widL]
    | 1 => simp [Shape.partIx, Shape.partSize]
  · match a with
    | 0 => simp [Shape.partSize]
    | 1 => simp [Shape.partSize]

theorem set_idsRowK (L : grid1.Coords) : (idsRowK L).view.set = idsRowSet (widL L) := by
  show (((Memref.whole main_v0_scv : Memref sig .scVector .hbm S32x6400 .i32).view.slice (Rect.unit (s := S32x6400) (k1_off1 L) S1x6400.size (k1_off1_inb L))).reshape S6400 squeezes_S1x6400_S6400.numel_eq).set
    = ((Memref.whole main_v0_scv : Memref sig .scVector .hbm S32x6400 .i32).view.slice (Rect.part (s := S32x6400) (a₀ := 0) hdivI (widL L))).set
  rw [View.set_reshape]
  exact rowRect_eq L ▸ rfl

/-- The straight-line output offsets in closed form: the tile's first row plus the literal. -/
theorem k1_off2_eq : ∀ (i : grid1.Coords) (r : Fin 7), k1_off2 i (k1_off2_at r) = ![12800 * (i 1).val + 6400 * (i 0).val + (k1_off2_at r).toNat, 0] := by
  decide +kernel

/-! ## Splitting a band in two -/

section Split

theorem rows_split (d : Dev nD) {a b c : ℕ} (h1 : a ≤ b) (h2 : b ≤ c) (q : PosShare TreeShare) (f : Buf (Elt F) (v4Loc d)) :
    (v4Loc d ↦[rowsSet a c]{q} f : sProp 𝕄) ⊣⊢ iprop((v4Loc d ↦[rowsSet a b]{q} f) ∗ (v4Loc d ↦[rowsSet b c]{q} f)) := by
  rw [← rowsSet_union h1 h2]; exact pointsTo_union (rowsSet_disjoint (le_refl b))

theorem pos_split (d : Dev nD) (cc : Fin τ.nSC) (jj : Fin τ.nSub) {a b c : ℕ} (h1 : a ≤ b) (h2 : b ≤ c) (q : PosShare TreeShare) (f : Buf (Elt F) ((V d cc jj).loc cc1_scratch0)) :
    ((V d cc jj).loc cc1_scratch0 ↦[posSet a c]{q} f : sProp 𝕄) ⊣⊢ iprop(((V d cc jj).loc cc1_scratch0 ↦[posSet a b]{q} f) ∗ ((V d cc jj).loc cc1_scratch0 ↦[posSet b c]{q} f)) := by
  rw [← posSet_union h1 h2]; exact pointsTo_union (posSet_disjoint (le_refl b))

end Split

/-! ## The chunks as the body's copies address them -/

section Chunks
variable (d : Dev nD) (cc : Fin τ.nSC) (jj : Fin τ.nSub)

/-- A chunk of the output at offsets off. -/
abbrev outK (off : Fin 2 → ℕ) (h : ∀ a, off a + S128x128.size a ≤ S204800x128.size a) : Memref sig .scVector .hbm S128x128 .f32 :=
  (Memref.whole main_v4_scv : Memref sig .scVector .hbm S204800x128 .f32).slice (Rect.unit (s := S204800x128) off S128x128.size h) (fun _ => rfl)
/-- A chunk of the index scratch at offsets off. -/
abbrev idxK (off : Fin 1 → ℕ) (h : ∀ a, off a + S128.size a ≤ S6400.size a) : Memref sig .scVector .vmem S128 .i32 :=
  (Memref.whole cc1_scratch0 : Memref sig .scVector .vmem S6400 .i32).slice (Rect.unit (s := S6400) off S128.size h) (fun _ => rfl)

theorem pts_outK (off : Fin 2 → ℕ) (h : ∀ a, off a + S128x128.size a ≤ S204800x128.size a) (h1 : off 1 = 0) {lo hi : ℕ} (e1 : off 0 = lo) (e2 : lo + 128 = hi)
    (f : Buf (Elt F) (v4Loc d)) :
    ((outK off h).view.loc (V d cc jj) ↦[(outK off h).view.set]{fullShare} f : sProp 𝕄) = v4Loc d ↦[rowsSet lo hi]{fullShare} f := by
  rw [set_outChunk off h h1, e1, e2]
theorem pts_idxK (off : Fin 1 → ℕ) (h : ∀ a, off a + S128.size a ≤ S6400.size a) {lo hi : ℕ} (e1 : off 0 = lo) (e2 : lo + 128 = hi)
    (f : Buf (Elt F) ((V d cc jj).loc cc1_scratch0)) :
    ((idxK off h).view.loc (V d cc jj) ↦[(idxK off h).view.set]{fullShare} f : sProp 𝕄) = (V d cc jj).loc cc1_scratch0 ↦[posSet lo hi]{fullShare} f := by
  rw [set_idxChunk off h, e1, e2]

end Chunks

/-! ## Carving a chunk off the low end of a band, and putting one back at the high end -/

section Carve
variable (d : Dev nD) (cc : Fin τ.nSC) (jj : Fin τ.nSub)

theorem out_carve (off : Fin 2 → ℕ) (h : ∀ a, off a + S128x128.size a ≤ S204800x128.size a) (h1 : off 1 = 0) {lo mid hi : ℕ}
    (e1 : off 0 = lo) (e2 : lo + 128 = mid) (h2 : mid ≤ hi) (f : Buf (Elt F) (v4Loc d)) :
    (v4Loc d ↦[rowsSet lo hi]{fullShare} f : sProp 𝕄)
      ⊢ iprop(((outK off h).view.loc (V d cc jj) ↦[(outK off h).view.set]{fullShare} f) ∗ (v4Loc d ↦[rowsSet mid hi]{fullShare} f)) := by
  rw [pts_outK d cc jj off h h1 e1 e2]
  exact (rows_split d (by omega) h2 fullShare f).1

theorem idx_carve (off : Fin 1 → ℕ) (h : ∀ a, off a + S128.size a ≤ S6400.size a) {lo mid hi : ℕ}
    (e1 : off 0 = lo) (e2 : lo + 128 = mid) (h2 : mid ≤ hi) (f : Buf (Elt F) ((V d cc jj).loc cc1_scratch0)) :
    ((V d cc jj).loc cc1_scratch0 ↦[posSet lo hi]{fullShare} f : sProp 𝕄)
      ⊢ iprop(((idxK off h).view.loc (V d cc jj) ↦[(idxK off h).view.set]{fullShare} f) ∗ ((V d cc jj).loc cc1_scratch0 ↦[posSet mid hi]{fullShare} f)) := by
  rw [pts_idxK d cc jj off h e1 e2]
  exact (pos_split d cc jj (by omega) h2 fullShare f).1

/-- A chunk of the index scratch goes back on top of the positions below it (same contents). -/
theorem idx_merge (off : Fin 1 → ℕ) (h : ∀ a, off a + S128.size a ≤ S6400.size a) {lo mid hi : ℕ}
    (e1 : off 0 = mid) (e2 : mid + 128 = hi) (h2 : lo ≤ mid) (f : Buf (Elt F) ((V d cc jj).loc cc1_scratch0)) :
    iprop(((V d cc jj).loc cc1_scratch0 ↦[posSet lo mid]{fullShare} f) ∗ ((idxK off h).view.loc (V d cc jj) ↦[(idxK off h).view.set]{fullShare} f))
      ⊢ ((V d cc jj).loc cc1_scratch0 ↦[posSet lo hi]{fullShare} f : sProp 𝕄) := by
  rw [pts_idxK d cc jj off h e1 e2]
  exact (pos_split d cc jj h2 (by omega) fullShare f).2

/-- A chunk of the output goes back on top of the rows below it, at some contents. -/
theorem out_merge (off : Fin 2 → ℕ) (h : ∀ a, off a + S128x128.size a ≤ S204800x128.size a) (h1 : off 1 = 0) {lo mid hi : ℕ}
    (e1 : off 0 = mid) (e2 : mid + 128 = hi) (h2 : lo ≤ mid) (f g : Buf (Elt F) (v4Loc d)) :
    iprop((v4Loc d ↦[rowsSet lo mid]{fullShare} f) ∗ ((outK off h).view.loc (V d cc jj) ↦[(outK off h).view.set]{fullShare} g))
      ⊢ (iprop(∃ f', v4Loc d ↦[rowsSet lo hi]{fullShare} f') : sProp 𝕄) := by
  rw [pts_outK d cc jj off h h1 e1 e2, ← rowsSet_union h2 (show mid ≤ hi by omega)]
  iintro ⟨H1, H2⟩
  iexists _
  iapply (pointsTo_join (rowsSet_disjoint (le_refl mid)))
  isplitl [H1] <;> iassumption

/-- The same where both hold one function G on their rows: the band holds G. -/
theorem out_merge_at (off : Fin 2 → ℕ) (h : ∀ a, off a + S128x128.size a ≤ S204800x128.size a) (h1 : off 1 = 0) {lo mid hi : ℕ}
    (e1 : off 0 = mid) (e2 : mid + 128 = hi) (h2 : lo ≤ mid) (G g : Buf (Elt F) (v4Loc d)) (hg : ∀ i ∈ rowsSet (off 0) (off 0 + 128), g i = G i) :
    iprop((v4Loc d ↦[rowsSet lo mid]{fullShare} G) ∗ ((outK off h).view.loc (V d cc jj) ↦[(outK off h).view.set]{fullShare} g))
      ⊢ (v4Loc d ↦[rowsSet lo hi]{fullShare} G : sProp 𝕄) := by
  rw [pts_outK d cc jj off h h1 e1 e2]
  rw [e1, e2] at hg
  have e : (v4Loc d ↦[rowsSet mid hi]{fullShare} g : sProp 𝕄) = v4Loc d ↦[rowsSet mid hi]{fullShare} G := pointsTo_congr hg
  rw [e]
  exact (rows_split d h2 (by omega) fullShare G).2

end Carve

/-! ## The tile's first row -/

/-- The first row of the tile at grid coordinates L. -/
def baseL (L : grid1.Coords) : ℕ := 12800 * (L 1).val + 6400 * (L 0).val

theorem baseL_eq (L : grid1.Coords) : 6400 * (widL L).val = baseL L := by
  unfold widL baseL; simp only; omega
theorem baseL_le (L : grid1.Coords) : baseL L + 6400 ≤ 204800 := by
  have h0 : (L 0).val < 2 := (L 0).isLt
  have h1 : (L 1).val < 16 := (L 1).isLt
  unfold baseL; omega
theorem off2_zero (L : grid1.Coords) (r : Fin 7) : k1_off2 L (k1_off2_at r) 0 = baseL L + (k1_off2_at r).toNat := by
  rw [k1_off2_eq]; rfl
theorem off2_one (L : grid1.Coords) (r : Fin 7) : k1_off2 L (k1_off2_at r) 1 = 0 := by
  rw [k1_off2_eq]; rfl
theorem off4_zero (L : grid1.Coords) (T : Fin k1_t1_loop.trips) (r : Fin 5) :
    k1_off4 L T (BitVec.ofNat 32 r.val) 0 = baseL L + 640 * T.val + 128 * r.val + 256 := by
  rw [k1_off4_eq]; rfl
theorem off4_one (L : grid1.Coords) (T : Fin k1_t1_loop.trips) (r : Fin 5) : k1_off4 L T (BitVec.ofNat 32 r.val) 1 = 0 := by
  rw [k1_off4_eq]; rfl
theorem off5_zero (L : grid1.Coords) (T : Fin k1_t1_loop.trips) (r : Fin 5) :
    k1_off5 L T (BitVec.ofNat 32 r.val) 0 = baseL L + 640 * T.val + 128 * r.val := by
  rw [k1_off5_eq]; rfl
theorem off5_one (L : grid1.Coords) (T : Fin k1_t1_loop.trips) (r : Fin 5) : k1_off5 L T (BitVec.ofNat 32 r.val) 1 = 0 := by
  rw [k1_off5_eq]; rfl
theorem off3_zero (T : Fin k1_t1_loop.trips) (r : Fin 5) : k1_off3 T (BitVec.ofNat 32 r.val) 0 = 640 * T.val + 128 * r.val + 256 := by
  rw [k1_off3_eq]; rfl
theorem off6_zero (T : Fin k1_t1_loop.trips) (r : Fin 5) : k1_off6 T (BitVec.ofNat 32 r.val) 0 = 640 * T.val + 128 * r.val + 640 := by
  rw [k1_off6_eq]; rfl

theorem off2_at (L : grid1.Coords) (r : Fin 7) (n : ℕ) (hn : (k1_off2_at r).toNat = n) : k1_off2 L (k1_off2_at r) 0 = baseL L + n := by
  rw [off2_zero, hn]

theorem off4_at (L : grid1.Coords) (T : Fin k1_t1_loop.trips) (r : Fin 5) (n : ℕ) (hn : 128 * r.val + 256 = n) :
    k1_off4 L T (BitVec.ofNat 32 r.val) 0 = baseL L + 640 * T.val + n := by
  rw [off4_zero, ← hn]; omega
theorem off6_at (T : Fin k1_t1_loop.trips) (r : Fin 5) (n : ℕ) (hn : 128 * r.val + 640 = n) :
    k1_off6 T (BitVec.ofNat 32 r.val) 0 = 640 * T.val + n := by
  rw [off6_zero, ← hn]; omega

/-- A wait at index none added to the recorded waits keeps them among the given ones and those at index none. -/
theorem ins_ok {W W' : Waits sig (HIx 1)} {a : SemLoc sig × HIx 1} (h : ∀ p ∈ W', p ∈ W ∨ p.2 = none) (ha : a.2 = none) :
    ∀ p ∈ insert a W', p ∈ W ∨ p.2 = none := by
  intro p hp
  rcases Finset.mem_insert.mp hp with rfl | hp
  · exact .inr ha
  · exact h p hp

/-! ## Empty bands, and the table's read share as one token per gather semaphore -/

section Misc
variable (d : Dev nD) (cc : Fin τ.nSC) (jj : Fin τ.nSub)

theorem rows_none_eq (a b : ℕ) (h : b ≤ a) (q : PosShare TreeShare) (f : Buf (Elt F) (v4Loc d)) :
    (v4Loc d ↦[rowsSet a b]{q} f : sProp 𝕄) = iprop(emp) := by
  rw [show rowsSet a b = ∅ from by ext i; simp only [mem_rowsSet, Finset.notMem_empty, iff_false]; omega]
  exact pointsTo_empty
theorem pos_none_eq (a b : ℕ) (h : b ≤ a) (q : PosShare TreeShare) (f : Buf (Elt F) ((V d cc jj).loc cc1_scratch0)) :
    ((V d cc jj).loc cc1_scratch0 ↦[posSet a b]{q} f : sProp 𝕄) = iprop(emp) := by
  rw [show posSet a b = ∅ from by ext i; simp only [mem_posSet, Finset.notMem_empty, iff_false]; omega]
  exact pointsTo_empty

theorem idx_all (f : Buf (Elt F) ((V d cc jj).loc cc1_scratch0)) :
    ((V d cc jj).loc cc1_scratch0 ↦[posSet 0 6400]{fullShare} f : sProp 𝕄) = ((Memref.whole cc1_scratch0).view.loc (V d cc jj) ↦{fullShare} f) := by
  rw [posSet_all]

/-- A read share of an array as the tokens numbered 6 to 10 (one per gather semaphore) and what is left of it. -/
theorem nrm_toks {ℓ : Loc nD τ sig} (f : Buf (Elt F) ℓ) (q : PosShare TreeShare) :
    (ℓ ↦{q} f : sProp 𝕄) ⊣⊢ iprop((ℓ ↦{Transfers.shareDrop q 11} f)
      ∗ (ℓ ↦{Transfers.shareTokN q 6} f) ∗ (ℓ ↦{Transfers.shareTokN q 7} f) ∗ (ℓ ↦{Transfers.shareTokN q 8} f)
      ∗ (ℓ ↦{Transfers.shareTokN q 9} f) ∗ (ℓ ↦{Transfers.shareTokN q 10} f)
      ∗ bigSep ((((((Finset.range 11).erase 6).erase 7).erase 8).erase 9).erase 10) (fun i => ℓ ↦{Transfers.shareTokN q i} f)) := by
  have h : (ℓ ↦{q} f : sProp 𝕄) ⊣⊢ iprop((ℓ ↦{Transfers.shareDrop q 11} f) ∗ BI.bigSep (Finset.range 11) (fun i => ℓ ↦{Transfers.shareTokN q i} f)) :=
    Transfers.pointsTo_toks_range q 11
  rw [SparseCore.bigSep_erase' (show 6 ∈ Finset.range 11 by decide),
    SparseCore.bigSep_erase' (show 7 ∈ (Finset.range 11).erase 6 by decide),
    SparseCore.bigSep_erase' (show 8 ∈ ((Finset.range 11).erase 6).erase 7 by decide),
    SparseCore.bigSep_erase' (show 9 ∈ (((Finset.range 11).erase 6).erase 7).erase 8 by decide),
    SparseCore.bigSep_erase' (show 10 ∈ ((((Finset.range 11).erase 6).erase 7).erase 8).erase 9 by decide)] at h
  exact h

end Misc

/-! ## What the index scratch holds after the first copy -/

section Idx
variable [FloatOps F]

/-- The tile's row of the regrouped indices, as the first copy delivers it. -/
abbrev rowVals (d : Dev nD) (L : grid1.Coords) : S6400.Idx → Elt F .i32 :=
  (idsRowK L).view.read (Elt F) (IDS m d)

/-- Every word a chunk of the index scratch holds after the first copy is a row number of the table. -/
theorem idx_inb (hpre : PreOK m) (d : Dev nD) (L : grid1.Coords) (off : Fin 1 → ℕ) (h : ∀ a, off a + S128.size a ≤ S6400.size a) :
    ∀ x, ((idxK off h).view.read (Elt F) (rowVals m d L) x).toNat < 100000 := by
  intro x
  simp only [View.read_apply, cast_eq]
  exact hpre d _

/-- The table as the gathers address it (the whole array, sliced whole). -/
abbrev tabW : Memref sig .scVector .hbm S100000x128 .f32 :=
  (Memref.whole main_v3_scv : Memref sig .scVector .hbm S100000x128 .f32).slice (Rect.unit (s := S100000x128) ![0, 0] S100000x128.size inb_S100000x128_S100000x128_0_0) (fun _ => rfl)

/-- What a gather through the chunk of the index scratch at offsets io delivers into a 128 x 128 buffer: at (r, c) the
    table's row named by the chunk's word r, at column c. -/
abbrev gpay (d : Dev nD) (L : grid1.Coords) (io : Fin 1 → ℕ) (h : ∀ a, io a + S128.size a ≤ S6400.size a)
    (hin : ∀ x, ((idxK io h).view.read (Elt F) (rowVals m d L) x).toNat < 100000) : S128x128.Idx → Elt F .f32 :=
  SparseCore.gatherPayload gathers_S100000x128_S128x128 (tabW.view.read (Elt F) (NRM m d))
    (SparseCore.rows ((idxK io h).view.read (Elt F) (rowVals m d L)) rfl hin)

end Idx

end Cert.KernelIdeal.KI
end
-- ==== Proof.ScLemmasVal.lean ====
/-
  The value step of the gather kernel's body. A buffer written whole reads back what was written. A 128-row chunk of
  the output written whole with what a gather through a chunk of the index scratch delivers holds, on its rows, the
  gathered array: at row r of the chunk the row of the normalised table that the chunk's word r names, and that word
  is the regrouped index at the position of output row (chunk's first row + r).
-/
import proofs.«206674_g54314156425426_cont_9to1_m_1126_27_alg».proof.Proof.ScBodyViews

noncomputable section

namespace Cert.KernelIdeal.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable (m : (ℓ : Loc nD τ sig) → Buf (Elt F) ℓ)

section Whole
variable (d : Dev nD) (cc : Fin τ.nSC) (jj : Fin τ.nSub)

/-- A buffer written whole, read whole, is what was written. -/
theorem whole_read_writes (b : Ref sig .scVector) (cb : Buf (Elt F) ((V d cc jj).loc b)) (P : b.ty.shape.Idx → Elt F b.ty.elt) :
    (Memref.whole b).view.read (Elt F) ((Memref.whole b).view.writes (Elt F) cb [⟨Rect.whole b.ty.shape, P⟩]) = P := by
  funext x
  have h := View.read_writes_cons_emb (Memref.whole b).view cb (Rect.whole b.ty.shape) P [] x
  rwa [Rect.emb_whole_apply] at h

end Whole

section Reads
variable [FloatOps F]
open Idealize.ShloMosaic.ValueIdx

/-- The position of a one-axis shape at row-major place k is k. -/
theorem rowMajor_symm_val (k : Fin S128.numel) : ((S128.rowMajor.symm k) 0).val = k.val := by
  have h := Shape.rowMajor_val_one (S128.rowMajor.symm k)
  rw [Equiv.apply_symm_apply] at h
  exact h.symm

/-- A chunk of the index scratch at offset io reads position io 0 + y of the scratch at its own position y. -/
theorem idxK_read (io : Fin 1 → ℕ) (hi : ∀ a, io a + S128.size a ≤ S6400.size a) (g : S6400.Idx → Elt F .i32) (y : S128.Idx) :
    (idxK io hi).view.read (Elt F) g y = g (ix1 (n := 6400) ⟨io 0 + (y 0).val, by
      have h0 := hi 0; have e : S128.size 0 = 128 := rfl; have e' : S6400.size 0 = 6400 := rfl
      have hy : (y 0).val < 128 := (y 0).isLt; omega⟩) := by
  simp only [View.read_apply, cast_eq]
  refine congrArg g ?_
  funext b
  refine Fin.ext ?_
  revert b
  intro (b : Fin 1)
  obtain rfl : b = 0 := Subsingleton.elim _ _
  show io 0 + 1 * (y 0).val = io 0 + (y 0).val
  omega

/-- The tile's row of the regrouped indices at position z: the regrouped index at (tile's number, z). -/
theorem rowVals_apply (d : Dev nD) (L : grid1.Coords) (z : S6400.Idx) :
    rowVals m d L z = IDS m d (ix2 (n0 := 32) (n1 := 6400) (widL L) (z 0)) := by
  unfold rowVals
  simp only [View.read_apply, cast_eq]
  refine congrArg (IDS m d) ?_
  rw [View.emb_reshape, Function.Embedding.trans_apply, View.emb_slice, Function.Embedding.trans_apply]
  have hz : Shape.reshapeEquiv (s := S1x6400) (s' := S6400) squeezes_S1x6400_S6400.numel_eq z = ix2 (n0 := 1) (n1 := 6400) 0 (z 0) :=
    Shape.reshapeEquiv_eq_of_rowMajor _ (by
      rw [Shape.rowMajor_val_two, Shape.rowMajor_val_one]; show 0 * 6400 + (z 0).val = (z 0).val; omega)
  funext b
  refine Fin.ext ?_
  revert b
  intro (b : Fin 2)
  show k1_off1 L b + 1 * ((Shape.reshapeEquiv (s := S1x6400) (s' := S6400) squeezes_S1x6400_S6400.numel_eq z) b).val
    = (ix2 (n0 := 32) (n1 := 6400) (widL L) (z 0) b).val
  rw [hz, k1_off1_eq]
  fin_cases b
  · show 2 * (L 1).val + (L 0).val + 1 * 0 = (widL L).val
    unfold widL
    simp
  · show 0 + 1 * (z 0).val = (z 0).val
    omega

end Reads

section Chunk
variable [FloatOps F]
open Idealize.ShloMosaic.ValueIdx

theorem chunk_value (hpre : PreOK m) (d : Dev nD) (L : grid1.Coords)
    (oo : Fin 2 → ℕ) (ho : ∀ a, oo a + S128x128.size a ≤ S204800x128.size a) (io : Fin 1 → ℕ) (hi : ∀ a, io a + S128.size a ≤ S6400.size a)
    (hoo : oo 0 = baseL L + io 0) (hoo1 : oo 1 = 0)
    (hin : ∀ x, ((idxK io hi).view.read (Elt F) (rowVals m d L) x).toNat < 100000)
    (fo : Buf (Elt F) (v4Loc d)) (P : S128x128.Idx → Elt F .f32) (hP : ∀ x, P x = gpay m d L io hi hin x) :
    ∀ i ∈ rowsSet (oo 0) (oo 0 + 128), ((outK oo ho).view.writes (Elt F) fo [⟨Rect.whole S128x128, P⟩]) i = GOUT m d i := by
  intro i hi'
  rw [← set_outChunk oo ho hoo1] at hi'
  obtain ⟨x, -, rfl⟩ := Finset.mem_map.mp hi'
  rw [View.writes_singleton]
  have e1 : (outK oo ho).view.emb x = ((outK oo ho).view.slice (Rect.whole S128x128)).emb x :=
    congrArg (outK oo ho).view.emb (Rect.emb_whole_apply S128x128 x).symm
  refine (congrArg (View.write (Elt F) ((outK oo ho).view.slice (Rect.whole S128x128)) fo P Finset.univ) e1).trans ?_
  rw [View.write_emb_of_mem _ _ (Finset.mem_univ _), cast_eq, hP]
  unfold gpay SparseCore.gatherPayload GOUT KSpec.gathered
  rw [View.read_apply, cast_eq]
  refine congrArg (NRM m d) ?_
  funext a
  refine Fin.ext ?_
  revert a
  intro (a : Fin 2)
  fin_cases a
  · -- the row: the chunk's word at the index's row, which is the regrouped index at the output row's position
    have hx : (x 0).val < 128 := (x 0).isLt
    have hio : io 0 + 128 ≤ 6400 := hi 0
    refine (congrArg (fun t : Fin 100000 => 0 + 1 * t.val) (Shape.Gathers.idx_axis gathers_S100000x128_S128x128 _ x)).trans ?_
    show 0 + 1 * ((idxK io hi).view.read (Elt F) (rowVals m d L) (S128.rowMajor.symm (Fin.cast _ (x 0)))).toNat
      = (IDS m d (ix2 (n0 := 32) (n1 := 6400) ⟨(oo 0 + 1 * (x 0).val) / 6400, _⟩ ⟨(oo 0 + 1 * (x 0).val) % 6400, _⟩)).toNat % 100000
    rw [idxK_read, rowVals_apply, Nat.mod_eq_of_lt (hpre d _), Nat.zero_add, Nat.one_mul]
    refine congrArg (fun j => (IDS m d j).toNat) ?_
    have hb := baseL_eq L
    funext b
    refine Fin.ext ?_
    fin_cases b
    · show (widL L).val = (oo 0 + 1 * (x 0).val) / 6400
      rw [hoo]; omega
    · show io 0 + ((S128.rowMajor.symm (Fin.cast _ (x 0))) 0).val = (oo 0 + 1 * (x 0).val) % 6400
      rw [rowMajor_symm_val]
      show io 0 + (x 0).val = (oo 0 + 1 * (x 0).val) % 6400
      rw [hoo]; omega
  · -- the column: the index's own
    refine (congrArg (fun t : ℕ => 0 + 1 * t)
      (Shape.Gathers.idx_of_ne gathers_S100000x128_S128x128 _ x (1 : Fin 2) (by decide))).trans ?_
    show 0 + 1 * (x 1).val = oo 1 + 1 * (x 1).val
    rw [hoo1]

end Chunk

end Cert.KernelIdeal.KI
end
-- ==== Proof.ScBody.lean ====
/-
  The gather kernel's body on one vector subcore, at symbolic grid coordinates: one separation-logic triple.

  The tile copies its row of the regrouped indices into its index scratch, then moves 50 chunks of 128 table rows
  through a ring of five 128 x 128 buffers: each chunk is gathered (an indexed copy through 128 words of the index
  scratch) into its buffer and written out to the tile's rows of the output. Each buffer has a semaphore for its
  gathers and one for its write-outs; at most one copy is outstanding on a semaphore and no buffer is touched while
  a copy on it is pending, so every wait is an ordinary local wait.

  The run: the straight-line prologue and epilogue step by step; the counted loop of nine trips by an invariant at
  a symbolic trip k — three gathers (chunks 5k+2 … 5k+4) and two write-outs (chunks 5k, 5k+1) in flight, the index
  scratch and the output rows held as bands that the trip carves chunks off and puts chunks back onto. The table is
  read under one read token per gather semaphore.

  The value is carried in the invariant: a gather in flight delivers its buffer holding the table's rows that its
  index chunk names; a write-out in flight delivers its 128 rows of the output holding the gathered contents there;
  the band of output rows already written holds the gathered contents. A chunk's rows hold the gathered contents
  because the chunk's words are the regrouped indices at those rows' positions (the pure lemma chunk_value).
-/
import proofs.«206674_g54314156425426_cont_9to1_m_1126_27_alg».proof.Proof.Common
import proofs.«206674_g54314156425426_cont_9to1_m_1126_27_alg».proof.Proof.Gen.KernelIdeal.Skeleton
import proofs.«206674_g54314156425426_cont_9to1_m_1126_27_alg».proof.Proof.ScBodyViews
import proofs.«206674_g54314156425426_cont_9to1_m_1126_27_alg».proof.Proof.ScLemmasVal
import Idealize.ShloMosaic.Lib.SparseCore.Launch
import Idealize.ShloMosaic.Lib.StableHlo.Run
import Idealize.ShloMosaic.Lib.Pipeline.Kit
import Idealize.ShloMosaic.Lib.Tactic

noncomputable section

namespace Cert.KernelIdeal.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

variable [FloatOps F]

/-! ## The tile's own semaphores and buffers singled out -/

omit [FloatOps F] in
theorem cell_ne {thr : Thread nD τ} {a b : SemLoc sig} (h : a ≠ b) : ((thr, a) : GSem nD τ sig) ≠ (thr, b) :=
  fun e => h (Prod.mk.inj e).2

omit [FloatOps F] in
theorem ownSems0_V (d : Dev nD) (L : grid1.Coords) :
    (ownSems0 (V d (cV L) (jV L)) : sProp 𝕄)
      = iprop(semVal (((V d (cV L) (jV L)), SemLoc.dma cc1_scratch6.sem) : GSem nD τ sig) 0
          ∗ semVal (((V d (cV L) (jV L)), SemLoc.dma cc1_scratch7.sem) : GSem nD τ sig) 0
          ∗ semVal (((V d (cV L) (jV L)), SemLoc.dma cc1_scratch8.sem) : GSem nD τ sig) 0
          ∗ semVal (((V d (cV L) (jV L)), SemLoc.dma cc1_scratch9.sem) : GSem nD τ sig) 0
          ∗ semVal (((V d (cV L) (jV L)), SemLoc.dma cc1_scratch10.sem) : GSem nD τ sig) 0
          ∗ semVal (((V d (cV L) (jV L)), SemLoc.dma cc1_scratch11.sem) : GSem nD τ sig) 0
          ∗ semVal (((V d (cV L) (jV L)), SemLoc.dma cc1_scratch12.sem) : GSem nD τ sig) 0
          ∗ semVal (((V d (cV L) (jV L)), SemLoc.dma cc1_scratch13.sem) : GSem nD τ sig) 0
          ∗ semVal (((V d (cV L) (jV L)), SemLoc.dma cc1_scratch14.sem) : GSem nD τ sig) 0
          ∗ semVal (((V d (cV L) (jV L)), SemLoc.dma cc1_scratch15.sem) : GSem nD τ sig) 0
          ∗ semVal (((V d (cV L) (jV L)), SemLoc.dma cc1_scoped0.sem) : GSem nD τ sig) 0
          ∗ bigSep ((((((((((((ownCells (V d (cV L) (jV L))).erase (((V d (cV L) (jV L)), SemLoc.dma cc1_scratch6.sem) : GSem nD τ sig)).erase (((V d (cV L) (jV L)), SemLoc.dma cc1_scratch7.sem) : GSem nD τ sig)).erase (((V d (cV L) (jV L)), SemLoc.dma cc1_scratch8.sem) : GSem nD τ sig)).erase (((V d (cV L) (jV L)), SemLoc.dma cc1_scratch9.sem) : GSem nD τ sig)).erase (((V d (cV L) (jV L)), SemLoc.dma cc1_scratch10.sem) : GSem nD τ sig)).erase (((V d (cV L) (jV L)), SemLoc.dma cc1_scratch11.sem) : GSem nD τ sig)).erase (((V d (cV L) (jV L)), SemLoc.dma cc1_scratch12.sem) : GSem nD τ sig)).erase (((V d (cV L) (jV L)), SemLoc.dma cc1_scratch13.sem) : GSem nD τ sig)).erase (((V d (cV L) (jV L)), SemLoc.dma cc1_scratch14.sem) : GSem nD τ sig)).erase (((V d (cV L) (jV L)), SemLoc.dma cc1_scratch15.sem) : GSem nD τ sig)).erase (((V d (cV L) (jV L)), SemLoc.dma cc1_scoped0.sem) : GSem nD τ sig)) fun g => semVal g 0) := by
  unfold SparseCore.Cfg.ownSems0
  rw [SparseCore.bigSep_erase' ((mem_ownCells (g := (((V d (cV L) (jV L)), SemLoc.dma cc1_scratch6.sem) : GSem nD τ sig))).mpr ⟨rfl, by show (SemLoc.dma cc1_scratch6.sem : SemLoc sig).isScoped .scVector = true; decide⟩),
    SparseCore.bigSep_erase' (Finset.mem_erase.mpr ⟨cell_ne (by decide), ((mem_ownCells (g := (((V d (cV L) (jV L)), SemLoc.dma cc1_scratch7.sem) : GSem nD τ sig))).mpr ⟨rfl, by show (SemLoc.dma cc1_scratch7.sem : SemLoc sig).isScoped .scVector = true; decide⟩)⟩),
    SparseCore.bigSep_erase' (Finset.mem_erase.mpr ⟨cell_ne (by decide), (Finset.mem_erase.mpr ⟨cell_ne (by decide), ((mem_ownCells (g := (((V d (cV L) (jV L)), SemLoc.dma cc1_scratch8.sem) : GSem nD τ sig))).mpr ⟨rfl, by show (SemLoc.dma cc1_scratch8.sem : SemLoc sig).isScoped .scVector = true; decide⟩)⟩)⟩),
    SparseCore.bigSep_erase' (Finset.mem_erase.mpr ⟨cell_ne (by decide), (Finset.mem_erase.mpr ⟨cell_ne (by decide), (Finset.mem_erase.mpr ⟨cell_ne (by decide), ((mem_ownCells (g := (((V d (cV L) (jV L)), SemLoc.dma cc1_scratch9.sem) : GSem nD τ sig))).mpr ⟨rfl, by show (SemLoc.dma cc1_scratch9.sem : SemLoc sig).isScoped .scVector = true; decide⟩)⟩)⟩)⟩),
    SparseCore.bigSep_erase' (Finset.mem_erase.mpr ⟨cell_ne (by decide), (Finset.mem_erase.mpr ⟨cell_ne (by decide), (Finset.mem_erase.mpr ⟨cell_ne (by decide), (Finset.mem_erase.mpr ⟨cell_ne (by decide), ((mem_ownCells (g := (((V d (cV L) (jV L)), SemLoc.dma cc1_scratch10.sem) : GSem nD τ sig))).mpr ⟨rfl, by show (SemLoc.dma cc1_scratch10.sem : SemLoc sig).isScoped .scVector = true; decide⟩)⟩)⟩)⟩)⟩),
    SparseCore.bigSep_erase' (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), ((mem_ownCells (g := (((V d (cV L) (jV L)), SemLoc.dma cc1_scratch11.sem) : GSem nD τ sig))).mpr ⟨rfl, by show (SemLoc.dma cc1_scratch11.sem : SemLoc sig).isScoped .scVector = true; decide⟩)⟩)⟩)⟩)⟩)⟩),
    SparseCore.bigSep_erase' (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), ((mem_ownCells (g := (((V d (cV L) (jV L)), SemLoc.dma cc1_scratch12.sem) : GSem nD τ sig))).mpr ⟨rfl, by show (SemLoc.dma cc1_scratch12.sem : SemLoc sig).isScoped .scVector = true; decide⟩)⟩)⟩)⟩)⟩)⟩)⟩),
    SparseCore.bigSep_erase' (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), ((mem_ownCells (g := (((V d (cV L) (jV L)), SemLoc.dma cc1_scratch13.sem) : GSem nD τ sig))).mpr ⟨rfl, by show (SemLoc.dma cc1_scratch13.sem : SemLoc sig).isScoped .scVector = true; decide⟩)⟩)⟩)⟩)⟩)⟩)⟩)⟩),
    SparseCore.bigSep_erase' (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), ((mem_ownCells (g := (((V d (cV L) (jV L)), SemLoc.dma cc1_scratch14.sem) : GSem nD τ sig))).mpr ⟨rfl, by show (SemLoc.dma cc1_scratch14.sem : SemLoc sig).isScoped .scVector = true; decide⟩)⟩)⟩)⟩)⟩)⟩)⟩)⟩)⟩),
    SparseCore.bigSep_erase' (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), ((mem_ownCells (g := (((V d (cV L) (jV L)), SemLoc.dma cc1_scratch15.sem) : GSem nD τ sig))).mpr ⟨rfl, by show (SemLoc.dma cc1_scratch15.sem : SemLoc sig).isScoped .scVector = true; decide⟩)⟩)⟩)⟩)⟩)⟩)⟩)⟩)⟩)⟩),
    SparseCore.bigSep_erase' (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), ((mem_ownCells (g := (((V d (cV L) (jV L)), SemLoc.dma cc1_scoped0.sem) : GSem nD τ sig))).mpr ⟨rfl, by show (SemLoc.dma cc1_scoped0.sem : SemLoc sig).isScoped .scVector = true; decide⟩)⟩)⟩)⟩)⟩)⟩)⟩)⟩)⟩)⟩)⟩)]

omit [FloatOps F] in
theorem ownBufs_V (d : Dev nD) (L : grid1.Coords) :
    (ownBufs (V d (cV L) (jV L)) : sProp 𝕄)
      = iprop((∃ f, (V d (cV L) (jV L)).loc cc1_scratch0 ↦{fullShare} f)
          ∗ (∃ f, (V d (cV L) (jV L)).loc cc1_scratch1 ↦{fullShare} f)
          ∗ (∃ f, (V d (cV L) (jV L)).loc cc1_scratch2 ↦{fullShare} f)
          ∗ (∃ f, (V d (cV L) (jV L)).loc cc1_scratch3 ↦{fullShare} f)
          ∗ (∃ f, (V d (cV L) (jV L)).loc cc1_scratch4 ↦{fullShare} f)
          ∗ (∃ f, (V d (cV L) (jV L)).loc cc1_scratch5 ↦{fullShare} f)
          ∗ bigSep (((((((ownRefs (τ := τ) (.scVector (cV L) (jV L))).erase ((Proc.scVector (cV L) (jV L)).devRef cc1_scratch0)).erase ((Proc.scVector (cV L) (jV L)).devRef cc1_scratch1)).erase ((Proc.scVector (cV L) (jV L)).devRef cc1_scratch2)).erase ((Proc.scVector (cV L) (jV L)).devRef cc1_scratch3)).erase ((Proc.scVector (cV L) (jV L)).devRef cc1_scratch4)).erase ((Proc.scVector (cV L) (jV L)).devRef cc1_scratch5))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := ((Proc.scVector (cV L) (jV L)).devRef cc1_scratch0)) rfl)).trans ?_
  rw [SparseCore.bigSep_erase' (Finset.mem_erase.mpr ⟨fun e => absurd (Proc.devRef_injective _ e) (show (cc1_scratch1 : Ref sig .scVector) ≠ cc1_scratch0 by decide), (SparseCore.Cfg.mem_ownRefs_of_owner (p := Proc.scVector (cV L) (jV L)) (b := ((Proc.scVector (cV L) (jV L)).devRef cc1_scratch1)) rfl)⟩),
    SparseCore.bigSep_erase' (Finset.mem_erase.mpr ⟨fun e => absurd (Proc.devRef_injective _ e) (show (cc1_scratch2 : Ref sig .scVector) ≠ cc1_scratch1 by decide), (Finset.mem_erase.mpr ⟨fun e => absurd (Proc.devRef_injective _ e) (show (cc1_scratch2 : Ref sig .scVector) ≠ cc1_scratch0 by decide), (SparseCore.Cfg.mem_ownRefs_of_owner (p := Proc.scVector (cV L) (jV L)) (b := ((Proc.scVector (cV L) (jV L)).devRef cc1_scratch2)) rfl)⟩)⟩),
    SparseCore.bigSep_erase' (Finset.mem_erase.mpr ⟨fun e => absurd (Proc.devRef_injective _ e) (show (cc1_scratch3 : Ref sig .scVector) ≠ cc1_scratch2 by decide), (Finset.mem_erase.mpr ⟨fun e => absurd (Proc.devRef_injective _ e) (show (cc1_scratch3 : Ref sig .scVector) ≠ cc1_scratch1 by decide), (Finset.mem_erase.mpr ⟨fun e => absurd (Proc.devRef_injective _ e) (show (cc1_scratch3 : Ref sig .scVector) ≠ cc1_scratch0 by decide), (SparseCore.Cfg.mem_ownRefs_of_owner (p := Proc.scVector (cV L) (jV L)) (b := ((Proc.scVector (cV L) (jV L)).devRef cc1_scratch3)) rfl)⟩)⟩)⟩),
    SparseCore.bigSep_erase' (Finset.mem_erase.mpr ⟨fun e => absurd (Proc.devRef_injective _ e) (show (cc1_scratch4 : Ref sig .scVector) ≠ cc1_scratch3 by decide), (Finset.mem_erase.mpr ⟨fun e => absurd (Proc.devRef_injective _ e) (show (cc1_scratch4 : Ref sig .scVector) ≠ cc1_scratch2 by decide), (Finset.mem_erase.mpr ⟨fun e => absurd (Proc.devRef_injective _ e) (show (cc1_scratch4 : Ref sig .scVector) ≠ cc1_scratch1 by decide), (Finset.mem_erase.mpr ⟨fun e => absurd (Proc.devRef_injective _ e) (show (cc1_scratch4 : Ref sig .scVector) ≠ cc1_scratch0 by decide), (SparseCore.Cfg.mem_ownRefs_of_owner (p := Proc.scVector (cV L) (jV L)) (b := ((Proc.scVector (cV L) (jV L)).devRef cc1_scratch4)) rfl)⟩)⟩)⟩)⟩),
    SparseCore.bigSep_erase' (Finset.mem_erase.mpr ⟨fun e => absurd (Proc.devRef_injective _ e) (show (cc1_scratch5 : Ref sig .scVector) ≠ cc1_scratch4 by decide), (Finset.mem_erase.mpr ⟨fun e => absurd (Proc.devRef_injective _ e) (show (cc1_scratch5 : Ref sig .scVector) ≠ cc1_scratch3 by decide), (Finset.mem_erase.mpr ⟨fun e => absurd (Proc.devRef_injective _ e) (show (cc1_scratch5 : Ref sig .scVector) ≠ cc1_scratch2 by decide), (Finset.mem_erase.mpr ⟨fun e => absurd (Proc.devRef_injective _ e) (show (cc1_scratch5 : Ref sig .scVector) ≠ cc1_scratch1 by decide), (Finset.mem_erase.mpr ⟨fun e => absurd (Proc.devRef_injective _ e) (show (cc1_scratch5 : Ref sig .scVector) ≠ cc1_scratch0 by decide), (SparseCore.Cfg.mem_ownRefs_of_owner (p := Proc.scVector (cV L) (jV L)) (b := ((Proc.scVector (cV L) (jV L)).devRef cc1_scratch5)) rfl)⟩)⟩)⟩)⟩)⟩)]

/-! ## The tile's holdings as the body addresses them -/

omit [FloatOps F] in
theorem pts_outRows (d : Dev nD) (L : grid1.Coords) (f : Buf (Elt F) (v4Loc d)) :
    (outRowsPts d (widL L) f : sProp 𝕄) = v4Loc d ↦[rowsSet (baseL L) (baseL L + 6400)]{fullShare} f := by
  unfold outRowsPts; rw [outRowsSet_eq, baseL_eq]

theorem pts_idsRow (d : Dev nD) (L : grid1.Coords) :
    (((idsRowK L).view.loc (V d (cV L) (jV L)) ↦[(idsRowK L).view.set]{fullShare} IDS m d) : sProp 𝕄) = idsRowPts m d (widL L) := by
  unfold idsRowPts; rw [set_idsRowK]

omit [FloatOps F] in
theorem idx_landed (d : Dev nD) (cc : Fin τ.nSC) (jj : Fin τ.nSub) (f0 w : Buf (Elt F) ((V d cc jj).loc cc1_scratch0)) :
    (((Memref.whole cc1_scratch0).view.loc (V d cc jj) ↦{fullShare} (Memref.whole cc1_scratch0).view.write (Elt F) f0 w Finset.univ) : sProp 𝕄)
      = ((V d cc jj).loc cc1_scratch0 ↦[posSet 0 6400]{fullShare} w) := by
  rw [posSet_all]; simp only [Memref.view_whole, View.write_whole_univ]

/-! ## The loop -/

/-- The state before trip k of the counted loop: the gathers of chunks 5k+2, 5k+3, 5k+4 in flight into buffers 2, 3, 4, each
    delivering its buffer holding the table's rows its index chunk names; the write-outs of chunks 5k, 5k+1 in flight from
    buffers 0, 1, each delivering its rows of the output holding the gathered contents; the index scratch below position
    640k+256 and from 640k+640 on held apart; the tile's output rows below 640k at the gathered contents, and those from
    640k+256 on (not yet written) at any contents, held apart. -/
def inv (d : Dev nD) (L : grid1.Coords) (hin : ∀ (off : Fin 1 → ℕ) (h : ∀ a, off a + S128.size a ≤ S6400.size a) (x : S128.Idx), ((idxK off h).view.read (Elt F) (rowVals m d L) x).toNat < 100000)
    (O : CellTallies nD τ sig (HIx 1)) (W : Waits sig (HIx 1)) (k : Nat) (_ : PUnit) : sProp 𝕄 :=
  iprop(Transfers.MayWaits (V d (cV L) (jV L)) (none : HIx 1) O
    ∗ ((idsRowK L).view.loc (V d (cV L) (jV L)) ↦[(idsRowK L).view.set]{fullShare} IDS m d)
    ∗ (∃ (off : Fin 1 → ℕ) (h : ∀ a, off a + S128.size a ≤ S6400.size a) (cb : Buf (Elt F) ((V d (cV L) (jV L)).loc cc1_scratch3)),
      ⌜off 0 = 640 * k + 256 ∧ ∀ x, (Memref.whole cc1_scratch3).view.read (Elt F) cb x = gpay m d L off h (hin off h) x⌝
      ∗ Transfers.Flight countersEmb (V d (cV L) (jV L)) (SemLoc.dma cc1_scratch8.sem) default 524288
          iprop((((Memref.whole cc1_scratch3).view.loc (V d (cV L) (jV L)) ↦{fullShare} cb)
              ∗ ((idxK off h).view.loc (V d (cV L) (jV L)) ↦[(idxK off h).view.set]{fullShare} rowVals m d L))
            ∗ ((Memref.whole main_v3_scv).view.loc (V d (cV L) (jV L)) ↦[((Memref.whole main_v3_scv : Memref sig .scVector .hbm S100000x128 .f32).slice (Rect.unit (s := S100000x128) ![0, 0] S100000x128.size inb_S100000x128_S100000x128_0_0) (fun _ => rfl)).view.set]{(Transfers.shareTokN (Transfers.shareTok fullShare 32 (widL L)) 8)} NRM m d)))
      ∗ ((Memref.whole main_v3_scv).view.loc (V d (cV L) (jV L)) ↦[Finset.univ \ ((Memref.whole main_v3_scv : Memref sig .scVector .hbm S100000x128 .f32).slice (Rect.unit (s := S100000x128) ![0, 0] S100000x128.size inb_S100000x128_S100000x128_0_0) (fun _ => rfl)).view.set]{(Transfers.shareTokN (Transfers.shareTok fullShare 32 (widL L)) 8)} NRM m d)
    ∗ (∃ (off : Fin 1 → ℕ) (h : ∀ a, off a + S128.size a ≤ S6400.size a) (cb : Buf (Elt F) ((V d (cV L) (jV L)).loc cc1_scratch4)),
      ⌜off 0 = 640 * k + 384 ∧ ∀ x, (Memref.whole cc1_scratch4).view.read (Elt F) cb x = gpay m d L off h (hin off h) x⌝
      ∗ Transfers.Flight countersEmb (V d (cV L) (jV L)) (SemLoc.dma cc1_scratch9.sem) default 524288
          iprop((((Memref.whole cc1_scratch4).view.loc (V d (cV L) (jV L)) ↦{fullShare} cb)
              ∗ ((idxK off h).view.loc (V d (cV L) (jV L)) ↦[(idxK off h).view.set]{fullShare} rowVals m d L))
            ∗ ((Memref.whole main_v3_scv).view.loc (V d (cV L) (jV L)) ↦[((Memref.whole main_v3_scv : Memref sig .scVector .hbm S100000x128 .f32).slice (Rect.unit (s := S100000x128) ![0, 0] S100000x128.size inb_S100000x128_S100000x128_0_0) (fun _ => rfl)).view.set]{(Transfers.shareTokN (Transfers.shareTok fullShare 32 (widL L)) 9)} NRM m d)))
      ∗ ((Memref.whole main_v3_scv).view.loc (V d (cV L) (jV L)) ↦[Finset.univ \ ((Memref.whole main_v3_scv : Memref sig .scVector .hbm S100000x128 .f32).slice (Rect.unit (s := S100000x128) ![0, 0] S100000x128.size inb_S100000x128_S100000x128_0_0) (fun _ => rfl)).view.set]{(Transfers.shareTokN (Transfers.shareTok fullShare 32 (widL L)) 9)} NRM m d)
    ∗ (∃ (off : Fin 1 → ℕ) (h : ∀ a, off a + S128.size a ≤ S6400.size a) (cb : Buf (Elt F) ((V d (cV L) (jV L)).loc cc1_scratch5)),
      ⌜off 0 = 640 * k + 512 ∧ ∀ x, (Memref.whole cc1_scratch5).view.read (Elt F) cb x = gpay m d L off h (hin off h) x⌝
      ∗ Transfers.Flight countersEmb (V d (cV L) (jV L)) (SemLoc.dma cc1_scratch10.sem) default 524288
          iprop((((Memref.whole cc1_scratch5).view.loc (V d (cV L) (jV L)) ↦{fullShare} cb)
              ∗ ((idxK off h).view.loc (V d (cV L) (jV L)) ↦[(idxK off h).view.set]{fullShare} rowVals m d L))
            ∗ ((Memref.whole main_v3_scv).view.loc (V d (cV L) (jV L)) ↦[((Memref.whole main_v3_scv : Memref sig .scVector .hbm S100000x128 .f32).slice (Rect.unit (s := S100000x128) ![0, 0] S100000x128.size inb_S100000x128_S100000x128_0_0) (fun _ => rfl)).view.set]{(Transfers.shareTokN (Transfers.shareTok fullShare 32 (widL L)) 10)} NRM m d)))
      ∗ ((Memref.whole main_v3_scv).view.loc (V d (cV L) (jV L)) ↦[Finset.univ \ ((Memref.whole main_v3_scv : Memref sig .scVector .hbm S100000x128 .f32).slice (Rect.unit (s := S100000x128) ![0, 0] S100000x128.size inb_S100000x128_S100000x128_0_0) (fun _ => rfl)).view.set]{(Transfers.shareTokN (Transfers.shareTok fullShare 32 (widL L)) 10)} NRM m d)
    ∗ (∃ (off : Fin 2 → ℕ) (h : ∀ a, off a + S128x128.size a ≤ S204800x128.size a) (g : Buf (Elt F) (v4Loc d)) (cb : Buf (Elt F) ((V d (cV L) (jV L)).loc cc1_scratch1)),
      ⌜off 0 = baseL L + 640 * k ∧ off 1 = 0 ∧ ∀ i ∈ rowsSet (baseL L + 640 * k) (baseL L + 640 * k + 128), g i = GOUT m d i⌝
      ∗ Transfers.Flight countersEmb (V d (cV L) (jV L)) (SemLoc.dma cc1_scratch11.sem) default 524288
          iprop(((outK off h).view.loc (V d (cV L) (jV L)) ↦[(outK off h).view.set]{fullShare} g)
            ∗ ((Memref.whole cc1_scratch1).view.loc (V d (cV L) (jV L)) ↦[(Memref.whole cc1_scratch1).view.set]{fullShare} cb))
      ∗ ((Memref.whole cc1_scratch1).view.loc (V d (cV L) (jV L)) ↦[Finset.univ \ (Memref.whole cc1_scratch1).view.set]{fullShare} cb))
    ∗ (∃ (off : Fin 2 → ℕ) (h : ∀ a, off a + S128x128.size a ≤ S204800x128.size a) (g : Buf (Elt F) (v4Loc d)) (cb : Buf (Elt F) ((V d (cV L) (jV L)).loc cc1_scratch2)),
      ⌜off 0 = baseL L + 640 * k + 128 ∧ off 1 = 0 ∧ ∀ i ∈ rowsSet (baseL L + 640 * k + 128) (baseL L + 640 * k + 128 + 128), g i = GOUT m d i⌝
      ∗ Transfers.Flight countersEmb (V d (cV L) (jV L)) (SemLoc.dma cc1_scratch12.sem) default 524288
          iprop(((outK off h).view.loc (V d (cV L) (jV L)) ↦[(outK off h).view.set]{fullShare} g)
            ∗ ((Memref.whole cc1_scratch2).view.loc (V d (cV L) (jV L)) ↦[(Memref.whole cc1_scratch2).view.set]{fullShare} cb))
      ∗ ((Memref.whole cc1_scratch2).view.loc (V d (cV L) (jV L)) ↦[Finset.univ \ (Memref.whole cc1_scratch2).view.set]{fullShare} cb))
    ∗ ((Memref.whole main_v3_scv).view.loc (V d (cV L) (jV L)) ↦{(Transfers.shareTokN (Transfers.shareTok fullShare 32 (widL L)) 6)} NRM m d)
    ∗ ((Memref.whole main_v3_scv).view.loc (V d (cV L) (jV L)) ↦{(Transfers.shareTokN (Transfers.shareTok fullShare 32 (widL L)) 7)} NRM m d)
    ∗ ((V d (cV L) (jV L)).loc cc1_scratch0 ↦[posSet 0 (640 * k + 256)]{fullShare} rowVals m d L)
    ∗ ((V d (cV L) (jV L)).loc cc1_scratch0 ↦[posSet (640 * k + 640) 6400]{fullShare} rowVals m d L)
    ∗ (v4Loc d ↦[rowsSet (baseL L) (baseL L + 640 * k)]{fullShare} GOUT m d)
    ∗ (∃ f, v4Loc d ↦[rowsSet (baseL L + 640 * k + 256) (baseL L + 6400)]{fullShare} f)
    ∗ semVal ((V d (cV L) (jV L)), SemLoc.dma cc1_scratch6.sem) 0
    ∗ semVal ((V d (cV L) (jV L)), SemLoc.dma cc1_scratch7.sem) 0
    ∗ semVal ((V d (cV L) (jV L)), SemLoc.dma cc1_scratch13.sem) 0
    ∗ semVal ((V d (cV L) (jV L)), SemLoc.dma cc1_scratch14.sem) 0
    ∗ semVal ((V d (cV L) (jV L)), SemLoc.dma cc1_scratch15.sem) 0
    ∗ semVal ((V d (cV L) (jV L)), SemLoc.dma cc1_scoped0.sem) 0
    ∗ ∃ W', ⌜∀ p ∈ W', p ∈ W ∨ p.2 = none⌝ ∗ owes (V d (cV L) (jV L)) O W')

set_option maxHeartbeats 1600000 in
theorem trip_step (hpre : PreOK m) (d : Dev nD) (L : grid1.Coords) (O : CellTallies nD τ sig (HIx 1)) (W : Waits sig (HIx 1))
    (k : Fin k1_t1_loop.trips) (acc : PUnit) (v2 : BitVec 32) :
    inv m d L (idx_inb m hpre d L) O W k.val acc ⊢ wp frame (wpE (defs₀ (F := F)) 𝒱₀ (V d (cV L) (jV L)) none) Set.univ
      (k1_t1_body L (Memref.whole main_v0_scv) (Memref.isWhole_whole _) (Memref.whole main_v3_scv) (Memref.isWhole_whole _)
                (Memref.whole main_v4_scv) (Memref.isWhole_whole _) (Memref.whole cc1_scratch0) (Memref.isWhole_whole _)
                (Memref.whole cc1_scratch1) (Memref.isWhole_whole _) (Memref.whole cc1_scratch2) (Memref.isWhole_whole _)
                (Memref.whole cc1_scratch3) (Memref.isWhole_whole _) (Memref.whole cc1_scratch4) (Memref.isWhole_whole _)
                (Memref.whole cc1_scratch5) (Memref.isWhole_whole _)
                cc1_scratch6 cc1_scratch7 cc1_scratch8 cc1_scratch9 cc1_scratch10 cc1_scratch11 cc1_scratch12 cc1_scratch13 cc1_scratch14 cc1_scratch15 cc1_scoped0 v2 k acc)
      (inv m d L (idx_inb m hpre d L) O W (k.val + 1)) := by
  have hk : k.val < 9 := Nat.lt_of_lt_of_le k.isLt k1_t1_abs.2.1
  have hin := idx_inb m hpre d L
  unfold inv
  iintro ⟨#Hmw, Hids, ⟨%og8, %hg8, %cg8, %eg8, Hg8⟩, Ht8, ⟨%og9, %hg9, %cg9, %eg9, Hg9⟩, Ht9, ⟨%og10, %hg10, %cg10, %eg10, Hg10⟩, Ht10,
    ⟨%ow11, %hw11, %gw11, %cb11, %ew11, Hw11, Hb1⟩, ⟨%ow12, %hw12, %gw12, %cb12, %ew12, Hw12, Hb2⟩, Ht6, Ht7, Hiu, Hi, Hdone, ⟨%fo, Hout⟩,
    Hs6, Hs7, Hs13, Hs14, Hs15, Hs16, %W', %hW', HO⟩
  unfold k1_t1_body
  sl_exec
  ihave Hc := (out_carve d (cV L) (jV L) (k1_off4 L k 0#32) (k1_off4_inb L k 0) (off4_one L k 0) (lo := baseL L + 640 * k.val + 256) (mid := baseL L + 640 * k.val + 384) (hi := baseL L + 6400) (off4_at L k 0 256 (by decide)) (by omega) (by omega) _) $$ Hout
  icases Hc with ⟨Hoc0, Hout⟩
  sl_exec
  ihave Hc := (idx_carve d (cV L) (jV L) (k1_off6 k 0#32) (k1_off6_inb k 0) (lo := 640 * k.val + 640) (mid := 640 * k.val + 768) (hi := 6400) (off6_at k 0 640 (by decide)) (by omega) (by omega) _) $$ Hi
  icases Hc with ⟨Hic0, Hi⟩
  sl_exec
  ihave Hc := (out_carve d (cV L) (jV L) (k1_off4 L k 1#32) (k1_off4_inb L k 1) (off4_one L k 1) (lo := baseL L + 640 * k.val + 384) (mid := baseL L + 640 * k.val + 512) (hi := baseL L + 6400) (off4_at L k 1 384 (by decide)) (by omega) (by omega) _) $$ Hout
  icases Hc with ⟨Hoc1, Hout⟩
  sl_exec
  ihave Hc := (idx_carve d (cV L) (jV L) (k1_off6 k 1#32) (k1_off6_inb k 1) (lo := 640 * k.val + 768) (mid := 640 * k.val + 896) (hi := 6400) (off6_at k 1 768 (by decide)) (by omega) (by omega) _) $$ Hi
  icases Hc with ⟨Hic1, Hi⟩
  sl_exec
  ihave Hc := (out_carve d (cV L) (jV L) (k1_off4 L k 2#32) (k1_off4_inb L k 2) (off4_one L k 2) (lo := baseL L + 640 * k.val + 512) (mid := baseL L + 640 * k.val + 640) (hi := baseL L + 6400) (off4_at L k 2 512 (by decide)) (by omega) (by omega) _) $$ Hout
  icases Hc with ⟨Hoc2, Hout⟩
  sl_exec
  ihave Hc := (idx_carve d (cV L) (jV L) (k1_off6 k 2#32) (k1_off6_inb k 2) (lo := 640 * k.val + 896) (mid := 640 * k.val + 1024) (hi := 6400) (off6_at k 2 896 (by decide)) (by omega) (by omega) _) $$ Hi
  icases Hc with ⟨Hic2, Hi⟩
  sl_exec
  ihave Hc := (out_carve d (cV L) (jV L) (k1_off4 L k 3#32) (k1_off4_inb L k 3) (off4_one L k 3) (lo := baseL L + 640 * k.val + 640) (mid := baseL L + 640 * k.val + 768) (hi := baseL L + 6400) (off4_at L k 3 640 (by decide)) (by omega) (by omega) _) $$ Hout
  icases Hc with ⟨Hoc3, Hout⟩
  sl_exec
  ihave Hc := (idx_carve d (cV L) (jV L) (k1_off6 k 3#32) (k1_off6_inb k 3) (lo := 640 * k.val + 1024) (mid := 640 * k.val + 1152) (hi := 6400) (off6_at k 3 1024 (by decide)) (by omega) (by omega) _) $$ Hi
  icases Hc with ⟨Hic3, Hi⟩
  sl_exec
  ihave Hc := (out_carve d (cV L) (jV L) (k1_off4 L k 4#32) (k1_off4_inb L k 4) (off4_one L k 4) (lo := baseL L + 640 * k.val + 768) (mid := baseL L + 640 * (k.val + 1) + 256) (hi := baseL L + 6400) (off4_at L k 4 768 (by decide)) (by omega) (by omega) _) $$ Hout
  icases Hc with ⟨Hoc4, Hout⟩
  sl_exec
  ihave Hc := (idx_carve d (cV L) (jV L) (k1_off6 k 4#32) (k1_off6_inb k 4) (lo := 640 * k.val + 1152) (mid := 640 * (k.val + 1) + 640) (hi := 6400) (off6_at k 4 1152 (by decide)) (by omega) (by omega) _) $$ Hi
  icases Hc with ⟨Hic4, Hi⟩
  sl_exec
  sl_step
  ihave Hiu := (idx_merge d (cV L) (jV L) og8 hg8 (lo := 0) (mid := 640 * k.val + 256) (hi := 640 * k.val + 384) eg8.1 (by omega) (by omega) _) $$ [Hiu Hg8_dst_and]
  · isplitl [Hiu] <;> iassumption
  ihave Hiu := (idx_merge d (cV L) (jV L) og9 hg9 (lo := 0) (mid := 640 * k.val + 384) (hi := 640 * k.val + 512) eg9.1 (by omega) (by omega) _) $$ [Hiu Hg9_dst_and]
  · isplitl [Hiu] <;> iassumption
  ihave Hiu := (idx_merge d (cV L) (jV L) og10 hg10 (lo := 0) (mid := 640 * k.val + 512) (hi := 640 * k.val + 640) eg10.1 (by omega) (by omega) _) $$ [Hiu Hg10_dst_and]
  · isplitl [Hiu] <;> iassumption
  ihave Hiu := (idx_merge d (cV L) (jV L) (k1_off6 k 0#32) (k1_off6_inb k 0) (lo := 0) (mid := 640 * k.val + 640) (hi := 640 * k.val + 768) (off6_at k 0 640 (by decide)) (by omega) (by omega) _) $$ [Hiu Hic0]
  · isplitl [Hiu] <;> iassumption
  ihave Hiu := (idx_merge d (cV L) (jV L) (k1_off6 k 1#32) (k1_off6_inb k 1) (lo := 0) (mid := 640 * k.val + 768) (hi := 640 * (k.val + 1) + 256) (off6_at k 1 768 (by decide)) (by omega) (by omega) _) $$ [Hiu Hic1]
  · isplitl [Hiu] <;> iassumption
  isplitr; · iexact Hmw
  isplitl [Hids]; · iexact Hids
  isplitl [Hg8]
  · iexists (k1_off6 k 2#32), (k1_off6_inb k 2), _; isplitr
    pick_goal 2
    · iexact Hg8
    · ipureintro
      exact ⟨(off6_at k 2 896 (by decide)).trans (by omega), fun x => congrFun (whole_read_writes d (cV L) (jV L) cc1_scratch3 _ _) x⟩
  isplitl [Ht8]; · iexact Ht8
  isplitl [Hg9]
  · iexists (k1_off6 k 3#32), (k1_off6_inb k 3), _; isplitr
    pick_goal 2
    · iexact Hg9
    · ipureintro
      exact ⟨(off6_at k 3 1024 (by decide)).trans (by omega), fun x => congrFun (whole_read_writes d (cV L) (jV L) cc1_scratch4 _ _) x⟩
  isplitl [Ht9]; · iexact Ht9
  isplitl [Hg10]
  · iexists (k1_off6 k 4#32), (k1_off6_inb k 4), _; isplitr
    pick_goal 2
    · iexact Hg10
    · ipureintro
      exact ⟨(off6_at k 4 1152 (by decide)).trans (by omega), fun x => congrFun (whole_read_writes d (cV L) (jV L) cc1_scratch5 _ _) x⟩
  isplitl [Ht10]; · iexact Ht10
  isplitl [Hw11 Hb1]
  · iexists (k1_off4 L k 3#32), (k1_off4_inb L k 3), _, _; isplitr
    pick_goal 2
    · isplitl [Hw11]
      · iexact Hw11
      · iexact Hb1
    · ipureintro
      have e0 := (off4_at L k 3 640 (by decide)).trans (show baseL L + 640 * k.val + 640 = baseL L + 640 * (k.val + 1) by omega)
      refine ⟨e0, off4_one L k 3, ?_⟩
      intro i hi
      rw [← e0] at hi
      exact chunk_value m hpre d L _ _ (k1_off6 k 0#32) (k1_off6_inb k 0) ((off4_at L k 3 640 (by decide)).trans (by have e6 : k1_off6 k 0#32 0 = 640 * k.val + 640 := off6_at k 0 640 (by decide); omega)) (off4_one L k 3) (hin _ _) _ _
        (fun x => congrFun (whole_read_writes d (cV L) (jV L) cc1_scratch1 _ _) x) i hi
  isplitl [Hw12 Hb2]
  · iexists (k1_off4 L k 4#32), (k1_off4_inb L k 4), _, _; isplitr
    pick_goal 2
    · isplitl [Hw12]
      · iexact Hw12
      · iexact Hb2
    · ipureintro
      have e0 := (off4_at L k 4 768 (by decide)).trans (show baseL L + 640 * k.val + 768 = baseL L + 640 * (k.val + 1) + 128 by omega)
      refine ⟨e0, off4_one L k 4, ?_⟩
      intro i hi
      rw [← e0] at hi
      exact chunk_value m hpre d L _ _ (k1_off6 k 1#32) (k1_off6_inb k 1) ((off4_at L k 4 768 (by decide)).trans (by have e6 : k1_off6 k 1#32 0 = 640 * k.val + 768 := off6_at k 1 768 (by decide); omega)) (off4_one L k 4) (hin _ _) _ _
        (fun x => congrFun (whole_read_writes d (cV L) (jV L) cc1_scratch2 _ _) x) i hi
  isplitl [Ht6]; · iexact Ht6
  isplitl [Ht7]; · iexact Ht7
  isplitl [Hiu]; · iexact Hiu
  isplitl [Hi]; · iexact Hi
  isplitl [Hdone Hw11_dst Hw12_dst Hoc0 Hoc1 Hoc2]
  · iapply (out_merge_at d (cV L) (jV L) (k1_off4 L k 2#32) (k1_off4_inb L k 2) (off4_one L k 2) (lo := baseL L) (mid := baseL L + 640 * k.val + 512) (hi := baseL L + 640 * (k.val + 1)) (off4_at L k 2 512 (by decide)) (by omega) (by omega) (GOUT m d) _ (chunk_value m hpre d L (k1_off4 L k 2#32) (k1_off4_inb L k 2) og10 hg10 ((off4_at L k 2 512 (by decide)).trans (by rw [eg10.1]; omega)) (off4_one L k 2) (hin og10 hg10) _ _ (fun x => eg10.2 x)))
    isplitl [Hdone Hw11_dst Hw12_dst Hoc0 Hoc1]
    · iapply (out_merge_at d (cV L) (jV L) (k1_off4 L k 1#32) (k1_off4_inb L k 1) (off4_one L k 1) (lo := baseL L) (mid := baseL L + 640 * k.val + 384) (hi := baseL L + 640 * k.val + 512) (off4_at L k 1 384 (by decide)) (by omega) (by omega) (GOUT m d) _ (chunk_value m hpre d L (k1_off4 L k 1#32) (k1_off4_inb L k 1) og9 hg9 ((off4_at L k 1 384 (by decide)).trans (by rw [eg9.1]; omega)) (off4_one L k 1) (hin og9 hg9) _ _ (fun x => eg9.2 x)))
      isplitl [Hdone Hw11_dst Hw12_dst Hoc0]
      · iapply (out_merge_at d (cV L) (jV L) (k1_off4 L k 0#32) (k1_off4_inb L k 0) (off4_one L k 0) (lo := baseL L) (mid := baseL L + 640 * k.val + 256) (hi := baseL L + 640 * k.val + 384) (off4_at L k 0 256 (by decide)) (by omega) (by omega) (GOUT m d) _ (chunk_value m hpre d L (k1_off4 L k 0#32) (k1_off4_inb L k 0) og8 hg8 ((off4_at L k 0 256 (by decide)).trans (by rw [eg8.1]; omega)) (off4_one L k 0) (hin og8 hg8) _ _ (fun x => eg8.2 x)))
        isplitl [Hdone Hw11_dst Hw12_dst]
        · iapply (out_merge_at d (cV L) (jV L) ow12 hw12 ew12.2.1 (lo := baseL L) (mid := baseL L + 640 * k.val + 128) (hi := baseL L + 640 * k.val + 256) ew12.1 (by omega) (by omega) (GOUT m d) _ (by rw [ew12.1]; exact ew12.2.2))
          isplitl [Hdone Hw11_dst]
          · iapply (out_merge_at d (cV L) (jV L) ow11 hw11 ew11.2.1 (lo := baseL L) (mid := baseL L + 640 * k.val) (hi := baseL L + 640 * k.val + 128) ew11.1 (by omega) (by omega) (GOUT m d) _ (by rw [ew11.1]; exact ew11.2.2))
            isplitl [Hdone]
            · iexact Hdone
            · iexact Hw11_dst
          · iexact Hw12_dst
        · iexact Hoc0
      · iexact Hoc1
    · iexact Hoc2
  isplitl [Hout]; · iexists _; iexact Hout
  isplitl [Hs6]; · iexact Hs6
  isplitl [Hs7]; · iexact Hs7
  isplitl [Hs13]; · iexact Hs13
  isplitl [Hs14]; · iexact Hs14
  isplitl [Hs15]; · iexact Hs15
  isplitl [Hs16]; · iexact Hs16
  iexists _; isplitr
  pick_goal 2
  · iexact HO
  · ipureintro
    repeat (refine ins_ok ?_ rfl)
    exact hW'

/-! ## The body on its resources singled out -/

set_option maxHeartbeats 3200000 in
theorem tile_core (hpre : PreOK m) (d : Dev nD) (L : grid1.Coords)
    (O : CellTallies nD τ sig (HIx 1)) (W : Waits sig (HIx 1))
    (f0 : Buf (Elt F) ((Memref.whole cc1_scratch0).view.loc (V d (cV L) (jV L)))) (f1 : Buf (Elt F) ((Memref.whole cc1_scratch1).view.loc (V d (cV L) (jV L))))
    (f2 : Buf (Elt F) ((Memref.whole cc1_scratch2).view.loc (V d (cV L) (jV L)))) (f3 : Buf (Elt F) ((Memref.whole cc1_scratch3).view.loc (V d (cV L) (jV L))))
    (f4 : Buf (Elt F) ((Memref.whole cc1_scratch4).view.loc (V d (cV L) (jV L)))) (f5 : Buf (Elt F) ((Memref.whole cc1_scratch5).view.loc (V d (cV L) (jV L))))
    (fo : Buf (Elt F) (v4Loc d)) :
    (iprop(Transfers.MayWaits (V d (cV L) (jV L)) (none : HIx 1) O
      ∗ ((idsRowK L).view.loc (V d (cV L) (jV L)) ↦[(idsRowK L).view.set]{fullShare} IDS m d)
      ∗ ((Memref.whole main_v3_scv).view.loc (V d (cV L) (jV L)) ↦{Transfers.shareTokN (Transfers.shareTok fullShare 32 (widL L)) 6} NRM m d)
      ∗ ((Memref.whole main_v3_scv).view.loc (V d (cV L) (jV L)) ↦{Transfers.shareTokN (Transfers.shareTok fullShare 32 (widL L)) 7} NRM m d)
      ∗ ((Memref.whole main_v3_scv).view.loc (V d (cV L) (jV L)) ↦{Transfers.shareTokN (Transfers.shareTok fullShare 32 (widL L)) 8} NRM m d)
      ∗ ((Memref.whole main_v3_scv).view.loc (V d (cV L) (jV L)) ↦{Transfers.shareTokN (Transfers.shareTok fullShare 32 (widL L)) 9} NRM m d)
      ∗ ((Memref.whole main_v3_scv).view.loc (V d (cV L) (jV L)) ↦{Transfers.shareTokN (Transfers.shareTok fullShare 32 (widL L)) 10} NRM m d)
      ∗ (v4Loc d ↦[rowsSet (baseL L) (baseL L + 6400)]{fullShare} fo)
      ∗ ((Memref.whole cc1_scratch0).view.loc (V d (cV L) (jV L)) ↦{fullShare} f0)
      ∗ ((Memref.whole cc1_scratch1).view.loc (V d (cV L) (jV L)) ↦{fullShare} f1)
      ∗ ((Memref.whole cc1_scratch2).view.loc (V d (cV L) (jV L)) ↦{fullShare} f2)
      ∗ ((Memref.whole cc1_scratch3).view.loc (V d (cV L) (jV L)) ↦{fullShare} f3)
      ∗ ((Memref.whole cc1_scratch4).view.loc (V d (cV L) (jV L)) ↦{fullShare} f4)
      ∗ ((Memref.whole cc1_scratch5).view.loc (V d (cV L) (jV L)) ↦{fullShare} f5)
      ∗ semVal ((V d (cV L) (jV L)), SemLoc.dma cc1_scratch6.sem) 0
      ∗ semVal ((V d (cV L) (jV L)), SemLoc.dma cc1_scratch7.sem) 0
      ∗ semVal ((V d (cV L) (jV L)), SemLoc.dma cc1_scratch8.sem) 0
      ∗ semVal ((V d (cV L) (jV L)), SemLoc.dma cc1_scratch9.sem) 0
      ∗ semVal ((V d (cV L) (jV L)), SemLoc.dma cc1_scratch10.sem) 0
      ∗ semVal ((V d (cV L) (jV L)), SemLoc.dma cc1_scratch11.sem) 0
      ∗ semVal ((V d (cV L) (jV L)), SemLoc.dma cc1_scratch12.sem) 0
      ∗ semVal ((V d (cV L) (jV L)), SemLoc.dma cc1_scratch13.sem) 0
      ∗ semVal ((V d (cV L) (jV L)), SemLoc.dma cc1_scratch14.sem) 0
      ∗ semVal ((V d (cV L) (jV L)), SemLoc.dma cc1_scratch15.sem) 0
      ∗ semVal ((V d (cV L) (jV L)), SemLoc.dma cc1_scoped0.sem) 0
      ∗ owes (V d (cV L) (jV L)) O W) : sProp 𝕄)
      ⊢ wp frame (wpE (defs₀ (F := F)) 𝒱₀ (V d (cV L) (jV L)) none) Set.univ
          (cc1__sc_gather_body L (Memref.whole main_v0_scv) (Memref.isWhole_whole _) (Memref.whole main_v3_scv) (Memref.isWhole_whole _)
                (Memref.whole main_v4_scv) (Memref.isWhole_whole _) (Memref.whole cc1_scratch0) (Memref.isWhole_whole _)
                (Memref.whole cc1_scratch1) (Memref.isWhole_whole _) (Memref.whole cc1_scratch2) (Memref.isWhole_whole _)
                (Memref.whole cc1_scratch3) (Memref.isWhole_whole _) (Memref.whole cc1_scratch4) (Memref.isWhole_whole _)
                (Memref.whole cc1_scratch5) (Memref.isWhole_whole _)
                cc1_scratch6 cc1_scratch7 cc1_scratch8 cc1_scratch9 cc1_scratch10 cc1_scratch11 cc1_scratch12 cc1_scratch13 cc1_scratch14 cc1_scratch15 cc1_scoped0)
          fun _ => iprop(((idsRowK L).view.loc (V d (cV L) (jV L)) ↦[(idsRowK L).view.set]{fullShare} IDS m d)
            ∗ ((Memref.whole main_v3_scv).view.loc (V d (cV L) (jV L)) ↦{Transfers.shareTokN (Transfers.shareTok fullShare 32 (widL L)) 6} NRM m d)
            ∗ ((Memref.whole main_v3_scv).view.loc (V d (cV L) (jV L)) ↦{Transfers.shareTokN (Transfers.shareTok fullShare 32 (widL L)) 7} NRM m d)
            ∗ ((Memref.whole main_v3_scv).view.loc (V d (cV L) (jV L)) ↦{Transfers.shareTokN (Transfers.shareTok fullShare 32 (widL L)) 8} NRM m d)
            ∗ ((Memref.whole main_v3_scv).view.loc (V d (cV L) (jV L)) ↦{Transfers.shareTokN (Transfers.shareTok fullShare 32 (widL L)) 9} NRM m d)
            ∗ ((Memref.whole main_v3_scv).view.loc (V d (cV L) (jV L)) ↦{Transfers.shareTokN (Transfers.shareTok fullShare 32 (widL L)) 10} NRM m d)
            ∗ (v4Loc d ↦[rowsSet (baseL L) (baseL L + 6400)]{fullShare} GOUT m d)
            ∗ (∃ f, (Memref.whole cc1_scratch0).view.loc (V d (cV L) (jV L)) ↦{fullShare} f)
            ∗ (∃ f, (Memref.whole cc1_scratch1).view.loc (V d (cV L) (jV L)) ↦{fullShare} f)
            ∗ (∃ f, (Memref.whole cc1_scratch2).view.loc (V d (cV L) (jV L)) ↦{fullShare} f)
            ∗ (∃ f, (Memref.whole cc1_scratch3).view.loc (V d (cV L) (jV L)) ↦{fullShare} f)
            ∗ (∃ f, (Memref.whole cc1_scratch4).view.loc (V d (cV L) (jV L)) ↦{fullShare} f)
            ∗ (∃ f, (Memref.whole cc1_scratch5).view.loc (V d (cV L) (jV L)) ↦{fullShare} f)
            ∗ semVal ((V d (cV L) (jV L)), SemLoc.dma cc1_scratch6.sem) 0
            ∗ semVal ((V d (cV L) (jV L)), SemLoc.dma cc1_scratch7.sem) 0
            ∗ semVal ((V d (cV L) (jV L)), SemLoc.dma cc1_scratch8.sem) 0
            ∗ semVal ((V d (cV L) (jV L)), SemLoc.dma cc1_scratch9.sem) 0
            ∗ semVal ((V d (cV L) (jV L)), SemLoc.dma cc1_scratch10.sem) 0
            ∗ semVal ((V d (cV L) (jV L)), SemLoc.dma cc1_scratch11.sem) 0
            ∗ semVal ((V d (cV L) (jV L)), SemLoc.dma cc1_scratch12.sem) 0
            ∗ semVal ((V d (cV L) (jV L)), SemLoc.dma cc1_scratch13.sem) 0
            ∗ semVal ((V d (cV L) (jV L)), SemLoc.dma cc1_scratch14.sem) 0
            ∗ semVal ((V d (cV L) (jV L)), SemLoc.dma cc1_scratch15.sem) 0
            ∗ semVal ((V d (cV L) (jV L)), SemLoc.dma cc1_scoped0.sem) 0
            ∗ ∃ W', ⌜∀ p ∈ W', p ∈ W ∨ p.2 = none⌝ ∗ owes (V d (cV L) (jV L)) O W') := by
  rw [cc1__sc_gather_body_eq_skeleton]; unfold cc1__sc_gather_body_skel
  iintro ⟨#Hmw, Hids, Ht6, Ht7, Ht8, Ht9, Ht10, Hout, Hb0, Hb1, Hb2, Hb3, Hb4, Hb5, Hs6, Hs7, Hs8, Hs9, Hs10, Hs11, Hs12, Hs13, Hs14, Hs15, Hs16, HO⟩
  sl_exec
  ihave Hi := (Entails.of_eq (idx_landed d (cV L) (jV L) f0 _)) $$ Hb0
  ihave Hc := (idx_carve d (cV L) (jV L) ![0] inb_S6400_S128_0 (lo := 0) (mid := 128) (hi := 6400) rfl rfl (by omega) _) $$ Hi
  icases Hc with ⟨Hi0, Hi⟩
  ihave Hc := (idx_carve d (cV L) (jV L) ![128] inb_S6400_S128_128 (lo := 128) (mid := 256) (hi := 6400) rfl rfl (by omega) _) $$ Hi
  icases Hc with ⟨Hi1, Hi⟩
  ihave Hc := (idx_carve d (cV L) (jV L) ![256] inb_S6400_S128_256 (lo := 256) (mid := 384) (hi := 6400) rfl rfl (by omega) _) $$ Hi
  icases Hc with ⟨Hi2, Hi⟩
  have hin := idx_inb m hpre d L
  sl_exec
  ihave Hc := (out_carve d (cV L) (jV L) (k1_off2 L 0#32) (k1_off2_inb L 0) (off2_one L 0) (lo := baseL L) (mid := baseL L + 128) (hi := baseL L + 6400) (off2_zero L 0) rfl (by omega) _) $$ Hout
  icases Hc with ⟨Ho0, Hout⟩
  sl_exec
  ihave Hc := (idx_carve d (cV L) (jV L) ![384] inb_S6400_S128_384 (lo := 384) (mid := 512) (hi := 6400) rfl rfl (by omega) _) $$ Hi
  icases Hc with ⟨Hi3, Hi⟩
  sl_exec
  ihave Hc := (out_carve d (cV L) (jV L) (k1_off2 L 128#32) (k1_off2_inb L 1) (off2_one L 1) (lo := baseL L + 128) (mid := baseL L + 640 * 0 + 256) (hi := baseL L + 6400) (off2_zero L 1) rfl (by omega) _) $$ Hout
  icases Hc with ⟨Ho1, Hout⟩
  sl_exec
  ihave Hc := (idx_carve d (cV L) (jV L) ![512] inb_S6400_S128_512 (lo := 512) (mid := 640 * 0 + 640) (hi := 6400) rfl rfl (by omega) _) $$ Hi
  icases Hc with ⟨Hi4, Hi⟩
  sl_exec
  ihave Hiu := (Entails.of_eq (pts_idxK d (cV L) (jV L) ![0] inb_S6400_S128_0 (lo := 0) (hi := 128) rfl rfl _)) $$ Hi0
  ihave Hiu := (idx_merge d (cV L) (jV L) ![128] inb_S6400_S128_128 (lo := 0) (mid := 128) (hi := 640 * 0 + 256) rfl (by omega) (by omega) _) $$ [Hiu Hi1]
  · isplitl [Hiu] <;> iassumption
  sl_for (inv m d L hin O W) $$ [Hids Hs8 Ht8 Hs9 Ht9 Hs10 Ht10 Hs11 Hb1 Hs12 Hb2 Ht6 Ht7 Hiu Hi Hout Hs6 Hs7 Hs13 Hs14 Hs15 Hs16 HO]
  case region =>
    intro k acc
    exact trip_step m hpre d L O W k acc _
  · unfold inv
    isplitr; · iexact Hmw
    isplitl [Hids]; · iexact Hids
    isplitl [Hs8]
    · iexists ![256], inb_S6400_S128_256, _; isplitr
      pick_goal 2
      · iexact Hs8
      · ipureintro
        exact ⟨rfl, fun x => congrFun (whole_read_writes d (cV L) (jV L) cc1_scratch3 _ _) x⟩
    isplitl [Ht8]; · iexact Ht8
    isplitl [Hs9]
    · iexists ![384], inb_S6400_S128_384, _; isplitr
      pick_goal 2
      · iexact Hs9
      · ipureintro
        exact ⟨rfl, fun x => congrFun (whole_read_writes d (cV L) (jV L) cc1_scratch4 _ _) x⟩
    isplitl [Ht9]; · iexact Ht9
    isplitl [Hs10]
    · iexists ![512], inb_S6400_S128_512, _; isplitr
      pick_goal 2
      · iexact Hs10
      · ipureintro
        exact ⟨rfl, fun x => congrFun (whole_read_writes d (cV L) (jV L) cc1_scratch5 _ _) x⟩
    isplitl [Ht10]; · iexact Ht10
    isplitl [Hs11 Hb1]
    · iexists (k1_off2 L 0#32), (k1_off2_inb L 0), _, _; isplitr
      pick_goal 2
      · isplitl [Hs11]
        · iexact Hs11
        · iexact Hb1
      · ipureintro
        have e0 : k1_off2 L 0#32 0 = baseL L + 640 * 0 := (off2_at L 0 0 (by decide)).trans (by omega)
        refine ⟨e0, off2_one L 0, ?_⟩
        intro i hi
        rw [← e0] at hi
        exact chunk_value m hpre d L _ _ ![0] inb_S6400_S128_0 (off2_at L 0 0 (by decide)) (off2_one L 0) (hin _ _) _ _
          (fun x => congrFun (whole_read_writes d (cV L) (jV L) cc1_scratch1 _ _) x) i hi
    isplitl [Hs12 Hb2]
    · iexists (k1_off2 L 128#32), (k1_off2_inb L 1), _, _; isplitr
      pick_goal 2
      · isplitl [Hs12]
        · iexact Hs12
        · iexact Hb2
      · ipureintro
        have e0 : k1_off2 L 128#32 0 = baseL L + 640 * 0 + 128 := (off2_at L 1 128 (by decide)).trans (by omega)
        refine ⟨e0, off2_one L 1, ?_⟩
        intro i hi
        rw [← e0] at hi
        exact chunk_value m hpre d L _ _ ![128] inb_S6400_S128_128 (off2_at L 1 128 (by decide)) (off2_one L 1) (hin _ _) _ _
          (fun x => congrFun (whole_read_writes d (cV L) (jV L) cc1_scratch2 _ _) x) i hi
    isplitl [Ht6]; · iexact Ht6
    isplitl [Ht7]; · iexact Ht7
    isplitl [Hiu]; · iexact Hiu
    isplitl [Hi]; · iexact Hi
    isplitr
    · rw [rows_none_eq d (baseL L) (baseL L + 640 * 0) (by omega) fullShare (GOUT m d)]; iempintro
    isplitl [Hout]; · iexists _; iexact Hout
    isplitl [Hs6]; · iexact Hs6
    isplitl [Hs7]; · iexact Hs7
    isplitl [Hs13]; · iexact Hs13
    isplitl [Hs14]; · iexact Hs14
    isplitl [Hs15]; · iexact Hs15
    isplitl [Hs16]; · iexact Hs16
    iexists _; isplitr
    pick_goal 2
    · iexact HO
    · ipureintro
      repeat (refine ins_ok ?_ rfl)
      exact fun p hp => .inl hp
  iintro %_ HI
  unfold inv
  have ht : Scf.trips k1_t1_loop.lb k1_t1_loop.ub k1_t1_loop.st = 9 := by decide
  rw [ht]
  icases HI with ⟨-, Hids, ⟨%og8, %hg8, %cg8, %eg8, Hg8⟩, Ht8, ⟨%og9, %hg9, %cg9, %eg9, Hg9⟩, Ht9, ⟨%og10, %hg10, %cg10, %eg10, Hg10⟩, Ht10,
    ⟨%ow11, %hw11, %gw11, %cb11, %ew11, Hw11, Hb1⟩, ⟨%ow12, %hw12, %gw12, %cb12, %ew12, Hw12, Hb2⟩, Ht6, Ht7, Hiu, Hi, Hdone, ⟨%fo', Hout⟩,
    Hs6, Hs7, Hs13, Hs14, Hs15, Hs16, %W', %hW', HO⟩
  sl_exec
  ihave Hc := (out_carve d (cV L) (jV L) (k1_off2 L 6016#32) (k1_off2_inb L 2) (off2_one L 2) (lo := baseL L + 640 * 9 + 256) (mid := baseL L + 6144) (hi := baseL L + 6400) ((off2_at L 2 6016 (by decide)).trans (by omega)) (by omega) (by omega) _) $$ Hout
  icases Hc with ⟨He2, Hout⟩
  sl_exec
  ihave Hc := (out_carve d (cV L) (jV L) (k1_off2 L 6144#32) (k1_off2_inb L 3) (off2_one L 3) (lo := baseL L + 6144) (mid := baseL L + 6272) (hi := baseL L + 6400) ((off2_at L 3 6144 (by decide)).trans (by omega)) (by omega) (by omega) _) $$ Hout
  icases Hc with ⟨He3, Hout⟩
  sl_exec
  ihave Hc := (out_carve d (cV L) (jV L) (k1_off2 L 6272#32) (k1_off2_inb L 4) (off2_one L 4) (lo := baseL L + 6272) (mid := baseL L + 6400) (hi := baseL L + 6400) ((off2_at L 4 6272 (by decide)).trans (by omega)) (by omega) (by omega) _) $$ Hout
  icases Hc with ⟨He4, Hout⟩
  sl_exec
  sl_step
  ihave Hiu := (idx_merge d (cV L) (jV L) og8 hg8 (lo := 0) (mid := 640 * 9 + 256) (hi := 640 * 9 + 384) eg8.1 (by omega) (by omega) _) $$ [Hiu Hg8_dst_and]
  · isplitl [Hiu] <;> iassumption
  ihave Hiu := (idx_merge d (cV L) (jV L) og9 hg9 (lo := 0) (mid := 640 * 9 + 384) (hi := 640 * 9 + 512) eg9.1 (by omega) (by omega) _) $$ [Hiu Hg9_dst_and]
  · isplitl [Hiu] <;> iassumption
  ihave Hiu := (idx_merge d (cV L) (jV L) og10 hg10 (lo := 0) (mid := 640 * 9 + 512) (hi := 6400) eg10.1 (by omega) (by omega) _) $$ [Hiu Hg10_dst_and]
  · isplitl [Hiu] <;> iassumption
  ihave Hb0 := (Entails.of_eq (idx_all d (cV L) (jV L) _)) $$ Hiu
  iclear Hi
  isplitl [Hids]; · iexact Hids
  isplitl [Ht6]; · iexact Ht6
  isplitl [Ht7]; · iexact Ht7
  isplitl [Ht8]; · iexact Ht8
  isplitl [Ht9]; · iexact Ht9
  isplitl [Ht10]; · iexact Ht10
  isplitl [Hdone Hw11_dst Hw12_dst He2 He3 He4]
  · iapply (out_merge_at d (cV L) (jV L) (k1_off2 L 6272#32) (k1_off2_inb L 4) (off2_one L 4) (lo := baseL L) (mid := baseL L + 6272) (hi := baseL L + 6400) (off2_at L 4 6272 (by decide)) (by omega) (by omega) (GOUT m d) _ (chunk_value m hpre d L (k1_off2 L 6272#32) (k1_off2_inb L 4) og10 hg10 ((off2_at L 4 6272 (by decide)).trans (by rw [eg10.1])) (off2_one L 4) (hin og10 hg10) _ _ (fun x => eg10.2 x)))
    isplitl [Hdone Hw11_dst Hw12_dst He2 He3]
    · iapply (out_merge_at d (cV L) (jV L) (k1_off2 L 6144#32) (k1_off2_inb L 3) (off2_one L 3) (lo := baseL L) (mid := baseL L + 6144) (hi := baseL L + 6272) (off2_at L 3 6144 (by decide)) (by omega) (by omega) (GOUT m d) _ (chunk_value m hpre d L (k1_off2 L 6144#32) (k1_off2_inb L 3) og9 hg9 ((off2_at L 3 6144 (by decide)).trans (by rw [eg9.1])) (off2_one L 3) (hin og9 hg9) _ _ (fun x => eg9.2 x)))
      isplitl [Hdone Hw11_dst Hw12_dst He2]
      · iapply (out_merge_at d (cV L) (jV L) (k1_off2 L 6016#32) (k1_off2_inb L 2) (off2_one L 2) (lo := baseL L) (mid := baseL L + 640 * 9 + 256) (hi := baseL L + 6144) ((off2_at L 2 6016 (by decide)).trans (by omega)) (by omega) (by omega) (GOUT m d) _ (chunk_value m hpre d L (k1_off2 L 6016#32) (k1_off2_inb L 2) og8 hg8 ((off2_at L 2 6016 (by decide)).trans (by rw [eg8.1])) (off2_one L 2) (hin og8 hg8) _ _ (fun x => eg8.2 x)))
        isplitl [Hdone Hw11_dst Hw12_dst]
        · iapply (out_merge_at d (cV L) (jV L) ow12 hw12 ew12.2.1 (lo := baseL L) (mid := baseL L + 640 * 9 + 128) (hi := baseL L + 640 * 9 + 256) ew12.1 (by omega) (by omega) (GOUT m d) _ (by rw [ew12.1]; exact ew12.2.2))
          isplitl [Hdone Hw11_dst]
          · iapply (out_merge_at d (cV L) (jV L) ow11 hw11 ew11.2.1 (lo := baseL L) (mid := baseL L + 640 * 9) (hi := baseL L + 640 * 9 + 128) ew11.1 (by omega) (by omega) (GOUT m d) _ (by rw [ew11.1]; exact ew11.2.2))
            isplitl [Hdone]
            · iexact Hdone
            · iexact Hw11_dst
          · iexact Hw12_dst
        · iexact He2
      · iexact He3
    · iexact He4
  isplitl [Hb0]; · iexists _; iexact Hb0
  isplitl [Hb1]; · iexists _; iexact Hb1
  isplitl [Hb2]; · iexists _; iexact Hb2
  isplitl [Hg8_dst]; · iexists _; iexact Hg8_dst
  isplitl [Hg9_dst]; · iexists _; iexact Hg9_dst
  isplitl [Hg10_dst]; · iexists _; iexact Hg10_dst
  isplitl [Hs6]; · iexact Hs6
  isplitl [Hs7]; · iexact Hs7
  isplitl [Hg8]; · iexact Hg8
  isplitl [Hg9]; · iexact Hg9
  isplitl [Hg10]; · iexact Hg10
  isplitl [Hw11]; · iexact Hw11
  isplitl [Hw12]; · iexact Hw12
  isplitl [Hs13]; · iexact Hs13
  isplitl [Hs14]; · iexact Hs14
  isplitl [Hs15]; · iexact Hs15
  isplitl [Hs16]; · iexact Hs16
  iexists _; isplitr
  pick_goal 2
  · iexact HO
  · ipureintro
    repeat (refine ins_ok ?_ rfl)
    exact hW'

/-! ## The body as the launch hands it over -/

theorem tile_body (hF : (K (F := F)).Facts) (hpre : PreOK m) (d : Dev nD) (L : grid1.Coords)
    (O : CellTallies nD τ sig (HIx 1)) (W : Waits sig (HIx 1)) (hO : ∀ g, O g none = 0) :
    iprop(levAts (K (F := F)).L (K (F := F)).lev ∗ emp ∗ goW m d (widL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_gather_body L (Memref.whole main_v0_scv) (Memref.isWhole_whole _) (Memref.whole main_v3_scv) (Memref.isWhole_whole _)
                (Memref.whole main_v4_scv) (Memref.isWhole_whole _) (Memref.whole cc1_scratch0) (Memref.isWhole_whole _)
                (Memref.whole cc1_scratch1) (Memref.isWhole_whole _) (Memref.whole cc1_scratch2) (Memref.isWhole_whole _)
                (Memref.whole cc1_scratch3) (Memref.isWhole_whole _) (Memref.whole cc1_scratch4) (Memref.isWhole_whole _)
                (Memref.whole cc1_scratch5) (Memref.isWhole_whole _)
                cc1_scratch6 cc1_scratch7 cc1_scratch8 cc1_scratch9 cc1_scratch10 cc1_scratch11 cc1_scratch12 cc1_scratch13 cc1_scratch14 cc1_scratch15 cc1_scoped0)
          fun _ => iprop(tdW m d (widL L) ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  unfold goW tdW
  iintro ⟨#Hlv, -, ⟨Hids, Hnrm, %fo, Hout⟩, ⟨⟨%f0, Hb0⟩, ⟨%f1, Hb1⟩, ⟨%f2, Hb2⟩, ⟨%f3, Hb3⟩, ⟨%f4, Hb4⟩, ⟨%f5, Hb5⟩, Hbufs⟩,
    ⟨Hs6, Hs7, Hs8, Hs9, Hs10, Hs11, Hs12, Hs13, Hs14, Hs15, Hs16, Hsems⟩, HO⟩
  ihave Hmw := ((K (F := F)).mayWaits_none (thr := (V d (cV L) (jV L))) hO) $$ Hlv
  ihave Hids := (Entails.of_eq (pts_idsRow m d L).symm) $$ Hids
  ihave Hn := (nrm_toks (NRM m d) _).1 $$ Hnrm
  icases Hn with ⟨Hdrop, Ht6, Ht7, Ht8, Ht9, Ht10, Htoks⟩
  ihave Hout := (Entails.of_eq (pts_outRows d L fo)) $$ Hout
  iapply (wp_wand_r frame (wpE (defs₀ (F := F)) 𝒱₀ (V d (cV L) (jV L)) none) Set.univ)
  isplitl [Hids Ht6 Ht7 Ht8 Ht9 Ht10 Hout Hb0 Hb1 Hb2 Hb3 Hb4 Hb5 Hs6 Hs7 Hs8 Hs9 Hs10 Hs11 Hs12 Hs13 Hs14 Hs15 Hs16 HO]
  · iapply (tile_core m hpre d L O W f0 f1 f2 f3 f4 f5 fo)
    isplitr; · iexact Hmw
    isplitl [Hids]; · iexact Hids
    isplitl [Ht6]; · iexact Ht6
    isplitl [Ht7]; · iexact Ht7
    isplitl [Ht8]; · iexact Ht8
    isplitl [Ht9]; · iexact Ht9
    isplitl [Ht10]; · iexact Ht10
    isplitl [Hout]; · iexact Hout
    isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    isplitl [Hs14]; · iexact Hs14
    isplitl [Hs15]; · iexact Hs15
    isplitl [Hs16]; · iexact Hs16
    iexact HO
  iintro %_ ⟨Hids, Ht6, Ht7, Ht8, Ht9, Ht10, Hout, Hb0, Hb1, Hb2, Hb3, Hb4, Hb5, Hs6, Hs7, Hs8, Hs9, Hs10, Hs11, Hs12, Hs13, Hs14, Hs15, Hs16, HW⟩
  isplitl [Hids Ht6 Ht7 Ht8 Ht9 Ht10 Hdrop Htoks Hout]
  · isplitl [Hids]; · iapply (Entails.of_eq (pts_idsRow m d L)); iexact Hids
    isplitl [Ht6 Ht7 Ht8 Ht9 Ht10 Hdrop Htoks]
    · iapply (nrm_toks (NRM m d) _).2
      isplitl [Hdrop]; · iexact Hdrop
      isplitl [Ht6]; · iexact Ht6
      isplitl [Ht7]; · iexact Ht7
      isplitl [Ht8]; · iexact Ht8
      isplitl [Ht9]; · iexact Ht9
      isplitl [Ht10]; · iexact Ht10
      iexact Htoks
    iapply (Entails.of_eq (pts_outRows d L (GOUT m d)).symm); iexact Hout
  isplitl [Hb0 Hb1 Hb2 Hb3 Hb4 Hb5 Hbufs]
  · isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    iexact Hbufs
  isplitl [Hs6 Hs7 Hs8 Hs9 Hs10 Hs11 Hs12 Hs13 Hs14 Hs15 Hs16 Hsems]
  · isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    isplitl [Hs14]; · iexact Hs14
    isplitl [Hs15]; · iexact Hs15
    isplitl [Hs16]; · iexact Hs16
    iexact Hsems
  iexact HW

/-- The same with the output rows at some contents: the gathered contents forgotten. -/
theorem tile_body_frame (hF : (K (F := F)).Facts) (hpre : PreOK m) (d : Dev nD) (L : grid1.Coords)
    (O : CellTallies nD τ sig (HIx 1)) (W : Waits sig (HIx 1)) (hO : ∀ g, O g none = 0) :
    iprop(levAts (K (F := F)).L (K (F := F)).lev ∗ emp ∗ goW m d (widL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_gather_body L (Memref.whole main_v0_scv) (Memref.isWhole_whole _) (Memref.whole main_v3_scv) (Memref.isWhole_whole _)
                (Memref.whole main_v4_scv) (Memref.isWhole_whole _) (Memref.whole cc1_scratch0) (Memref.isWhole_whole _)
                (Memref.whole cc1_scratch1) (Memref.isWhole_whole _) (Memref.whole cc1_scratch2) (Memref.isWhole_whole _)
                (Memref.whole cc1_scratch3) (Memref.isWhole_whole _) (Memref.whole cc1_scratch4) (Memref.isWhole_whole _)
                (Memref.whole cc1_scratch5) (Memref.isWhole_whole _)
                cc1_scratch6 cc1_scratch7 cc1_scratch8 cc1_scratch9 cc1_scratch10 cc1_scratch11 cc1_scratch12 cc1_scratch13 cc1_scratch14 cc1_scratch15 cc1_scoped0)
          fun _ => iprop((idsRowPts m d (widL L) ∗ nrmTok m d (widL L) ∗ ∃ f, outRowsPts d (widL L) f) ∗ scopedBufs (V d (cV L) (jV L)) ∗ scopedSems0 (V d (cV L) (jV L))
            ∗ ∃ W', ⌜∀ p ∈ W', p ∈ W ∨ p.2 = none⌝ ∗ owes (V d (cV L) (jV L)) O W') := by
  refine (tile_body m hF hpre d L O W hO).trans (wp_mono _ _ _ fun _ => ?_)
  unfold tdW
  iintro ⟨⟨Hids, Hnrm, Hout⟩, Hrest⟩
  isplitl [Hids Hnrm Hout]
  · isplitl [Hids]; · iexact Hids
    isplitl [Hnrm]; · iexact Hnrm
    iexists _; iexact Hout
  iexact Hrest

end Cert.KernelIdeal.KI
end
-- ==== Proof.KernelBits.KSpec.lean ====
/-
  What the kernel's program computes, written as pure functions of the argument arrays, for any float instance.

  The program has three stages. The host regroups the 1024 x 200 indices, in row-major order, into 32 rows of 6400 (one
  row per worker) and views the scale and shift vectors as 1 x 128 rows. The first kernel normalises the WHOLE table, ten
  blocks of 10000 rows: each row has its mean subtracted, is multiplied by the reciprocal square root of its variance
  plus epsilon, then by the scale, and the shift is added (the arithmetic of one block is the body's payload, kept folded
  here). The second kernel copies, for every position p of the 204800, row ids[p] of the normalised table to row p of the
  output, which the host finally views as 1024 x 200 x 128.
-/
import proofs.«206674_g54314156425426_cont_9to1_m_1126_27_alg».proof.Proof.Gen.Kernel.Skeleton
import Idealize.ShloMosaic.Lib.ValueIdx

noncomputable section

namespace Cert.Kernel.KSpec

open Idealize.ShloMosaic Idealize.ShloMosaic.ValueIdx Cert.Kernel
open Cert.Kernel.Gen (k0_pay1)
open Cert.Kernel.Facts₀

variable {F : FTy → Type} [FloatOps F]

/-- The indices as the workers see them: 32 rows of 6400, the row-major regrouping of the 1024 x 200 array. -/
def idsRows (ids : IVec S1024x200 32) : IVec S32x6400 32 := shapeCast S32x6400 ids shapeCasts_S1024x200_S32x6400

/-- A 128-vector viewed as a 1 x 128 row. -/
def asRow (v : FVec F S128 .f32) : FVec F S1x128 .f32 := shapeCast S1x128 v shapeCasts_S128_S1x128

/-- Rows 10000 t … 10000 t + 9999 of the table: the block the first kernel works on at grid point t. -/
def tblBlock (tbl : FVec F S100000x128 .f32) (t : Fin 10) : FVec F S10000x128 .f32 :=
  fun y => tbl (ix2 (n0 := 100000) (n1 := 128)
    ⟨10000 * t.val + (y 0).val, by have h := idx2_lt0 (n0 := 10000) (n1 := 128) y; have := t.isLt; omega⟩ (y 1))

/-- The normalised table: entry (r, k) is entry (r mod 10000, k) of the body's result on block r / 10000. -/
def normed (tbl : FVec F S100000x128 .f32) (g b : FVec F S1x128 .f32) : FVec F S100000x128 .f32 :=
  fun i => k0_pay1 (tblBlock tbl ⟨(i 0).val / 10000, by have h := idx2_lt0 (n0 := 100000) (n1 := 128) i; omega⟩) g b
    (ix2 (n0 := 10000) (n1 := 128) ⟨(i 0).val % 10000, Nat.mod_lt _ (by decide)⟩ (i 1))

/-- The row of the table that position p of the 204800 looks up: the word at row p / 6400, column p mod 6400 of the
    regrouped indices (reduced mod 100000 only to make the definition total: under the precondition it is in range). -/
def rowOfPos (idsR : IVec S32x6400 32) (p : Fin 204800) : Fin 100000 :=
  ⟨(idsR (ix2 (n0 := 32) (n1 := 6400) ⟨p.val / 6400, by have := p.isLt; omega⟩ ⟨p.val % 6400, Nat.mod_lt _ (by decide)⟩)).toNat % 100000,
    Nat.mod_lt _ (by decide)⟩

/-- The gathered array: row p is row `rowOfPos p` of the source. -/
def gathered (idsR : IVec S32x6400 32) (src : FVec F S100000x128 .f32) : FVec F S204800x128 .f32 :=
  fun i => src (ix2 (n0 := 100000) (n1 := 128) (rowOfPos idsR ⟨(i 0).val, idx2_lt0 (n0 := 204800) (n1 := 128) i⟩) (i 1))

/-- The program's result as a function of its four arguments. -/
def out (ids : IVec S1024x200 32) (tbl : FVec F S100000x128 .f32) (gam bet : FVec F S128 .f32) : FVec F S1024x200x128 .f32 :=
  shapeCast S1024x200x128 (gathered (idsRows ids) (normed tbl (asRow gam) (asRow bet))) shapeCasts_S204800x128_S1024x200x128

end Cert.Kernel.KSpec

end
-- ==== Proof.KernelBits.Common.lean ====
/-
  The set-up shared by the proof of the kernel program's run: the program as the launch theorem for a program with
  SparseCore kernels sees it, the ghost state (the launch handshakes' rounds, the first kernel's staging cells'
  rounds, the transfers' counters), the contents of the program's arrays as pure functions of the launch memory, and
  what each of the 32 workers is handed and hands back.

  Worker (c, i) — vector subcore i of SparseCore c — has number w = 2 i + c. It is handed row w of the regrouped
  indices, a read share of the whole normalised table, and rows 6400 w … 6400 w + 6399 of the output at any contents;
  it hands the same back with its output rows holding, at every position, the row of the normalised table the index at
  that position names.
-/
import proofs.«206674_g54314156425426_cont_9to1_m_1126_27_alg».proof.Proof.KernelBits.KSpec
import proofs.«206674_g54314156425426_cont_9to1_m_1126_27_alg».proof.Proof.Gen.Kernel.Launch
import proofs.«206674_g54314156425426_cont_9to1_m_1126_27_alg».proof.Proof.Gen.Kernel.Points
import Idealize.ShloMosaic.Lib.SparseCore.Launch
import Idealize.ShloMosaic.Lib.StableHlo.Run
import Idealize.ShloMosaic.Lib.Pipeline.Kit
import Idealize.ShloMosaic.Lib.Tactic

noncomputable section

namespace Cert.Kernel.KI

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the staging cells' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds: the left factor. -/
abbrev EH : Emb UH (MT nD τ sig (HIx 1) (Elt F) ℕ UU ℕ) := embL
/-- The staging cells' rounds: the left factor of the right factor (the counters, its right factor, are found by instance). -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP 𝕄).LandsIn (upEmb : UEmb _ 𝕄) := by unfold EP; infer_instance

/-! ## The launch memory, the arrays and their contents -/

variable (m : (ℓ : Loc nD τ sig) → Buf (Elt F) ℓ) (ρ : Dev nD → PrngReg)

abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev a3Loc (d : Dev nD) : Loc nD τ sig := (SparseCore.T d).loc main_arg3
abbrev v0Loc (d : Dev nD) : Loc nD τ sig := (SparseCore.T d).loc main_v0
abbrev v1Loc (d : Dev nD) : Loc nD τ sig := (SparseCore.T d).loc main_v1
abbrev v2Loc (d : Dev nD) : Loc nD τ sig := (SparseCore.T d).loc main_v2
abbrev v3Loc (d : Dev nD) : Loc nD τ sig := (SparseCore.T d).loc main_v3
abbrev v4Loc (d : Dev nD) : Loc nD τ sig := (SparseCore.T d).loc main_v4
abbrev v5Loc (d : Dev nD) : Loc nD τ sig := (SparseCore.T d).loc main_v5

variable [FloatOps F]

/-- The regrouped indices (the contents of the 32 x 6400 array once the host has written it). -/
def IDS (d : Dev nD) : Buf (Elt F) (v0Loc d) := KSpec.idsRows (m (a0Loc d))
/-- The scale and the shift as rows. -/
def GAM (d : Dev nD) : Buf (Elt F) (v1Loc d) := KSpec.asRow (F := F) (m (a2Loc d))
def BET (d : Dev nD) : Buf (Elt F) (v2Loc d) := KSpec.asRow (F := F) (m (a3Loc d))
/-- The normalised table (the contents of the first kernel's result once it has run). -/
def NRM (d : Dev nD) : Buf (Elt F) (v3Loc d) := KSpec.normed (F := F) (m (a1Loc d)) (GAM m d) (BET m d)
/-- The gathered rows (the contents of the second kernel's result once it has run). -/
def GOUT (d : Dev nD) : Buf (Elt F) (v4Loc d) := KSpec.gathered (F := F) (IDS m d) (NRM m d)
/-- The program's result. -/
def RES (d : Dev nD) : Buf (Elt F) (v5Loc d) := KSpec.out (F := F) (m (a0Loc d)) (m (a1Loc d)) (m (a2Loc d)) (m (a3Loc d))

/-! ## The workers, their rows -/

/-- Worker (c, i)'s number: 2 i + c. -/
def wid (c : Fin ((K (F := F)).nCore 0)) (i : Fin ((K (F := F)).nSub 0)) : Fin 32 :=
  ⟨2 * i.val + c.val, by have hc : c.val < 2 := c.isLt; have hi : i.val < 16 := i.isLt; omega⟩

theorem hdivI : 32 ∣ S32x6400.size 0 := ⟨1, rfl⟩
theorem hdivO : 32 ∣ S204800x128.size 0 := ⟨6400, rfl⟩

/-- Row w of the regrouped indices, as a set of positions of the 32 x 6400 array. -/
abbrev idsRowSet (w : Fin 32) : Finset S32x6400.Idx :=
  ((Memref.whole main_v0_scv : Memref sig .scVector .hbm S32x6400 .i32).view.slice (Rect.part (s := S32x6400) (a₀ := 0) hdivI w)).set
/-- Rows 6400 w … 6400 w + 6399 of the output, as a set of positions of the 204800 x 128 array. -/
abbrev outRowsSet (w : Fin 32) : Finset S204800x128.Idx :=
  ((Memref.whole main_v4_scv : Memref sig .scVector .hbm S204800x128 .f32).view.slice (Rect.part (s := S204800x128) (a₀ := 0) hdivO w)).set

/-- Worker w's row of the indices, at the regrouped contents; -/
abbrev idsRowPts (d : Dev nD) (w : Fin 32) : sProp 𝕄 := v0Loc d ↦[idsRowSet w]{fullShare} IDS m d
/-- its read share of the normalised table (one of 32 tokens split off the full share); -/
abbrev nrmTok (d : Dev nD) (w : Fin 32) : sProp 𝕄 := v3Loc d ↦{Transfers.shareTok fullShare 32 w} NRM m d
/-- its rows of the output, at contents f. -/
abbrev outRowsPts (d : Dev nD) (w : Fin 32) (f : Buf (Elt F) (v4Loc d)) : sProp 𝕄 := v4Loc d ↦[outRowsSet w]{fullShare} f

/-- What worker w is handed, -/
def goW (d : Dev nD) (w : Fin 32) : sProp 𝕄 := iprop(idsRowPts m d w ∗ nrmTok m d w ∗ ∃ f, outRowsPts d w f)
/-- and what it hands back: its output rows at the gathered contents. -/
def tdW (d : Dev nD) (w : Fin 32) : sProp 𝕄 := iprop(idsRowPts m d w ∗ nrmTok m d w ∗ outRowsPts d w (GOUT m d))

instance goW_storable (d : Dev nD) (w : Fin 32) : BI.Storable (upEmb : UEmb _ 𝕄) (goW m d w) := by unfold goW; infer_instance
instance tdW_storable (d : Dev nD) (w : Fin 32) : BI.Storable (upEmb : UEmb _ 𝕄) (tdW m d w) := by unfold tdW; infer_instance

/-- The one SparseCore call: a SparseCore takes its sixteen workers' holdings and gives their results back. -/
def P : (K (F := F)).Pay (nD := nD) (Val := Elt F) (Name := ℕ) (U := UU) where
  st := fun q d c => match q with | 0 => bigSep Finset.univ fun i : Fin ((K (F := F)).nSub 0) => goW m d (wid c i)
  dn := fun q d c => match q with | 0 => bigSep Finset.univ fun i : Fin ((K (F := F)).nSub 0) => tdW m d (wid c i)
  go := fun q d c i => match q with | 0 => goW m d (wid c i)
  td := fun q d c i => match q with | 0 => tdW m d (wid c i)
  x := fun _ _ => iprop(emp)

instance P_storable : (P (F := F) m).IsStorable where
  st q d c := match q with | 0 => (inferInstance : BI.Storable (upEmb : UEmb _ 𝕄) (bigSep Finset.univ fun i : Fin ((K (F := F)).nSub 0) => goW m d (wid c i)))
  dn q d c := match q with | 0 => (inferInstance : BI.Storable (upEmb : UEmb _ 𝕄) (bigSep Finset.univ fun i : Fin ((K (F := F)).nSub 0) => tdW m d (wid c i)))
  go q d c i := match q with | 0 => (inferInstance : BI.Storable (upEmb : UEmb _ 𝕄) (goW m d (wid c i)))
  td q d c i := match q with | 0 => (inferInstance : BI.Storable (upEmb : UEmb _ 𝕄) (tdW m d (wid c i)))

/-! ## A worker at its grid coordinates -/

/-- The SparseCore and the vector subcore of the worker at grid coordinates L, -/
abbrev cV (L : grid1.Coords) : Fin τ.nSC := (L 0).castLE hcore1
abbrev jV (L : grid1.Coords) : Fin τ.nSub := (L 1).castLE hsub1
/-- and its number, 2 (L 1) + (L 0). -/
def widL (L : grid1.Coords) : Fin 32 :=
  ⟨2 * (L 1).val + (L 0).val, by have h0 : (L 0).val < 2 := (L 0).isLt; have h1 : (L 1).val < 16 := (L 1).isLt; omega⟩

/-- Grid coordinates from a SparseCore and a vector subcore of the grid. -/
def coordsV (c : Fin (grid1.bound 0)) (s : Fin (grid1.bound 1)) : grid1.Coords :=
  fun | 0 => c | 1 => s | ⟨_ + 2, h⟩ => absurd h (Nat.not_lt.2 (Nat.le_add_left _ _))

/-- What the workers' proof asks of the launch memory: every regrouped index names a row of the table. -/
def PreOK : Prop := ∀ (d : Dev nD) (j : S32x6400.Idx), (IDS m d j).toNat < 100000

end Cert.Kernel.KI

end
-- ==== Proof.KernelBits.TcBody.lean ====
/-
  The first kernel's body, one grid point: it loads a block of 10000 rows of the table and the scale and shift rows,
  and stores the block normalised. Whatever the output's staging buffer held, after the body it holds the payload of
  the three loads, everywhere (the one store covers the buffer); the inputs' buffers are as they were.
-/
import proofs.«206674_g54314156425426_cont_9to1_m_1126_27_alg».proof.Proof.KernelBits.Common
import Idealize.ShloMosaic.Lib.Pipeline.FrameBody
import Idealize.ShloMosaic.Lib.Ring
import Idealize.ShloMosaic.Lib.Tactic

set_option maxRecDepth 16384

noncomputable section

namespace Cert.Kernel.KI

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- The whole block, and the whole row: the rectangles the body loads and stores through. -/
abbrev rBlk : Rect S10000x128 := Rect.unit (s := S10000x128) ![0, 0] S10000x128.size Facts₀.inb_S10000x128_S10000x128_0_0
abbrev rRow : Rect S1x128 := Rect.unit (s := S1x128) ![0, 0] S1x128.size Facts₀.inb_S1x128_S1x128_0_0

/-- The output's staging buffer after the body, from the three input blocks: its one store as a piece. -/
def lnOut (x0 : Vec F S10000x128 .f32) (x1 : Vec F S1x128 .f32) (x2 : Vec F S1x128 .f32) : Vec F S10000x128 .f32 :=
  View.canon [⟨rBlk, k0_pay1 (View.ld x0 rBlk) (View.ld x1 rRow) (View.ld x2 rRow)⟩]

/-- The store covers the buffer. -/
theorem lnCover (p0 : Vec F S10000x128 .f32) (y : S10000x128.Idx) :
    ∃ pc ∈ ([⟨rBlk, p0⟩] : List (View.Piece (Elt F) S10000x128 .f32)), y ∈ pc.1.set :=
  View.cover_of_tiled [⟨rBlk, p0⟩] S10000x128.size (by rfl) y

set_option maxHeartbeats 1000000 in
/-- The body on whole staging memrefs, the inputs' at contents x0, x1, x2 and the output's at anything, runs to the
    continuation holding the inputs' as they were and the output's at `lnOut` of them. -/
theorem sound_ln (c : Dev nD) (E : Set ℕ) (i : grid0.Coords)
    (arg1 : Memref sig .tc .vmem S10000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S10000x128 .f32) (harg4 : arg4.IsWhole)
    (x0 : Vec F S10000x128 .f32) (x1 : Vec F S1x128 .f32) (x2 : Vec F S1x128 .f32) (Kt : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (lnOut x0 x1 x2)) -∗ Kt ⟨⟩))
      ⊢ wp frame (wpE (defs₀ (F := F)) Variants.none c none) E (cc0__ln_body i arg1 harg1 arg2 harg2 arg3 harg3 arg4 harg4) Kt := by
  simp only [cc0__ln_body_eq_skeleton]; unfold cc0__ln_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (lnCover _)

end Cert.Kernel.KI

end
-- ==== Proof.KernelBits.TcDat.lean ====
/-
  The first kernel's region, its proof data. When the region is entered the table is as launched, the scale and shift
  rows are the host's 1 x 128 views of the two vectors, and the result array holds what it was launched with. At grid
  point t the body finds block t of the table and the two rows in its input buffers and leaves, in the output's buffer,
  the payload of the three — which the pipeline writes back to rows 10000 t … 10000 t + 9999 of the result. The
  TensorCore owes, all through the region, the start signals of the SparseCore call that follows it.
-/
import proofs.«206674_g54314156425426_cont_9to1_m_1126_27_alg».proof.Proof.KernelBits.TcBody

set_option maxRecDepth 16384

noncomputable section

namespace Cert.Kernel.KI

open Cert.Kernel Cert.Kernel.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ)

/-- The four windowed arrays when the region is entered. -/
def AE (c : Dev nD) : (w : Fin cfg0.W) → Buf (Elt F) ((cfg0.win w).arr.view.loc (c.tc : Thread nD τ))
  | ⟨0, _⟩ => m (a1Loc c)
  | ⟨1, _⟩ => GAM m c
  | ⟨2, _⟩ => BET m c
  | ⟨3, _⟩ => m (v3Loc c)

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (AE m c w)

/-- The pairs a wait of this thread may have recorded: those at the index of the kernels' own waits. -/
def recNone : Set (SemLoc sig × HIx 1) := {p | p.2 = none}

/-- The region's proof data on core c. -/
def dat0 (c : Dev nD) : Dat τ (Elt F) (HIx 1) ℕ UU ℕ cfg0 c where
  A w := AE m c w
  after w t := match w with
    | ⟨0, _⟩ => iblk m c 0 t
    | ⟨1, _⟩ => iblk m c 1 t
    | ⟨2, _⟩ => iblk m c 2 t
    | ⟨3, _⟩ => lnOut (iblk m c 0 t) (iblk m c 1 t) (iblk m c 2 t)
  Φ _ := iprop(emp)
  q _ := fullShare
  owed _ := (K (F := F)).Otc c 0
  recorded _ := recNone

theorem A_eq (c : Dev nD) (w : Fin cfg0.W) : (dat0 m c).A w = AE m c w := by dsimp only [dat0]
theorem after0_0 (c : Dev nD) (t : Fin cfg0.N) : (dat0 m c).after 0 t = iblk m c 0 t := by dsimp only [dat0]
theorem after0_1 (c : Dev nD) (t : Fin cfg0.N) : (dat0 m c).after 1 t = iblk m c 1 t := by dsimp only [dat0]
theorem after0_2 (c : Dev nD) (t : Fin cfg0.N) : (dat0 m c).after 2 t = iblk m c 2 t := by dsimp only [dat0]
theorem after0_3 (c : Dev nD) (t : Fin cfg0.N) : (dat0 m c).after 3 t = lnOut (iblk m c 0 t) (iblk m c 1 t) (iblk m c 2 t) := by dsimp only [dat0]

/-- Each input's current staging buffer holds its block at every point, fetched there or not. -/
theorem before0_0 (c : Dev nD) (t : Fin cfg0.N) (d) : (dat0 m c).before 0 t d = iblk m c 0 t :=
  ((dat0 m c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dat0 m c).before 1 t d = iblk m c 1 t :=
  ((dat0 m c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dat0 m c).before 2 t d = iblk m c 2 t :=
  ((dat0 m c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)

/-- What the body is called with at point t, the windows one by one, -/
def bodyPre (c : Dev nD) (t : Fin cfg0.N) : sProp 𝕄 :=
  iprop((dat0 m c).Φ t.castSucc ∗ (dat0 m c).owesAt none t.castSucc
    ∗ (∃ d, owns (c : Thread nD τ) (st0_0 t) fullShare ((dat0 m c).before 0 t d))
    ∗ (∃ d, owns (c : Thread nD τ) (st0_1 t) fullShare ((dat0 m c).before 1 t d))
    ∗ (∃ d, owns (c : Thread nD τ) (st0_2 t) fullShare ((dat0 m c).before 2 t d))
    ∗ (∃ d, owns (c : Thread nD τ) (st0_3 t) fullShare ((dat0 m c).before 3 t d)))

/-- and what it returns. -/
def bodyPost (c : Dev nD) (t : Fin cfg0.N) : sProp 𝕄 :=
  iprop((dat0 m c).Φ t.succ ∗ (dat0 m c).owesAt none t.succ
    ∗ owns (c : Thread nD τ) (st0_0 t) fullShare ((dat0 m c).after 0 t)
    ∗ owns (c : Thread nD τ) (st0_1 t) fullShare ((dat0 m c).after 1 t)
    ∗ owns (c : Thread nD τ) (st0_2 t) fullShare ((dat0 m c).after 2 t)
    ∗ owns (c : Thread nD τ) (st0_3 t) fullShare ((dat0 m c).after 3 t))

/-- The body at any point: the inputs' buffers hold their blocks, so `sound_ln` applies; the core's `owes` passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dat0 m c).Φ t.succ = (dat0 m c).Φ t.castSucc from rfl,
    show (dat0 m c).owesAt none t.succ = (dat0 m c).owesAt none t.castSucc from rfl,
    after0_0, after0_1, after0_2, after0_3]
  iintro ⟨HΦ, Ho, ⟨%d0, H0⟩, ⟨%d1, H1⟩, ⟨%d2, H2⟩, ⟨%d3, H3⟩⟩
  iapply (sound_ln c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat0 (F := F) m c) (defs₀ (F := F)) Variants.none none Set.univ := fun t => by
  rw [bigSep_W0, bigSep_W0]
  exact sound_body m c t

end Cert.Kernel.KI

end
-- ==== Proof.KernelBits.TcValue.lean ====
/-
  What the first kernel's result array holds after its region: the normalised table. Grid point t writes back, to rows
  10000 t … 10000 t + 9999, the body's payload of block t of the table and of the scale and shift rows, which is those
  rows of the one whole-array function `NRM` (row r of it is row r mod 10000 of the payload on block r / 10000); the ten
  blocks cover the array. The three input arrays end as they were.
-/
import proofs.«206674_g54314156425426_cont_9to1_m_1126_27_alg».proof.Proof.KernelBits.TcDat
import Idealize.ShloMosaic.Lib.Pipeline.Value

set_option maxRecDepth 16384

noncomputable section

namespace Cert.Kernel.KI

open Cert.Kernel Cert.Kernel.Gen
open Idealize.ShloMosaic Idealize.ShloMosaic.TcCoe Idealize.ShloMosaic.ValueIdx
open Idealize.ShloMosaic.SparseCore.Cfg (HIx)
open Idealize.SL.Sem
open Idealize.ShloMosaic.Pipeline (Dat)

variable {F : FTy → Type} [FloatOps F]
variable (m : (ℓ : Loc nD τ sig) → Buf (Elt F) ℓ)

theorem hz2 : (![0, 0] : Fin 2 → Nat) = fun _ => 0 := funext fun a => by fin_cases a <;> rfl

/-- The printed index maps, decided over the grid: the table's and the result's block index at point t is (t, 0), the
    two rows' is (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Every block row of the result is some point's. -/
theorem idx_onto : ∀ q : Fin 10, ∃ t : Fin cfg0.N, win0_3.index t = ![q.val, 0] :=
  (by decide +kernel : ∀ q : Fin 10, ∃ t : Fin grid0.N, win0_3.index t = ![q.val, 0])

theorem point_lt (t : Fin cfg0.N) : t.val < 10 := lt_of_lt_of_eq t.isLt N_0

/-- The table's block at point t is rows 10000 t … of the table. -/
theorem iblk0_eq (c : Dev nD) (t : Fin cfg0.N) : iblk m c 0 t = KSpec.tblBlock (F := F) (m (a1Loc c)) ⟨t.val, point_lt t⟩ := by
  obtain ⟨e00, e01, -⟩ := idx_facts t
  funext y
  show AE m c 0 (((cfg0.win 0).blk t).view.emb y) = m (a1Loc c) _
  refine congrArg (m (a1Loc c)) ?_
  funext a; apply Fin.ext
  match a with
  | ⟨0, _⟩ => show win0_0.index t (0 : Fin 2) * 10000 + 1 * (y 0).val = 10000 * t.val + (y 0).val; omega
  | ⟨1, _⟩ => show win0_0.index t (1 : Fin 2) * 128 + 1 * (y 1).val = (y 1).val; omega

/-- The scale's and the shift's block at any point is the whole row. -/
theorem iblk1_eq (c : Dev nD) (t : Fin cfg0.N) : iblk m c 1 t = GAM m c := by
  obtain ⟨-, -, e10, e11, -⟩ := idx_facts t
  funext y
  show GAM m c (((cfg0.win 1).blk t).view.emb y) = GAM m c y
  refine congrArg (GAM m c) ?_
  funext a; apply Fin.ext
  match a with
  | ⟨0, _⟩ => show win0_1.index t (0 : Fin 2) * 1 + 1 * (y 0).val = (y 0).val; omega
  | ⟨1, _⟩ => show win0_1.index t (1 : Fin 2) * 128 + 1 * (y 1).val = (y 1).val; omega
theorem iblk2_eq (c : Dev nD) (t : Fin cfg0.N) : iblk m c 2 t = BET m c := by
  obtain ⟨-, -, -, -, e20, e21, -⟩ := idx_facts t
  funext y
  show BET m c (((cfg0.win 2).blk t).view.emb y) = BET m c y
  refine congrArg (BET m c) ?_
  funext a; apply Fin.ext
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- What point t writes back is block t of the normalised table. -/
theorem flushed3_eq (c : Dev nD) (t : Fin cfg0.N) :
    (dat0 m c).flushed 3 t = ((cfg0.win 3).blk t).view.read (Elt F) (NRM m c) := by
  show (cfg0.win 3).cut (grid0.coords t) ((dat0 m c).after 3 t) = _
  rw [after0_3]
  unfold lnOut
  rw [View.canon_unit_zero hz2]
  simp only [View.ld_unit_zero (S := S10000x128) hz2, View.ld_unit_zero (S := S1x128) hz2]
  rw [iblk0_eq, iblk1_eq, iblk2_eq]
  obtain ⟨-, -, -, -, -, -, e30, e31⟩ := idx_facts t
  funext j
  show Gen.k0_pay1 (KSpec.tblBlock (F := F) (m (a1Loc c)) ⟨t.val, point_lt t⟩) (GAM m c) (BET m c) j = NRM m c (((cfg0.win 3).blk t).view.emb j)
  have hj0 : (j 0).val < 10000 := (j 0).isLt
  have hj1 : (j 1).val < 128 := (j 1).isLt
  have h0 : ((((cfg0.win 3).blk t).view.emb j) 0).val = t.val * 10000 + (j 0).val := by
    show win0_3.index t (0 : Fin 2) * 10000 + 1 * (j 0).val = _; omega
  have h1 : ((((cfg0.win 3).blk t).view.emb j) 1).val = (j 1).val := by
    show win0_3.index t (1 : Fin 2) * 128 + 1 * (j 1).val = _; omega
  have key : ∀ (q : Fin 10) (y : S10000x128.Idx), q = ⟨t.val, point_lt t⟩ → y = j →
      Gen.k0_pay1 (KSpec.tblBlock (F := F) (m (a1Loc c)) q) (GAM m c) (BET m c) y
        = Gen.k0_pay1 (KSpec.tblBlock (F := F) (m (a1Loc c)) ⟨t.val, point_lt t⟩) (GAM m c) (BET m c) j := by
    rintro q y rfl rfl; rfl
  unfold NRM KSpec.normed
  refine (key _ _ (Fin.ext ?_) ?_).symm
  · show ((((cfg0.win 3).blk t).view.emb j) 0).val / 10000 = t.val
    rw [h0]; omega
  · funext a
    match a with
    | ⟨0, _⟩ => exact Fin.ext (by show ((((cfg0.win 3).blk t).view.emb j) 0).val % 10000 = (j 0).val; rw [h0]; omega)
    | ⟨1, _⟩ => exact Fin.ext h1

/-- An index of the result is in point t's block iff each coordinate is in the block's range on its axis. -/
theorem mem_blk3 (t : Fin cfg0.N) (i : S100000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v3).slice (win0_3.rect t)).set ↔ _
  rw [View.set_slice_whole, Rect.mem_set_unit]
  exact Iff.rfl

/-- Every row of the result is in some point's block: the point whose number is the row's quotient by 10000. -/
theorem cover3 (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := idx_onto ⟨(i 0).val / 10000, by omega⟩
  have q0 : win0_3.index t (0 : Fin 2) = (i 0).val / 10000 := congrFun ht 0
  have q1 : win0_3.index t (1 : Fin 2) = 0 := congrFun ht 1
  refine ⟨t, flush0_3 t, ?_⟩
  rw [mem_blk3]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 128 ≤ (i 1).val ∧ (i 1).val < win0_3.index t (1 : Fin 2) * 128 + 128; omega

/-- The result array after the region is the normalised table; -/
theorem final3 (c : Dev nD) : (dat0 m c).arrAt 3 cfg0.N = NRM m c :=
  (dat0 m c).arrAt_eq_of_cover 3 (NRM m c) (fun t _ => flushed3_eq m c t) cover3

/-- the three inputs are as the region found them. -/
theorem final0 (c : Dev nD) : (dat0 m c).arrAt 0 cfg0.N = m (a1Loc c) := ((dat0 m c).arrAt_in 0 rfl _).trans (A_eq m c 0)
theorem final1 (c : Dev nD) : (dat0 m c).arrAt 1 cfg0.N = GAM m c := ((dat0 m c).arrAt_in 1 rfl _).trans (A_eq m c 1)
theorem final2 (c : Dev nD) : (dat0 m c).arrAt 2 cfg0.N = BET m c := ((dat0 m c).arrAt_in 2 rfl _).trans (A_eq m c 2)

end Cert.Kernel.KI

end
-- ==== Proof.KernelBits.TcRegion.lean ====
/-
  The first kernel's region as a step of @main on the TensorCore. It is entered holding the table, the scale and shift
  rows and the result array, the TensorCore owing the start signals of the SparseCore call that follows (its waits so
  far all at the level of the kernels' own waits); it is left holding the same, the result array at the normalised
  table. The staging cells' waits sit at the lowest level, below everything the TensorCore owes.
-/
import proofs.«206674_g54314156425426_cont_9to1_m_1126_27_alg».proof.Proof.KernelBits.TcValue

set_option maxRecDepth 16384

noncomputable section

namespace Cert.Kernel.KI

open Cert.Kernel Cert.Kernel.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig (HIx 1) (Elt F) ℕ UU ℕ

variable (m : (ℓ : Loc nD τ sig) → Buf (Elt F) ℓ)

abbrev adm : (p : Fin 1) → (pcfgs (F := F) p).Adm := fun p => (cfgs p).toPCfg_adm
def pdats : (p : Fin 1) → (c : Dev nD) → Dat τ (Elt F) (HIx 1) ℕ UU ℕ (Pipeline.pin (pcfgs (F := F)) adm p) c
  | 0 => dat0 m

/-- The TensorCore's dues are all at a call's index: none at the index of the kernels' own waits. -/
theorem Otc_none (c : Dev nD) (g : GSem nD τ sig) : (K (F := F)).Otc c 0 g none = 0 := by
  unfold SparseCore.Cfg.Otc
  simp [Finset.sum_apply, tallyAt_apply]

/-- A recorded pair at or below level 0 is at the index of the kernels' own waits, and conversely. -/
theorem lev_le_zero_iff (thr : Thread nD τ) (p : SemLoc sig × HIx 1) : (K (F := F)).lev (thr, p.1) p.2 ≤ 0 ↔ p.2 = none := by
  rcases p with ⟨sm, _ | q⟩
  · exact ⟨fun _ => rfl, fun _ => le_rfl⟩
  · constructor
    · intro h
      have h' : (K (F := F)).lev (thr, sm) (some q) ≤ 0 := h
      have hpos := (K (F := F)).lev_some_pos (thr, sm) q
      omega
    · intro h; cases h

/-- The four windowed arrays held whole, the result array at contents f. -/
def regArrs (c : Dev nD) (f : Buf (Elt F) (v3Loc c)) : sProp 𝕄 :=
  iprop((a1Loc c ↦{fullShare} m (a1Loc c)) ∗ (v1Loc c ↦{fullShare} GAM m c) ∗ (v2Loc c ↦{fullShare} BET m c) ∗ (v3Loc c ↦{fullShare} f))

/-- The TensorCore owing its launch dues, its recorded pairs at the lowest level. -/
def tcOwes (c : Dev nD) : sProp 𝕄 :=
  iprop(∃ W, ⌜(K (F := F)).WBelow (T c) W 0⌝ ∗ owes (T c) ((K (F := F)).Otc c 0) W)

theorem arrays_eq (c : Dev nD) (Fa) :
    ((pdats (F := F) m 0 c).arrays Fa : sProp 𝕄)
      = iprop((a1Loc c ↦{fullShare} Fa 0) ∗ (v1Loc c ↦{fullShare} Fa 1) ∗ (v2Loc c ↦{fullShare} Fa 2) ∗ (v3Loc c ↦{fullShare} Fa 3)) := by
  rw [Pipeline.arrays_eq (Pipeline.pin (pcfgs (F := F)) adm) (pdats m) 0 c launch0.arr_whole ((pdats m 0 c).share_full fun _ => rfl) Fa, bigSep_W0]

theorem arrAt0 (c : Dev nD) : (pdats (F := F) m 0 c).arrAt 0 (Pipeline.pin (pcfgs (F := F)) adm 0).N = m (a1Loc c) := final0 m c
theorem arrAt1 (c : Dev nD) : (pdats (F := F) m 0 c).arrAt 1 (Pipeline.pin (pcfgs (F := F)) adm 0).N = GAM m c := final1 m c
theorem arrAt2 (c : Dev nD) : (pdats (F := F) m 0 c).arrAt 2 (Pipeline.pin (pcfgs (F := F)) adm 0).N = BET m c := final2 m c
theorem arrAt3 (c : Dev nD) : (pdats (F := F) m 0 c).arrAt 3 (Pipeline.pin (pcfgs (F := F)) adm 0).N = NRM m c := final3 m c

/-- The region. -/
def reg0 : Pipeline.RegionSeg (pcfgs (F := F)) adm (pdats m) (none : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation m c).loose
  hwaits c := Pipeline.cellsWaits_intro _ (pdats m) (none : HIx 1) 0 c fun w s t => (K (F := F)).mayWait_none _ (Otc_none c)
  pre c := iprop(regArrs m c (m (v3Loc c)) ∗ tcOwes c)
  post c := iprop(regArrs m c (NRM m c) ∗ tcOwes c)
  X _ := iprop(emp)
  Y _ := iprop(emp)
  Z _ := iprop(emp)
  hentry c := by
    rw [Pipeline.ownSems0_none, arrays_eq]
    unfold regArrs tcOwes
    iintro ⟨⟨⟨H0, H1, H2, H3⟩, %W, %hW, HO⟩, -, -⟩
    imodintro
    isplitl [H0 H1 H2 H3]
    · isplitl [H0]; · iexact H0
      isplitl [H1]; · iexact H1
      isplitl [H2]; · iexact H2
      iexact H3
    isplitr; · unfold Pipeline.prefHeld; rw [show (Finset.univ : Finset (Fin 0)) = ∅ from rfl, BI.bigSep_empty]; iempintro
    isplitl [HO]
    · unfold Pipeline.Dat.owesAt Pipeline.owesWithin
      iexists W; isplitr
      · ipureintro; exact fun p hp => Or.inl ((lev_le_zero_iff (T c) p).mp (hW p hp))
      iexact HO
    isplitr <;> iempintro
  hin c := by iintro -; iempintro
  hout c := by
    rw [Pipeline.ownSems0_none, scopedRest0_eq]
    iintro -; isplitr; · iempintro
    isplitr <;> iempintro
  hexit c := by
    rw [arrays_eq, arrAt0, arrAt1, arrAt2, arrAt3]
    unfold regArrs tcOwes
    iintro ⟨⟨H0, H1, H2, H3⟩, HO, -, -⟩
    imodintro
    isplitl [H0 H1 H2 H3]
    · isplitl [H0]; · iexact H0
      isplitl [H1]; · iexact H1
      isplitl [H2]; · iexact H2
      iexact H3
    unfold Pipeline.Dat.owesAt Pipeline.owesWithin
    icases HO with ⟨%W, %hW, HO⟩
    iexists W; isplitr
    · ipureintro
      intro p hp
      refine (lev_le_zero_iff (T c) p).mpr ?_
      rcases hW hp with h | ⟨w, s, rfl⟩
      · exact h
      · rfl
    iexact HO

end Cert.Kernel.KI

end
-- ==== Proof.KernelBits.LaunchObl.lean ====
/-
  The launch theorem's obligations for the one SparseCore call: a worker's task, from the statement of the body at a
  symbolic worker; how a SparseCore's holdings split among its sixteen workers (they are the workers' holdings,
  conjoined); and the launch element of the ghost state: the handshakes' rounds, the first kernel's staging cells'
  rounds and tokens per TensorCore, nothing for the workers (their transfers' counters are made as they go).
-/
import proofs.«206674_g54314156425426_cont_9to1_m_1126_27_alg».proof.Proof.KernelBits.TcRegion

noncomputable section

namespace Cert.Kernel.KI

open Cert.Kernel Cert.Kernel.Gen
open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-! ## A worker's task -/

/-- The body's statement at a symbolic worker: from its holdings, its scoped storage and what it owes, the body runs
    to its results, the storage back, nothing more owed. -/
def TileBody : Prop :=
  ∀ (d : Dev nD) (L : grid1.Coords) (O : CellTallies nD τ sig (HIx 1)) (W : Waits sig (HIx 1)), (∀ g, O g none = 0) →
    iprop(levAts (K (F := F)).L (K (F := F)).lev ∗ emp ∗ goW m d (widL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_gather_body L (Memref.whole main_v0_scv) (Memref.isWhole_whole _) (Memref.whole main_v3_scv) (Memref.isWhole_whole _) (Memref.whole main_v4_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) cc1_scratch6 cc1_scratch7 cc1_scratch8 cc1_scratch9 cc1_scratch10 cc1_scratch11 cc1_scratch12 cc1_scratch13 cc1_scratch14 cc1_scratch15 cc1_scoped0)
          fun _ => iprop(tdW m d (widL L) ∗ scopedBufs (V d (cV L) (jV L)) ∗ scopedSems0 (V d (cV L) (jV L))
            ∗ ∃ W', ⌜∀ p ∈ W', p ∈ W ∨ p.2 = none⌝ ∗ owes (V d (cV L) (jV L)) O W')

theorem defs₀_vector (c : Fin τ.nSC) (s : Fin τ.nSub) :
    defs₀ (F := F) (.scVector c s) 1 ()
      = SparseCore.onTile hcore1 hsub1 (fun c s => cc1__sc_gather_body (coordsV c s) (Memref.whole main_v0_scv) (Memref.isWhole_whole _) (Memref.whole main_v3_scv) (Memref.isWhole_whole _) (Memref.whole main_v4_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) cc1_scratch6 cc1_scratch7 cc1_scratch8 cc1_scratch9 cc1_scratch10 cc1_scratch11 cc1_scratch12 cc1_scratch13 cc1_scratch14 cc1_scratch15 cc1_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hb : TileBody m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (hb d (coordsV ⟨_, hc.1⟩ ⟨_, hc.2⟩) O W hO).trans (wp_mono frame _ _ fun _ => obl_post)

/-! ## A SparseCore's holdings are its workers' -/

theorem vecSplit : (K (F := F)).VecSplit' (P m) 0 := by
  intro d c
  show (bigSep Finset.univ fun i : Fin ((K (F := F)).nSub 0) => goW m d (wid c i))
    ⊢ |={Set.univ}=> iprop((bigSep Finset.univ fun i : Fin ((K (F := F)).nSub 0) => goW m d (wid c i))
      ∗ ((bigSep Finset.univ fun i : Fin ((K (F := F)).nSub 0) => tdW m d (wid c i))
          -∗ bigSep Finset.univ fun i : Fin ((K (F := F)).nSub 0) => tdW m d (wid c i)))
  iintro H; imodintro
  isplitl [H]; · iexact H
  iintro H; iexact H

/-! ## The launch element -/

/-- What @main's proof starts from, per TensorCore: the staging cells' launch ghost state and the duty tokens. -/
def G0 (d : Dev nD) : sProp 𝕄 :=
  iprop(Pipeline.cellsGhost (cfgs) (EP (F := F)) (0 : Fin 1) d ∗ Pipeline.toksInit (cfgs) (EP (F := F)) (0 : Fin 1) d)

def u₀ : UU :=
  (initOf (K (F := F)).hsCells (K (F := F)).hsToks,
    (initOf (Pipeline.cells cfgs (cellOf_inj)) (Pipeline.launchToks cfgs (cellOf_inj)), (1 : Counters)))

omit [FloatOps F] in
theorem ownU_split (a : UH) (b : UP) (k : Counters) : (ownU (a, (b, k)) : sProp 𝕄) ⊢ iprop(BI.own (EH a) ∗ BI.own (EP b)) := by
  have h1 : (ownU (a, (b, k)) : sProp 𝕄) ⊢ iprop(BI.own (EH a) ∗ BI.own ((embR : Emb (UP × Counters) 𝕄) (b, k))) := ownU_pair a (b, k)
  have h2 : (BI.own ((embR : Emb (UP × Counters) 𝕄) (b, k)) : sProp 𝕄)
      ⊢ iprop(BI.own ((embR : Emb (UP × Counters) 𝕄) (b, 1)) ∗ BI.own ((embR : Emb (UP × Counters) 𝕄) (1, k))) :=
    BI.own_op_elim ((embR : Emb (UP × Counters) 𝕄).op_of_mem (Prod.mk_mem_op (URA.mem_op_one b) (URA.mem_one_op k)))
  iintro H
  ihave H' := h1 $$ H
  icases H' with ⟨HH, HR⟩
  ihave H'' := h2 $$ HR
  icases H'' with ⟨HP, -⟩
  isplitl [HH]; · iexact HH
  iexact HP

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G0 (F := F) d)
        ∗ bigSep Finset.univ fun thr : Thread nD τ => bigSep Finset.univ fun q : Fin 1 => (P m).x q thr) := by
  unfold u₀
  iintro Hu
  ihave H := (ownU_split _ _ _) $$ Hu
  icases H with ⟨HH, HP⟩
  imod (Pipeline.fund_ghost cfgs (EP (F := F)) cellOf_inj) $$ HP with ⟨Hg, Ht⟩
  imodintro
  isplitl [HH]; · iexact HH
  isplitl [Hg Ht]
  · unfold G0
    rw [bigSep_sep']
    have e1 : (bigSep Finset.univ fun c : Dev nD => bigSep Finset.univ fun p : Fin 1 => (Pipeline.cellsGhost cfgs (EP (F := F)) p c : sProp 𝕄))
        = bigSep Finset.univ fun c : Dev nD => Pipeline.cellsGhost cfgs (EP (F := F)) (0 : Fin 1) c :=
      bigSep_congr fun c _ => bigSep_univ_of_subsingleton (0 : Fin 1)
    have e2 : (bigSep Finset.univ fun c : Dev nD => bigSep Finset.univ fun p : Fin 1 => (Pipeline.toksInit cfgs (EP (F := F)) p c : sProp 𝕄))
        = bigSep Finset.univ fun c : Dev nD => Pipeline.toksInit cfgs (EP (F := F)) (0 : Fin 1) c :=
      bigSep_congr fun c _ => bigSep_univ_of_subsingleton (0 : Fin 1)
    isplitl [Hg]
    · ihave Hg' := (Entails.of_eq e1) $$ Hg
      iexact Hg'
    · ihave Ht' := (Entails.of_eq e2) $$ Ht
      iexact Ht'
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Kernel.KI

end
-- ==== Proof.KernelBits.LaunchHost.lean ====
/-
  @main on the TensorCore, its host side: the ten arrays of the program held together at a valuation, the three
  regroupings before the first kernel (the indices into 32 rows, the scale and the shift into rows) and what each
  leaves, the TensorCore's debts taken out of its handshake state and put back, and the first kernel's region run
  inside the program's extended body table.
-/
import proofs.«206674_g54314156425426_cont_9to1_m_1126_27_alg».proof.Proof.KernelBits.LaunchObl

set_option maxRecDepth 16384

noncomputable section

namespace Cert.Kernel.KI

open Cert.Kernel Cert.Kernel.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The ten arrays -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)

abbrev S10 : Finset (DevRef τ sig) := {a0', a1', a2', a3', v0', v1', v2', v3', v4', v5'}

omit [FloatOps F] in
theorem held_S10 (d : Dev nD) (W : Valuation τ sig (Elt F)) :
    (held (T d) S10 W : sProp 𝕄) = iprop((a0Loc d ↦{fullShare} W a0') ∗ (a1Loc d ↦{fullShare} W a1') ∗ (a2Loc d ↦{fullShare} W a2') ∗ (a3Loc d ↦{fullShare} W a3')
      ∗ (v0Loc d ↦{fullShare} W v0') ∗ (v1Loc d ↦{fullShare} W v1') ∗ (v2Loc d ↦{fullShare} W v2') ∗ (v3Loc d ↦{fullShare} W v3')
      ∗ (v4Loc d ↦{fullShare} W v4') ∗ (v5Loc d ↦{fullShare} W v5')) := by
  unfold held S10
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (a2Loc d ↦{fullShare} W main_arg2) ∗ (a3Loc d ↦{fullShare} W main_arg3)
      ∗ (v0Loc d ↦{fullShare} W main_v0) ∗ (v1Loc d ↦{fullShare} W main_v1) ∗ (v2Loc d ↦{fullShare} W main_v2) ∗ (v3Loc d ↦{fullShare} W main_v3)
      ∗ (v4Loc d ↦{fullShare} W main_v4) ∗ (v5Loc d ↦{fullShare} W main_v5)) := by
  unfold unscopedBufs
  rw [show (Finset.univ.filter fun b : Ref sig .tc => ¬ b.isScoped) = {main_arg0, main_arg1, main_arg2, main_arg3, main_v0, main_v1, main_v2, main_v3, main_v4, main_v5} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The launch valuation. -/
def W0 (d : Dev nD) : Valuation τ sig (Elt F) := fun b => m (d, b)

theorem unscoped_held (d : Dev nD) : (unscopedBufs d (fun b => m ((SparseCore.T d).loc b)) : sProp 𝕄) = held (T d) S10 (W0 m d) := by
  rw [unscopedBufs_eq, held_S10]; rfl

/-! ## The regroupings before the first kernel -/

abbrev op0 : HloOp τ sig (Elt F) := StableHlo.reshape main_arg0 main_v0 rfl Facts₀.shapeCasts_S1024x200_S32x6400
abbrev op1 : HloOp τ sig (Elt F) := StableHlo.reshape main_arg2 main_v1 rfl Facts₀.shapeCasts_S128_S1x128
abbrev op2 : HloOp τ sig (Elt F) := StableHlo.reshape main_arg3 main_v2 rfl Facts₀.shapeCasts_S128_S1x128
abbrev op5 : HloOp τ sig (Elt F) := StableHlo.reshape main_v4 main_v5 rfl Facts₀.shapeCasts_S204800x128_S1024x200x128

theorem h0sub : (op0 (F := F)).bufs ⊆ S10 := show ({a0', v0'} : Finset (DevRef τ sig)) ⊆ S10 by decide
theorem h1sub : (op1 (F := F)).bufs ⊆ S10 := show ({a2', v1'} : Finset (DevRef τ sig)) ⊆ S10 by decide
theorem h2sub : (op2 (F := F)).bufs ⊆ S10 := show ({a3', v2'} : Finset (DevRef τ sig)) ⊆ S10 by decide
theorem h5sub : (op5 (F := F)).bufs ⊆ S10 := show ({v4', v5'} : Finset (DevRef τ sig)) ⊆ S10 by decide

def W1 (d : Dev nD) : Valuation τ sig (Elt F) := (op0 (F := F)).result (W0 m d)
def W2 (d : Dev nD) : Valuation τ sig (Elt F) := (op1 (F := F)).result (W1 m d)
def W3 (d : Dev nD) : Valuation τ sig (Elt F) := (op2 (F := F)).result (W2 m d)

/-- After the three: the indices regrouped, the scale and the shift as rows, everything else as launched. -/
theorem W3_v0 (d : Dev nD) : W3 m d v0' = IDS m d := by
  unfold W3 W2 W1
  rw [StableHlo.reshape_result_ne' (r := main_v0) _ _ _ _ _ (by decide), StableHlo.reshape_result_ne' (r := main_v0) _ _ _ _ _ (by decide), StableHlo.reshape_result']
  rfl
theorem W3_v1 (d : Dev nD) : W3 m d v1' = GAM m d := by
  unfold W3 W2 W1
  rw [StableHlo.reshape_result_ne' (r := main_v1) _ _ _ _ _ (by decide), StableHlo.reshape_result',
    StableHlo.reshape_result_ne' (r := main_arg2) _ _ _ _ _ (by decide)]
  rfl
theorem W3_v2 (d : Dev nD) : W3 m d v2' = BET m d := by
  unfold W3 W2 W1
  rw [StableHlo.reshape_result', StableHlo.reshape_result_ne' (r := main_arg3) _ _ _ _ _ (by decide),
    StableHlo.reshape_result_ne' (r := main_arg3) _ _ _ _ _ (by decide)]
  rfl
theorem W3_other (d : Dev nD) (r : Ref sig .tc) (h0 : r ≠ main_v0) (h1 : r ≠ main_v1) (h2 : r ≠ main_v2) :
    W3 m d (Proc.devRef .tc r) = m (d, Proc.devRef .tc r) := by
  unfold W3 W2 W1
  rw [StableHlo.reshape_result_ne' _ _ _ _ _ h2, StableHlo.reshape_result_ne' _ _ _ _ _ h1, StableHlo.reshape_result_ne' _ _ _ _ _ h0]
  rfl

/-! ## The TensorCore's debts, out of its handshake state and back -/

theorem tcSt_owes (d : Dev nD) :
    ((K (F := F)).tcSt (EH (F := F)) d 0 : sProp 𝕄) ⊢ iprop(tcOwes (F := F) d ∗ (tcOwes (F := F) d -∗ (K (F := F)).tcSt (EH (F := F)) d 0)) := by
  unfold SparseCore.Cfg.tcSt tcOwes
  iintro ⟨HO, Hrest⟩
  isplitl [HO]; · iexact HO
  iintro HO
  isplitl [HO]; · iexact HO
  iexact Hrest

/-! ## The first kernel's region, in the extended body table -/

set_option backward.isDefEq.respectTransparency.types false in
set_option maxHeartbeats 400000 in
theorem region_wp [∀ e, Nonempty (Elt F e)] (d : Dev nD) (Φ : PUnit.{1} → sProp 𝕄) :
    iprop((iprop(boundary (T d) ∗ regArrs m d (NRM m d) ∗ tcOwes (F := F) d) -∗ Φ ⟨⟩)
        ∗ boundary (T d) ∗ (regArrs m d (m (v3Loc d)) ∗ tcOwes (F := F) d) ∗ levAts (K (F := F)).L (K (F := F)).lev ∗ G0 (F := F) d)
      ⊢ wp frame (wpE ((K (F := F)).defs (D (F := F))) 𝒱 (T d) none) Set.univ
          (SparseCore.liftProg (Q := 1) (Prog.op (.customCall (Pipeline.entry (0 : Fin 1)) ()) fun _ => Prog.ret ⟨⟩)) Φ := by
  have h := Pipeline.RegionSeg.wp (pcfgs (F := F)) adm (pdats m) (none : HIx 1) cellOf_inj (EP (F := F)) defs₀ 𝒱₀
    (K (F := F)).L (K (F := F)).lev (reg0 m) d none (fun u hu => by cases hu) (fun _ => Prog.ret ⟨⟩) Φ
  refine BI.Entails.trans ?_ ((K (F := F)).wp_liftProg (D (F := F)) 𝒱 (T d) Set.univ none _ Φ)
  refine BI.Entails.trans ?_ h
  show (_ : sProp 𝕄) ⊢ _
  rw [show (reg0 m).pre d = iprop(regArrs m d (m (v3Loc d)) ∗ tcOwes (F := F) d) from rfl,
    show (reg0 m).post d = iprop(regArrs m d (NRM m d) ∗ tcOwes (F := F) d) from rfl]
  unfold G0
  iintro ⟨Hk, Hb, Hpre, Hlv, Hg, Ht⟩
  isplitl [Hk]
  · iintro H
    rw [wp_ret]; imodintro
    iapply Hk; iexact H
  isplitl [Hb]; · iexact Hb
  isplitl [Hpre]; · iexact Hpre
  isplitl [Hlv]; · iexact Hlv
  isplitl [Hg]; · iexact Hg
  iexact Ht

/-- The same, the call spelt as @main spells it. -/
theorem region_wp' [∀ e, Nonempty (Elt F e)] (d : Dev nD) (Φ : PUnit.{1} → sProp 𝕄) :
    iprop((iprop(boundary (T d) ∗ regArrs m d (NRM m d) ∗ tcOwes (F := F) d) -∗ Φ ⟨⟩)
        ∗ boundary (T d) ∗ (regArrs m d (m (v3Loc d)) ∗ tcOwes (F := F) d) ∗ levAts (K (F := F)).L (K (F := F)).lev ∗ G0 (F := F) d)
      ⊢ wp frame (wpE ((K (F := F)).defs (D (F := F))) 𝒱 (T d) none) Set.univ
          (Prog.lift (.customCall (SparseCore.inner (Pipeline.entry (0 : Fin 1))) ()) :
            Prog (TpuEff nD τ sig (Elt F) (SparseCore.Sig (ΛP (F := F)) 1) .tc) PUnit) Φ :=
  region_wp m d Φ

end Cert.Kernel.KI

end
-- ==== Proof.KernelBits.LaunchSplit.lean ====
/-
  What @main hands the SparseCore call and takes back. The regrouped indices split into their 32 rows and the output
  into its 32 groups of 6400 rows (disjoint, covering); the normalised table, which every worker reads whole, into 32
  read tokens and a remainder @main keeps. After the call the output's groups, each at the one gathered function, are
  the output at that function, and the tokens with the remainder are the table again. The 32 workers are the sixteen
  vector subcores of each of the two SparseCores, worker 2 i + c on subcore i of SparseCore c.
-/
import proofs.«206674_g54314156425426_cont_9to1_m_1126_27_alg».proof.Proof.KernelBits.Common

noncomputable section

namespace Cert.Kernel.KI

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## Rows -/

theorem idsRowSet_part (w : Fin 32) : idsRowSet w = (Rect.part (s := S32x6400) (a₀ := 0) hdivI w).set := by
  show ((View.whole (main_v0_scv : Ref sig .scVector)).slice (Rect.part (s := S32x6400) (a₀ := 0) hdivI w)).set = _
  rw [View.set_slice]; exact Finset.map_refl
theorem outRowsSet_part (w : Fin 32) : outRowsSet w = (Rect.part (s := S204800x128) (a₀ := 0) hdivO w).set := by
  show ((View.whole (main_v4_scv : Ref sig .scVector)).slice (Rect.part (s := S204800x128) (a₀ := 0) hdivO w)).set = _
  rw [View.set_slice]; exact Finset.map_refl

theorem ids_disjoint : ∀ i ∈ (Finset.univ : Finset (Fin 32)), ∀ j ∈ (Finset.univ : Finset (Fin 32)), i ≠ j → Disjoint (idsRowSet i) (idsRowSet j) :=
  fun i _ j _ h => by rw [idsRowSet_part, idsRowSet_part]; exact Rect.part_disjoint hdivI h
theorem ids_cover : (Finset.univ : Finset (Fin 32)).biUnion idsRowSet = Finset.univ :=
  (Finset.biUnion_congr rfl fun i _ => idsRowSet_part i).trans (Rect.biUnion_part hdivI)
theorem out_disjoint : ∀ i ∈ (Finset.univ : Finset (Fin 32)), ∀ j ∈ (Finset.univ : Finset (Fin 32)), i ≠ j → Disjoint (outRowsSet i) (outRowsSet j) :=
  fun i _ j _ h => by rw [outRowsSet_part, outRowsSet_part]; exact Rect.part_disjoint hdivO h
theorem out_cover : (Finset.univ : Finset (Fin 32)).biUnion outRowsSet = Finset.univ :=
  (Finset.biUnion_congr rfl fun i _ => outRowsSet_part i).trans (Rect.biUnion_part hdivO)

theorem v0_rows (d : Dev nD) (f : Buf (Elt F) (v0Loc d)) :
    (v0Loc d ↦{fullShare} f : sProp 𝕄) = bigSep Finset.univ fun w : Fin 32 => v0Loc d ↦[idsRowSet w]{fullShare} f := by
  rw [← pointsTo_biUnion Finset.univ (ℓ := v0Loc d) idsRowSet ids_disjoint, ids_cover]; try rfl
theorem v4_rows (d : Dev nD) (f : Buf (Elt F) (v4Loc d)) :
    (v4Loc d ↦{fullShare} f : sProp 𝕄) = bigSep Finset.univ fun w : Fin 32 => v4Loc d ↦[outRowsSet w]{fullShare} f := by
  rw [← pointsTo_biUnion Finset.univ (ℓ := v4Loc d) outRowsSet out_disjoint, out_cover]; try rfl

variable (m : (ℓ : Loc nD τ sig) → Buf (Elt F) ℓ) [FloatOps F]

/-! ## The split and the join -/

/-- The remainder of the normalised table's share that @main keeps while the workers hold their tokens. -/
abbrev nrmRest (d : Dev nD) : sProp 𝕄 := v3Loc d ↦{Transfers.shareDrop fullShare 32} NRM m d

theorem call_split (d : Dev nD) (f4 : Buf (Elt F) (v4Loc d)) :
    iprop((v0Loc d ↦{fullShare} IDS m d) ∗ (v3Loc d ↦{fullShare} NRM m d) ∗ (v4Loc d ↦{fullShare} f4))
      ⊢ iprop(nrmRest m d ∗ bigSep Finset.univ fun w : Fin 32 => goW m d w) := by
  rw [v0_rows, v4_rows]
  unfold goW
  rw [bigSep_sep', bigSep_sep']
  iintro ⟨H0, H3, H4⟩
  ihave H3' := (Transfers.pointsTo_toks fullShare 32).1 $$ H3
  icases H3' with ⟨Hd, Ht⟩
  isplitl [Hd]; · iexact Hd
  isplitl [H0]; · iexact H0
  isplitl [Ht]; · iexact Ht
  have hw : ∀ w : Fin 32, (v4Loc d ↦[outRowsSet w]{fullShare} f4 : sProp 𝕄) ⊢ iprop(∃ f, v4Loc d ↦[outRowsSet w]{fullShare} f) := fun w => by
    iintro H; iexists f4; iexact H
  have hmono : (bigSep Finset.univ fun w : Fin 32 => (v4Loc d ↦[outRowsSet w]{fullShare} f4 : sProp 𝕄))
      ⊢ bigSep Finset.univ fun w : Fin 32 => (iprop(∃ f, v4Loc d ↦[outRowsSet w]{fullShare} f) : sProp 𝕄) :=
    bigSep_mono fun w _ => hw w
  iapply hmono
  iexact H4

theorem call_join (d : Dev nD) :
    iprop(nrmRest m d ∗ bigSep Finset.univ fun w : Fin 32 => tdW m d w)
      ⊢ iprop((v0Loc d ↦{fullShare} IDS m d) ∗ (v3Loc d ↦{fullShare} NRM m d) ∗ (v4Loc d ↦{fullShare} GOUT m d)) := by
  rw [v0_rows, v4_rows]
  unfold tdW
  rw [bigSep_sep', bigSep_sep']
  iintro ⟨Hd, H0, Ht, H4⟩
  isplitl [H0]; · iexact H0
  isplitl [Hd Ht]
  · iapply (Transfers.pointsTo_toks fullShare 32).2
    isplitl [Hd]; · iexact Hd
    iexact Ht
  iexact H4

/-! ## The workers as cores × subcores -/

omit [FloatOps F] in
theorem bigSep_workers (Φ : Fin 32 → sProp 𝕄) :
    (bigSep Finset.univ fun c : Fin ((K (F := F)).nCore 0) => bigSep Finset.univ fun i : Fin ((K (F := F)).nSub 0) => Φ (wid c i))
      = bigSep Finset.univ Φ := by
  let e : Fin 2 × Fin 16 → Fin 32 := fun p => ⟨2 * p.2.val + p.1.val, by have := p.1.isLt; have := p.2.isLt; omega⟩
  have himg : (Finset.univ : Finset (Fin 32)) = (Finset.univ : Finset (Fin 2 × Fin 16)).image e := by decide
  have hinj : Set.InjOn e ((Finset.univ : Finset (Fin 2 × Fin 16)) : Set _) := by
    intro a _ b _ h
    have hv : 2 * a.2.val + a.1.val = 2 * b.2.val + b.1.val := congrArg Fin.val h
    have ha := a.1.isLt; have hb := b.1.isLt
    exact Prod.ext (Fin.ext (by omega)) (Fin.ext (by omega))
  rw [himg, SparseCore.bigSep_image_of_injOn hinj, bigSep_univ_prod]
  rfl

theorem st0_eq (d : Dev nD) : (bigSep Finset.univ fun c : Fin ((K (F := F)).nCore 0) => (P m).st 0 d c) = bigSep Finset.univ fun w : Fin 32 => goW m d w :=
  bigSep_workers (F := F) (goW m d)
theorem dn0_eq (d : Dev nD) : (bigSep Finset.univ fun c : Fin ((K (F := F)).nCore 0) => (P m).dn 0 d c) = bigSep Finset.univ fun w : Fin 32 => tdW m d w :=
  bigSep_workers (F := F) (tdW m d)

end Cert.Kernel.KI

end
-- ==== Proof.KernelBits.Launch.lean ====
/-
  @main on the TensorCore, and the program's run. @main regroups the indices, the scale and the shift; runs the first
  kernel's region, which leaves the normalised table; hands the 32 workers their index rows, read tokens of the
  table and output rows, and gets the output rows back at the gathered contents; regroups the output. The four
  arguments end as launched and the result is the specification's function of them.
-/
import proofs.«206674_g54314156425426_cont_9to1_m_1126_27_alg».proof.Proof.KernelBits.LaunchHost
import proofs.«206674_g54314156425426_cont_9to1_m_1126_27_alg».proof.Proof.KernelBits.LaunchSplit

set_option maxRecDepth 16384

noncomputable section

namespace Cert.Kernel.KI

open Cert.Kernel Cert.Kernel.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

omit [FloatOps F] in
theorem wand_app {A B : sProp 𝕄} : iprop(A ∗ (A -∗ B)) ⊢ B := by
  iintro ⟨HA, HW⟩; iapply HW; iexact HA

/-- The ten arrays after the three regroupings, one by one. -/
theorem held_W3 (d : Dev nD) :
    (held (T d) S10 (W3 m d) : sProp 𝕄) = iprop((a0Loc d ↦{fullShare} m (a0Loc d)) ∗ (a1Loc d ↦{fullShare} m (a1Loc d)) ∗ (a2Loc d ↦{fullShare} m (a2Loc d)) ∗ (a3Loc d ↦{fullShare} m (a3Loc d))
      ∗ (v0Loc d ↦{fullShare} IDS m d) ∗ (v1Loc d ↦{fullShare} GAM m d) ∗ (v2Loc d ↦{fullShare} BET m d) ∗ (v3Loc d ↦{fullShare} m (v3Loc d))
      ∗ (v4Loc d ↦{fullShare} m (v4Loc d)) ∗ (v5Loc d ↦{fullShare} m (v5Loc d))) := by
  rw [held_S10, W3_v0, W3_v1, W3_v2, W3_other m d main_arg0 (by decide) (by decide) (by decide), W3_other m d main_arg1 (by decide) (by decide) (by decide),
    W3_other m d main_arg2 (by decide) (by decide) (by decide), W3_other m d main_arg3 (by decide) (by decide) (by decide),
    W3_other m d main_v3 (by decide) (by decide) (by decide), W3_other m d main_v4 (by decide) (by decide) (by decide),
    W3_other m d main_v5 (by decide) (by decide) (by decide)]

/-! ## The last regrouping -/

abbrev S45 : Finset (DevRef τ sig) := {v4', v5'}
theorem h5sub' : (op5 (F := F)).bufs ⊆ S45 := show ({v4', v5'} : Finset (DevRef τ sig)) ⊆ S45 by decide

omit [FloatOps F] in
theorem held_S45 (d : Dev nD) (W : Valuation τ sig (Elt F)) :
    (held (T d) S45 W : sProp 𝕄) = iprop((v4Loc d ↦{fullShare} W v4') ∗ (v5Loc d ↦{fullShare} W v5')) := by
  unfold held S45
  rw [SparseCore.bigSep_insert' (by decide), bigSep_singleton]

/-- The valuation before it: the output at the gathered contents. -/
def W4 (d : Dev nD) : Valuation τ sig (Elt F) := Function.update (W0 m d) v4' (GOUT m d)
theorem W4_v4 (d : Dev nD) : W4 m d v4' = GOUT m d := Function.update_self _ _ _
theorem W4_v5 (d : Dev nD) : W4 m d v5' = m (v5Loc d) := Function.update_of_ne (show v5' ≠ v4' by decide) _ _
theorem W5_v4 (d : Dev nD) : (op5 (F := F)).result (W4 m d) v4' = GOUT m d := by
  rw [StableHlo.reshape_result_ne' (r := main_v4) _ _ _ _ _ (by decide)]; exact W4_v4 m d
theorem W5_v5 (d : Dev nD) : (op5 (F := F)).result (W4 m d) v5' = RES m d := by
  rw [StableHlo.reshape_result']
  show (fun i => shapeCast S1024x200x128 (W4 m d v4') Facts₀.shapeCasts_S204800x128_S1024x200x128 i) = RES m d
  rw [W4_v4]; rfl

/-! ## @main -/

/-- What @main leaves the claim: the four arguments as launched, the result at the specification's function. -/
abbrev FIN (d : Dev nD) : sProp 𝕄 :=
  iprop((a0Loc d ↦{fullShare} m (a0Loc d)) ∗ (a1Loc d ↦{fullShare} m (a1Loc d)) ∗ (a2Loc d ↦{fullShare} m (a2Loc d)) ∗ (a3Loc d ↦{fullShare} m (a3Loc d))
    ∗ (v5Loc d ↦{fullShare} RES m d))

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G0 (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, HG⟩
  ihave Hlev := (SparseCore.Cfg.ctx_levAts (K := K (F := F)) κ) $$ Hctx
  -- the three regroupings
  iapply (wp_hlo_within 𝒱 (SparseCore.T d) none Set.univ (op := op0) (S := S10) h0sub (V := W0 m d)) $$ [Hb Hheld]
  · isplitl [Hb]; · iexact Hb
    iexact Hheld
  iintro ⟨Hb, Hheld⟩
  rw [wp_ret]; imodintro
  iapply (wp_hlo_within 𝒱 (SparseCore.T d) none Set.univ (op := op1) (S := S10) h1sub (V := W1 m d)) $$ [Hb Hheld]
  · isplitl [Hb]; · iexact Hb
    iexact Hheld
  iintro ⟨Hb, Hheld⟩
  rw [wp_ret]; imodintro
  iapply (wp_hlo_within 𝒱 (SparseCore.T d) none Set.univ (op := op2) (S := S10) h2sub (V := W2 m d)) $$ [Hb Hheld]
  · isplitl [Hb]; · iexact Hb
    iexact Hheld
  iintro ⟨Hb, Hheld⟩
  rw [wp_ret]; imodintro
  ihave Hheld3 := (Entails.of_eq (show (held (SparseCore.T d) S10 ((op2 (F := F)).result (W2 m d)) : sProp 𝕄) = held (SparseCore.T d) S10 (W3 m d) from rfl)) $$ Hheld
  ihave Hh := (Entails.of_eq (held_W3 m d)) $$ Hheld3
  icases Hh with ⟨Ha0, Ha1, Ha2, Ha3, Hv0, Hv1, Hv2, Hv3, Hv4, Hv5⟩
  -- the first kernel's region
  ihave Hs := (tcSt_owes d) $$ Hst
  icases Hs with ⟨HO, Hback⟩
  iapply (region_wp' m d _)
  isplitl [Ha0 Ha2 Ha3 Hv0 Hv4 Hv5 Hback]
  swap
  · isplitl [Hb]; · iexact Hb
    isplitl [Ha1 Hv1 Hv2 Hv3 HO]
    · unfold regArrs
      isplitl [Ha1 Hv1 Hv2 Hv3]
      · isplitl [Ha1]; · iexact Ha1
        isplitl [Hv1]; · iexact Hv1
        isplitl [Hv2]; · iexact Hv2
        iexact Hv3
      iexact HO
    isplitl [Hlev]; · iexact Hlev
    iexact HG
  iintro ⟨Hb, Harr, HO⟩
  unfold regArrs
  icases Harr with ⟨Ha1, Hv1, Hv2, Hv3⟩
  ihave Hst := (wand_app) $$ [HO Hback]
  · isplitl [HO]; · iexact HO
    iexact Hback
  -- the SparseCore call
  ihave Hsp := (call_split m d (m (v4Loc d))) $$ [Hv0 Hv3 Hv4]
  · isplitl [Hv0]; · iexact Hv0
    isplitl [Hv3]; · iexact Hv3
    iexact Hv4
  icases Hsp with ⟨Hrest, Hgo⟩
  iapply ((K (F := F)).wp_run (D (F := F)) 𝒱 (EH := EH) (P := P m) κ d 0)
  isplitr; · iexact Hctx
  isplitl [Hst]; · iexact Hst
  isplitl [Hgo]
  · rw [st0_eq]; iexact Hgo
  iintro ⟨Hst, Hdn⟩
  ihave Htd := (Entails.of_eq (dn0_eq m d)) $$ Hdn
  ihave Hj := (call_join m d) $$ [Hrest Htd]
  · isplitl [Hrest]; · iexact Hrest
    iexact Htd
  icases Hj with ⟨Hv0, Hv3, Hv4⟩
  -- the last regrouping
  iapply (wp_hlo_within 𝒱 (SparseCore.T d) none Set.univ (op := op5) (S := S45) h5sub' (V := W4 m d)) $$ [Hb Hv4 Hv5]
  · isplitl [Hb]; · iexact Hb
    rw [held_S45, W4_v4, W4_v5]
    isplitl [Hv4]; · iexact Hv4
    iexact Hv5
  iintro ⟨Hb, Hheld⟩
  ihave Hh := (Entails.of_eq (held_S45 (F := F) d _)) $$ Hheld
  rw [W5_v4, W5_v5]
  icases Hh with ⟨Hv4, Hv5⟩
  rw [wp_ret]; imodintro; imodintro
  isplitl [Hst]; · iexact Hst
  isplitl [Ha0]; · iexact Ha0
  isplitl [Ha1]; · iexact Ha1
  isplitl [Ha2]; · iexact Ha2
  isplitl [Ha3]; · iexact Ha3
  iexact Hv5

end Cert.Kernel.KI

end
-- ==== Proof.KernelBits.LaunchRun.lean ====
/-
  The program's run: every weakly fair execution of the TensorCore's @main and the SparseCores' threads terminates,
  nothing faulting, and the final memory has the result at the specification's function of the four arguments and
  the arguments as launched — given the body of a worker's task (its statement at a symbolic worker).
-/
import proofs.«206674_g54314156425426_cont_9to1_m_1126_27_alg».proof.Proof.KernelBits.Launch

noncomputable section

namespace Cert.Kernel.KI

open Cert.Kernel Cert.Kernel.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-- A buffer held whole beside the state's interpretation is what the state's memory holds there. -/
theorem agree (ℓ : Loc nD τ sig) (f : Buf (Elt F) ℓ) (s' : Phys nD τ sig (Elt F)) :
    iprop(SI s' ∗ (ℓ ↦{fullShare} f)) ⊢ (iprop(⌜s'.mem.mem ℓ = f⌝ ∗ SI s') : sProp 𝕄) := by
  iintro ⟨HSI, Hp⟩
  ihave H := (persistent_entails_right (SI_pointsTo_agree (st := s') (ℓ := ℓ) (I := Finset.univ) (q := fullShare) (f := f))) $$ [HSI Hp]
  · isplitl [HSI] <;> iassumption
  icases H with ⟨%h1, HSI, -⟩
  isplitr; · ipureintro; exact funext fun i => h1 i (Finset.mem_univ i)
  iexact HSI

def fq (d : Dev nD) (s' : Phys nD τ sig (Elt F)) : Prop :=
  s'.mem.mem (a0Loc d) = m (a0Loc d) ∧ s'.mem.mem (a1Loc d) = m (a1Loc d) ∧ s'.mem.mem (a2Loc d) = m (a2Loc d) ∧ s'.mem.mem (a3Loc d) = m (a3Loc d)
    ∧ s'.mem.mem (v5Loc d) = RES m d

theorem hfin (d : Dev nD) (s' : Phys nD τ sig (Elt F)) : iprop(FIN m d ∗ SI s') ⊢ (⌜fq m d s'⌝ : sProp 𝕄) := by
  iintro ⟨⟨H0, H1, H2, H3, H5⟩, HSI⟩
  ihave R0 := (agree (a0Loc d) _ s') $$ [HSI H0]
  · isplitl [HSI] <;> iassumption
  icases R0 with ⟨%e0, HSI⟩
  ihave R1 := (agree (a1Loc d) _ s') $$ [HSI H1]
  · isplitl [HSI] <;> iassumption
  icases R1 with ⟨%e1, HSI⟩
  ihave R2 := (agree (a2Loc d) _ s') $$ [HSI H2]
  · isplitl [HSI] <;> iassumption
  icases R2 with ⟨%e2, HSI⟩
  ihave R3 := (agree (a3Loc d) _ s') $$ [HSI H3]
  · isplitl [HSI] <;> iassumption
  icases R3 with ⟨%e3, HSI⟩
  ihave R5 := (agree (v5Loc d) _ s') $$ [HSI H5]
  · isplitl [HSI] <;> iassumption
  icases R5 with ⟨%e5, -⟩
  ipureintro; exact ⟨e0, e1, e2, e3, e5⟩

/-- The run's post: the result named, the arguments unchanged. -/
def QC : PUnit × MemSt nD τ sig (Elt F) → Prop := fun r => ∀ c : Dev nD,
  r.2.mem (v5Loc c) = RES m c ∧ r.2.mem (a0Loc c) = m (a0Loc c) ∧ r.2.mem (a1Loc c) = m (a1Loc c)
    ∧ r.2.mem (a2Loc c) = m (a2Loc c) ∧ r.2.mem (a3Loc c) = m (a3Loc c)

theorem run_main [∀ e, Nonempty (Elt F e)] (hb : TileBody m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hb)
    (fun q _ => match q with | 0 => SparseCore.Cfg.VecSplit.of_plain (vecSplit m))
    m ρ main (G0 (F := F)) (FIN m) (u₀ (F := F)) (sep_elim_left.trans (hu₀ m)) (hmain m ρ) (fq m) (hfin m) (QC m)
    (fun _ h c => ⟨(h c).2.2.2.2, (h c).1, (h c).2.1, (h c).2.2.1, (h c).2.2.2.1⟩)

end Cert.Kernel.KI

end
-- ==== Proof.KernelBits.ScBodyViews.lean ====
/-
  Views for the gather kernel's body: bands of rows of the output and of positions of the index scratch, the chunk
  slices the body takes as such bands, the split of a band in two, and what the index scratch holds after the
  first copy (the tile's row of the regrouped indices), every word of it a row number of the table.
-/
import proofs.«206674_g54314156425426_cont_9to1_m_1126_27_alg».proof.Proof.KernelBits.Common
import proofs.«206674_g54314156425426_cont_9to1_m_1126_27_alg».proof.Proof.Gen.Kernel.Skeleton
import Idealize.ShloMosaic.Lib.SparseCore.Launch
import Idealize.ShloMosaic.Lib.StableHlo.Run
import Idealize.ShloMosaic.Lib.Pipeline.Kit
import Idealize.ShloMosaic.Lib.Tactic

noncomputable section

namespace Cert.Kernel.KI

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-! ## Bands -/

/-- The positions of the output whose row lies in [lo, hi). -/
def rowsSet (lo hi : ℕ) : Finset S204800x128.Idx := Finset.univ.filter fun i => lo ≤ (i 0).val ∧ (i 0).val < hi
/-- The positions of the index scratch in [lo, hi). -/
def posSet (lo hi : ℕ) : Finset S6400.Idx := Finset.univ.filter fun i => lo ≤ (i 0).val ∧ (i 0).val < hi

theorem mem_rowsSet {lo hi : ℕ} {i : S204800x128.Idx} : i ∈ rowsSet lo hi ↔ lo ≤ (i 0).val ∧ (i 0).val < hi := by
  simp [rowsSet]
theorem mem_posSet {lo hi : ℕ} {i : S6400.Idx} : i ∈ posSet lo hi ↔ lo ≤ (i 0).val ∧ (i 0).val < hi := by
  simp [posSet]

theorem rowsSet_union {a b c : ℕ} (h1 : a ≤ b) (h2 : b ≤ c) : rowsSet a b ∪ rowsSet b c = rowsSet a c := by
  ext i; simp only [Finset.mem_union, mem_rowsSet]; omega
theorem posSet_union {a b c : ℕ} (h1 : a ≤ b) (h2 : b ≤ c) : posSet a b ∪ posSet b c = posSet a c := by
  ext i; simp only [Finset.mem_union, mem_posSet]; omega
theorem rowsSet_disjoint {a b c e : ℕ} (h : b ≤ c) : Disjoint (rowsSet a b) (rowsSet c e) := by
  rw [Finset.disjoint_left]; intro i h1 h2; rw [mem_rowsSet] at h1 h2; omega
theorem posSet_disjoint {a b c e : ℕ} (h : b ≤ c) : Disjoint (posSet a b) (posSet c e) := by
  rw [Finset.disjoint_left]; intro i h1 h2; rw [mem_posSet] at h1 h2; omega
theorem rowsSet_self (a : ℕ) : rowsSet a a = ∅ := by
  ext i; simp only [mem_rowsSet, Finset.notMem_empty, iff_false]; omega
theorem posSet_self (a : ℕ) : posSet a a = ∅ := by
  ext i; simp only [mem_posSet, Finset.notMem_empty, iff_false]; omega
theorem posSet_all : posSet 0 6400 = Finset.univ := by
  ext i; simp only [mem_posSet, Finset.mem_univ, iff_true]; exact ⟨Nat.zero_le _, (i 0).isLt⟩

/-! ## The slices the body takes -/

/-- A chunk of 128 rows of the output at offsets off (column offset zero) is a band of rows. -/
theorem set_outChunk (off : Fin 2 → ℕ) (h : ∀ a, off a + S128x128.size a ≤ S204800x128.size a) (h1 : off 1 = 0) :
    ((Memref.whole main_v4_scv : Memref sig .scVector .hbm S204800x128 .f32).slice (Rect.unit (s := S204800x128) off S128x128.size h) (fun _ => rfl)).view.set
      = rowsSet (off 0) (off 0 + 128) := by
  show ((View.whole main_v4_scv).slice _).set = _
  rw [View.set_slice_whole]
  ext i
  rw [Rect.mem_set_unit, mem_rowsSet]
  refine Iff.trans Fin.forall_fin_two ?_
  have hi : (i 1).val < 128 := (i 1).isLt
  have e0 : S128x128.size 0 = 128 := rfl
  have e1 : S128x128.size 1 = 128 := rfl
  rw [h1, e0, e1]
  constructor
  · rintro ⟨h0, _⟩; exact h0
  · intro h0; exact ⟨h0, Nat.zero_le _, by omega⟩

/-- A chunk of 128 positions of the index scratch is a band of positions. -/
theorem set_idxChunk (off : Fin 1 → ℕ) (h : ∀ a, off a + S128.size a ≤ S6400.size a) :
    ((Memref.whole cc1_scratch0 : Memref sig .scVector .vmem S6400 .i32).slice (Rect.unit (s := S6400) off S128.size h) (fun _ => rfl)).view.set
      = posSet (off 0) (off 0 + 128) := by
  show ((View.whole cc1_scratch0).slice _).set = _
  rw [View.set_slice_whole]
  ext i
  rw [Rect.mem_set_unit, mem_posSet]
  have e0 : S128.size 0 = 128 := rfl
  refine Iff.trans Fin.forall_fin_one ?_
  rw [e0]

/-- A tile's rows of the output are a band of rows. -/
theorem outRowsSet_eq (w : Fin 32) : outRowsSet w = rowsSet (6400 * w.val) (6400 * w.val + 6400) := by
  show ((View.whole main_v4_scv).slice _).set = _
  rw [View.set_slice_whole]
  ext i
  rw [Rect.mem_set_unit, mem_rowsSet]
  refine Iff.trans Fin.forall_fin_two ?_
  have hi : (i 1).val < 128 := (i 1).isLt
  have p0 : S204800x128.partSize 0 32 0 = 6400 := by decide
  have p1 : S204800x128.partSize 0 32 1 = 128 := by decide
  have x0 : S204800x128.partIx 0 w.val 0 = w.val := by simp [Shape.partIx]
  have x1 : S204800x128.partIx 0 w.val 1 = 0 := by simp [Shape.partIx]
  rw [p0, p1, x0, x1]
  constructor
  · rintro ⟨h0, _⟩; omega
  · intro h0; exact ⟨by omega, Nat.zero_le _, by omega⟩

/-! ## The tile's row of the indices, and the straight-line output offsets -/

/-- The index row of the tile at grid coordinates L, as the body slices it. -/
abbrev idsRowK (L : grid1.Coords) : Memref sig .scVector .hbm S6400 .i32 :=
  ((Memref.whole main_v0_scv : Memref sig .scVector .hbm S32x6400 .i32).slice (Rect.unit (s := S32x6400) (k1_off1 L) S1x6400.size (k1_off1_inb L)) (fun _ => rfl)).squeeze S6400 squeezes_S1x6400_S6400

theorem rowRect_eq (L : grid1.Coords) :
    Rect.unit (s := S32x6400) (k1_off1 L) S1x6400.size (k1_off1_inb L) = Rect.part (s := S32x6400) (a₀ := 0) hdivI (widL L) := by
  unfold Rect.part Rect.block
  congr 1 <;> funext a
  · rw [k1_off1_eq]
    match a with
    | 0 => simp [Shape.partIx, Shape.partSize, widL]
    | 1 => simp [Shape.partIx, Shape.partSize]
  · match a with
    | 0 => simp [Shape.partSize]
    | 1 => simp [Shape.partSize]

theorem set_idsRowK (L : grid1.Coords) : (idsRowK L).view.set = idsRowSet (widL L) := by
  show (((Memref.whole main_v0_scv : Memref sig .scVector .hbm S32x6400 .i32).view.slice (Rect.unit (s := S32x6400) (k1_off1 L) S1x6400.size (k1_off1_inb L))).reshape S6400 squeezes_S1x6400_S6400.numel_eq).set
    = ((Memref.whole main_v0_scv : Memref sig .scVector .hbm S32x6400 .i32).view.slice (Rect.part (s := S32x6400) (a₀ := 0) hdivI (widL L))).set
  rw [View.set_reshape]
  exact rowRect_eq L ▸ rfl

/-- The straight-line output offsets in closed form: the tile's first row plus the literal. -/
theorem k1_off2_eq : ∀ (i : grid1.Coords) (r : Fin 7), k1_off2 i (k1_off2_at r) = ![12800 * (i 1).val + 6400 * (i 0).val + (k1_off2_at r).toNat, 0] := by
  decide +kernel

/-! ## Splitting a band in two -/

section Split

theorem rows_split (d : Dev nD) {a b c : ℕ} (h1 : a ≤ b) (h2 : b ≤ c) (q : PosShare TreeShare) (f : Buf (Elt F) (v4Loc d)) :
    (v4Loc d ↦[rowsSet a c]{q} f : sProp 𝕄) ⊣⊢ iprop((v4Loc d ↦[rowsSet a b]{q} f) ∗ (v4Loc d ↦[rowsSet b c]{q} f)) := by
  rw [← rowsSet_union h1 h2]; exact pointsTo_union (rowsSet_disjoint (le_refl b))

theorem pos_split (d : Dev nD) (cc : Fin τ.nSC) (jj : Fin τ.nSub) {a b c : ℕ} (h1 : a ≤ b) (h2 : b ≤ c) (q : PosShare TreeShare) (f : Buf (Elt F) ((V d cc jj).loc cc1_scratch0)) :
    ((V d cc jj).loc cc1_scratch0 ↦[posSet a c]{q} f : sProp 𝕄) ⊣⊢ iprop(((V d cc jj).loc cc1_scratch0 ↦[posSet a b]{q} f) ∗ ((V d cc jj).loc cc1_scratch0 ↦[posSet b c]{q} f)) := by
  rw [← posSet_union h1 h2]; exact pointsTo_union (posSet_disjoint (le_refl b))

end Split

/-! ## The chunks as the body's copies address them -/

section Chunks
variable (d : Dev nD) (cc : Fin τ.nSC) (jj : Fin τ.nSub)

/-- A chunk of the output at offsets off. -/
abbrev outK (off : Fin 2 → ℕ) (h : ∀ a, off a + S128x128.size a ≤ S204800x128.size a) : Memref sig .scVector .hbm S128x128 .f32 :=
  (Memref.whole main_v4_scv : Memref sig .scVector .hbm S204800x128 .f32).slice (Rect.unit (s := S204800x128) off S128x128.size h) (fun _ => rfl)
/-- A chunk of the index scratch at offsets off. -/
abbrev idxK (off : Fin 1 → ℕ) (h : ∀ a, off a + S128.size a ≤ S6400.size a) : Memref sig .scVector .vmem S128 .i32 :=
  (Memref.whole cc1_scratch0 : Memref sig .scVector .vmem S6400 .i32).slice (Rect.unit (s := S6400) off S128.size h) (fun _ => rfl)

theorem pts_outK (off : Fin 2 → ℕ) (h : ∀ a, off a + S128x128.size a ≤ S204800x128.size a) (h1 : off 1 = 0) {lo hi : ℕ} (e1 : off 0 = lo) (e2 : lo + 128 = hi)
    (f : Buf (Elt F) (v4Loc d)) :
    ((outK off h).view.loc (V d cc jj) ↦[(outK off h).view.set]{fullShare} f : sProp 𝕄) = v4Loc d ↦[rowsSet lo hi]{fullShare} f := by
  rw [set_outChunk off h h1, e1, e2]
theorem pts_idxK (off : Fin 1 → ℕ) (h : ∀ a, off a + S128.size a ≤ S6400.size a) {lo hi : ℕ} (e1 : off 0 = lo) (e2 : lo + 128 = hi)
    (f : Buf (Elt F) ((V d cc jj).loc cc1_scratch0)) :
    ((idxK off h).view.loc (V d cc jj) ↦[(idxK off h).view.set]{fullShare} f : sProp 𝕄) = (V d cc jj).loc cc1_scratch0 ↦[posSet lo hi]{fullShare} f := by
  rw [set_idxChunk off h, e1, e2]

end Chunks

/-! ## Carving a chunk off the low end of a band, and putting one back at the high end -/

section Carve
variable (d : Dev nD) (cc : Fin τ.nSC) (jj : Fin τ.nSub)

theorem out_carve (off : Fin 2 → ℕ) (h : ∀ a, off a + S128x128.size a ≤ S204800x128.size a) (h1 : off 1 = 0) {lo mid hi : ℕ}
    (e1 : off 0 = lo) (e2 : lo + 128 = mid) (h2 : mid ≤ hi) (f : Buf (Elt F) (v4Loc d)) :
    (v4Loc d ↦[rowsSet lo hi]{fullShare} f : sProp 𝕄)
      ⊢ iprop(((outK off h).view.loc (V d cc jj) ↦[(outK off h).view.set]{fullShare} f) ∗ (v4Loc d ↦[rowsSet mid hi]{fullShare} f)) := by
  rw [pts_outK d cc jj off h h1 e1 e2]
  exact (rows_split d (by omega) h2 fullShare f).1

theorem idx_carve (off : Fin 1 → ℕ) (h : ∀ a, off a + S128.size a ≤ S6400.size a) {lo mid hi : ℕ}
    (e1 : off 0 = lo) (e2 : lo + 128 = mid) (h2 : mid ≤ hi) (f : Buf (Elt F) ((V d cc jj).loc cc1_scratch0)) :
    ((V d cc jj).loc cc1_scratch0 ↦[posSet lo hi]{fullShare} f : sProp 𝕄)
      ⊢ iprop(((idxK off h).view.loc (V d cc jj) ↦[(idxK off h).view.set]{fullShare} f) ∗ ((V d cc jj).loc cc1_scratch0 ↦[posSet mid hi]{fullShare} f)) := by
  rw [pts_idxK d cc jj off h e1 e2]
  exact (pos_split d cc jj (by omega) h2 fullShare f).1

/-- A chunk of the index scratch goes back on top of the positions below it (same contents). -/
theorem idx_merge (off : Fin 1 → ℕ) (h : ∀ a, off a + S128.size a ≤ S6400.size a) {lo mid hi : ℕ}
    (e1 : off 0 = mid) (e2 : mid + 128 = hi) (h2 : lo ≤ mid) (f : Buf (Elt F) ((V d cc jj).loc cc1_scratch0)) :
    iprop(((V d cc jj).loc cc1_scratch0 ↦[posSet lo mid]{fullShare} f) ∗ ((idxK off h).view.loc (V d cc jj) ↦[(idxK off h).view.set]{fullShare} f))
      ⊢ ((V d cc jj).loc cc1_scratch0 ↦[posSet lo hi]{fullShare} f : sProp 𝕄) := by
  rw [pts_idxK d cc jj off h e1 e2]
  exact (pos_split d cc jj h2 (by omega) fullShare f).2

/-- A chunk of the output goes back on top of the rows below it, at some contents. -/
theorem out_merge (off : Fin 2 → ℕ) (h : ∀ a, off a + S128x128.size a ≤ S204800x128.size a) (h1 : off 1 = 0) {lo mid hi : ℕ}
    (e1 : off 0 = mid) (e2 : mid + 128 = hi) (h2 : lo ≤ mid) (f g : Buf (Elt F) (v4Loc d)) :
    iprop((v4Loc d ↦[rowsSet lo mid]{fullShare} f) ∗ ((outK off h).view.loc (V d cc jj) ↦[(outK off h).view.set]{fullShare} g))
      ⊢ (iprop(∃ f', v4Loc d ↦[rowsSet lo hi]{fullShare} f') : sProp 𝕄) := by
  rw [pts_outK d cc jj off h h1 e1 e2, ← rowsSet_union h2 (show mid ≤ hi by omega)]
  iintro ⟨H1, H2⟩
  iexists _
  iapply (pointsTo_join (rowsSet_disjoint (le_refl mid)))
  isplitl [H1] <;> iassumption

/-- The same where both hold one function G on their rows: the band holds G. -/
theorem out_merge_at (off : Fin 2 → ℕ) (h : ∀ a, off a + S128x128.size a ≤ S204800x128.size a) (h1 : off 1 = 0) {lo mid hi : ℕ}
    (e1 : off 0 = mid) (e2 : mid + 128 = hi) (h2 : lo ≤ mid) (G g : Buf (Elt F) (v4Loc d)) (hg : ∀ i ∈ rowsSet (off 0) (off 0 + 128), g i = G i) :
    iprop((v4Loc d ↦[rowsSet lo mid]{fullShare} G) ∗ ((outK off h).view.loc (V d cc jj) ↦[(outK off h).view.set]{fullShare} g))
      ⊢ (v4Loc d ↦[rowsSet lo hi]{fullShare} G : sProp 𝕄) := by
  rw [pts_outK d cc jj off h h1 e1 e2]
  rw [e1, e2] at hg
  have e : (v4Loc d ↦[rowsSet mid hi]{fullShare} g : sProp 𝕄) = v4Loc d ↦[rowsSet mid hi]{fullShare} G := pointsTo_congr hg
  rw [e]
  exact (rows_split d h2 (by omega) fullShare G).2

end Carve

/-! ## The tile's first row -/

/-- The first row of the tile at grid coordinates L. -/
def baseL (L : grid1.Coords) : ℕ := 12800 * (L 1).val + 6400 * (L 0).val

theorem baseL_eq (L : grid1.Coords) : 6400 * (widL L).val = baseL L := by
  unfold widL baseL; simp only; omega
theorem baseL_le (L : grid1.Coords) : baseL L + 6400 ≤ 204800 := by
  have h0 : (L 0).val < 2 := (L 0).isLt
  have h1 : (L 1).val < 16 := (L 1).isLt
  unfold baseL; omega
theorem off2_zero (L : grid1.Coords) (r : Fin 7) : k1_off2 L (k1_off2_at r) 0 = baseL L + (k1_off2_at r).toNat := by
  rw [k1_off2_eq]; rfl
theorem off2_one (L : grid1.Coords) (r : Fin 7) : k1_off2 L (k1_off2_at r) 1 = 0 := by
  rw [k1_off2_eq]; rfl
theorem off4_zero (L : grid1.Coords) (T : Fin k1_t1_loop.trips) (r : Fin 5) :
    k1_off4 L T (BitVec.ofNat 32 r.val) 0 = baseL L + 640 * T.val + 128 * r.val + 256 := by
  rw [k1_off4_eq]; rfl
theorem off4_one (L : grid1.Coords) (T : Fin k1_t1_loop.trips) (r : Fin 5) : k1_off4 L T (BitVec.ofNat 32 r.val) 1 = 0 := by
  rw [k1_off4_eq]; rfl
theorem off5_zero (L : grid1.Coords) (T : Fin k1_t1_loop.trips) (r : Fin 5) :
    k1_off5 L T (BitVec.ofNat 32 r.val) 0 = baseL L + 640 * T.val + 128 * r.val := by
  rw [k1_off5_eq]; rfl
theorem off5_one (L : grid1.Coords) (T : Fin k1_t1_loop.trips) (r : Fin 5) : k1_off5 L T (BitVec.ofNat 32 r.val) 1 = 0 := by
  rw [k1_off5_eq]; rfl
theorem off3_zero (T : Fin k1_t1_loop.trips) (r : Fin 5) : k1_off3 T (BitVec.ofNat 32 r.val) 0 = 640 * T.val + 128 * r.val + 256 := by
  rw [k1_off3_eq]; rfl
theorem off6_zero (T : Fin k1_t1_loop.trips) (r : Fin 5) : k1_off6 T (BitVec.ofNat 32 r.val) 0 = 640 * T.val + 128 * r.val + 640 := by
  rw [k1_off6_eq]; rfl

theorem off2_at (L : grid1.Coords) (r : Fin 7) (n : ℕ) (hn : (k1_off2_at r).toNat = n) : k1_off2 L (k1_off2_at r) 0 = baseL L + n := by
  rw [off2_zero, hn]

theorem off4_at (L : grid1.Coords) (T : Fin k1_t1_loop.trips) (r : Fin 5) (n : ℕ) (hn : 128 * r.val + 256 = n) :
    k1_off4 L T (BitVec.ofNat 32 r.val) 0 = baseL L + 640 * T.val + n := by
  rw [off4_zero, ← hn]; omega
theorem off6_at (T : Fin k1_t1_loop.trips) (r : Fin 5) (n : ℕ) (hn : 128 * r.val + 640 = n) :
    k1_off6 T (BitVec.ofNat 32 r.val) 0 = 640 * T.val + n := by
  rw [off6_zero, ← hn]; omega

/-- A wait at index none added to the recorded waits keeps them among the given ones and those at index none. -/
theorem ins_ok {W W' : Waits sig (HIx 1)} {a : SemLoc sig × HIx 1} (h : ∀ p ∈ W', p ∈ W ∨ p.2 = none) (ha : a.2 = none) :
    ∀ p ∈ insert a W', p ∈ W ∨ p.2 = none := by
  intro p hp
  rcases Finset.mem_insert.mp hp with rfl | hp
  · exact .inr ha
  · exact h p hp

/-! ## Empty bands, and the table's read share as one token per gather semaphore -/

section Misc
variable (d : Dev nD) (cc : Fin τ.nSC) (jj : Fin τ.nSub)

theorem rows_none_eq (a b : ℕ) (h : b ≤ a) (q : PosShare TreeShare) (f : Buf (Elt F) (v4Loc d)) :
    (v4Loc d ↦[rowsSet a b]{q} f : sProp 𝕄) = iprop(emp) := by
  rw [show rowsSet a b = ∅ from by ext i; simp only [mem_rowsSet, Finset.notMem_empty, iff_false]; omega]
  exact pointsTo_empty
theorem pos_none_eq (a b : ℕ) (h : b ≤ a) (q : PosShare TreeShare) (f : Buf (Elt F) ((V d cc jj).loc cc1_scratch0)) :
    ((V d cc jj).loc cc1_scratch0 ↦[posSet a b]{q} f : sProp 𝕄) = iprop(emp) := by
  rw [show posSet a b = ∅ from by ext i; simp only [mem_posSet, Finset.notMem_empty, iff_false]; omega]
  exact pointsTo_empty

theorem idx_all (f : Buf (Elt F) ((V d cc jj).loc cc1_scratch0)) :
    ((V d cc jj).loc cc1_scratch0 ↦[posSet 0 6400]{fullShare} f : sProp 𝕄) = ((Memref.whole cc1_scratch0).view.loc (V d cc jj) ↦{fullShare} f) := by
  rw [posSet_all]

/-- A read share of an array as the tokens numbered 6 to 10 (one per gather semaphore) and what is left of it. -/
theorem nrm_toks {ℓ : Loc nD τ sig} (f : Buf (Elt F) ℓ) (q : PosShare TreeShare) :
    (ℓ ↦{q} f : sProp 𝕄) ⊣⊢ iprop((ℓ ↦{Transfers.shareDrop q 11} f)
      ∗ (ℓ ↦{Transfers.shareTokN q 6} f) ∗ (ℓ ↦{Transfers.shareTokN q 7} f) ∗ (ℓ ↦{Transfers.shareTokN q 8} f)
      ∗ (ℓ ↦{Transfers.shareTokN q 9} f) ∗ (ℓ ↦{Transfers.shareTokN q 10} f)
      ∗ bigSep ((((((Finset.range 11).erase 6).erase 7).erase 8).erase 9).erase 10) (fun i => ℓ ↦{Transfers.shareTokN q i} f)) := by
  have h : (ℓ ↦{q} f : sProp 𝕄) ⊣⊢ iprop((ℓ ↦{Transfers.shareDrop q 11} f) ∗ BI.bigSep (Finset.range 11) (fun i => ℓ ↦{Transfers.shareTokN q i} f)) :=
    Transfers.pointsTo_toks_range q 11
  rw [SparseCore.bigSep_erase' (show 6 ∈ Finset.range 11 by decide),
    SparseCore.bigSep_erase' (show 7 ∈ (Finset.range 11).erase 6 by decide),
    SparseCore.bigSep_erase' (show 8 ∈ ((Finset.range 11).erase 6).erase 7 by decide),
    SparseCore.bigSep_erase' (show 9 ∈ (((Finset.range 11).erase 6).erase 7).erase 8 by decide),
    SparseCore.bigSep_erase' (show 10 ∈ ((((Finset.range 11).erase 6).erase 7).erase 8).erase 9 by decide)] at h
  exact h

end Misc

/-! ## What the index scratch holds after the first copy -/

section Idx
variable [FloatOps F]

/-- The tile's row of the regrouped indices, as the first copy delivers it. -/
abbrev rowVals (d : Dev nD) (L : grid1.Coords) : S6400.Idx → Elt F .i32 :=
  (idsRowK L).view.read (Elt F) (IDS m d)

/-- Every word a chunk of the index scratch holds after the first copy is a row number of the table. -/
theorem idx_inb (hpre : PreOK m) (d : Dev nD) (L : grid1.Coords) (off : Fin 1 → ℕ) (h : ∀ a, off a + S128.size a ≤ S6400.size a) :
    ∀ x, ((idxK off h).view.read (Elt F) (rowVals m d L) x).toNat < 100000 := by
  intro x
  simp only [View.read_apply, cast_eq]
  exact hpre d _

/-- The table as the gathers address it (the whole array, sliced whole). -/
abbrev tabW : Memref sig .scVector .hbm S100000x128 .f32 :=
  (Memref.whole main_v3_scv : Memref sig .scVector .hbm S100000x128 .f32).slice (Rect.unit (s := S100000x128) ![0, 0] S100000x128.size inb_S100000x128_S100000x128_0_0) (fun _ => rfl)

/-- What a gather through the chunk of the index scratch at offsets io delivers into a 128 x 128 buffer: at (r, c) the
    table's row named by the chunk's word r, at column c. -/
abbrev gpay (d : Dev nD) (L : grid1.Coords) (io : Fin 1 → ℕ) (h : ∀ a, io a + S128.size a ≤ S6400.size a)
    (hin : ∀ x, ((idxK io h).view.read (Elt F) (rowVals m d L) x).toNat < 100000) : S128x128.Idx → Elt F .f32 :=
  SparseCore.gatherPayload gathers_S100000x128_S128x128 (tabW.view.read (Elt F) (NRM m d))
    (SparseCore.rows ((idxK io h).view.read (Elt F) (rowVals m d L)) rfl hin)

end Idx

end Cert.Kernel.KI
end
-- ==== Proof.KernelBits.ScLemmasVal.lean ====
/-
  The value step of the gather kernel's body. A buffer written whole reads back what was written. A 128-row chunk of
  the output written whole with what a gather through a chunk of the index scratch delivers holds, on its rows, the
  gathered array: at row r of the chunk the row of the normalised table that the chunk's word r names, and that word
  is the regrouped index at the position of output row (chunk's first row + r).
-/
import proofs.«206674_g54314156425426_cont_9to1_m_1126_27_alg».proof.Proof.KernelBits.ScBodyViews

noncomputable section

namespace Cert.Kernel.KI

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable (m : (ℓ : Loc nD τ sig) → Buf (Elt F) ℓ)

section Whole
variable (d : Dev nD) (cc : Fin τ.nSC) (jj : Fin τ.nSub)

/-- A buffer written whole, read whole, is what was written. -/
theorem whole_read_writes (b : Ref sig .scVector) (cb : Buf (Elt F) ((V d cc jj).loc b)) (P : b.ty.shape.Idx → Elt F b.ty.elt) :
    (Memref.whole b).view.read (Elt F) ((Memref.whole b).view.writes (Elt F) cb [⟨Rect.whole b.ty.shape, P⟩]) = P := by
  funext x
  have h := View.read_writes_cons_emb (Memref.whole b).view cb (Rect.whole b.ty.shape) P [] x
  rwa [Rect.emb_whole_apply] at h

end Whole

section Reads
variable [FloatOps F]
open Idealize.ShloMosaic.ValueIdx

/-- The position of a one-axis shape at row-major place k is k. -/
theorem rowMajor_symm_val (k : Fin S128.numel) : ((S128.rowMajor.symm k) 0).val = k.val := by
  have h := Shape.rowMajor_val_one (S128.rowMajor.symm k)
  rw [Equiv.apply_symm_apply] at h
  exact h.symm

/-- A chunk of the index scratch at offset io reads position io 0 + y of the scratch at its own position y. -/
theorem idxK_read (io : Fin 1 → ℕ) (hi : ∀ a, io a + S128.size a ≤ S6400.size a) (g : S6400.Idx → Elt F .i32) (y : S128.Idx) :
    (idxK io hi).view.read (Elt F) g y = g (ix1 (n := 6400) ⟨io 0 + (y 0).val, by
      have h0 := hi 0; have e : S128.size 0 = 128 := rfl; have e' : S6400.size 0 = 6400 := rfl
      have hy : (y 0).val < 128 := (y 0).isLt; omega⟩) := by
  simp only [View.read_apply, cast_eq]
  refine congrArg g ?_
  funext b
  refine Fin.ext ?_
  revert b
  intro (b : Fin 1)
  obtain rfl : b = 0 := Subsingleton.elim _ _
  show io 0 + 1 * (y 0).val = io 0 + (y 0).val
  omega

/-- The tile's row of the regrouped indices at position z: the regrouped index at (tile's number, z). -/
theorem rowVals_apply (d : Dev nD) (L : grid1.Coords) (z : S6400.Idx) :
    rowVals m d L z = IDS m d (ix2 (n0 := 32) (n1 := 6400) (widL L) (z 0)) := by
  unfold rowVals
  simp only [View.read_apply, cast_eq]
  refine congrArg (IDS m d) ?_
  rw [View.emb_reshape, Function.Embedding.trans_apply, View.emb_slice, Function.Embedding.trans_apply]
  have hz : Shape.reshapeEquiv (s := S1x6400) (s' := S6400) squeezes_S1x6400_S6400.numel_eq z = ix2 (n0 := 1) (n1 := 6400) 0 (z 0) :=
    Shape.reshapeEquiv_eq_of_rowMajor _ (by
      rw [Shape.rowMajor_val_two, Shape.rowMajor_val_one]; show 0 * 6400 + (z 0).val = (z 0).val; omega)
  funext b
  refine Fin.ext ?_
  revert b
  intro (b : Fin 2)
  show k1_off1 L b + 1 * ((Shape.reshapeEquiv (s := S1x6400) (s' := S6400) squeezes_S1x6400_S6400.numel_eq z) b).val
    = (ix2 (n0 := 32) (n1 := 6400) (widL L) (z 0) b).val
  rw [hz, k1_off1_eq]
  fin_cases b
  · show 2 * (L 1).val + (L 0).val + 1 * 0 = (widL L).val
    unfold widL
    simp
  · show 0 + 1 * (z 0).val = (z 0).val
    omega

end Reads

section Chunk
variable [FloatOps F]
open Idealize.ShloMosaic.ValueIdx

theorem chunk_value (hpre : PreOK m) (d : Dev nD) (L : grid1.Coords)
    (oo : Fin 2 → ℕ) (ho : ∀ a, oo a + S128x128.size a ≤ S204800x128.size a) (io : Fin 1 → ℕ) (hi : ∀ a, io a + S128.size a ≤ S6400.size a)
    (hoo : oo 0 = baseL L + io 0) (hoo1 : oo 1 = 0)
    (hin : ∀ x, ((idxK io hi).view.read (Elt F) (rowVals m d L) x).toNat < 100000)
    (fo : Buf (Elt F) (v4Loc d)) (P : S128x128.Idx → Elt F .f32) (hP : ∀ x, P x = gpay m d L io hi hin x) :
    ∀ i ∈ rowsSet (oo 0) (oo 0 + 128), ((outK oo ho).view.writes (Elt F) fo [⟨Rect.whole S128x128, P⟩]) i = GOUT m d i := by
  intro i hi'
  rw [← set_outChunk oo ho hoo1] at hi'
  obtain ⟨x, -, rfl⟩ := Finset.mem_map.mp hi'
  rw [View.writes_singleton]
  have e1 : (outK oo ho).view.emb x = ((outK oo ho).view.slice (Rect.whole S128x128)).emb x :=
    congrArg (outK oo ho).view.emb (Rect.emb_whole_apply S128x128 x).symm
  refine (congrArg (View.write (Elt F) ((outK oo ho).view.slice (Rect.whole S128x128)) fo P Finset.univ) e1).trans ?_
  rw [View.write_emb_of_mem _ _ (Finset.mem_univ _), cast_eq, hP]
  unfold gpay SparseCore.gatherPayload GOUT KSpec.gathered
  rw [View.read_apply, cast_eq]
  refine congrArg (NRM m d) ?_
  funext a
  refine Fin.ext ?_
  revert a
  intro (a : Fin 2)
  fin_cases a
  · -- the row: the chunk's word at the index's row, which is the regrouped index at the output row's position
    have hx : (x 0).val < 128 := (x 0).isLt
    have hio : io 0 + 128 ≤ 6400 := hi 0
    refine (congrArg (fun t : Fin 100000 => 0 + 1 * t.val) (Shape.Gathers.idx_axis gathers_S100000x128_S128x128 _ x)).trans ?_
    show 0 + 1 * ((idxK io hi).view.read (Elt F) (rowVals m d L) (S128.rowMajor.symm (Fin.cast _ (x 0)))).toNat
      = (IDS m d (ix2 (n0 := 32) (n1 := 6400) ⟨(oo 0 + 1 * (x 0).val) / 6400, _⟩ ⟨(oo 0 + 1 * (x 0).val) % 6400, _⟩)).toNat % 100000
    rw [idxK_read, rowVals_apply, Nat.mod_eq_of_lt (hpre d _), Nat.zero_add, Nat.one_mul]
    refine congrArg (fun j => (IDS m d j).toNat) ?_
    have hb := baseL_eq L
    funext b
    refine Fin.ext ?_
    fin_cases b
    · show (widL L).val = (oo 0 + 1 * (x 0).val) / 6400
      rw [hoo]; omega
    · show io 0 + ((S128.rowMajor.symm (Fin.cast _ (x 0))) 0).val = (oo 0 + 1 * (x 0).val) % 6400
      rw [rowMajor_symm_val]
      show io 0 + (x 0).val = (oo 0 + 1 * (x 0).val) % 6400
      rw [hoo]; omega
  · -- the column: the index's own
    refine (congrArg (fun t : ℕ => 0 + 1 * t)
      (Shape.Gathers.idx_of_ne gathers_S100000x128_S128x128 _ x (1 : Fin 2) (by decide))).trans ?_
    show 0 + 1 * (x 1).val = oo 1 + 1 * (x 1).val
    rw [hoo1]

end Chunk

end Cert.Kernel.KI
end
-- ==== Proof.KernelBits.ScBody.lean ====
/-
  The gather kernel's body on one vector subcore, at symbolic grid coordinates: one separation-logic triple.

  The tile copies its row of the regrouped indices into its index scratch, then moves 50 chunks of 128 table rows
  through a ring of five 128 x 128 buffers: each chunk is gathered (an indexed copy through 128 words of the index
  scratch) into its buffer and written out to the tile's rows of the output. Each buffer has a semaphore for its
  gathers and one for its write-outs; at most one copy is outstanding on a semaphore and no buffer is touched while
  a copy on it is pending, so every wait is an ordinary local wait.

  The run: the straight-line prologue and epilogue step by step; the counted loop of nine trips by an invariant at
  a symbolic trip k — three gathers (chunks 5k+2 … 5k+4) and two write-outs (chunks 5k, 5k+1) in flight, the index
  scratch and the output rows held as bands that the trip carves chunks off and puts chunks back onto. The table is
  read under one read token per gather semaphore.

  The value is carried in the invariant: a gather in flight delivers its buffer holding the table's rows that its
  index chunk names; a write-out in flight delivers its 128 rows of the output holding the gathered contents there;
  the band of output rows already written holds the gathered contents. A chunk's rows hold the gathered contents
  because the chunk's words are the regrouped indices at those rows' positions (the pure lemma chunk_value).
-/
import proofs.«206674_g54314156425426_cont_9to1_m_1126_27_alg».proof.Proof.KernelBits.Common
import proofs.«206674_g54314156425426_cont_9to1_m_1126_27_alg».proof.Proof.Gen.Kernel.Skeleton
import proofs.«206674_g54314156425426_cont_9to1_m_1126_27_alg».proof.Proof.KernelBits.ScBodyViews
import proofs.«206674_g54314156425426_cont_9to1_m_1126_27_alg».proof.Proof.KernelBits.ScLemmasVal
import Idealize.ShloMosaic.Lib.SparseCore.Launch
import Idealize.ShloMosaic.Lib.StableHlo.Run
import Idealize.ShloMosaic.Lib.Pipeline.Kit
import Idealize.ShloMosaic.Lib.Tactic

noncomputable section

namespace Cert.Kernel.KI

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

variable [FloatOps F]

/-! ## The tile's own semaphores and buffers singled out -/

omit [FloatOps F] in
theorem cell_ne {thr : Thread nD τ} {a b : SemLoc sig} (h : a ≠ b) : ((thr, a) : GSem nD τ sig) ≠ (thr, b) :=
  fun e => h (Prod.mk.inj e).2

omit [FloatOps F] in
theorem ownSems0_V (d : Dev nD) (L : grid1.Coords) :
    (ownSems0 (V d (cV L) (jV L)) : sProp 𝕄)
      = iprop(semVal (((V d (cV L) (jV L)), SemLoc.dma cc1_scratch6.sem) : GSem nD τ sig) 0
          ∗ semVal (((V d (cV L) (jV L)), SemLoc.dma cc1_scratch7.sem) : GSem nD τ sig) 0
          ∗ semVal (((V d (cV L) (jV L)), SemLoc.dma cc1_scratch8.sem) : GSem nD τ sig) 0
          ∗ semVal (((V d (cV L) (jV L)), SemLoc.dma cc1_scratch9.sem) : GSem nD τ sig) 0
          ∗ semVal (((V d (cV L) (jV L)), SemLoc.dma cc1_scratch10.sem) : GSem nD τ sig) 0
          ∗ semVal (((V d (cV L) (jV L)), SemLoc.dma cc1_scratch11.sem) : GSem nD τ sig) 0
          ∗ semVal (((V d (cV L) (jV L)), SemLoc.dma cc1_scratch12.sem) : GSem nD τ sig) 0
          ∗ semVal (((V d (cV L) (jV L)), SemLoc.dma cc1_scratch13.sem) : GSem nD τ sig) 0
          ∗ semVal (((V d (cV L) (jV L)), SemLoc.dma cc1_scratch14.sem) : GSem nD τ sig) 0
          ∗ semVal (((V d (cV L) (jV L)), SemLoc.dma cc1_scratch15.sem) : GSem nD τ sig) 0
          ∗ semVal (((V d (cV L) (jV L)), SemLoc.dma cc1_scoped0.sem) : GSem nD τ sig) 0
          ∗ bigSep ((((((((((((ownCells (V d (cV L) (jV L))).erase (((V d (cV L) (jV L)), SemLoc.dma cc1_scratch6.sem) : GSem nD τ sig)).erase (((V d (cV L) (jV L)), SemLoc.dma cc1_scratch7.sem) : GSem nD τ sig)).erase (((V d (cV L) (jV L)), SemLoc.dma cc1_scratch8.sem) : GSem nD τ sig)).erase (((V d (cV L) (jV L)), SemLoc.dma cc1_scratch9.sem) : GSem nD τ sig)).erase (((V d (cV L) (jV L)), SemLoc.dma cc1_scratch10.sem) : GSem nD τ sig)).erase (((V d (cV L) (jV L)), SemLoc.dma cc1_scratch11.sem) : GSem nD τ sig)).erase (((V d (cV L) (jV L)), SemLoc.dma cc1_scratch12.sem) : GSem nD τ sig)).erase (((V d (cV L) (jV L)), SemLoc.dma cc1_scratch13.sem) : GSem nD τ sig)).erase (((V d (cV L) (jV L)), SemLoc.dma cc1_scratch14.sem) : GSem nD τ sig)).erase (((V d (cV L) (jV L)), SemLoc.dma cc1_scratch15.sem) : GSem nD τ sig)).erase (((V d (cV L) (jV L)), SemLoc.dma cc1_scoped0.sem) : GSem nD τ sig)) fun g => semVal g 0) := by
  unfold SparseCore.Cfg.ownSems0
  rw [SparseCore.bigSep_erase' ((mem_ownCells (g := (((V d (cV L) (jV L)), SemLoc.dma cc1_scratch6.sem) : GSem nD τ sig))).mpr ⟨rfl, by show (SemLoc.dma cc1_scratch6.sem : SemLoc sig).isScoped .scVector = true; decide⟩),
    SparseCore.bigSep_erase' (Finset.mem_erase.mpr ⟨cell_ne (by decide), ((mem_ownCells (g := (((V d (cV L) (jV L)), SemLoc.dma cc1_scratch7.sem) : GSem nD τ sig))).mpr ⟨rfl, by show (SemLoc.dma cc1_scratch7.sem : SemLoc sig).isScoped .scVector = true; decide⟩)⟩),
    SparseCore.bigSep_erase' (Finset.mem_erase.mpr ⟨cell_ne (by decide), (Finset.mem_erase.mpr ⟨cell_ne (by decide), ((mem_ownCells (g := (((V d (cV L) (jV L)), SemLoc.dma cc1_scratch8.sem) : GSem nD τ sig))).mpr ⟨rfl, by show (SemLoc.dma cc1_scratch8.sem : SemLoc sig).isScoped .scVector = true; decide⟩)⟩)⟩),
    SparseCore.bigSep_erase' (Finset.mem_erase.mpr ⟨cell_ne (by decide), (Finset.mem_erase.mpr ⟨cell_ne (by decide), (Finset.mem_erase.mpr ⟨cell_ne (by decide), ((mem_ownCells (g := (((V d (cV L) (jV L)), SemLoc.dma cc1_scratch9.sem) : GSem nD τ sig))).mpr ⟨rfl, by show (SemLoc.dma cc1_scratch9.sem : SemLoc sig).isScoped .scVector = true; decide⟩)⟩)⟩)⟩),
    SparseCore.bigSep_erase' (Finset.mem_erase.mpr ⟨cell_ne (by decide), (Finset.mem_erase.mpr ⟨cell_ne (by decide), (Finset.mem_erase.mpr ⟨cell_ne (by decide), (Finset.mem_erase.mpr ⟨cell_ne (by decide), ((mem_ownCells (g := (((V d (cV L) (jV L)), SemLoc.dma cc1_scratch10.sem) : GSem nD τ sig))).mpr ⟨rfl, by show (SemLoc.dma cc1_scratch10.sem : SemLoc sig).isScoped .scVector = true; decide⟩)⟩)⟩)⟩)⟩),
    SparseCore.bigSep_erase' (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), ((mem_ownCells (g := (((V d (cV L) (jV L)), SemLoc.dma cc1_scratch11.sem) : GSem nD τ sig))).mpr ⟨rfl, by show (SemLoc.dma cc1_scratch11.sem : SemLoc sig).isScoped .scVector = true; decide⟩)⟩)⟩)⟩)⟩)⟩),
    SparseCore.bigSep_erase' (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), ((mem_ownCells (g := (((V d (cV L) (jV L)), SemLoc.dma cc1_scratch12.sem) : GSem nD τ sig))).mpr ⟨rfl, by show (SemLoc.dma cc1_scratch12.sem : SemLoc sig).isScoped .scVector = true; decide⟩)⟩)⟩)⟩)⟩)⟩)⟩),
    SparseCore.bigSep_erase' (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), ((mem_ownCells (g := (((V d (cV L) (jV L)), SemLoc.dma cc1_scratch13.sem) : GSem nD τ sig))).mpr ⟨rfl, by show (SemLoc.dma cc1_scratch13.sem : SemLoc sig).isScoped .scVector = true; decide⟩)⟩)⟩)⟩)⟩)⟩)⟩)⟩),
    SparseCore.bigSep_erase' (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), ((mem_ownCells (g := (((V d (cV L) (jV L)), SemLoc.dma cc1_scratch14.sem) : GSem nD τ sig))).mpr ⟨rfl, by show (SemLoc.dma cc1_scratch14.sem : SemLoc sig).isScoped .scVector = true; decide⟩)⟩)⟩)⟩)⟩)⟩)⟩)⟩)⟩),
    SparseCore.bigSep_erase' (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), ((mem_ownCells (g := (((V d (cV L) (jV L)), SemLoc.dma cc1_scratch15.sem) : GSem nD τ sig))).mpr ⟨rfl, by show (SemLoc.dma cc1_scratch15.sem : SemLoc sig).isScoped .scVector = true; decide⟩)⟩)⟩)⟩)⟩)⟩)⟩)⟩)⟩)⟩),
    SparseCore.bigSep_erase' (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), ((mem_ownCells (g := (((V d (cV L) (jV L)), SemLoc.dma cc1_scoped0.sem) : GSem nD τ sig))).mpr ⟨rfl, by show (SemLoc.dma cc1_scoped0.sem : SemLoc sig).isScoped .scVector = true; decide⟩)⟩)⟩)⟩)⟩)⟩)⟩)⟩)⟩)⟩)⟩)]

omit [FloatOps F] in
theorem ownBufs_V (d : Dev nD) (L : grid1.Coords) :
    (ownBufs (V d (cV L) (jV L)) : sProp 𝕄)
      = iprop((∃ f, (V d (cV L) (jV L)).loc cc1_scratch0 ↦{fullShare} f)
          ∗ (∃ f, (V d (cV L) (jV L)).loc cc1_scratch1 ↦{fullShare} f)
          ∗ (∃ f, (V d (cV L) (jV L)).loc cc1_scratch2 ↦{fullShare} f)
          ∗ (∃ f, (V d (cV L) (jV L)).loc cc1_scratch3 ↦{fullShare} f)
          ∗ (∃ f, (V d (cV L) (jV L)).loc cc1_scratch4 ↦{fullShare} f)
          ∗ (∃ f, (V d (cV L) (jV L)).loc cc1_scratch5 ↦{fullShare} f)
          ∗ bigSep (((((((ownRefs (τ := τ) (.scVector (cV L) (jV L))).erase ((Proc.scVector (cV L) (jV L)).devRef cc1_scratch0)).erase ((Proc.scVector (cV L) (jV L)).devRef cc1_scratch1)).erase ((Proc.scVector (cV L) (jV L)).devRef cc1_scratch2)).erase ((Proc.scVector (cV L) (jV L)).devRef cc1_scratch3)).erase ((Proc.scVector (cV L) (jV L)).devRef cc1_scratch4)).erase ((Proc.scVector (cV L) (jV L)).devRef cc1_scratch5))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := ((Proc.scVector (cV L) (jV L)).devRef cc1_scratch0)) rfl)).trans ?_
  rw [SparseCore.bigSep_erase' (Finset.mem_erase.mpr ⟨fun e => absurd (Proc.devRef_injective _ e) (show (cc1_scratch1 : Ref sig .scVector) ≠ cc1_scratch0 by decide), (SparseCore.Cfg.mem_ownRefs_of_owner (p := Proc.scVector (cV L) (jV L)) (b := ((Proc.scVector (cV L) (jV L)).devRef cc1_scratch1)) rfl)⟩),
    SparseCore.bigSep_erase' (Finset.mem_erase.mpr ⟨fun e => absurd (Proc.devRef_injective _ e) (show (cc1_scratch2 : Ref sig .scVector) ≠ cc1_scratch1 by decide), (Finset.mem_erase.mpr ⟨fun e => absurd (Proc.devRef_injective _ e) (show (cc1_scratch2 : Ref sig .scVector) ≠ cc1_scratch0 by decide), (SparseCore.Cfg.mem_ownRefs_of_owner (p := Proc.scVector (cV L) (jV L)) (b := ((Proc.scVector (cV L) (jV L)).devRef cc1_scratch2)) rfl)⟩)⟩),
    SparseCore.bigSep_erase' (Finset.mem_erase.mpr ⟨fun e => absurd (Proc.devRef_injective _ e) (show (cc1_scratch3 : Ref sig .scVector) ≠ cc1_scratch2 by decide), (Finset.mem_erase.mpr ⟨fun e => absurd (Proc.devRef_injective _ e) (show (cc1_scratch3 : Ref sig .scVector) ≠ cc1_scratch1 by decide), (Finset.mem_erase.mpr ⟨fun e => absurd (Proc.devRef_injective _ e) (show (cc1_scratch3 : Ref sig .scVector) ≠ cc1_scratch0 by decide), (SparseCore.Cfg.mem_ownRefs_of_owner (p := Proc.scVector (cV L) (jV L)) (b := ((Proc.scVector (cV L) (jV L)).devRef cc1_scratch3)) rfl)⟩)⟩)⟩),
    SparseCore.bigSep_erase' (Finset.mem_erase.mpr ⟨fun e => absurd (Proc.devRef_injective _ e) (show (cc1_scratch4 : Ref sig .scVector) ≠ cc1_scratch3 by decide), (Finset.mem_erase.mpr ⟨fun e => absurd (Proc.devRef_injective _ e) (show (cc1_scratch4 : Ref sig .scVector) ≠ cc1_scratch2 by decide), (Finset.mem_erase.mpr ⟨fun e => absurd (Proc.devRef_injective _ e) (show (cc1_scratch4 : Ref sig .scVector) ≠ cc1_scratch1 by decide), (Finset.mem_erase.mpr ⟨fun e => absurd (Proc.devRef_injective _ e) (show (cc1_scratch4 : Ref sig .scVector) ≠ cc1_scratch0 by decide), (SparseCore.Cfg.mem_ownRefs_of_owner (p := Proc.scVector (cV L) (jV L)) (b := ((Proc.scVector (cV L) (jV L)).devRef cc1_scratch4)) rfl)⟩)⟩)⟩)⟩),
    SparseCore.bigSep_erase' (Finset.mem_erase.mpr ⟨fun e => absurd (Proc.devRef_injective _ e) (show (cc1_scratch5 : Ref sig .scVector) ≠ cc1_scratch4 by decide), (Finset.mem_erase.mpr ⟨fun e => absurd (Proc.devRef_injective _ e) (show (cc1_scratch5 : Ref sig .scVector) ≠ cc1_scratch3 by decide), (Finset.mem_erase.mpr ⟨fun e => absurd (Proc.devRef_injective _ e) (show (cc1_scratch5 : Ref sig .scVector) ≠ cc1_scratch2 by decide), (Finset.mem_erase.mpr ⟨fun e => absurd (Proc.devRef_injective _ e) (show (cc1_scratch5 : Ref sig .scVector) ≠ cc1_scratch1 by decide), (Finset.mem_erase.mpr ⟨fun e => absurd (Proc.devRef_injective _ e) (show (cc1_scratch5 : Ref sig .scVector) ≠ cc1_scratch0 by decide), (SparseCore.Cfg.mem_ownRefs_of_owner (p := Proc.scVector (cV L) (jV L)) (b := ((Proc.scVector (cV L) (jV L)).devRef cc1_scratch5)) rfl)⟩)⟩)⟩)⟩)⟩)]

/-! ## The tile's holdings as the body addresses them -/

omit [FloatOps F] in
theorem pts_outRows (d : Dev nD) (L : grid1.Coords) (f : Buf (Elt F) (v4Loc d)) :
    (outRowsPts d (widL L) f : sProp 𝕄) = v4Loc d ↦[rowsSet (baseL L) (baseL L + 6400)]{fullShare} f := by
  unfold outRowsPts; rw [outRowsSet_eq, baseL_eq]

theorem pts_idsRow (d : Dev nD) (L : grid1.Coords) :
    (((idsRowK L).view.loc (V d (cV L) (jV L)) ↦[(idsRowK L).view.set]{fullShare} IDS m d) : sProp 𝕄) = idsRowPts m d (widL L) := by
  unfold idsRowPts; rw [set_idsRowK]

omit [FloatOps F] in
theorem idx_landed (d : Dev nD) (cc : Fin τ.nSC) (jj : Fin τ.nSub) (f0 w : Buf (Elt F) ((V d cc jj).loc cc1_scratch0)) :
    (((Memref.whole cc1_scratch0).view.loc (V d cc jj) ↦{fullShare} (Memref.whole cc1_scratch0).view.write (Elt F) f0 w Finset.univ) : sProp 𝕄)
      = ((V d cc jj).loc cc1_scratch0 ↦[posSet 0 6400]{fullShare} w) := by
  rw [posSet_all]; simp only [Memref.view_whole, View.write_whole_univ]

/-! ## The loop -/

/-- The state before trip k of the counted loop: the gathers of chunks 5k+2, 5k+3, 5k+4 in flight into buffers 2, 3, 4, each
    delivering its buffer holding the table's rows its index chunk names; the write-outs of chunks 5k, 5k+1 in flight from
    buffers 0, 1, each delivering its rows of the output holding the gathered contents; the index scratch below position
    640k+256 and from 640k+640 on held apart; the tile's output rows below 640k at the gathered contents, and those from
    640k+256 on (not yet written) at any contents, held apart. -/
def inv (d : Dev nD) (L : grid1.Coords) (hin : ∀ (off : Fin 1 → ℕ) (h : ∀ a, off a + S128.size a ≤ S6400.size a) (x : S128.Idx), ((idxK off h).view.read (Elt F) (rowVals m d L) x).toNat < 100000)
    (O : CellTallies nD τ sig (HIx 1)) (W : Waits sig (HIx 1)) (k : Nat) (_ : PUnit) : sProp 𝕄 :=
  iprop(Transfers.MayWaits (V d (cV L) (jV L)) (none : HIx 1) O
    ∗ ((idsRowK L).view.loc (V d (cV L) (jV L)) ↦[(idsRowK L).view.set]{fullShare} IDS m d)
    ∗ (∃ (off : Fin 1 → ℕ) (h : ∀ a, off a + S128.size a ≤ S6400.size a) (cb : Buf (Elt F) ((V d (cV L) (jV L)).loc cc1_scratch3)),
      ⌜off 0 = 640 * k + 256 ∧ ∀ x, (Memref.whole cc1_scratch3).view.read (Elt F) cb x = gpay m d L off h (hin off h) x⌝
      ∗ Transfers.Flight countersEmb (V d (cV L) (jV L)) (SemLoc.dma cc1_scratch8.sem) default 524288
          iprop((((Memref.whole cc1_scratch3).view.loc (V d (cV L) (jV L)) ↦{fullShare} cb)
              ∗ ((idxK off h).view.loc (V d (cV L) (jV L)) ↦[(idxK off h).view.set]{fullShare} rowVals m d L))
            ∗ ((Memref.whole main_v3_scv).view.loc (V d (cV L) (jV L)) ↦[((Memref.whole main_v3_scv : Memref sig .scVector .hbm S100000x128 .f32).slice (Rect.unit (s := S100000x128) ![0, 0] S100000x128.size inb_S100000x128_S100000x128_0_0) (fun _ => rfl)).view.set]{(Transfers.shareTokN (Transfers.shareTok fullShare 32 (widL L)) 8)} NRM m d)))
      ∗ ((Memref.whole main_v3_scv).view.loc (V d (cV L) (jV L)) ↦[Finset.univ \ ((Memref.whole main_v3_scv : Memref sig .scVector .hbm S100000x128 .f32).slice (Rect.unit (s := S100000x128) ![0, 0] S100000x128.size inb_S100000x128_S100000x128_0_0) (fun _ => rfl)).view.set]{(Transfers.shareTokN (Transfers.shareTok fullShare 32 (widL L)) 8)} NRM m d)
    ∗ (∃ (off : Fin 1 → ℕ) (h : ∀ a, off a + S128.size a ≤ S6400.size a) (cb : Buf (Elt F) ((V d (cV L) (jV L)).loc cc1_scratch4)),
      ⌜off 0 = 640 * k + 384 ∧ ∀ x, (Memref.whole cc1_scratch4).view.read (Elt F) cb x = gpay m d L off h (hin off h) x⌝
      ∗ Transfers.Flight countersEmb (V d (cV L) (jV L)) (SemLoc.dma cc1_scratch9.sem) default 524288
          iprop((((Memref.whole cc1_scratch4).view.loc (V d (cV L) (jV L)) ↦{fullShare} cb)
              ∗ ((idxK off h).view.loc (V d (cV L) (jV L)) ↦[(idxK off h).view.set]{fullShare} rowVals m d L))
            ∗ ((Memref.whole main_v3_scv).view.loc (V d (cV L) (jV L)) ↦[((Memref.whole main_v3_scv : Memref sig .scVector .hbm S100000x128 .f32).slice (Rect.unit (s := S100000x128) ![0, 0] S100000x128.size inb_S100000x128_S100000x128_0_0) (fun _ => rfl)).view.set]{(Transfers.shareTokN (Transfers.shareTok fullShare 32 (widL L)) 9)} NRM m d)))
      ∗ ((Memref.whole main_v3_scv).view.loc (V d (cV L) (jV L)) ↦[Finset.univ \ ((Memref.whole main_v3_scv : Memref sig .scVector .hbm S100000x128 .f32).slice (Rect.unit (s := S100000x128) ![0, 0] S100000x128.size inb_S100000x128_S100000x128_0_0) (fun _ => rfl)).view.set]{(Transfers.shareTokN (Transfers.shareTok fullShare 32 (widL L)) 9)} NRM m d)
    ∗ (∃ (off : Fin 1 → ℕ) (h : ∀ a, off a + S128.size a ≤ S6400.size a) (cb : Buf (Elt F) ((V d (cV L) (jV L)).loc cc1_scratch5)),
      ⌜off 0 = 640 * k + 512 ∧ ∀ x, (Memref.whole cc1_scratch5).view.read (Elt F) cb x = gpay m d L off h (hin off h) x⌝
      ∗ Transfers.Flight countersEmb (V d (cV L) (jV L)) (SemLoc.dma cc1_scratch10.sem) default 524288
          iprop((((Memref.whole cc1_scratch5).view.loc (V d (cV L) (jV L)) ↦{fullShare} cb)
              ∗ ((idxK off h).view.loc (V d (cV L) (jV L)) ↦[(idxK off h).view.set]{fullShare} rowVals m d L))
            ∗ ((Memref.whole main_v3_scv).view.loc (V d (cV L) (jV L)) ↦[((Memref.whole main_v3_scv : Memref sig .scVector .hbm S100000x128 .f32).slice (Rect.unit (s := S100000x128) ![0, 0] S100000x128.size inb_S100000x128_S100000x128_0_0) (fun _ => rfl)).view.set]{(Transfers.shareTokN (Transfers.shareTok fullShare 32 (widL L)) 10)} NRM m d)))
      ∗ ((Memref.whole main_v3_scv).view.loc (V d (cV L) (jV L)) ↦[Finset.univ \ ((Memref.whole main_v3_scv : Memref sig .scVector .hbm S100000x128 .f32).slice (Rect.unit (s := S100000x128) ![0, 0] S100000x128.size inb_S100000x128_S100000x128_0_0) (fun _ => rfl)).view.set]{(Transfers.shareTokN (Transfers.shareTok fullShare 32 (widL L)) 10)} NRM m d)
    ∗ (∃ (off : Fin 2 → ℕ) (h : ∀ a, off a + S128x128.size a ≤ S204800x128.size a) (g : Buf (Elt F) (v4Loc d)) (cb : Buf (Elt F) ((V d (cV L) (jV L)).loc cc1_scratch1)),
      ⌜off 0 = baseL L + 640 * k ∧ off 1 = 0 ∧ ∀ i ∈ rowsSet (baseL L + 640 * k) (baseL L + 640 * k + 128), g i = GOUT m d i⌝
      ∗ Transfers.Flight countersEmb (V d (cV L) (jV L)) (SemLoc.dma cc1_scratch11.sem) default 524288
          iprop(((outK off h).view.loc (V d (cV L) (jV L)) ↦[(outK off h).view.set]{fullShare} g)
            ∗ ((Memref.whole cc1_scratch1).view.loc (V d (cV L) (jV L)) ↦[(Memref.whole cc1_scratch1).view.set]{fullShare} cb))
      ∗ ((Memref.whole cc1_scratch1).view.loc (V d (cV L) (jV L)) ↦[Finset.univ \ (Memref.whole cc1_scratch1).view.set]{fullShare} cb))
    ∗ (∃ (off : Fin 2 → ℕ) (h : ∀ a, off a + S128x128.size a ≤ S204800x128.size a) (g : Buf (Elt F) (v4Loc d)) (cb : Buf (Elt F) ((V d (cV L) (jV L)).loc cc1_scratch2)),
      ⌜off 0 = baseL L + 640 * k + 128 ∧ off 1 = 0 ∧ ∀ i ∈ rowsSet (baseL L + 640 * k + 128) (baseL L + 640 * k + 128 + 128), g i = GOUT m d i⌝
      ∗ Transfers.Flight countersEmb (V d (cV L) (jV L)) (SemLoc.dma cc1_scratch12.sem) default 524288
          iprop(((outK off h).view.loc (V d (cV L) (jV L)) ↦[(outK off h).view.set]{fullShare} g)
            ∗ ((Memref.whole cc1_scratch2).view.loc (V d (cV L) (jV L)) ↦[(Memref.whole cc1_scratch2).view.set]{fullShare} cb))
      ∗ ((Memref.whole cc1_scratch2).view.loc (V d (cV L) (jV L)) ↦[Finset.univ \ (Memref.whole cc1_scratch2).view.set]{fullShare} cb))
    ∗ ((Memref.whole main_v3_scv).view.loc (V d (cV L) (jV L)) ↦{(Transfers.shareTokN (Transfers.shareTok fullShare 32 (widL L)) 6)} NRM m d)
    ∗ ((Memref.whole main_v3_scv).view.loc (V d (cV L) (jV L)) ↦{(Transfers.shareTokN (Transfers.shareTok fullShare 32 (widL L)) 7)} NRM m d)
    ∗ ((V d (cV L) (jV L)).loc cc1_scratch0 ↦[posSet 0 (640 * k + 256)]{fullShare} rowVals m d L)
    ∗ ((V d (cV L) (jV L)).loc cc1_scratch0 ↦[posSet (640 * k + 640) 6400]{fullShare} rowVals m d L)
    ∗ (v4Loc d ↦[rowsSet (baseL L) (baseL L + 640 * k)]{fullShare} GOUT m d)
    ∗ (∃ f, v4Loc d ↦[rowsSet (baseL L + 640 * k + 256) (baseL L + 6400)]{fullShare} f)
    ∗ semVal ((V d (cV L) (jV L)), SemLoc.dma cc1_scratch6.sem) 0
    ∗ semVal ((V d (cV L) (jV L)), SemLoc.dma cc1_scratch7.sem) 0
    ∗ semVal ((V d (cV L) (jV L)), SemLoc.dma cc1_scratch13.sem) 0
    ∗ semVal ((V d (cV L) (jV L)), SemLoc.dma cc1_scratch14.sem) 0
    ∗ semVal ((V d (cV L) (jV L)), SemLoc.dma cc1_scratch15.sem) 0
    ∗ semVal ((V d (cV L) (jV L)), SemLoc.dma cc1_scoped0.sem) 0
    ∗ ∃ W', ⌜∀ p ∈ W', p ∈ W ∨ p.2 = none⌝ ∗ owes (V d (cV L) (jV L)) O W')

set_option maxHeartbeats 1600000 in
theorem trip_step (hpre : PreOK m) (d : Dev nD) (L : grid1.Coords) (O : CellTallies nD τ sig (HIx 1)) (W : Waits sig (HIx 1))
    (k : Fin k1_t1_loop.trips) (acc : PUnit) (v2 : BitVec 32) :
    inv m d L (idx_inb m hpre d L) O W k.val acc ⊢ wp frame (wpE (defs₀ (F := F)) 𝒱₀ (V d (cV L) (jV L)) none) Set.univ
      (k1_t1_body L (Memref.whole main_v0_scv) (Memref.isWhole_whole _) (Memref.whole main_v3_scv) (Memref.isWhole_whole _)
                (Memref.whole main_v4_scv) (Memref.isWhole_whole _) (Memref.whole cc1_scratch0) (Memref.isWhole_whole _)
                (Memref.whole cc1_scratch1) (Memref.isWhole_whole _) (Memref.whole cc1_scratch2) (Memref.isWhole_whole _)
                (Memref.whole cc1_scratch3) (Memref.isWhole_whole _) (Memref.whole cc1_scratch4) (Memref.isWhole_whole _)
                (Memref.whole cc1_scratch5) (Memref.isWhole_whole _)
                cc1_scratch6 cc1_scratch7 cc1_scratch8 cc1_scratch9 cc1_scratch10 cc1_scratch11 cc1_scratch12 cc1_scratch13 cc1_scratch14 cc1_scratch15 cc1_scoped0 v2 k acc)
      (inv m d L (idx_inb m hpre d L) O W (k.val + 1)) := by
  have hk : k.val < 9 := Nat.lt_of_lt_of_le k.isLt k1_t1_abs.2.1
  have hin := idx_inb m hpre d L
  unfold inv
  iintro ⟨#Hmw, Hids, ⟨%og8, %hg8, %cg8, %eg8, Hg8⟩, Ht8, ⟨%og9, %hg9, %cg9, %eg9, Hg9⟩, Ht9, ⟨%og10, %hg10, %cg10, %eg10, Hg10⟩, Ht10,
    ⟨%ow11, %hw11, %gw11, %cb11, %ew11, Hw11, Hb1⟩, ⟨%ow12, %hw12, %gw12, %cb12, %ew12, Hw12, Hb2⟩, Ht6, Ht7, Hiu, Hi, Hdone, ⟨%fo, Hout⟩,
    Hs6, Hs7, Hs13, Hs14, Hs15, Hs16, %W', %hW', HO⟩
  unfold k1_t1_body
  sl_exec
  ihave Hc := (out_carve d (cV L) (jV L) (k1_off4 L k 0#32) (k1_off4_inb L k 0) (off4_one L k 0) (lo := baseL L + 640 * k.val + 256) (mid := baseL L + 640 * k.val + 384) (hi := baseL L + 6400) (off4_at L k 0 256 (by decide)) (by omega) (by omega) _) $$ Hout
  icases Hc with ⟨Hoc0, Hout⟩
  sl_exec
  ihave Hc := (idx_carve d (cV L) (jV L) (k1_off6 k 0#32) (k1_off6_inb k 0) (lo := 640 * k.val + 640) (mid := 640 * k.val + 768) (hi := 6400) (off6_at k 0 640 (by decide)) (by omega) (by omega) _) $$ Hi
  icases Hc with ⟨Hic0, Hi⟩
  sl_exec
  ihave Hc := (out_carve d (cV L) (jV L) (k1_off4 L k 1#32) (k1_off4_inb L k 1) (off4_one L k 1) (lo := baseL L + 640 * k.val + 384) (mid := baseL L + 640 * k.val + 512) (hi := baseL L + 6400) (off4_at L k 1 384 (by decide)) (by omega) (by omega) _) $$ Hout
  icases Hc with ⟨Hoc1, Hout⟩
  sl_exec
  ihave Hc := (idx_carve d (cV L) (jV L) (k1_off6 k 1#32) (k1_off6_inb k 1) (lo := 640 * k.val + 768) (mid := 640 * k.val + 896) (hi := 6400) (off6_at k 1 768 (by decide)) (by omega) (by omega) _) $$ Hi
  icases Hc with ⟨Hic1, Hi⟩
  sl_exec
  ihave Hc := (out_carve d (cV L) (jV L) (k1_off4 L k 2#32) (k1_off4_inb L k 2) (off4_one L k 2) (lo := baseL L + 640 * k.val + 512) (mid := baseL L + 640 * k.val + 640) (hi := baseL L + 6400) (off4_at L k 2 512 (by decide)) (by omega) (by omega) _) $$ Hout
  icases Hc with ⟨Hoc2, Hout⟩
  sl_exec
  ihave Hc := (idx_carve d (cV L) (jV L) (k1_off6 k 2#32) (k1_off6_inb k 2) (lo := 640 * k.val + 896) (mid := 640 * k.val + 1024) (hi := 6400) (off6_at k 2 896 (by decide)) (by omega) (by omega) _) $$ Hi
  icases Hc with ⟨Hic2, Hi⟩
  sl_exec
  ihave Hc := (out_carve d (cV L) (jV L) (k1_off4 L k 3#32) (k1_off4_inb L k 3) (off4_one L k 3) (lo := baseL L + 640 * k.val + 640) (mid := baseL L + 640 * k.val + 768) (hi := baseL L + 6400) (off4_at L k 3 640 (by decide)) (by omega) (by omega) _) $$ Hout
  icases Hc with ⟨Hoc3, Hout⟩
  sl_exec
  ihave Hc := (idx_carve d (cV L) (jV L) (k1_off6 k 3#32) (k1_off6_inb k 3) (lo := 640 * k.val + 1024) (mid := 640 * k.val + 1152) (hi := 6400) (off6_at k 3 1024 (by decide)) (by omega) (by omega) _) $$ Hi
  icases Hc with ⟨Hic3, Hi⟩
  sl_exec
  ihave Hc := (out_carve d (cV L) (jV L) (k1_off4 L k 4#32) (k1_off4_inb L k 4) (off4_one L k 4) (lo := baseL L + 640 * k.val + 768) (mid := baseL L + 640 * (k.val + 1) + 256) (hi := baseL L + 6400) (off4_at L k 4 768 (by decide)) (by omega) (by omega) _) $$ Hout
  icases Hc with ⟨Hoc4, Hout⟩
  sl_exec
  ihave Hc := (idx_carve d (cV L) (jV L) (k1_off6 k 4#32) (k1_off6_inb k 4) (lo := 640 * k.val + 1152) (mid := 640 * (k.val + 1) + 640) (hi := 6400) (off6_at k 4 1152 (by decide)) (by omega) (by omega) _) $$ Hi
  icases Hc with ⟨Hic4, Hi⟩
  sl_exec
  sl_step
  ihave Hiu := (idx_merge d (cV L) (jV L) og8 hg8 (lo := 0) (mid := 640 * k.val + 256) (hi := 640 * k.val + 384) eg8.1 (by omega) (by omega) _) $$ [Hiu Hg8_dst_and]
  · isplitl [Hiu] <;> iassumption
  ihave Hiu := (idx_merge d (cV L) (jV L) og9 hg9 (lo := 0) (mid := 640 * k.val + 384) (hi := 640 * k.val + 512) eg9.1 (by omega) (by omega) _) $$ [Hiu Hg9_dst_and]
  · isplitl [Hiu] <;> iassumption
  ihave Hiu := (idx_merge d (cV L) (jV L) og10 hg10 (lo := 0) (mid := 640 * k.val + 512) (hi := 640 * k.val + 640) eg10.1 (by omega) (by omega) _) $$ [Hiu Hg10_dst_and]
  · isplitl [Hiu] <;> iassumption
  ihave Hiu := (idx_merge d (cV L) (jV L) (k1_off6 k 0#32) (k1_off6_inb k 0) (lo := 0) (mid := 640 * k.val + 640) (hi := 640 * k.val + 768) (off6_at k 0 640 (by decide)) (by omega) (by omega) _) $$ [Hiu Hic0]
  · isplitl [Hiu] <;> iassumption
  ihave Hiu := (idx_merge d (cV L) (jV L) (k1_off6 k 1#32) (k1_off6_inb k 1) (lo := 0) (mid := 640 * k.val + 768) (hi := 640 * (k.val + 1) + 256) (off6_at k 1 768 (by decide)) (by omega) (by omega) _) $$ [Hiu Hic1]
  · isplitl [Hiu] <;> iassumption
  isplitr; · iexact Hmw
  isplitl [Hids]; · iexact Hids
  isplitl [Hg8]
  · iexists (k1_off6 k 2#32), (k1_off6_inb k 2), _; isplitr
    pick_goal 2
    · iexact Hg8
    · ipureintro
      exact ⟨(off6_at k 2 896 (by decide)).trans (by omega), fun x => congrFun (whole_read_writes d (cV L) (jV L) cc1_scratch3 _ _) x⟩
  isplitl [Ht8]; · iexact Ht8
  isplitl [Hg9]
  · iexists (k1_off6 k 3#32), (k1_off6_inb k 3), _; isplitr
    pick_goal 2
    · iexact Hg9
    · ipureintro
      exact ⟨(off6_at k 3 1024 (by decide)).trans (by omega), fun x => congrFun (whole_read_writes d (cV L) (jV L) cc1_scratch4 _ _) x⟩
  isplitl [Ht9]; · iexact Ht9
  isplitl [Hg10]
  · iexists (k1_off6 k 4#32), (k1_off6_inb k 4), _; isplitr
    pick_goal 2
    · iexact Hg10
    · ipureintro
      exact ⟨(off6_at k 4 1152 (by decide)).trans (by omega), fun x => congrFun (whole_read_writes d (cV L) (jV L) cc1_scratch5 _ _) x⟩
  isplitl [Ht10]; · iexact Ht10
  isplitl [Hw11 Hb1]
  · iexists (k1_off4 L k 3#32), (k1_off4_inb L k 3), _, _; isplitr
    pick_goal 2
    · isplitl [Hw11]
      · iexact Hw11
      · iexact Hb1
    · ipureintro
      have e0 := (off4_at L k 3 640 (by decide)).trans (show baseL L + 640 * k.val + 640 = baseL L + 640 * (k.val + 1) by omega)
      refine ⟨e0, off4_one L k 3, ?_⟩
      intro i hi
      rw [← e0] at hi
      exact chunk_value m hpre d L _ _ (k1_off6 k 0#32) (k1_off6_inb k 0) ((off4_at L k 3 640 (by decide)).trans (by have e6 : k1_off6 k 0#32 0 = 640 * k.val + 640 := off6_at k 0 640 (by decide); omega)) (off4_one L k 3) (hin _ _) _ _
        (fun x => congrFun (whole_read_writes d (cV L) (jV L) cc1_scratch1 _ _) x) i hi
  isplitl [Hw12 Hb2]
  · iexists (k1_off4 L k 4#32), (k1_off4_inb L k 4), _, _; isplitr
    pick_goal 2
    · isplitl [Hw12]
      · iexact Hw12
      · iexact Hb2
    · ipureintro
      have e0 := (off4_at L k 4 768 (by decide)).trans (show baseL L + 640 * k.val + 768 = baseL L + 640 * (k.val + 1) + 128 by omega)
      refine ⟨e0, off4_one L k 4, ?_⟩
      intro i hi
      rw [← e0] at hi
      exact chunk_value m hpre d L _ _ (k1_off6 k 1#32) (k1_off6_inb k 1) ((off4_at L k 4 768 (by decide)).trans (by have e6 : k1_off6 k 1#32 0 = 640 * k.val + 768 := off6_at k 1 768 (by decide); omega)) (off4_one L k 4) (hin _ _) _ _
        (fun x => congrFun (whole_read_writes d (cV L) (jV L) cc1_scratch2 _ _) x) i hi
  isplitl [Ht6]; · iexact Ht6
  isplitl [Ht7]; · iexact Ht7
  isplitl [Hiu]; · iexact Hiu
  isplitl [Hi]; · iexact Hi
  isplitl [Hdone Hw11_dst Hw12_dst Hoc0 Hoc1 Hoc2]
  · iapply (out_merge_at d (cV L) (jV L) (k1_off4 L k 2#32) (k1_off4_inb L k 2) (off4_one L k 2) (lo := baseL L) (mid := baseL L + 640 * k.val + 512) (hi := baseL L + 640 * (k.val + 1)) (off4_at L k 2 512 (by decide)) (by omega) (by omega) (GOUT m d) _ (chunk_value m hpre d L (k1_off4 L k 2#32) (k1_off4_inb L k 2) og10 hg10 ((off4_at L k 2 512 (by decide)).trans (by rw [eg10.1]; omega)) (off4_one L k 2) (hin og10 hg10) _ _ (fun x => eg10.2 x)))
    isplitl [Hdone Hw11_dst Hw12_dst Hoc0 Hoc1]
    · iapply (out_merge_at d (cV L) (jV L) (k1_off4 L k 1#32) (k1_off4_inb L k 1) (off4_one L k 1) (lo := baseL L) (mid := baseL L + 640 * k.val + 384) (hi := baseL L + 640 * k.val + 512) (off4_at L k 1 384 (by decide)) (by omega) (by omega) (GOUT m d) _ (chunk_value m hpre d L (k1_off4 L k 1#32) (k1_off4_inb L k 1) og9 hg9 ((off4_at L k 1 384 (by decide)).trans (by rw [eg9.1]; omega)) (off4_one L k 1) (hin og9 hg9) _ _ (fun x => eg9.2 x)))
      isplitl [Hdone Hw11_dst Hw12_dst Hoc0]
      · iapply (out_merge_at d (cV L) (jV L) (k1_off4 L k 0#32) (k1_off4_inb L k 0) (off4_one L k 0) (lo := baseL L) (mid := baseL L + 640 * k.val + 256) (hi := baseL L + 640 * k.val + 384) (off4_at L k 0 256 (by decide)) (by omega) (by omega) (GOUT m d) _ (chunk_value m hpre d L (k1_off4 L k 0#32) (k1_off4_inb L k 0) og8 hg8 ((off4_at L k 0 256 (by decide)).trans (by rw [eg8.1]; omega)) (off4_one L k 0) (hin og8 hg8) _ _ (fun x => eg8.2 x)))
        isplitl [Hdone Hw11_dst Hw12_dst]
        · iapply (out_merge_at d (cV L) (jV L) ow12 hw12 ew12.2.1 (lo := baseL L) (mid := baseL L + 640 * k.val + 128) (hi := baseL L + 640 * k.val + 256) ew12.1 (by omega) (by omega) (GOUT m d) _ (by rw [ew12.1]; exact ew12.2.2))
          isplitl [Hdone Hw11_dst]
          · iapply (out_merge_at d (cV L) (jV L) ow11 hw11 ew11.2.1 (lo := baseL L) (mid := baseL L + 640 * k.val) (hi := baseL L + 640 * k.val + 128) ew11.1 (by omega) (by omega) (GOUT m d) _ (by rw [ew11.1]; exact ew11.2.2))
            isplitl [Hdone]
            · iexact Hdone
            · iexact Hw11_dst
          · iexact Hw12_dst
        · iexact Hoc0
      · iexact Hoc1
    · iexact Hoc2
  isplitl [Hout]; · iexists _; iexact Hout
  isplitl [Hs6]; · iexact Hs6
  isplitl [Hs7]; · iexact Hs7
  isplitl [Hs13]; · iexact Hs13
  isplitl [Hs14]; · iexact Hs14
  isplitl [Hs15]; · iexact Hs15
  isplitl [Hs16]; · iexact Hs16
  iexists _; isplitr
  pick_goal 2
  · iexact HO
  · ipureintro
    repeat (refine ins_ok ?_ rfl)
    exact hW'

/-! ## The body on its resources singled out -/

set_option maxHeartbeats 3200000 in
theorem tile_core (hpre : PreOK m) (d : Dev nD) (L : grid1.Coords)
    (O : CellTallies nD τ sig (HIx 1)) (W : Waits sig (HIx 1))
    (f0 : Buf (Elt F) ((Memref.whole cc1_scratch0).view.loc (V d (cV L) (jV L)))) (f1 : Buf (Elt F) ((Memref.whole cc1_scratch1).view.loc (V d (cV L) (jV L))))
    (f2 : Buf (Elt F) ((Memref.whole cc1_scratch2).view.loc (V d (cV L) (jV L)))) (f3 : Buf (Elt F) ((Memref.whole cc1_scratch3).view.loc (V d (cV L) (jV L))))
    (f4 : Buf (Elt F) ((Memref.whole cc1_scratch4).view.loc (V d (cV L) (jV L)))) (f5 : Buf (Elt F) ((Memref.whole cc1_scratch5).view.loc (V d (cV L) (jV L))))
    (fo : Buf (Elt F) (v4Loc d)) :
    (iprop(Transfers.MayWaits (V d (cV L) (jV L)) (none : HIx 1) O
      ∗ ((idsRowK L).view.loc (V d (cV L) (jV L)) ↦[(idsRowK L).view.set]{fullShare} IDS m d)
      ∗ ((Memref.whole main_v3_scv).view.loc (V d (cV L) (jV L)) ↦{Transfers.shareTokN (Transfers.shareTok fullShare 32 (widL L)) 6} NRM m d)
      ∗ ((Memref.whole main_v3_scv).view.loc (V d (cV L) (jV L)) ↦{Transfers.shareTokN (Transfers.shareTok fullShare 32 (widL L)) 7} NRM m d)
      ∗ ((Memref.whole main_v3_scv).view.loc (V d (cV L) (jV L)) ↦{Transfers.shareTokN (Transfers.shareTok fullShare 32 (widL L)) 8} NRM m d)
      ∗ ((Memref.whole main_v3_scv).view.loc (V d (cV L) (jV L)) ↦{Transfers.shareTokN (Transfers.shareTok fullShare 32 (widL L)) 9} NRM m d)
      ∗ ((Memref.whole main_v3_scv).view.loc (V d (cV L) (jV L)) ↦{Transfers.shareTokN (Transfers.shareTok fullShare 32 (widL L)) 10} NRM m d)
      ∗ (v4Loc d ↦[rowsSet (baseL L) (baseL L + 6400)]{fullShare} fo)
      ∗ ((Memref.whole cc1_scratch0).view.loc (V d (cV L) (jV L)) ↦{fullShare} f0)
      ∗ ((Memref.whole cc1_scratch1).view.loc (V d (cV L) (jV L)) ↦{fullShare} f1)
      ∗ ((Memref.whole cc1_scratch2).view.loc (V d (cV L) (jV L)) ↦{fullShare} f2)
      ∗ ((Memref.whole cc1_scratch3).view.loc (V d (cV L) (jV L)) ↦{fullShare} f3)
      ∗ ((Memref.whole cc1_scratch4).view.loc (V d (cV L) (jV L)) ↦{fullShare} f4)
      ∗ ((Memref.whole cc1_scratch5).view.loc (V d (cV L) (jV L)) ↦{fullShare} f5)
      ∗ semVal ((V d (cV L) (jV L)), SemLoc.dma cc1_scratch6.sem) 0
      ∗ semVal ((V d (cV L) (jV L)), SemLoc.dma cc1_scratch7.sem) 0
      ∗ semVal ((V d (cV L) (jV L)), SemLoc.dma cc1_scratch8.sem) 0
      ∗ semVal ((V d (cV L) (jV L)), SemLoc.dma cc1_scratch9.sem) 0
      ∗ semVal ((V d (cV L) (jV L)), SemLoc.dma cc1_scratch10.sem) 0
      ∗ semVal ((V d (cV L) (jV L)), SemLoc.dma cc1_scratch11.sem) 0
      ∗ semVal ((V d (cV L) (jV L)), SemLoc.dma cc1_scratch12.sem) 0
      ∗ semVal ((V d (cV L) (jV L)), SemLoc.dma cc1_scratch13.sem) 0
      ∗ semVal ((V d (cV L) (jV L)), SemLoc.dma cc1_scratch14.sem) 0
      ∗ semVal ((V d (cV L) (jV L)), SemLoc.dma cc1_scratch15.sem) 0
      ∗ semVal ((V d (cV L) (jV L)), SemLoc.dma cc1_scoped0.sem) 0
      ∗ owes (V d (cV L) (jV L)) O W) : sProp 𝕄)
      ⊢ wp frame (wpE (defs₀ (F := F)) 𝒱₀ (V d (cV L) (jV L)) none) Set.univ
          (cc1__sc_gather_body L (Memref.whole main_v0_scv) (Memref.isWhole_whole _) (Memref.whole main_v3_scv) (Memref.isWhole_whole _)
                (Memref.whole main_v4_scv) (Memref.isWhole_whole _) (Memref.whole cc1_scratch0) (Memref.isWhole_whole _)
                (Memref.whole cc1_scratch1) (Memref.isWhole_whole _) (Memref.whole cc1_scratch2) (Memref.isWhole_whole _)
                (Memref.whole cc1_scratch3) (Memref.isWhole_whole _) (Memref.whole cc1_scratch4) (Memref.isWhole_whole _)
                (Memref.whole cc1_scratch5) (Memref.isWhole_whole _)
                cc1_scratch6 cc1_scratch7 cc1_scratch8 cc1_scratch9 cc1_scratch10 cc1_scratch11 cc1_scratch12 cc1_scratch13 cc1_scratch14 cc1_scratch15 cc1_scoped0)
          fun _ => iprop(((idsRowK L).view.loc (V d (cV L) (jV L)) ↦[(idsRowK L).view.set]{fullShare} IDS m d)
            ∗ ((Memref.whole main_v3_scv).view.loc (V d (cV L) (jV L)) ↦{Transfers.shareTokN (Transfers.shareTok fullShare 32 (widL L)) 6} NRM m d)
            ∗ ((Memref.whole main_v3_scv).view.loc (V d (cV L) (jV L)) ↦{Transfers.shareTokN (Transfers.shareTok fullShare 32 (widL L)) 7} NRM m d)
            ∗ ((Memref.whole main_v3_scv).view.loc (V d (cV L) (jV L)) ↦{Transfers.shareTokN (Transfers.shareTok fullShare 32 (widL L)) 8} NRM m d)
            ∗ ((Memref.whole main_v3_scv).view.loc (V d (cV L) (jV L)) ↦{Transfers.shareTokN (Transfers.shareTok fullShare 32 (widL L)) 9} NRM m d)
            ∗ ((Memref.whole main_v3_scv).view.loc (V d (cV L) (jV L)) ↦{Transfers.shareTokN (Transfers.shareTok fullShare 32 (widL L)) 10} NRM m d)
            ∗ (v4Loc d ↦[rowsSet (baseL L) (baseL L + 6400)]{fullShare} GOUT m d)
            ∗ (∃ f, (Memref.whole cc1_scratch0).view.loc (V d (cV L) (jV L)) ↦{fullShare} f)
            ∗ (∃ f, (Memref.whole cc1_scratch1).view.loc (V d (cV L) (jV L)) ↦{fullShare} f)
            ∗ (∃ f, (Memref.whole cc1_scratch2).view.loc (V d (cV L) (jV L)) ↦{fullShare} f)
            ∗ (∃ f, (Memref.whole cc1_scratch3).view.loc (V d (cV L) (jV L)) ↦{fullShare} f)
            ∗ (∃ f, (Memref.whole cc1_scratch4).view.loc (V d (cV L) (jV L)) ↦{fullShare} f)
            ∗ (∃ f, (Memref.whole cc1_scratch5).view.loc (V d (cV L) (jV L)) ↦{fullShare} f)
            ∗ semVal ((V d (cV L) (jV L)), SemLoc.dma cc1_scratch6.sem) 0
            ∗ semVal ((V d (cV L) (jV L)), SemLoc.dma cc1_scratch7.sem) 0
            ∗ semVal ((V d (cV L) (jV L)), SemLoc.dma cc1_scratch8.sem) 0
            ∗ semVal ((V d (cV L) (jV L)), SemLoc.dma cc1_scratch9.sem) 0
            ∗ semVal ((V d (cV L) (jV L)), SemLoc.dma cc1_scratch10.sem) 0
            ∗ semVal ((V d (cV L) (jV L)), SemLoc.dma cc1_scratch11.sem) 0
            ∗ semVal ((V d (cV L) (jV L)), SemLoc.dma cc1_scratch12.sem) 0
            ∗ semVal ((V d (cV L) (jV L)), SemLoc.dma cc1_scratch13.sem) 0
            ∗ semVal ((V d (cV L) (jV L)), SemLoc.dma cc1_scratch14.sem) 0
            ∗ semVal ((V d (cV L) (jV L)), SemLoc.dma cc1_scratch15.sem) 0
            ∗ semVal ((V d (cV L) (jV L)), SemLoc.dma cc1_scoped0.sem) 0
            ∗ ∃ W', ⌜∀ p ∈ W', p ∈ W ∨ p.2 = none⌝ ∗ owes (V d (cV L) (jV L)) O W') := by
  rw [cc1__sc_gather_body_eq_skeleton]; unfold cc1__sc_gather_body_skel
  iintro ⟨#Hmw, Hids, Ht6, Ht7, Ht8, Ht9, Ht10, Hout, Hb0, Hb1, Hb2, Hb3, Hb4, Hb5, Hs6, Hs7, Hs8, Hs9, Hs10, Hs11, Hs12, Hs13, Hs14, Hs15, Hs16, HO⟩
  sl_exec
  ihave Hi := (Entails.of_eq (idx_landed d (cV L) (jV L) f0 _)) $$ Hb0
  ihave Hc := (idx_carve d (cV L) (jV L) ![0] inb_S6400_S128_0 (lo := 0) (mid := 128) (hi := 6400) rfl rfl (by omega) _) $$ Hi
  icases Hc with ⟨Hi0, Hi⟩
  ihave Hc := (idx_carve d (cV L) (jV L) ![128] inb_S6400_S128_128 (lo := 128) (mid := 256) (hi := 6400) rfl rfl (by omega) _) $$ Hi
  icases Hc with ⟨Hi1, Hi⟩
  ihave Hc := (idx_carve d (cV L) (jV L) ![256] inb_S6400_S128_256 (lo := 256) (mid := 384) (hi := 6400) rfl rfl (by omega) _) $$ Hi
  icases Hc with ⟨Hi2, Hi⟩
  have hin := idx_inb m hpre d L
  sl_exec
  ihave Hc := (out_carve d (cV L) (jV L) (k1_off2 L 0#32) (k1_off2_inb L 0) (off2_one L 0) (lo := baseL L) (mid := baseL L + 128) (hi := baseL L + 6400) (off2_zero L 0) rfl (by omega) _) $$ Hout
  icases Hc with ⟨Ho0, Hout⟩
  sl_exec
  ihave Hc := (idx_carve d (cV L) (jV L) ![384] inb_S6400_S128_384 (lo := 384) (mid := 512) (hi := 6400) rfl rfl (by omega) _) $$ Hi
  icases Hc with ⟨Hi3, Hi⟩
  sl_exec
  ihave Hc := (out_carve d (cV L) (jV L) (k1_off2 L 128#32) (k1_off2_inb L 1) (off2_one L 1) (lo := baseL L + 128) (mid := baseL L + 640 * 0 + 256) (hi := baseL L + 6400) (off2_zero L 1) rfl (by omega) _) $$ Hout
  icases Hc with ⟨Ho1, Hout⟩
  sl_exec
  ihave Hc := (idx_carve d (cV L) (jV L) ![512] inb_S6400_S128_512 (lo := 512) (mid := 640 * 0 + 640) (hi := 6400) rfl rfl (by omega) _) $$ Hi
  icases Hc with ⟨Hi4, Hi⟩
  sl_exec
  ihave Hiu := (Entails.of_eq (pts_idxK d (cV L) (jV L) ![0] inb_S6400_S128_0 (lo := 0) (hi := 128) rfl rfl _)) $$ Hi0
  ihave Hiu := (idx_merge d (cV L) (jV L) ![128] inb_S6400_S128_128 (lo := 0) (mid := 128) (hi := 640 * 0 + 256) rfl (by omega) (by omega) _) $$ [Hiu Hi1]
  · isplitl [Hiu] <;> iassumption
  sl_for (inv m d L hin O W) $$ [Hids Hs8 Ht8 Hs9 Ht9 Hs10 Ht10 Hs11 Hb1 Hs12 Hb2 Ht6 Ht7 Hiu Hi Hout Hs6 Hs7 Hs13 Hs14 Hs15 Hs16 HO]
  case region =>
    intro k acc
    exact trip_step m hpre d L O W k acc _
  · unfold inv
    isplitr; · iexact Hmw
    isplitl [Hids]; · iexact Hids
    isplitl [Hs8]
    · iexists ![256], inb_S6400_S128_256, _; isplitr
      pick_goal 2
      · iexact Hs8
      · ipureintro
        exact ⟨rfl, fun x => congrFun (whole_read_writes d (cV L) (jV L) cc1_scratch3 _ _) x⟩
    isplitl [Ht8]; · iexact Ht8
    isplitl [Hs9]
    · iexists ![384], inb_S6400_S128_384, _; isplitr
      pick_goal 2
      · iexact Hs9
      · ipureintro
        exact ⟨rfl, fun x => congrFun (whole_read_writes d (cV L) (jV L) cc1_scratch4 _ _) x⟩
    isplitl [Ht9]; · iexact Ht9
    isplitl [Hs10]
    · iexists ![512], inb_S6400_S128_512, _; isplitr
      pick_goal 2
      · iexact Hs10
      · ipureintro
        exact ⟨rfl, fun x => congrFun (whole_read_writes d (cV L) (jV L) cc1_scratch5 _ _) x⟩
    isplitl [Ht10]; · iexact Ht10
    isplitl [Hs11 Hb1]
    · iexists (k1_off2 L 0#32), (k1_off2_inb L 0), _, _; isplitr
      pick_goal 2
      · isplitl [Hs11]
        · iexact Hs11
        · iexact Hb1
      · ipureintro
        have e0 : k1_off2 L 0#32 0 = baseL L + 640 * 0 := (off2_at L 0 0 (by decide)).trans (by omega)
        refine ⟨e0, off2_one L 0, ?_⟩
        intro i hi
        rw [← e0] at hi
        exact chunk_value m hpre d L _ _ ![0] inb_S6400_S128_0 (off2_at L 0 0 (by decide)) (off2_one L 0) (hin _ _) _ _
          (fun x => congrFun (whole_read_writes d (cV L) (jV L) cc1_scratch1 _ _) x) i hi
    isplitl [Hs12 Hb2]
    · iexists (k1_off2 L 128#32), (k1_off2_inb L 1), _, _; isplitr
      pick_goal 2
      · isplitl [Hs12]
        · iexact Hs12
        · iexact Hb2
      · ipureintro
        have e0 : k1_off2 L 128#32 0 = baseL L + 640 * 0 + 128 := (off2_at L 1 128 (by decide)).trans (by omega)
        refine ⟨e0, off2_one L 1, ?_⟩
        intro i hi
        rw [← e0] at hi
        exact chunk_value m hpre d L _ _ ![128] inb_S6400_S128_128 (off2_at L 1 128 (by decide)) (off2_one L 1) (hin _ _) _ _
          (fun x => congrFun (whole_read_writes d (cV L) (jV L) cc1_scratch2 _ _) x) i hi
    isplitl [Ht6]; · iexact Ht6
    isplitl [Ht7]; · iexact Ht7
    isplitl [Hiu]; · iexact Hiu
    isplitl [Hi]; · iexact Hi
    isplitr
    · rw [rows_none_eq d (baseL L) (baseL L + 640 * 0) (by omega) fullShare (GOUT m d)]; iempintro
    isplitl [Hout]; · iexists _; iexact Hout
    isplitl [Hs6]; · iexact Hs6
    isplitl [Hs7]; · iexact Hs7
    isplitl [Hs13]; · iexact Hs13
    isplitl [Hs14]; · iexact Hs14
    isplitl [Hs15]; · iexact Hs15
    isplitl [Hs16]; · iexact Hs16
    iexists _; isplitr
    pick_goal 2
    · iexact HO
    · ipureintro
      repeat (refine ins_ok ?_ rfl)
      exact fun p hp => .inl hp
  iintro %_ HI
  unfold inv
  have ht : Scf.trips k1_t1_loop.lb k1_t1_loop.ub k1_t1_loop.st = 9 := by decide
  rw [ht]
  icases HI with ⟨-, Hids, ⟨%og8, %hg8, %cg8, %eg8, Hg8⟩, Ht8, ⟨%og9, %hg9, %cg9, %eg9, Hg9⟩, Ht9, ⟨%og10, %hg10, %cg10, %eg10, Hg10⟩, Ht10,
    ⟨%ow11, %hw11, %gw11, %cb11, %ew11, Hw11, Hb1⟩, ⟨%ow12, %hw12, %gw12, %cb12, %ew12, Hw12, Hb2⟩, Ht6, Ht7, Hiu, Hi, Hdone, ⟨%fo', Hout⟩,
    Hs6, Hs7, Hs13, Hs14, Hs15, Hs16, %W', %hW', HO⟩
  sl_exec
  ihave Hc := (out_carve d (cV L) (jV L) (k1_off2 L 6016#32) (k1_off2_inb L 2) (off2_one L 2) (lo := baseL L + 640 * 9 + 256) (mid := baseL L + 6144) (hi := baseL L + 6400) ((off2_at L 2 6016 (by decide)).trans (by omega)) (by omega) (by omega) _) $$ Hout
  icases Hc with ⟨He2, Hout⟩
  sl_exec
  ihave Hc := (out_carve d (cV L) (jV L) (k1_off2 L 6144#32) (k1_off2_inb L 3) (off2_one L 3) (lo := baseL L + 6144) (mid := baseL L + 6272) (hi := baseL L + 6400) ((off2_at L 3 6144 (by decide)).trans (by omega)) (by omega) (by omega) _) $$ Hout
  icases Hc with ⟨He3, Hout⟩
  sl_exec
  ihave Hc := (out_carve d (cV L) (jV L) (k1_off2 L 6272#32) (k1_off2_inb L 4) (off2_one L 4) (lo := baseL L + 6272) (mid := baseL L + 6400) (hi := baseL L + 6400) ((off2_at L 4 6272 (by decide)).trans (by omega)) (by omega) (by omega) _) $$ Hout
  icases Hc with ⟨He4, Hout⟩
  sl_exec
  sl_step
  ihave Hiu := (idx_merge d (cV L) (jV L) og8 hg8 (lo := 0) (mid := 640 * 9 + 256) (hi := 640 * 9 + 384) eg8.1 (by omega) (by omega) _) $$ [Hiu Hg8_dst_and]
  · isplitl [Hiu] <;> iassumption
  ihave Hiu := (idx_merge d (cV L) (jV L) og9 hg9 (lo := 0) (mid := 640 * 9 + 384) (hi := 640 * 9 + 512) eg9.1 (by omega) (by omega) _) $$ [Hiu Hg9_dst_and]
  · isplitl [Hiu] <;> iassumption
  ihave Hiu := (idx_merge d (cV L) (jV L) og10 hg10 (lo := 0) (mid := 640 * 9 + 512) (hi := 6400) eg10.1 (by omega) (by omega) _) $$ [Hiu Hg10_dst_and]
  · isplitl [Hiu] <;> iassumption
  ihave Hb0 := (Entails.of_eq (idx_all d (cV L) (jV L) _)) $$ Hiu
  iclear Hi
  isplitl [Hids]; · iexact Hids
  isplitl [Ht6]; · iexact Ht6
  isplitl [Ht7]; · iexact Ht7
  isplitl [Ht8]; · iexact Ht8
  isplitl [Ht9]; · iexact Ht9
  isplitl [Ht10]; · iexact Ht10
  isplitl [Hdone Hw11_dst Hw12_dst He2 He3 He4]
  · iapply (out_merge_at d (cV L) (jV L) (k1_off2 L 6272#32) (k1_off2_inb L 4) (off2_one L 4) (lo := baseL L) (mid := baseL L + 6272) (hi := baseL L + 6400) (off2_at L 4 6272 (by decide)) (by omega) (by omega) (GOUT m d) _ (chunk_value m hpre d L (k1_off2 L 6272#32) (k1_off2_inb L 4) og10 hg10 ((off2_at L 4 6272 (by decide)).trans (by rw [eg10.1])) (off2_one L 4) (hin og10 hg10) _ _ (fun x => eg10.2 x)))
    isplitl [Hdone Hw11_dst Hw12_dst He2 He3]
    · iapply (out_merge_at d (cV L) (jV L) (k1_off2 L 6144#32) (k1_off2_inb L 3) (off2_one L 3) (lo := baseL L) (mid := baseL L + 6144) (hi := baseL L + 6272) (off2_at L 3 6144 (by decide)) (by omega) (by omega) (GOUT m d) _ (chunk_value m hpre d L (k1_off2 L 6144#32) (k1_off2_inb L 3) og9 hg9 ((off2_at L 3 6144 (by decide)).trans (by rw [eg9.1])) (off2_one L 3) (hin og9 hg9) _ _ (fun x => eg9.2 x)))
      isplitl [Hdone Hw11_dst Hw12_dst He2]
      · iapply (out_merge_at d (cV L) (jV L) (k1_off2 L 6016#32) (k1_off2_inb L 2) (off2_one L 2) (lo := baseL L) (mid := baseL L + 640 * 9 + 256) (hi := baseL L + 6144) ((off2_at L 2 6016 (by decide)).trans (by omega)) (by omega) (by omega) (GOUT m d) _ (chunk_value m hpre d L (k1_off2 L 6016#32) (k1_off2_inb L 2) og8 hg8 ((off2_at L 2 6016 (by decide)).trans (by rw [eg8.1])) (off2_one L 2) (hin og8 hg8) _ _ (fun x => eg8.2 x)))
        isplitl [Hdone Hw11_dst Hw12_dst]
        · iapply (out_merge_at d (cV L) (jV L) ow12 hw12 ew12.2.1 (lo := baseL L) (mid := baseL L + 640 * 9 + 128) (hi := baseL L + 640 * 9 + 256) ew12.1 (by omega) (by omega) (GOUT m d) _ (by rw [ew12.1]; exact ew12.2.2))
          isplitl [Hdone Hw11_dst]
          · iapply (out_merge_at d (cV L) (jV L) ow11 hw11 ew11.2.1 (lo := baseL L) (mid := baseL L + 640 * 9) (hi := baseL L + 640 * 9 + 128) ew11.1 (by omega) (by omega) (GOUT m d) _ (by rw [ew11.1]; exact ew11.2.2))
            isplitl [Hdone]
            · iexact Hdone
            · iexact Hw11_dst
          · iexact Hw12_dst
        · iexact He2
      · iexact He3
    · iexact He4
  isplitl [Hb0]; · iexists _; iexact Hb0
  isplitl [Hb1]; · iexists _; iexact Hb1
  isplitl [Hb2]; · iexists _; iexact Hb2
  isplitl [Hg8_dst]; · iexists _; iexact Hg8_dst
  isplitl [Hg9_dst]; · iexists _; iexact Hg9_dst
  isplitl [Hg10_dst]; · iexists _; iexact Hg10_dst
  isplitl [Hs6]; · iexact Hs6
  isplitl [Hs7]; · iexact Hs7
  isplitl [Hg8]; · iexact Hg8
  isplitl [Hg9]; · iexact Hg9
  isplitl [Hg10]; · iexact Hg10
  isplitl [Hw11]; · iexact Hw11
  isplitl [Hw12]; · iexact Hw12
  isplitl [Hs13]; · iexact Hs13
  isplitl [Hs14]; · iexact Hs14
  isplitl [Hs15]; · iexact Hs15
  isplitl [Hs16]; · iexact Hs16
  iexists _; isplitr
  pick_goal 2
  · iexact HO
  · ipureintro
    repeat (refine ins_ok ?_ rfl)
    exact hW'

/-! ## The body as the launch hands it over -/

theorem tile_body (hF : (K (F := F)).Facts) (hpre : PreOK m) (d : Dev nD) (L : grid1.Coords)
    (O : CellTallies nD τ sig (HIx 1)) (W : Waits sig (HIx 1)) (hO : ∀ g, O g none = 0) :
    iprop(levAts (K (F := F)).L (K (F := F)).lev ∗ emp ∗ goW m d (widL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_gather_body L (Memref.whole main_v0_scv) (Memref.isWhole_whole _) (Memref.whole main_v3_scv) (Memref.isWhole_whole _)
                (Memref.whole main_v4_scv) (Memref.isWhole_whole _) (Memref.whole cc1_scratch0) (Memref.isWhole_whole _)
                (Memref.whole cc1_scratch1) (Memref.isWhole_whole _) (Memref.whole cc1_scratch2) (Memref.isWhole_whole _)
                (Memref.whole cc1_scratch3) (Memref.isWhole_whole _) (Memref.whole cc1_scratch4) (Memref.isWhole_whole _)
                (Memref.whole cc1_scratch5) (Memref.isWhole_whole _)
                cc1_scratch6 cc1_scratch7 cc1_scratch8 cc1_scratch9 cc1_scratch10 cc1_scratch11 cc1_scratch12 cc1_scratch13 cc1_scratch14 cc1_scratch15 cc1_scoped0)
          fun _ => iprop(tdW m d (widL L) ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  unfold goW tdW
  iintro ⟨#Hlv, -, ⟨Hids, Hnrm, %fo, Hout⟩, ⟨⟨%f0, Hb0⟩, ⟨%f1, Hb1⟩, ⟨%f2, Hb2⟩, ⟨%f3, Hb3⟩, ⟨%f4, Hb4⟩, ⟨%f5, Hb5⟩, Hbufs⟩,
    ⟨Hs6, Hs7, Hs8, Hs9, Hs10, Hs11, Hs12, Hs13, Hs14, Hs15, Hs16, Hsems⟩, HO⟩
  ihave Hmw := ((K (F := F)).mayWaits_none (thr := (V d (cV L) (jV L))) hO) $$ Hlv
  ihave Hids := (Entails.of_eq (pts_idsRow m d L).symm) $$ Hids
  ihave Hn := (nrm_toks (NRM m d) _).1 $$ Hnrm
  icases Hn with ⟨Hdrop, Ht6, Ht7, Ht8, Ht9, Ht10, Htoks⟩
  ihave Hout := (Entails.of_eq (pts_outRows d L fo)) $$ Hout
  iapply (wp_wand_r frame (wpE (defs₀ (F := F)) 𝒱₀ (V d (cV L) (jV L)) none) Set.univ)
  isplitl [Hids Ht6 Ht7 Ht8 Ht9 Ht10 Hout Hb0 Hb1 Hb2 Hb3 Hb4 Hb5 Hs6 Hs7 Hs8 Hs9 Hs10 Hs11 Hs12 Hs13 Hs14 Hs15 Hs16 HO]
  · iapply (tile_core m hpre d L O W f0 f1 f2 f3 f4 f5 fo)
    isplitr; · iexact Hmw
    isplitl [Hids]; · iexact Hids
    isplitl [Ht6]; · iexact Ht6
    isplitl [Ht7]; · iexact Ht7
    isplitl [Ht8]; · iexact Ht8
    isplitl [Ht9]; · iexact Ht9
    isplitl [Ht10]; · iexact Ht10
    isplitl [Hout]; · iexact Hout
    isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    isplitl [Hs14]; · iexact Hs14
    isplitl [Hs15]; · iexact Hs15
    isplitl [Hs16]; · iexact Hs16
    iexact HO
  iintro %_ ⟨Hids, Ht6, Ht7, Ht8, Ht9, Ht10, Hout, Hb0, Hb1, Hb2, Hb3, Hb4, Hb5, Hs6, Hs7, Hs8, Hs9, Hs10, Hs11, Hs12, Hs13, Hs14, Hs15, Hs16, HW⟩
  isplitl [Hids Ht6 Ht7 Ht8 Ht9 Ht10 Hdrop Htoks Hout]
  · isplitl [Hids]; · iapply (Entails.of_eq (pts_idsRow m d L)); iexact Hids
    isplitl [Ht6 Ht7 Ht8 Ht9 Ht10 Hdrop Htoks]
    · iapply (nrm_toks (NRM m d) _).2
      isplitl [Hdrop]; · iexact Hdrop
      isplitl [Ht6]; · iexact Ht6
      isplitl [Ht7]; · iexact Ht7
      isplitl [Ht8]; · iexact Ht8
      isplitl [Ht9]; · iexact Ht9
      isplitl [Ht10]; · iexact Ht10
      iexact Htoks
    iapply (Entails.of_eq (pts_outRows d L (GOUT m d)).symm); iexact Hout
  isplitl [Hb0 Hb1 Hb2 Hb3 Hb4 Hb5 Hbufs]
  · isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    iexact Hbufs
  isplitl [Hs6 Hs7 Hs8 Hs9 Hs10 Hs11 Hs12 Hs13 Hs14 Hs15 Hs16 Hsems]
  · isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    isplitl [Hs14]; · iexact Hs14
    isplitl [Hs15]; · iexact Hs15
    isplitl [Hs16]; · iexact Hs16
    iexact Hsems
  iexact HW

/-- The same with the output rows at some contents: the gathered contents forgotten. -/
theorem tile_body_frame (hF : (K (F := F)).Facts) (hpre : PreOK m) (d : Dev nD) (L : grid1.Coords)
    (O : CellTallies nD τ sig (HIx 1)) (W : Waits sig (HIx 1)) (hO : ∀ g, O g none = 0) :
    iprop(levAts (K (F := F)).L (K (F := F)).lev ∗ emp ∗ goW m d (widL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_gather_body L (Memref.whole main_v0_scv) (Memref.isWhole_whole _) (Memref.whole main_v3_scv) (Memref.isWhole_whole _)
                (Memref.whole main_v4_scv) (Memref.isWhole_whole _) (Memref.whole cc1_scratch0) (Memref.isWhole_whole _)
                (Memref.whole cc1_scratch1) (Memref.isWhole_whole _) (Memref.whole cc1_scratch2) (Memref.isWhole_whole _)
                (Memref.whole cc1_scratch3) (Memref.isWhole_whole _) (Memref.whole cc1_scratch4) (Memref.isWhole_whole _)
                (Memref.whole cc1_scratch5) (Memref.isWhole_whole _)
                cc1_scratch6 cc1_scratch7 cc1_scratch8 cc1_scratch9 cc1_scratch10 cc1_scratch11 cc1_scratch12 cc1_scratch13 cc1_scratch14 cc1_scratch15 cc1_scoped0)
          fun _ => iprop((idsRowPts m d (widL L) ∗ nrmTok m d (widL L) ∗ ∃ f, outRowsPts d (widL L) f) ∗ scopedBufs (V d (cV L) (jV L)) ∗ scopedSems0 (V d (cV L) (jV L))
            ∗ ∃ W', ⌜∀ p ∈ W', p ∈ W ∨ p.2 = none⌝ ∗ owes (V d (cV L) (jV L)) O W') := by
  refine (tile_body m hF hpre d L O W hO).trans (wp_mono _ _ _ fun _ => ?_)
  unfold tdW
  iintro ⟨⟨Hids, Hnrm, Hout⟩, Hrest⟩
  isplitl [Hids Hnrm Hout]
  · isplitl [Hids]; · iexact Hids
    isplitl [Hnrm]; · iexact Hnrm
    iexists _; iexact Hout
  iexact Hrest

end Cert.Kernel.KI
end
-- ==== Proof.lean ====
/-
  The kernel normalises every row of a 100000 x 128 table — subtract the row's mean, multiply by the reciprocal square
  root of its variance plus epsilon, multiply by the scale, add the shift — on the TensorCore, ten blocks of 10000 rows,
  and then 32 SparseCore workers copy, for each of the 1024 x 200 positions, the normalised row its index names. The
  reference looks the rows up first and normalises them afterwards, dividing by the square root. Normalising is row by
  row, so the two orders give the same rows; and for a finite row the variance plus epsilon is a positive real v, where
  x (√v)⁻¹ = x / √v. The indices are in range by the precondition, so the reference's wrap-around and its mask for
  out-of-range rows are the identity, and every indexed copy of the kernel names a row of the table.

  Each program's run is proved with its result named as a pure function of the arguments and the arguments unchanged;
  the three frames are those runs with the result dropped, and the results are equal at the extended reals by the
  equation of the two functions.
-/
import proofs.«206674_g54314156425426_cont_9to1_m_1126_27_alg».proof.Defs
import proofs.«206674_g54314156425426_cont_9to1_m_1126_27_alg».proof.Proof.Gen.Kernel
import proofs.«206674_g54314156425426_cont_9to1_m_1126_27_alg».proof.Proof.Gen.KernelIdeal
import proofs.«206674_g54314156425426_cont_9to1_m_1126_27_alg».proof.Proof.Gen.ReferenceIdeal
import proofs.«206674_g54314156425426_cont_9to1_m_1126_27_alg».proof.Proof.Gen.Pre_input_domain
import proofs.«206674_g54314156425426_cont_9to1_m_1126_27_alg».proof.Proof.PreFacts
import proofs.«206674_g54314156425426_cont_9to1_m_1126_27_alg».proof.Proof.Bridge
import proofs.«206674_g54314156425426_cont_9to1_m_1126_27_alg».proof.Proof.RefRun
import proofs.«206674_g54314156425426_cont_9to1_m_1126_27_alg».proof.Proof.LaunchRun
import proofs.«206674_g54314156425426_cont_9to1_m_1126_27_alg».proof.Proof.ScBody
import proofs.«206674_g54314156425426_cont_9to1_m_1126_27_alg».proof.Proof.KernelBits.LaunchRun
import proofs.«206674_g54314156425426_cont_9to1_m_1126_27_alg».proof.Proof.KernelBits.ScBody
import Idealize.ShloMosaic.Adequacy
import Idealize.ShloMosaic.Init

noncomputable section

namespace Cert.Proof

open Idealize.ShloMosaic Idealize.SL.Sem

/-- The precondition puts every regrouped index in range: the regrouping only moves the words. -/
theorem preOK_ideal (m : (ℓ : Loc Cert.KernelIdeal.nD Cert.KernelIdeal.τ Cert.KernelIdeal.sig) → Buf (Elt Ideal) ℓ)
    (h : Cert.Pre_KernelIdeal (hPre_input_domain := Cert.Pre_input_domain.Gen.facts) m) : Cert.KernelIdeal.KI.PreOK (F := Ideal) m :=
  fun d j => Cert.Proof.PreFacts.ids_lt (F := Ideal) _ _ _ _ (h d) _
theorem preOK_bits (m : (ℓ : Loc Cert.Kernel.nD Cert.Kernel.τ Cert.Kernel.sig) → Buf (Elt Bits) ℓ)
    (h : Cert.Pre_Kernel (hPre_input_domain := Cert.Pre_input_domain.Gen.facts) m) : Cert.Kernel.KI.PreOK (F := Bits) m :=
  fun d j => Cert.Proof.PreFacts.ids_lt (F := Bits) _ _ _ _ (h d) _

/-- The kernel's run at the ideal instance, the result named. -/
theorem run_ideal (m : (ℓ : Loc Cert.KernelIdeal.nD Cert.KernelIdeal.τ Cert.KernelIdeal.sig) → Buf (Elt Ideal) ℓ) (g : Dev Cert.KernelIdeal.nD → PrngReg)
    (h : Cert.Pre_KernelIdeal (hPre_input_domain := Cert.Pre_input_domain.Gen.facts) m) :
    θ_run (Cert.KernelIdeal.defs (F := Ideal)) (Cert.KernelIdeal.threads (F := Ideal)) ⟨m, fun _ => 0, g⟩ (Cert.KernelIdeal.KI.QC m) :=
  Cert.KernelIdeal.KI.run_main (F := Ideal) m g fun d L O W hO =>
    Cert.KernelIdeal.KI.tile_body m Cert.KernelIdeal.KI.facts (preOK_ideal m h) d L O W hO

theorem frame_K : Cert.frame_Kernel (hKernel := Cert.Kernel.Gen.facts) (hPre_input_domain := Cert.Pre_input_domain.Gen.facts) := fun m g h =>
  (θ_run (Cert.Kernel.defs (F := Bits)) _ _).mono (fun _ q c => ⟨(q c).2.1, (q c).2.2.1, (q c).2.2.2.1, (q c).2.2.2.2⟩)
    (Cert.Kernel.KI.run_main (F := Bits) m g fun d L O W hO =>
      Cert.Kernel.KI.tile_body m Cert.Kernel.KI.facts (preOK_bits m h) d L O W hO)

theorem frame_KI : Cert.frame_KernelIdeal (hKernelIdeal := Cert.KernelIdeal.Gen.facts) (hPre_input_domain := Cert.Pre_input_domain.Gen.facts) := fun m g h =>
  (θ_run (Cert.KernelIdeal.defs (F := Ideal)) _ _).mono (fun _ q c => ⟨(q c).2.1, (q c).2.2.1, (q c).2.2.2.1, (q c).2.2.2.2⟩) (run_ideal m g h)

theorem frame_R : Cert.frame_ReferenceIdeal (hReferenceIdeal := Cert.ReferenceIdeal.Gen.facts) (hPre_input_domain := Cert.Pre_input_domain.Gen.facts) := fun m g _ =>
  (θ_run (Cert.ReferenceIdeal.defs (F := Ideal)) _ _).mono (fun _ q c => (q c).2) (Cert.ReferenceIdeal.RefRun.run m g)

/-- Both idealized programs run; from memories agreeing on the arguments their results are the one function of them. -/
theorem algebraic : Cert.algebraic_KernelIdeal_ReferenceIdeal (hKernelIdeal := Cert.KernelIdeal.Gen.facts)
    (hReferenceIdeal := Cert.ReferenceIdeal.Gen.facts) (hPre_input_domain := Cert.Pre_input_domain.Gen.facts) := by
  intro m g m' g' hpre hagree
  refine ⟨fun c => Cert.KernelIdeal.KI.RES m c, (θ_run (Cert.KernelIdeal.defs (F := Ideal)) _ _).mono (fun _ q c => q c) (run_ideal m g hpre), ?_⟩
  refine (θ_run (Cert.ReferenceIdeal.defs (F := Ideal)) _ _).mono (fun _ q c => ⟨(q c).1.trans ?_, (q c).2⟩) (Cert.ReferenceIdeal.RefRun.run m' g')
  rw [(hagree c).1, (hagree c).2.1, (hagree c).2.2.1, (hagree c).2.2.2]
  exact (Cert.Proof.Bridge.out_eq _ _ _ _ (hpre c)).symm

theorem claim : Cert.Claim :=
  ⟨Cert.Kernel.Gen.facts, Cert.KernelIdeal.Gen.facts, Cert.ReferenceIdeal.Gen.facts, Cert.Pre_input_domain.Gen.facts,
    frame_K, frame_KI, frame_R, trivial, algebraic⟩

end Cert.Proof

end
